-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16 : Shape := ⟨2, ![16384, 16]⟩
abbrev S2x524288 : Shape := ⟨2, ![2, 524288]⟩
abbrev S16x128 : Shape := ⟨2, ![16, 128]⟩
abbrev S128 : Shape := ⟨1, ![128]⟩
abbrev S128x128 : Shape := ⟨2, ![128, 128]⟩
abbrev S128x16384 : Shape := ⟨2, ![128, 16384]⟩
abbrev S16384 : Shape := ⟨1, ![16384]⟩
abbrev S_ : Shape := ⟨0, ![]⟩

class Facts : Prop where
  bcast_S_S16384x16 : S_.BroadcastsInDim S16384x16 (![] : Fin 0 → Fin S16384x16.rank)
  reducesTo_S16384x16_S_d0_1 : S16384x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16384 : S_.BroadcastsInDim S128x16384 (![] : Fin 0 → Fin S128x16384.rank)
  reducesTo_S128x16384_S_d0_1 : S128x16384.ReducesTo [0, 1] S_
  bcast_S_S16384 : S_.BroadcastsInDim S16384 (![] : Fin 0 → Fin S16384.rank)
  reducesTo_S16384_S_d0 : S16384.ReducesTo [0] S_
  bcast_S_S2x524288 : S_.BroadcastsInDim S2x524288 (![] : Fin 0 → Fin S2x524288.rank)
  reducesTo_S2x524288_S_d0_1 : S2x524288.ReducesTo [0, 1] S_

variable [Facts]

def fn_part2 {F : FTy → Type} [FloatOps F] (main_arg1 : IVec S2x524288 32) (main_arg8 : FVec F S128x16384 .f32) (main_arg9 : FVec F S16384 .f32) (main_v33 : IVec S_ 1) : IVec S_ 1 :=
  let main_v34 : FVec F S128x16384 .f32 := Host.absf main_arg8
  let main_cst_12 : FVec F S_ .f32 := constant S_ .f32 0x7F800000#32
  let main_v35 : FVec F S128x16384 .f32 := broadcastInDim S128x16384 ![] bcast_S_S128x16384 main_cst_12
  let main_v36 : IVec S128x16384 1 := cmpf .olt main_v34 main_v35
  let main_c_13 : IVec S_ 1 := constantI S_ 1 1#1
  let main_v37 : IVec S_ 1 := (fun x v => Host.reduce IntOp.andi x v reducesTo_S128x16384_S_d0_1 h_S_) main_v36 main_c_13
  let main_v38 : IVec S_ 1 := andi main_v33 main_v37
  let main_v39 : FVec F S16384 .f32 := Host.absf main_arg9
  let main_cst_14 : FVec F S_ .f32 := constant S_ .f32 0x7F800000#32
  let main_v40 : FVec F S16384 .f32 := broadcastInDim S16384 ![] bcast_S_S16384 main_cst_14
  let main_v41 : IVec S16384 1 := cmpf .olt main_v39 main_v40
  let main_c_15 : IVec S_ 1 := constantI S_ 1 1#1
  let main_v42 : IVec S_ 1 := (fun x v => Host.reduce IntOp.andi x v reducesTo_S16384_S_d0 h_S_) main_v41 main_c_15
  let main_v43 : IVec S_ 1 := andi main_v38 main_v42
  let main_c_16 : IVec S_ 32 := constantI S_ 32 0#32
  let main_v44 : IVec S2x524288 32 := broadcastInDim S2x524288 ![] bcast_S_S2x524288 main_c_16
  let main_v45 : IVec S2x524288 1 := cmpi .sge main_arg1 main_v44
  let main_c_17 : IVec S_ 32 := constantI S_ 32 16384#32
  let main_v46 : IVec S2x524288 32 := broadcastInDim S2x524288 ![] bcast_S_S2x524288 main_c_17
  let main_v47 : IVec S2x524288 1 := cmpi .slt main_arg1 main_v46
  let main_v48 : IVec S2x524288 1 := andi main_v45 main_v47
  let main_c_18 : IVec S_ 1 := constantI S_ 1 1#1
  let main_v49 : IVec S_ 1 := (fun x v => Host.reduce IntOp.andi x v reducesTo_S2x524288_S_d0_1 h_S_) main_v48 main_c_18
  let main_v50 : IVec S_ 1 := andi main_v43 main_v49
  main_v50

def fn_part1 {F : FTy → Type} [FloatOps F] (main_arg1 : IVec S2x524288 32) (main_arg5 : FVec F S128 .f32) (main_arg6 : FVec F S128x128 .f32) (main_arg7 : FVec F S128 .f32) (main_arg8 : FVec F S128x16384 .f32) (main_arg9 : FVec F S16384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S16384x16 .f32) (main_arg1 : IVec S2x524288 32) (main_arg2 : FVec F S16x128 .f32) (main_arg3 : FVec F S128 .f32) (main_arg4 : FVec F S128x128 .f32) (main_arg5 : FVec F S128 .f32) (main_arg6 : FVec F S128x128 .f32) (main_arg7 : FVec F S128 .f32) (main_arg8 : FVec F S128x16384 .f32) (main_arg9 : FVec F S16384 .f32) : IVec S_ 1 :=
  let main_v0 : FVec F S16384x16 .f32 := Host.absf main_arg0
  let main_cst : FVec F S_ .f32 := constant S_ .f32 0x7F800000#32
  let main_v1 : FVec F S16384x16 .f32 := broadcastInDim S16384x16 ![] bcast_S_S16384x16 main_cst
  let main_v2 : IVec S16384x16 1 := cmpf .olt main_v0 main_v1
  let main_c : IVec S_ 1 := constantI S_ 1 1#1
  let main_v3 : IVec S_ 1 := (fun x v => Host.reduce IntOp.andi x v reducesTo_S16384x16_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S16384x16 : Shape := ⟨2, ![16384, 16]⟩
abbrev S2x524288 : Shape := ⟨2, ![2, 524288]⟩
abbrev S16x128 : Shape := ⟨2, ![16, 128]⟩
abbrev S128 : Shape := ⟨1, ![128]⟩
abbrev S128x128 : Shape := ⟨2, ![128, 128]⟩
abbrev S128x16384 : Shape := ⟨2, ![128, 16384]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S16384x16384 : Shape := ⟨2, ![16384, 16384]⟩
abbrev S540672x2 : Shape := ⟨2, ![540672, 2]⟩
abbrev S1x128 : Shape := ⟨2, ![1, 128]⟩
abbrev S16384x128 : Shape := ⟨2, ![16384, 128]⟩
abbrev S1024x4096 : Shape := ⟨2, ![1024, 4096]⟩
abbrev S4096x16 : Shape := ⟨2, ![4096, 16]⟩
abbrev S1024x128 : Shape := ⟨2, ![1024, 128]⟩
abbrev S4096x128 : Shape := ⟨2, ![4096, 128]⟩
abbrev S1x16384 : Shape := ⟨2, ![1, 16384]⟩
abbrev S128x1024 : Shape := ⟨2, ![128, 1024]⟩
abbrev S1x1024 : Shape := ⟨2, ![1, 1024]⟩
abbrev S1024x1024 : Shape := ⟨2, ![1024, 1024]⟩

abbrev nBuf : Space → Nat
  | .hbm => 79
  | .vmem => 35
  | .smem => 0
  | _ => 0

abbrev bufTy : (tb : Table) → Fin (tcTables nBuf tb) → BufTy
  | .hbm, ⟨0, _⟩ => ⟨S16384x16, .f32⟩
  | .hbm, ⟨1, _⟩ => ⟨S2x524288, .i32⟩
  | .hbm, ⟨2, _⟩ => ⟨S16x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x16384, .f32⟩
  | .hbm, ⟨9, _⟩ => ⟨S16384, .f32⟩
  | .hbm, ⟨10, _⟩ => ⟨S16384, .i32⟩
  | .hbm, ⟨11, _⟩ => ⟨S1x524288, .i32⟩
  | .hbm, ⟨12, _⟩ => ⟨S524288, .i32⟩
  | .hbm, ⟨13, _⟩ => ⟨S540672, .i32⟩
  | .hbm, ⟨14, _⟩ => ⟨S1x524288, .i32⟩
  | .hbm, ⟨15, _⟩ => ⟨S524288, .i32⟩
  | .hbm, ⟨16, _⟩ => ⟨S540672, .i32⟩
  | .hbm, ⟨17, _⟩ => ⟨S_, .f32⟩
  | .hbm, ⟨18, _⟩ => ⟨S540672, .f32⟩
  | .hbm, ⟨19, _⟩ => ⟨S_, .f32⟩
  | .hbm, ⟨20, _⟩ => ⟨S16384, .f32⟩
  | .hbm, ⟨21, _⟩ => ⟨S540672x1, .i32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .i1⟩
  | .hbm, ⟨26, _⟩ => ⟨S16384, .f32⟩
  | .hbm, ⟨27, _⟩ => ⟨S_, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .i32⟩
  | .hbm, ⟨32, _⟩ => ⟨S540672, .i32⟩
  | .hbm, ⟨33, _⟩ => ⟨S540672, .i1⟩
  | .hbm, ⟨34, _⟩ => ⟨S_, .i32⟩
  | .hbm, ⟨35, _⟩ => ⟨S540672, .i32⟩
  | .hbm, ⟨36, _⟩ => ⟨S540672, .i32⟩
  | .hbm, ⟨37, _⟩ => ⟨S540672, .i32⟩
  | .hbm, ⟨38, _⟩ => ⟨S540672x1, .i32⟩
  | .hbm, ⟨39, _⟩ => ⟨S540672, .f32⟩
  | .hbm, ⟨40, _⟩ => ⟨S_, .i32⟩
  | .hbm, ⟨41, _⟩ => ⟨S540672, .i32⟩
  | .hbm, ⟨42, _⟩ => ⟨S540672, .i1⟩
  | .hbm, ⟨43, _⟩ => ⟨S_, .i32⟩
  | .hbm, ⟨44, _⟩ => ⟨S540672, .i32⟩
  | .hbm, ⟨45, _⟩ => ⟨S540672, .i32⟩
  | .hbm, ⟨46, _⟩ => ⟨S540672, .i32⟩
  | .hbm, ⟨47, _⟩ => ⟨S540672x1, .i32⟩
  | .hbm, ⟨48, _⟩ => ⟨S540672, .f32⟩
  | .hbm, ⟨49, _⟩ => ⟨S540672, .f32⟩
  | .hbm, ⟨50, _⟩ => ⟨S_, .f32⟩
  | .hbm, ⟨51, _⟩ => ⟨S16384x16384, .f32⟩
  | .hbm, ⟨52, _⟩ => ⟨S_, .i32⟩
  | .hbm, ⟨53, _⟩ => ⟨S540672, .i32⟩
  | .hbm, ⟨54, _⟩ => ⟨S540672, .i1⟩
  | .hbm, ⟨55, _⟩ => ⟨S_, .i32⟩
  | .hbm, ⟨56, _⟩ => ⟨S540672, .i32⟩
  | .hbm, ⟨57, _⟩ => ⟨S540672, .i32⟩
  | .hbm, ⟨58, _⟩ => ⟨S540672, .i32⟩
  | .hbm, ⟨59, _⟩ => ⟨S_, .i32⟩
  | .hbm, ⟨60, _⟩ => ⟨S540672, .i32⟩
  | .hbm, ⟨61, _⟩ => ⟨S540672, .i1⟩
  | .hbm, ⟨62, _⟩ => ⟨S_, .i32⟩
  | .hbm, ⟨63, _⟩ => ⟨S540672, .i32⟩
  | .hbm, ⟨64, _⟩ => ⟨S540672, .i32⟩
  | .hbm, ⟨65, _⟩ => ⟨S540672, .i32⟩
  | .hbm, ⟨66, _⟩ => ⟨S540672x1, .i32⟩
  | .hbm, ⟨67, _⟩ => ⟨S540672x1, .i32⟩
  | .hbm, ⟨68, _⟩ => ⟨S540672x2, .i32⟩
  | .hbm, ⟨69, _⟩ => ⟨S16384x16384, .f32⟩
  | .hbm, ⟨70, _⟩ => ⟨S16384x16384, .bf16⟩
  | .hbm, ⟨71, _⟩ => ⟨S1x128, .f32⟩
  | .hbm, ⟨72, _⟩ => ⟨S16384x128, .f32⟩
  | .hbm, ⟨73, _⟩ => ⟨S1x128, .f32⟩
  | .hbm, ⟨74, _⟩ => ⟨S16384x128, .f32⟩
  | .hbm, ⟨75, _⟩ => ⟨S1x128, .f32⟩
  | .hbm, ⟨76, _⟩ => ⟨S16384x128, .f32⟩
  | .hbm, ⟨77, _⟩ => ⟨S1x16384, .f32⟩
  | .hbm, ⟨78, _⟩ => ⟨S16384x16384, .f32⟩
  | .local _ .vmem, ⟨0, _⟩ => ⟨S1024x4096, .bf16⟩
  | .local _ .vmem, ⟨1, _⟩ => ⟨S1024x4096, .bf16⟩
  | .local _ .vmem, ⟨2, _⟩ => ⟨S4096x16, .f32⟩
  | .local _ .vmem, ⟨3, _⟩ => ⟨S4096x16, .f32⟩
  | .local _ .vmem, ⟨4, _⟩ => ⟨S16x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x4096, .bf16⟩
  | .local _ .vmem, ⟨10, _⟩ => ⟨S1024x4096, .bf16⟩
  | .local _ .vmem, ⟨11, _⟩ => ⟨S4096x128, .f32⟩
  | .local _ .vmem, ⟨12, _⟩ => ⟨S4096x128, .f32⟩
  | .local _ .vmem, ⟨13, _⟩ => ⟨S128x128, .f32⟩
  | .local _ .vmem, ⟨14, _⟩ => ⟨S1x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x4096, .bf16⟩
  | .local _ .vmem, ⟨19, _⟩ => ⟨S1024x4096, .bf16⟩
  | .local _ .vmem, ⟨20, _⟩ => ⟨S4096x128, .f32⟩
  | .local _ .vmem, ⟨21, _⟩ => ⟨S4096x128, .f32⟩
  | .local _ .vmem, ⟨22, _⟩ => ⟨S128x128, .f32⟩
  | .local _ .vmem, ⟨23, _⟩ => ⟨S1x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S128x1024, .f32⟩
  | .local _ .vmem, ⟨30, _⟩ => ⟨S128x1024, .f32⟩
  | .local _ .vmem, ⟨31, _⟩ => ⟨S1x1024, .f32⟩
  | .local _ .vmem, ⟨32, _⟩ => ⟨S1x1024, .f32⟩
  | .local _ .vmem, ⟨33, _⟩ => ⟨S1024x1024, .f32⟩
  | .local _ .vmem, ⟨34, _⟩ => ⟨S1024x1024, .f32⟩
  | _, _ => ⟨S16384x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![16, 4], ![false, false]⟩

def k2_cond2 (i : grid2.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![16, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S128x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S_S16384x16384 : S_.BroadcastsInDim S16384x16384 (![] : Fin 0 → Fin S16384x16384.rank)
  concatenates_S540672x1_S540672x1_S540672x2_d1 : Shape.Concatenates [S540672x1, S540672x1] S540672x2 1
  bitsLt_bf16_f32 : FTy.bits .bf16 < FTy.bits .f32
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S4096x16_S4096x16_0_0 : ∀ a, (![0, 0] : Fin 2 → Nat) a + S4096x16.size a ≤ S4096x16.size a
  h_S4096x16 : 0 < S4096x16.numel
  inb_S16x128_S16x128_0_0 : ∀ a, (![0, 0] : Fin 2 → Nat) a + S16x128.size a ≤ S16x128.size a
  h_S16x128 : 0 < S16x128.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S16384_S1x16384 : S16384.ShapeCasts S1x16384
  inb_S128x1024_S128x1024_0_0 : ∀ a, (![0, 0] : Fin 2 → Nat) a + S128x1024.size a ≤ S128x1024.size a
  h_S128x1024 : 0 < S128x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  scatter_S16384x16384_S540672x2_S540672_n_01_01_1_wf : ScatterDims.WF S16384x16384 S540672x2 S540672 [] [0, 1] [0, 1] 1
  dot_S4096x16_S16x128_S4096x128_1_0_0_1_n_n_wf : DotDims.WF S4096x16 S16x128 S4096x128 [1] [0] [0] [1] [] []
  dot_S1024x4096_S4096x128_S1024x128_1_0_0_1_n_n_wf : DotDims.WF S1024x4096 S4096x128 S1024x128 [1] [0] [0] [1] [] []
  dot_S4096x128_S128x128_S4096x128_1_0_0_1_n_n_wf : DotDims.WF S4096x128 S128x128 S4096x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x16384.size a
  hwx0_0 : ∀ i : grid0.Coords, EltTy.bits .bf16 = 32 ∨ (Rect.block (s := S16384x16384) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S16384x16.size a
  hwx0_1 : ∀ i : grid0.Coords, EltTy.bits .f32 = 32 ∨ (Rect.block (s := S16384x16) S4096x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .f32 = 32 ∨ (Rect.block (s := S16384x128) S1024x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S16384x16384.size a
  hwx1_0 : ∀ i : grid1.Coords, EltTy.bits .bf16 = 32 ∨ (Rect.block (s := S16384x16384) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S16384x128.size a
  hwx1_1 : ∀ i : grid1.Coords, EltTy.bits .f32 = 32 ∨ (Rect.block (s := S16384x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S16384x128.size a
  hwx1_4 : ∀ i : grid1.Coords, EltTy.bits .f32 = 32 ∨ (Rect.block (s := S16384x128) S1024x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S16384x16384.size a
  hwx2_0 : ∀ i : grid2.Coords, EltTy.bits .bf16 = 32 ∨ (Rect.block (s := S16384x16384) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S16384x128.size a
  hwx2_1 : ∀ i : grid2.Coords, EltTy.bits .f32 = 32 ∨ (Rect.block (s := S16384x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x128.size a ≤ S16384x128.size a
  hwx2_4 : ∀ i : grid2.Coords, EltTy.bits .f32 = 32 ∨ (Rect.block (s := S16384x128) S1024x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S16384x128.size a
  hwx3_0 : ∀ i : grid3.Coords, EltTy.bits .f32 = 32 ∨ (Rect.block (s := S16384x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x1024.size a ≤ S128x16384.size a
  hwx3_1 : ∀ i : grid3.Coords, EltTy.bits .f32 = 32 ∨ (Rect.block (s := S128x16384) S128x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x16384.size a
  hwx3_2 : ∀ i : grid3.Coords, EltTy.bits .f32 = 32 ∨ (Rect.block (s := S1x16384) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S16384x16384.size a
  hwx3_3 : ∀ i : grid3.Coords, EltTy.bits .f32 = 32 ∨ (Rect.block (s := S16384x16384) S1024x1024.size (cc3_transform_3 i) (hinb3_3 i)).WholeWords (EltTy.packing .f32)

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def scatter_S16384x16384_S540672x2_S540672_n_01_01_1 : ScatterDims S16384x16384 S540672x2 S540672 where
  updateWindowDims := []
  insertedWindowDims := [0, 1]
  scatterDimsToOperandDims := [0, 1]
  indexVectorDim := 1
  wf := scatter_S16384x16384_S540672x2_S540672_n_01_01_1_wf
def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v45) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v45) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v45) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1024x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v51) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S16384x16 : Shape := ⟨2, ![16384, 16]⟩
abbrev S2x524288 : Shape := ⟨2, ![2, 524288]⟩
abbrev S16x128 : Shape := ⟨2, ![16, 128]⟩
abbrev S128 : Shape := ⟨1, ![128]⟩
abbrev S128x128 : Shape := ⟨2, ![128, 128]⟩
abbrev S128x16384 : Shape := ⟨2, ![128, 16384]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S16384x128 : Shape := ⟨2, ![16384, 128]⟩
abbrev S540672x128 : Shape := ⟨2, ![540672, 128]⟩
abbrev S1x128 : Shape := ⟨2, ![1, 128]⟩
abbrev S16384x16384 : Shape := ⟨2, ![16384, 16384]⟩
abbrev S1x16384 : Shape := ⟨2, ![1, 16384]⟩

abbrev nBuf : Space → Nat
  | .hbm => 123
  | .vmem => 0
  | .smem => 0
  | _ => 0

abbrev bufTy : (tb : Table) → Fin (tcTables nBuf tb) → BufTy
  | .hbm, ⟨0, _⟩ => ⟨S16384x16, .f32⟩
  | .hbm, ⟨1, _⟩ => ⟨S2x524288, .i32⟩
  | .hbm, ⟨2, _⟩ => ⟨S16x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x16384, .f32⟩
  | .hbm, ⟨9, _⟩ => ⟨S16384, .f32⟩
  | .hbm, ⟨10, _⟩ => ⟨S16384, .i32⟩
  | .hbm, ⟨11, _⟩ => ⟨S1x524288, .i32⟩
  | .hbm, ⟨12, _⟩ => ⟨S524288, .i32⟩
  | .hbm, ⟨13, _⟩ => ⟨S540672, .i32⟩
  | .hbm, ⟨14, _⟩ => ⟨S1x524288, .i32⟩
  | .hbm, ⟨15, _⟩ => ⟨S524288, .i32⟩
  | .hbm, ⟨16, _⟩ => ⟨S540672, .i32⟩
  | .hbm, ⟨17, _⟩ => ⟨S_, .f32⟩
  | .hbm, ⟨18, _⟩ => ⟨S540672, .f32⟩
  | .hbm, ⟨19, _⟩ => ⟨S_, .f32⟩
  | .hbm, ⟨20, _⟩ => ⟨S16384, .f32⟩
  | .hbm, ⟨21, _⟩ => ⟨S540672x1, .i32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .i1⟩
  | .hbm, ⟨26, _⟩ => ⟨S16384, .f32⟩
  | .hbm, ⟨27, _⟩ => ⟨S_, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .i32⟩
  | .hbm, ⟨32, _⟩ => ⟨S540672, .i32⟩
  | .hbm, ⟨33, _⟩ => ⟨S540672, .i1⟩
  | .hbm, ⟨34, _⟩ => ⟨S_, .i32⟩
  | .hbm, ⟨35, _⟩ => ⟨S540672, .i32⟩
  | .hbm, ⟨36, _⟩ => ⟨S540672, .i32⟩
  | .hbm, ⟨37, _⟩ => ⟨S540672, .i32⟩
  | .hbm, ⟨38, _⟩ => ⟨S540672x1, .i32⟩
  | .hbm, ⟨39, _⟩ => ⟨S540672, .f32⟩
  | .hbm, ⟨40, _⟩ => ⟨S_, .i32⟩
  | .hbm, ⟨41, _⟩ => ⟨S540672, .i32⟩
  | .hbm, ⟨42, _⟩ => ⟨S540672, .i1⟩
  | .hbm, ⟨43, _⟩ => ⟨S_, .i32⟩
  | .hbm, ⟨44, _⟩ => ⟨S540672, .i32⟩
  | .hbm, ⟨45, _⟩ => ⟨S540672, .i32⟩
  | .hbm, ⟨46, _⟩ => ⟨S540672, .i32⟩
  | .hbm, ⟨47, _⟩ => ⟨S540672x1, .i32⟩
  | .hbm, ⟨48, _⟩ => ⟨S540672, .f32⟩
  | .hbm, ⟨49, _⟩ => ⟨S540672, .f32⟩
  | .hbm, ⟨50, _⟩ => ⟨S16384x128, .f32⟩
  | .hbm, ⟨51, _⟩ => ⟨S_, .i32⟩
  | .hbm, ⟨52, _⟩ => ⟨S540672, .i32⟩
  | .hbm, ⟨53, _⟩ => ⟨S540672, .i1⟩
  | .hbm, ⟨54, _⟩ => ⟨S_, .i32⟩
  | .hbm, ⟨55, _⟩ => ⟨S540672, .i32⟩
  | .hbm, ⟨56, _⟩ => ⟨S540672, .i32⟩
  | .hbm, ⟨57, _⟩ => ⟨S540672, .i32⟩
  | .hbm, ⟨58, _⟩ => ⟨S540672x1, .i32⟩
  | .hbm, ⟨59, _⟩ => ⟨S540672x128, .f32⟩
  | .hbm, ⟨60, _⟩ => ⟨S540672x1, .f32⟩
  | .hbm, ⟨61, _⟩ => ⟨S540672x128, .f32⟩
  | .hbm, ⟨62, _⟩ => ⟨S540672x128, .f32⟩
  | .hbm, ⟨63, _⟩ => ⟨S_, .f32⟩
  | .hbm, ⟨64, _⟩ => ⟨S16384x128, .f32⟩
  | .hbm, ⟨65, _⟩ => ⟨S540672x1, .i32⟩
  | .hbm, ⟨66, _⟩ => ⟨S16384x128, .f32⟩
  | .hbm, ⟨67, _⟩ => ⟨S1x128, .f32⟩
  | .hbm, ⟨68, _⟩ => ⟨S16384x128, .f32⟩
  | .hbm, ⟨69, _⟩ => ⟨S16384x128, .f32⟩
  | .hbm, ⟨70, _⟩ => ⟨S_, .f32⟩
  | .hbm, ⟨71, _⟩ => ⟨S16384x128, .f32⟩
  | .hbm, ⟨72, _⟩ => ⟨S16384x128, .f32⟩
  | .hbm, ⟨73, _⟩ => ⟨S16384x128, .f32⟩
  | .hbm, ⟨74, _⟩ => ⟨S_, .i32⟩
  | .hbm, ⟨75, _⟩ => ⟨S540672, .i32⟩
  | .hbm, ⟨76, _⟩ => ⟨S540672, .i1⟩
  | .hbm, ⟨77, _⟩ => ⟨S_, .i32⟩
  | .hbm, ⟨78, _⟩ => ⟨S540672, .i32⟩
  | .hbm, ⟨79, _⟩ => ⟨S540672, .i32⟩
  | .hbm, ⟨80, _⟩ => ⟨S540672, .i32⟩
  | .hbm, ⟨81, _⟩ => ⟨S540672x1, .i32⟩
  | .hbm, ⟨82, _⟩ => ⟨S540672x128, .f32⟩
  | .hbm, ⟨83, _⟩ => ⟨S540672x1, .f32⟩
  | .hbm, ⟨84, _⟩ => ⟨S540672x128, .f32⟩
  | .hbm, ⟨85, _⟩ => ⟨S540672x128, .f32⟩
  | .hbm, ⟨86, _⟩ => ⟨S_, .f32⟩
  | .hbm, ⟨87, _⟩ => ⟨S16384x128, .f32⟩
  | .hbm, ⟨88, _⟩ => ⟨S540672x1, .i32⟩
  | .hbm, ⟨89, _⟩ => ⟨S16384x128, .f32⟩
  | .hbm, ⟨90, _⟩ => ⟨S1x128, .f32⟩
  | .hbm, ⟨91, _⟩ => ⟨S16384x128, .f32⟩
  | .hbm, ⟨92, _⟩ => ⟨S16384x128, .f32⟩
  | .hbm, ⟨93, _⟩ => ⟨S_, .f32⟩
  | .hbm, ⟨94, _⟩ => ⟨S16384x128, .f32⟩
  | .hbm, ⟨95, _⟩ => ⟨S16384x128, .f32⟩
  | .hbm, ⟨96, _⟩ => ⟨S16384x128, .f32⟩
  | .hbm, ⟨97, _⟩ => ⟨S_, .i32⟩
  | .hbm, ⟨98, _⟩ => ⟨S540672, .i32⟩
  | .hbm, ⟨99, _⟩ => ⟨S540672, .i1⟩
  | .hbm, ⟨100, _⟩ => ⟨S_, .i32⟩
  | .hbm, ⟨101, _⟩ => ⟨S540672, .i32⟩
  | .hbm, ⟨102, _⟩ => ⟨S540672, .i32⟩
  | .hbm, ⟨103, _⟩ => ⟨S540672, .i32⟩
  | .hbm, ⟨104, _⟩ => ⟨S540672x1, .i32⟩
  | .hbm, ⟨105, _⟩ => ⟨S540672x128, .f32⟩
  | .hbm, ⟨106, _⟩ => ⟨S540672x1, .f32⟩
  | .hbm, ⟨107, _⟩ => ⟨S540672x128, .f32⟩
  | .hbm, ⟨108, _⟩ => ⟨S540672x128, .f32⟩
  | .hbm, ⟨109, _⟩ => ⟨S_, .f32⟩
  | .hbm, ⟨110, _⟩ => ⟨S16384x128, .f32⟩
  | .hbm, ⟨111, _⟩ => ⟨S540672x1, .i32⟩
  | .hbm, ⟨112, _⟩ => ⟨S16384x128, .f32⟩
  | .hbm, ⟨113, _⟩ => ⟨S1x128, .f32⟩
  | .hbm, ⟨114, _⟩ => ⟨S16384x128, .f32⟩
  | .hbm, ⟨115, _⟩ => ⟨S16384x128, .f32⟩
  | .hbm, ⟨116, _⟩ => ⟨S_, .f32⟩
  | .hbm, ⟨117, _⟩ => ⟨S16384x128, .f32⟩
  | .hbm, ⟨118, _⟩ => ⟨S16384x128, .f32⟩
  | .hbm, ⟨119, _⟩ => ⟨S16384x16384, .f32⟩
  | .hbm, ⟨120, _⟩ => ⟨S1x16384, .f32⟩
  | .hbm, ⟨121, _⟩ => ⟨S16384x16384, .f32⟩
  | .hbm, ⟨122, _⟩ => ⟨S16384x16384, .f32⟩
  | _, _ => ⟨S16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x128_0_1 : S540672x1.BroadcastsInDim S540672x128 (![0, 1] : Fin 2 → Fin S540672x128.rank)
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x16_S16x128_S16384x128_1_0_0_1_n_n_wf : DotDims.WF S16384x16 S16x128 S16384x128 [1] [0] [0] [1] [] []
  gather_S16384x128_S540672x1_S540672x128_1_0_n_n_0_1_1128_wf : GatherDims.WF S16384x128 S540672x1 S540672x128 [1] [0] [] [0] [] 1 ![1, 128]
  scatter_S16384x128_S540672x1_S540672x128_1_0_0_1_wf : ScatterDims.WF S16384x128 S540672x1 S540672x128 [1] [0] [0] 1
  dot_S16384x128_S128x128_S16384x128_1_0_0_1_n_n_wf : DotDims.WF S16384x128 S128x128 S16384x128 [1] [0] [0] [1] [] []
  dot_S16384x128_S128x16384_S16384x16384_1_0_0_1_n_n_wf : DotDims.WF S16384x128 S128x16384 S16384x16384 [1] [0] [0] [1] [] []

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x16_S16x128_S16384x128_1_0_0_1_n_n : DotDims S16384x16 S16x128 S16384x128 where
  lhsContracting := [1]
  rhsContracting := [0]
  lhsNonContracting := [0]
  rhsNonContracting := [1]
  lhsBatch := []
  rhsBatch := []
  wf := dot_S16384x16_S16x128_S16384x128_1_0_0_1_n_n_wf
def gather_S16384x128_S540672x1_S540672x128_1_0_n_n_0_1_1128 : GatherDims S16384x128 S540672x1 S540672x128 where
  offsetDims := [1]
  collapsedSliceDims := [0]
  operandBatchingDims := []
  startIndicesBatchingDims := []
  startIndexMap := [0]
  indexVectorDim := 1
  sliceSizes := ![1, 128]
  wf := gather_S16384x128_S540672x1_S540672x128_1_0_n_n_0_1_1128_wf
def scatter_S16384x128_S540672x1_S540672x128_1_0_0_1 : ScatterDims S16384x128 S540672x1 S540672x128 where
  updateWindowDims := [1]
  insertedWindowDims := [0]
  scatterDimsToOperandDims := [0]
  indexVectorDim := 1
  wf := scatter_S16384x128_S540672x1_S540672x128_1_0_0_1_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.LibSegment.lean ====
/-
  Row gathers and row scatter-adds with ONE index column, read at an index.

  The host programs index a table by a column of E signed words: `idx : [E, 1]`.
  * A gather of rows of `x : [N, K]` (or of entries of `x : [N]`) reads, at row `e`, the table row whose number
    is the word `idx[e, 0]` read signed and clamped into `[0, N - 1]` (`clampRow`).
  * An accumulating scatter of the rows of `upd : [E, K]` (or of the entries of `upd : [E]`) into `x` adds row `e`
    to the table row whose number is `idx[e, 0]` read signed, NOT clamped: a word outside `[0, N)` adds nothing.
    At the ideal instance the result at `(n, k)` is `x (n, k)` plus the sum, over every `e`, of
    `upd (e, k)` if `idx[e, 0] = n` and `0` otherwise.
  Everything is generic in the extents `N`, `E`, `K` and the word width; a program's printed dimension record
  is identified with the record here by `rfl`.
-/
import Idealize.ShloMosaic.Lib.ValueIdx
import Idealize.ShloMosaic.PureOps.Ideal.Laws

noncomputable section

open scoped BigOperators

namespace Idealize.ShloMosaic.SegmentIdx

open Idealize.ShloMosaic Idealize.ShloMosaic.ValueIdx

/-- A signed word clamped to a row number of a table with `N` rows: `min (max v 0) (N - 1)`. -/
def clampRow (N : Nat) (hN : 0 < N) {w : Nat} (v : BitVec w) : Fin N := ⟨min v.toInt.toNat (N - 1), by omega⟩

/-- A signed word that is a row number is its own clamp. -/
theorem clampRow_of_eq {N : Nat} (hN : 0 < N) {w : Nat} (v : BitVec w) (n : Fin N) (h : v.toInt = (n.val : ℤ)) :
    clampRow N hN v = n := by
  apply Fin.ext
  show min v.toInt.toNat (N - 1) = n.val
  rw [h, Int.toNat_natCast]
  have := n.isLt
  omega

/-- Rank-1 indices are their coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Gathers -/

section Gather
variable {α : Type}

/-- `x[idx]` for a table of rows: operand `[N, K]`, start indices `[E, 1]`, result `[E, K]`. -/
abbrev gatherRowsDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Row `e` of the gather is the table's row `clampRow idx[e, 0]`. -/
theorem gatherRows_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (gatherRowsDims N E K wf) x idx (ix2 e k) = x (ix2 (clampRow N hN (idx (ix2 e 0))) k) := by
  unfold Host.gather
  congr 1
  funext a
  refine Fin.ext ?_
  match a with
  | ⟨0, _⟩ =>
    show (gatherRowsDims N E K wf).start (ix2 e k) idx 0 + (gatherRowsDims N E K wf).batchCoord (ix2 e k) 0
      + (gatherRowsDims N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E K wf).startIndexMap from List.mem_singleton.mpr rfl)]
    have hsi : (gatherRowsDims N E K wf).siIdx (ix2 e k) ⟨List.idxOf (0 : Fin 2) (gatherRowsDims N E K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRowsDims N E K wf).start (ix2 e k) idx 1 + (gatherRowsDims N E K wf).batchCoord (ix2 e k) 1
      + (gatherRowsDims N E K wf).offCoord (ix2 e k) 1 = _
    rw [GatherDims.batchCoord_eq_zero _ _ _ List.not_mem_nil]
    have hs : (gatherRowsDims N E K wf).start (ix2 e k) idx 1 = 0 := by
      unfold GatherDims.start
      rw [dif_neg (fun h => Nat.one_ne_zero (congrArg Fin.val (List.mem_singleton.mp h)))]
    rw [hs]
    simp only [Nat.add_zero, Nat.zero_add]
    rfl

/-- `x[idx]` for a flat table: operand `[N]`, start indices `[E, 1]`, result `[E]`. -/
abbrev gatherFlatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the table's entry `clampRow idx[e, 0]`. -/
theorem gatherFlat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherFlatDims N E wf) x idx (ix1 e) = x (ix1 (clampRow N hN (idx (ix2 e 0)))) := by
  unfold Host.gather
  congr 1
  funext a
  obtain rfl : a = 0 := Subsingleton.elim _ _
  refine Fin.ext ?_
  show (gatherFlatDims N E wf).start (ix1 e) idx 0 + (gatherFlatDims N E wf).batchCoord (ix1 e) 0
    + (gatherFlatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherFlatDims N E wf).startIndexMap from List.mem_singleton.mpr rfl)]
  have hsi : (gatherFlatDims N E wf).siIdx (ix1 e) ⟨List.idxOf (0 : Fin 1) (gatherFlatDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Accumulating scatters, at the ideal instance -/

section Scatter

/-- `x.at[idx].add(upd)` for a table of rows: operand `[N, K]`, scatter indices `[E, 1]`, updates `[E, K]`. -/
abbrev scatterRowsDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

variable {N E K w : Nat}

/-- Update `(e, k')` lands on `(n, k)` exactly when the word `idx[e, 0]`, read signed, is `n` and `k' = k`. -/
theorem scatterRows_lands (wf : ScatterDims.WF ⟨2, ![N, K]⟩ ⟨2, ![E, 1]⟩ ⟨2, ![E, K]⟩ [1] [0] [0] 1)
    (idx : IVec ⟨2, ![E, 1]⟩ w) (e : Fin E) (k' : Fin K) (n : Fin N) (k : Fin K) :
    (scatterRowsDims N E K wf).resultIdx? (ix2 e k') idx = some (ix2 n k)
      ↔ ((idx (ix2 e 0)).toInt = (n.val : ℤ) ∧ k' = k) := by
  have hs0 : (scatterRowsDims N E K wf).start (ix2 e k') idx 0 = (idx (ix2 e 0)).toInt := by
    unfold ScatterDims.start
    rw [dif_pos (show (0 : Fin 2) ∈ (scatterRowsDims N E K wf).scatterDimsToOperandDims from List.mem_singleton.mpr rfl)]
    have hsi : (scatterRowsDims N E K wf).siIdx (ix2 e k') ⟨List.idxOf (0 : Fin 2) (scatterRowsDims N E K wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (scatterRowsDims N E K wf).start (ix2 e k') idx 1 = 0 := by
    unfold ScatterDims.start
    rw [dif_neg (fun h => Nat.one_ne_zero (congrArg Fin.val (List.mem_singleton.mp h)))]
  have hw0 : (scatterRowsDims N E K wf).window (ix2 e k') 0 = 0 := rfl
  have hw1 : (scatterRowsDims N E K wf).window (ix2 e k') 1 = k'.val := rfl
  unfold ScatterDims.resultIdx?
  constructor
  · intro h
    split at h
    · rename_i hin
      have hf := Option.some.inj h
      have h0 := congrArg (fun f => (f 0).val) hf
      have h1 := congrArg (fun f => (f 1).val) hf
      simp only [hs0, hs1, hw0, hw1] at h0 h1
      have hin0 := hin 0
      rw [hs0, hw0] at hin0
      refine ⟨?_, Fin.ext ?_⟩
      · change ((idx (ix2 e 0)).toInt + ((0 : ℕ) : ℤ)).toNat = n.val at h0
        omega
      · change ((0 : ℤ) + (k'.val : ℤ)).toNat = k.val at h1
        omega
    · exact absurd h (by simp)
  · rintro ⟨hv, rfl⟩
    have hin0 : 0 ≤ (scatterRowsDims N E K wf).start (ix2 e k') idx 0 + (scatterRowsDims N E K wf).window (ix2 e k') 0
        ∧ (scatterRowsDims N E K wf).start (ix2 e k') idx 0 + (scatterRowsDims N E K wf).window (ix2 e k') 0
          < (⟨2, ![N, K]⟩ : Shape).size 0 := by
      rw [hs0, hw0, hv]
      have := n.isLt
      constructor
      · omega
      · show ((n.val : ℤ) + ((0 : ℕ) : ℤ)) < (N : ℤ)
        omega
    have hin1 : 0 ≤ (scatterRowsDims N E K wf).start (ix2 e k') idx 1 + (scatterRowsDims N E K wf).window (ix2 e k') 1
        ∧ (scatterRowsDims N E K wf).start (ix2 e k') idx 1 + (scatterRowsDims N E K wf).window (ix2 e k') 1
          < (⟨2, ![N, K]⟩ : Shape).size 1 := by
      rw [hs1, hw1]
      have := k'.isLt
      constructor
      · omega
      · show ((0 : ℤ) + (k'.val : ℤ)) < (K : ℤ)
        omega
    have hin : ∀ a, 0 ≤ (scatterRowsDims N E K wf).start (ix2 e k') idx a + (scatterRowsDims N E K wf).window (ix2 e k') a
        ∧ (scatterRowsDims N E K wf).start (ix2 e k') idx a + (scatterRowsDims N E K wf).window (ix2 e k') a
          < (⟨2, ![N, K]⟩ : Shape).size a := fun a =>
      match a with
      | ⟨0, _⟩ => hin0
      | ⟨1, _⟩ => hin1
    rw [dif_pos hin]
    refine congrArg some (funext fun a => Fin.ext ?_)
    match a with
    | ⟨0, _⟩ =>
      show ((scatterRowsDims N E K wf).start (ix2 e k') idx 0 + (scatterRowsDims N E K wf).window (ix2 e k') 0).toNat = n.val
      rw [hs0, hw0, hv]
      omega
    | ⟨1, _⟩ =>
      show ((scatterRowsDims N E K wf).start (ix2 e k') idx 1 + (scatterRowsDims N E K wf).window (ix2 e k') 1).toNat = k'.val
      rw [hs1, hw1]
      omega

/-- THE ROW SCATTER-ADD AT AN ENTRY: `x (n, k)` plus, over every update row `e`, `upd (e, k)` when the word
    `idx[e, 0]` is `n`. -/
theorem scatterAddRows_apply {φ : FTy} (wf : ScatterDims.WF ⟨2, ![N, K]⟩ ⟨2, ![E, 1]⟩ ⟨2, ![E, K]⟩ [1] [0] [0] 1)
    (x : FVec Ideal ⟨2, ![N, K]⟩ φ) (idx : IVec ⟨2, ![E, 1]⟩ w) (upd : FVec Ideal ⟨2, ![E, K]⟩ φ)
    (n : Fin N) (k : Fin K) :
    Host.scatterAdd (F := Ideal) (scatterRowsDims N E K wf) x idx upd (ix2 n k)
      = x (ix2 n k) + ∑ e : Fin E, if (idx (ix2 e 0)).toInt = (n.val : ℤ) then upd (ix2 e k) else 0 := by
  show x (ix2 n k) + ∑ j ∈ Finset.univ.filter
      (fun j => (scatterRowsDims N E K wf).resultIdx? j idx = some (ix2 n k)), upd j = _
  congr 1
  rw [Finset.sum_filter, sum_idx2]
  refine Finset.sum_congr rfl fun e _ => ?_
  simp only [scatterRows_lands wf idx e _ n k]
  by_cases hv : (idx (ix2 e 0)).toInt = (n.val : ℤ)
  · simp only [hv, true_and, if_true]
    rw [Finset.sum_ite_eq' Finset.univ k (fun k' => upd (ix2 e k'))]
    simp
  · simp only [hv, false_and, if_false]
    exact Finset.sum_const_zero

/-- `x.at[idx].add(upd)` for a flat table: operand `[N]`, scatter indices `[E, 1]`, updates `[E]`. -/
abbrev scatterFlatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `n` exactly when the word `idx[e, 0]`, read signed, is `n`. -/
theorem scatterFlat_lands (wf : ScatterDims.WF ⟨1, ![N]⟩ ⟨2, ![E, 1]⟩ ⟨1, ![E]⟩ [] [0] [0] 1)
    (idx : IVec ⟨2, ![E, 1]⟩ w) (e : Fin E) (n : Fin N) :
    (scatterFlatDims N E wf).resultIdx? (ix1 e) idx = some (ix1 n) ↔ (idx (ix2 e 0)).toInt = (n.val : ℤ) := by
  have hs0 : (scatterFlatDims N E wf).start (ix1 e) idx 0 = (idx (ix2 e 0)).toInt := by
    unfold ScatterDims.start
    rw [dif_pos (show (0 : Fin 1) ∈ (scatterFlatDims N E wf).scatterDimsToOperandDims from List.mem_singleton.mpr rfl)]
    have hsi : (scatterFlatDims N E wf).siIdx (ix1 e) ⟨List.idxOf (0 : Fin 1) (scatterFlatDims N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (scatterFlatDims N E wf).window (ix1 e) 0 = 0 := rfl
  unfold ScatterDims.resultIdx?
  constructor
  · intro h
    split at h
    · rename_i hin
      have hf := Option.some.inj h
      have h0 := congrArg (fun f => (f 0).val) hf
      simp only [hs0, hw0] at h0
      have hin0 := hin 0
      rw [hs0, hw0] at hin0
      change ((idx (ix2 e 0)).toInt + ((0 : ℕ) : ℤ)).toNat = n.val at h0
      omega
    · exact absurd h (by simp)
  · intro hv
    have hin0 : 0 ≤ (scatterFlatDims N E wf).start (ix1 e) idx 0 + (scatterFlatDims N E wf).window (ix1 e) 0
        ∧ (scatterFlatDims N E wf).start (ix1 e) idx 0 + (scatterFlatDims N E wf).window (ix1 e) 0
          < (⟨1, ![N]⟩ : Shape).size 0 := by
      rw [hs0, hw0, hv]
      have := n.isLt
      constructor
      · omega
      · show ((n.val : ℤ) + ((0 : ℕ) : ℤ)) < (N : ℤ)
        omega
    have hin : ∀ a, 0 ≤ (scatterFlatDims N E wf).start (ix1 e) idx a + (scatterFlatDims N E wf).window (ix1 e) a
        ∧ (scatterFlatDims N E wf).start (ix1 e) idx a + (scatterFlatDims N E wf).window (ix1 e) a
          < (⟨1, ![N]⟩ : Shape).size a := fun a =>
      match a with
      | ⟨0, _⟩ => hin0
    rw [dif_pos hin]
    refine congrArg some (funext fun a => Fin.ext ?_)
    match a with
    | ⟨0, _⟩ =>
      show ((scatterFlatDims N E wf).start (ix1 e) idx 0 + (scatterFlatDims N E wf).window (ix1 e) 0).toNat = n.val
      rw [hs0, hw0, hv]
      omega

/-- THE FLAT SCATTER-ADD AT AN ENTRY: `x n` plus, over every update `e`, `upd e` when the word `idx[e, 0]` is `n`. -/
theorem scatterAddFlat_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (scatterFlatDims N E wf) x idx upd (ix1 n)
      = x (ix1 n) + ∑ e : Fin E, if (idx (ix2 e 0)).toInt = (n.val : ℤ) then upd (ix1 e) else 0 := by
  show x (ix1 n) + ∑ j ∈ Finset.univ.filter
      (fun j => (scatterFlatDims N E wf).resultIdx? j idx = some (ix1 n)), upd j = _
  congr 1
  rw [Finset.sum_filter, sum_idx1]
  refine Finset.sum_congr rfl fun e _ => ?_
  simp only [scatterFlat_lands wf idx e n]

end Scatter

end Idealize.ShloMosaic.SegmentIdx

end
-- ==== Proof.RefSpec.lean ====
/-
  The graph-convolution network as a function of its arguments, on the extended reals.

  A graph on 16384 nodes is given by 540672 directed edges, edge `e` running from `src e` to `dst e`
  (the 524288 edges of the input list followed by one self loop per node).
  * `deg n`    : the number of edges arriving at `n`, as a sum of ones;
  * `dinv n`   : `1 / sqrt (deg n)` where `deg n` is positive, else `0`;
  * `norm e`   : `dinv (src e) * dinv (dst e)`, the symmetric normalisation of edge `e`;
  * `conv h W b` at `(i, j)` : the sum, over the edges `e` arriving at `i`, of `(h W) (src e, j) * norm e`, plus `b j`;
  * `layer`    : `max (conv …) 0`;
  * `logits`   : three layers, then `h3 Wfc + bfc`.
  The degree is a natural number, so `deg`, `dinv` and `norm` are (coercions of) real numbers whatever the graph:
  `degR`, `dinvR`, `nrmR` and `deg_eq_coe`, `dinv_eq_coe`, `norm_eq_coe`.
  The node numbers of the input edges are the signed words of the edge list clamped into `[0, 16383]` (`node`);
  on a list whose words already are node numbers the clamp is the identity (`node_val`).
-/
import Idealize.ShloMosaic.PureOps.Ideal
import Idealize.ShloMosaic.Lib.ValueIdx
import Idealize.ShloMosaic.Lib.IdealHost

noncomputable section

open scoped BigOperators

namespace Cert.GcnSpec

open Idealize.ShloMosaic Idealize.ShloMosaic.ValueIdx

/-! ## The mathematics, over any numbers of nodes, edges and features -/

section Generic
variable {N M : Nat}

/-- In-degree of node `n`: one (the single-precision word of 1.0) per edge arriving at `n`. -/
def deg (dst : Fin M → Fin N) (n : Fin N) : EReal :=
  ∑ e : Fin M, if dst e = n then Ideal.ofBits .f32 0x3F800000#32 else 0

/-- `deg n ^ (-1/2)` where the degree is positive, `0` elsewhere. -/
def dinv (dst : Fin M → Fin N) (n : Fin N) : EReal :=
  if 0 < deg dst n then Ideal.rsqrt (deg dst n) else 0

/-- The weight of edge `e`: `dinv` of its source times `dinv` of its target. -/
def norm (src dst : Fin M → Fin N) (e : Fin M) : EReal :=
  dinv dst (src e) * dinv dst (dst e)

/-- The matrix product `h W` at `(i, j)`. -/
def xw {K H : Nat} (h : Fin N → Fin K → EReal) (W : Fin K → Fin H → EReal) (i : Fin N) (j : Fin H) : EReal :=
  ∑ l : Fin K, h i l * W l j

/-- One graph convolution at `(i, j)`: over the edges arriving at `i`, row `src e` of `h W` weighted by
    `norm e` (the row first, the weight second), summed, plus the bias. -/
def conv {K H : Nat} (src dst : Fin M → Fin N) (h : Fin N → Fin K → EReal) (W : Fin K → Fin H → EReal)
    (b : Fin H → EReal) (i : Fin N) (j : Fin H) : EReal :=
  (∑ e : Fin M, if dst e = i then xw h W (src e) j * norm src dst e else 0) + b j

/-- A convolution followed by the rectifier. -/
def layer {K H : Nat} (src dst : Fin M → Fin N) (h : Fin N → Fin K → EReal) (W : Fin K → Fin H → EReal)
    (b : Fin H → EReal) (i : Fin N) (j : Fin H) : EReal :=
  max (conv src dst h W b i j) 0

/-! ### The edge weights are real numbers -/

/-- The in-degree as a real number. -/
def degR (dst : Fin M → Fin N) (n : Fin N) : ℝ := ∑ e : Fin M, if dst e = n then (1 : ℝ) else 0

/-- `degR n ^ (-1/2)` where the degree is positive, `0` elsewhere. -/
def dinvR (dst : Fin M → Fin N) (n : Fin N) : ℝ := if 0 < degR dst n then (Real.sqrt (degR dst n))⁻¹ else 0

/-- The weight of edge `e` as a real number. -/
def nrmR (src dst : Fin M → Fin N) (e : Fin M) : ℝ := dinvR dst (src e) * dinvR dst (dst e)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem degR_nonneg (dst : Fin M → Fin N) (n : Fin N) : 0 ≤ degR dst n :=
  Finset.sum_nonneg fun e _ => by split <;> norm_num

theorem deg_eq_coe (dst : Fin M → Fin N) (n : Fin N) : deg dst n = ((degR dst n : ℝ) : EReal) := by
  unfold deg degR
  rw [coe_sum, Ideal.ofBits_one_f32]
  refine Finset.sum_congr rfl fun e _ => ?_
  split <;> simp

theorem dinvR_nonneg (dst : Fin M → Fin N) (n : Fin N) : 0 ≤ dinvR dst n := by
  unfold dinvR
  split
  · exact inv_nonneg.mpr (Real.sqrt_nonneg _)
  · exact le_rfl

theorem dinv_eq_coe (dst : Fin M → Fin N) (n : Fin N) : dinv dst n = ((dinvR dst n : ℝ) : EReal) := by
  unfold dinv dinvR
  rw [deg_eq_coe]
  by_cases h : 0 < degR dst n
  · rw [if_pos (EReal.coe_pos.mpr h), if_pos h]
    show (if degR dst n < 0 then (⊥ : EReal) else if degR dst n = 0 then ⊤ else (((Real.sqrt (degR dst n))⁻¹ : ℝ) : EReal)) = _
    rw [if_neg (not_lt.mpr h.le), if_neg h.ne']
  · rw [if_neg (fun h' => h (EReal.coe_pos.mp h')), if_neg h]
    rfl

theorem norm_eq_coe (src dst : Fin M → Fin N) (e : Fin M) : norm src dst e = ((nrmR src dst e : ℝ) : EReal) := by
  unfold norm nrmR
  rw [dinv_eq_coe, dinv_eq_coe, EReal.coe_mul]

theorem nrmR_nonneg (src dst : Fin M → Fin N) (e : Fin M) : 0 ≤ nrmR src dst e :=
  mul_nonneg (dinvR_nonneg dst _) (dinvR_nonneg dst _)

end Generic

/-! ## Arrays as functions of their coordinates -/

/-- A rank-2 array read by its two coordinates. -/
abbrev mat {a b : Nat} (x : (⟨2, ![a, b]⟩ : Shape).Idx → EReal) : Fin a → Fin b → EReal := fun i j => x (ix2 i j)
/-- A rank-1 array read by its coordinate. -/
abbrev vec {a : Nat} (x : (⟨1, ![a]⟩ : Shape).Idx → EReal) : Fin a → EReal := fun i => x (ix1 i)

/-! ## The edges of the program's graph, from its edge list -/

/-- A signed 32-bit word as a node number: clamped into `[0, 16383]`. -/
def node (v : BitVec 32) : Fin 16384 := ⟨min v.toInt.toNat 16383, by omega⟩

/-- A word that is a node number is that node. -/
theorem node_val (v : BitVec 32) (h0 : 0 ≤ v.toInt) (h1 : v.toInt < 16384) : ((node v).val : ℤ) = v.toInt := by
  show ((min v.toInt.toNat 16383 : ℕ) : ℤ) = v.toInt
  omega

/-- End `r` (0: source, 1: target) of edge `e`: for `e < 524288` the node the edge list names in row `r`,
    column `e`; the remaining 16384 edges are the self loops, edge `524288 + n` joining `n` to itself. -/
def endpoint (ei : (⟨2, ![2, 524288]⟩ : Shape).Idx → BitVec 32) (r : Fin 2) (e : Fin 540672) : Fin 16384 :=
  if h : e.val < 524288 then node (ei (ix2 r ⟨e.val, h⟩)) else ⟨e.val - 524288, by have := e.isLt; omega⟩

/-- Sources of the 540672 edges. -/
def srcOf (ei : (⟨2, ![2, 524288]⟩ : Shape).Idx → BitVec 32) : Fin 540672 → Fin 16384 := endpoint ei 0
/-- Targets of the 540672 edges. -/
def dstOf (ei : (⟨2, ![2, 524288]⟩ : Shape).Idx → BitVec 32) : Fin 540672 → Fin 16384 := endpoint ei 1

theorem endpoint_of_lt (ei : (⟨2, ![2, 524288]⟩ : Shape).Idx → BitVec 32) (r : Fin 2) (e : Fin 540672)
    (h : e.val < 524288) : endpoint ei r e = node (ei (ix2 r ⟨e.val, h⟩)) := dif_pos h

theorem endpoint_of_ge (ei : (⟨2, ![2, 524288]⟩ : Shape).Idx → BitVec 32) (r : Fin 2) (e : Fin 540672)
    (h : ¬ e.val < 524288) : (endpoint ei r e).val = e.val - 524288 := by
  unfold endpoint
  rw [dif_neg h]

/-! ## The network -/

/-- The hidden features after the first, second and third layer, and the logits, at one entry. -/
def hidden1 (src dst : Fin 540672 → Fin 16384) (x : Fin 16384 → Fin 16 → EReal) (W1 : Fin 16 → Fin 128 → EReal)
    (b1 : Fin 128 → EReal) : Fin 16384 → Fin 128 → EReal :=
  layer src dst x W1 b1

def hidden2 (src dst : Fin 540672 → Fin 16384) (x : Fin 16384 → Fin 16 → EReal) (W1 : Fin 16 → Fin 128 → EReal)
    (b1 : Fin 128 → EReal) (W2 : Fin 128 → Fin 128 → EReal) (b2 : Fin 128 → EReal) : Fin 16384 → Fin 128 → EReal :=
  layer src dst (hidden1 src dst x W1 b1) W2 b2

def hidden3 (src dst : Fin 540672 → Fin 16384) (x : Fin 16384 → Fin 16 → EReal) (W1 : Fin 16 → Fin 128 → EReal)
    (b1 : Fin 128 → EReal) (W2 : Fin 128 → Fin 128 → EReal) (b2 : Fin 128 → EReal)
    (W3 : Fin 128 → Fin 128 → EReal) (b3 : Fin 128 → EReal) : Fin 16384 → Fin 128 → EReal :=
  layer src dst (hidden2 src dst x W1 b1 W2 b2) W3 b3

/-- THE RESULT at `(i, j)`: three layers, then the dense head `h3 Wfc + bfc`. -/
def logits (src dst : Fin 540672 → Fin 16384) (x : Fin 16384 → Fin 16 → EReal) (W1 : Fin 16 → Fin 128 → EReal)
    (b1 : Fin 128 → EReal) (W2 : Fin 128 → Fin 128 → EReal) (b2 : Fin 128 → EReal)
    (W3 : Fin 128 → Fin 128 → EReal) (b3 : Fin 128 → EReal) (Wfc : Fin 128 → Fin 16384 → EReal)
    (bfc : Fin 16384 → EReal) (i j : Fin 16384) : EReal :=
  xw (hidden3 src dst x W1 b1 W2 b2 W3 b3) Wfc i j + bfc j

/-- The result as an array, from the argument arrays. -/
def logitsArr (ei : (⟨2, ![2, 524288]⟩ : Shape).Idx → BitVec 32)
    (x : (⟨2, ![16384, 16]⟩ : Shape).Idx → EReal) (W1 : (⟨2, ![16, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (W3 : (⟨2, ![128, 128]⟩ : Shape).Idx → EReal)
    (b3 : (⟨1, ![128]⟩ : Shape).Idx → EReal) (Wfc : (⟨2, ![128, 16384]⟩ : Shape).Idx → EReal)
    (bfc : (⟨1, ![16384]⟩ : Shape).Idx → EReal) (i j : Fin 16384) : EReal :=
  logits (srcOf ei) (dstOf ei) (mat x) (mat W1) (vec b1) (mat W2) (vec b2) (mat W3) (vec b3) (mat Wfc) (vec bfc) i j

end Cert.GcnSpec

end
-- ==== Proof.RefPrefix.lean ====
/-
  The edge list decoded: sources, targets, degrees and edge weights as arrays, each a named function of the
  edge array alone, and each read at an index.

  The edge array is `ei : [2, 524288]` of signed 32-bit words. The host program
    * lays row 0 (row 1) of `ei` end to end with `0, 1, …, 16383` (the self loops): `srcWords`, `dstWords : [540672]`;
    * counts the edges arriving at each node by an accumulating scatter of ones: `degVec : [16384]`;
    * takes `rsqrt` of the positive counts and `0` elsewhere: `dinvVec`;
    * looks `dinvVec` up at both ends of every edge, after adding 16384 to negative words (`wrapWords`), and multiplies:
      `normVec : [540672]`.
  When every word of `ei` is a node number (`0 ≤ · < 16384`): no word is negative, so `wrapWords` changes nothing; a
  look-up's clamp changes nothing; the scatter drops nothing. Then `srcWords`, `dstWords` read signed are
  `GcnSpec.srcOf`, `dstOf`, and `degVec`, `dinvVec`, `normVec` are `GcnSpec.deg`, `dinv`, `norm` of those.
  No program is imported: the shape conditions are decided here, so the arrays below are, by unfolding, the terms a
  program's run carries for these operations.
-/
import Idealize.ShloMosaic.Lib.Pipeline.Value
import Idealize.ShloMosaic.Lib.ValueIdx
import Idealize.ShloMosaic.Lib.IdealHost
import Idealize.ShloMosaic.PureOps.Ideal.Laws
import proofs.«105428_j37495064494476_1_alg».proof.Proof.LibSegment
import proofs.«105428_j37495064494476_1_alg».proof.Proof.RefSpec

noncomputable section

open scoped BigOperators

namespace Cert.GcnPrefix

open Idealize.ShloMosaic Idealize.ShloMosaic.ValueIdx Idealize.ShloMosaic.SegmentIdx Cert.GcnSpec

/-! ## Shapes and their conditions -/

abbrev S0 : Shape := ⟨0, ![]⟩
abbrev SEI : Shape := ⟨2, ![2, 524288]⟩
abbrev SRow : Shape := ⟨2, ![1, 524288]⟩
abbrev SList : Shape := ⟨1, ![524288]⟩
abbrev SNode : Shape := ⟨1, ![16384]⟩
abbrev SEdge : Shape := ⟨1, ![540672]⟩
abbrev SCol : Shape := ⟨2, ![540672, 1]⟩

theorem slices0 : SEI.Slices ![0, 0] SRow := by decide
theorem slices1 : SEI.Slices ![1, 0] SRow := by decide
theorem casts : SRow.ShapeCasts SList := by decide
theorem concats : Shape.Concatenates [SList, SNode] SEdge 0 := by decide
theorem bcastEdge : S0.BroadcastsInDim SEdge (![] : Fin 0 → Fin SEdge.rank) := by decide
theorem bcastNode : S0.BroadcastsInDim SNode (![] : Fin 0 → Fin SNode.rank) := by decide
theorem bcastCol : SEdge.BroadcastsInDim SCol (![0] : Fin 1 → Fin SCol.rank) := by decide
theorem scatterWF : ScatterDims.WF SNode SCol SEdge [] [0] [0] 1 := by decide
theorem gatherWF : GatherDims.WF SNode SCol SEdge [] [0] [] [0] [] 1 ![1] := by decide

/-! ## The arrays -/

/-- Row `r` of the edge array (as its offsets `off = ![r, 0]`) followed by `0 … 16383`. -/
def endWords (off : Fin 2 → Nat) (h : SEI.Slices off SRow) (ei : IVec SEI 32) : IVec SEdge 32 :=
  concatenate SEdge 0 [⟨SList, shapeCast _ (extractStridedSlice SRow off ei h) casts⟩, ⟨SNode, iotaInDim SNode 32 0⟩] concats

/-- The sources of the 540672 edges, as words. -/
def srcWords (ei : IVec SEI 32) : IVec SEdge 32 := endWords ![0, 0] slices0 ei
/-- The targets of the 540672 edges, as words. -/
def dstWords (ei : IVec SEI 32) : IVec SEdge 32 := endWords ![1, 0] slices1 ei

/-- Index normalisation: a negative word has 16384 added. -/
def wrapWords (v : IVec SEdge 32) : IVec SEdge 32 :=
  select (cmpi .slt v (broadcastInDim SEdge ![] bcastEdge (constantI S0 32 0#32)))
    (addi v (broadcastInDim SEdge ![] bcastEdge (constantI S0 32 16384#32))) v

/-- A list of words as one index column. -/
def column (v : IVec SEdge 32) : IVec SCol 32 := broadcastInDim SCol ![0] bcastCol v

/-- In-degrees: ones scattered, accumulating, to the targets. -/
def degVec (ei : IVec SEI 32) : FVec Ideal SNode .f32 :=
  Host.scatterAdd (F := Ideal) (scatterFlatDims 16384 540672 scatterWF)
    (broadcastInDim SNode ![] bcastNode (constant (F := Ideal) S0 .f32 0x00000000#32))
    (column (dstWords ei))
    (broadcastInDim SEdge ![] bcastEdge (constant (F := Ideal) S0 .f32 0x3F800000#32))

/-- `rsqrt` of the positive degrees, `0` elsewhere. -/
def dinvVec (ei : IVec SEI 32) : FVec Ideal SNode .f32 :=
  select (cmpf .ogt (degVec ei) (broadcastInDim SNode ![] bcastNode (constant (F := Ideal) S0 .f32 0x00000000#32)))
    (Host.rsqrt (degVec ei))
    (broadcastInDim SNode ![] bcastNode (id (constant (F := Ideal) S0 .f32 0x00000000#32)))

/-- `dinvVec` looked up at the (normalised) words of a list. -/
def lookup (ei : IVec SEI 32) (v : IVec SEdge 32) : FVec Ideal SEdge .f32 :=
  Host.gather (gatherFlatDims 16384 540672 gatherWF) (dinvVec ei) (column (wrapWords v))

/-- The edge weights: `dinv` at the source times `dinv` at the target. -/
def normVec (ei : IVec SEI 32) : FVec Ideal SEdge .f32 :=
  mulf (lookup ei (srcWords ei)) (lookup ei (dstWords ei))

/-! ## The words at an index -/

/-- Before the self loops, entry `e` is the edge array's `(r, e)`. -/
theorem endWords_apply_lt (r : Fin 2) (off : Fin 2 → Nat) (h : SEI.Slices off SRow) (h0 : off 0 = r.val) (h1 : off 1 = 0)
    (ei : IVec SEI 32) (e : Fin 540672) (he : e.val < 524288) :
    endWords off h ei (ix1 e) = ei (ix2 r ⟨e.val, he⟩) := by
  unfold endWords
  rw [concatenate_pair_apply_left (s₁ := SList) (s₂ := SNode) (0 : Fin 1) _ _ concats (ix1 e) rfl (ix1 (⟨e.val, he⟩ : Fin 524288))
    (fun b => by obtain rfl : b = 0 := Subsingleton.elim _ _; rfl)]
  rw [shapeCast_apply _ casts (ix1 (⟨e.val, he⟩ : Fin 524288)) (ix2 (0 : Fin 1) (⟨e.val, he⟩ : Fin 524288))
    (by rw [Shape.rowMajor_val_two, Shape.rowMajor_val_one]; show 0 * 524288 + e.val = e.val; omega)]
  exact extractStridedSlice_apply off ei h _ (ix2 r ⟨e.val, he⟩) (fun a => match a with
    | ⟨0, _⟩ => by show r.val = off 0 + 0; omega
    | ⟨1, _⟩ => by show e.val = off 1 + e.val; omega)

/-- From 524288 on, entry `e` is the number `e - 524288`. -/
theorem endWords_apply_ge (off : Fin 2 → Nat) (h : SEI.Slices off SRow) (ei : IVec SEI 32) (e : Fin 540672)
    (he : ¬ e.val < 524288) : endWords off h ei (ix1 e) = BitVec.ofNat 32 (e.val - 524288) := by
  unfold endWords
  have hlt : e.val - 524288 < 16384 := by have := e.isLt; omega
  rw [concatenate_pair_apply_right (s₁ := SList) (s₂ := SNode) (0 : Fin 1) _ _ concats (ix1 e) rfl rfl (ix1 (⟨e.val - 524288, hlt⟩ : Fin 16384))
    (fun b hb => absurd (Subsingleton.elim _ _) hb)
    (by show e.val - 524288 + 524288 = e.val; omega)]
  rfl

/-- Every word of the edge array is a node number. -/
def InRange (ei : IVec SEI 32) : Prop :=
  ∀ (r : Fin 2) (e : Fin 524288), 0 ≤ (ei (ix2 r e)).toInt ∧ (ei (ix2 r e)).toInt < 16384

/-- Under `InRange`, entry `e` read signed is end `r` of edge `e`. -/
theorem endWords_toInt (r : Fin 2) (off : Fin 2 → Nat) (h : SEI.Slices off SRow) (h0 : off 0 = r.val) (h1 : off 1 = 0)
    (ei : IVec SEI 32) (hidx : InRange ei) (e : Fin 540672) :
    (endWords off h ei (ix1 e)).toInt = ((endpoint ei r e).val : ℤ) := by
  by_cases he : e.val < 524288
  · rw [endWords_apply_lt r off h h0 h1 ei e he, endpoint_of_lt ei r e he]
    exact (node_val _ (hidx r ⟨e.val, he⟩).1 (hidx r ⟨e.val, he⟩).2).symm
  · rw [endWords_apply_ge off h ei e he, endpoint_of_ge ei r e he]
    have := e.isLt
    have hm : (e.val - 524288) % 2 ^ 32 = e.val - 524288 := Nat.mod_eq_of_lt (by omega)
    rw [BitVec.toInt_eq_toNat_cond, BitVec.toNat_ofNat, hm, if_pos (by omega)]

theorem srcWords_toInt (ei : IVec SEI 32) (hidx : InRange ei) (e : Fin 540672) :
    (srcWords ei (ix1 e)).toInt = ((srcOf ei e).val : ℤ) :=
  endWords_toInt 0 ![0, 0] slices0 rfl rfl ei hidx e

theorem dstWords_toInt (ei : IVec SEI 32) (hidx : InRange ei) (e : Fin 540672) :
    (dstWords ei (ix1 e)).toInt = ((dstOf ei e).val : ℤ) :=
  endWords_toInt 1 ![1, 0] slices1 rfl rfl ei hidx e

/-- A word that is not negative is left alone by the normalisation. -/
theorem wrapWords_apply (v : IVec SEdge 32) (i : SEdge.Idx) (h : 0 ≤ (v i).toInt) : wrapWords v i = v i := by
  unfold wrapWords
  rw [select_apply]
  have hc : cmpi .slt v (broadcastInDim SEdge ![] bcastEdge (constantI S0 32 0#32)) i = 0#1 := by
    show IntOp.cmpi .slt (v i) (broadcastInDim SEdge ![] bcastEdge (constantI S0 32 0#32) i) = 0#1
    rw [broadcastInDim_scalar_apply]
    show BitVec.ofBool ((v i).slt 0#32) = 0#1
    have : (v i).slt 0#32 = false := by
      rw [BitVec.slt_eq_decide]
      simp only [BitVec.toInt_zero, decide_eq_false_iff_not, not_lt]
      exact h
    rw [this]; rfl
  rw [hc, select_zero]

/-- The index column reads the list. -/
theorem column_apply (v : IVec SEdge 32) (e : Fin 540672) : column v (ix2 e 0) = v (ix1 e) := by
  unfold column
  exact broadcastInDim_apply _ bcastCol v (ix2 e 0) (ix1 e) (fun a => match a with
    | ⟨0, _⟩ => by show e.val = if (540672 : Nat) = 1 then 0 else e.val; rw [if_neg (by decide)])

/-! ## Degrees and weights at an index -/

/-- The host's reciprocal square root at an index. -/
theorem host_rsqrt_apply {s : Shape} {φ : FTy} (x : FVec Ideal s φ) (i : s.Idx) :
    Host.rsqrt x i = Ideal.rsqrt (x i) := rfl

theorem degVec_apply (ei : IVec SEI 32) (hidx : InRange ei) (n : Fin 16384) :
    degVec ei (ix1 n) = deg (dstOf ei) n := by
  unfold degVec deg
  rw [scatterAddFlat_apply, broadcastInDim_scalar_apply, constant_apply, Ideal.ofBits_zero_f32, zero_add]
  refine Finset.sum_congr rfl fun e _ => ?_
  rw [column_apply, dstWords_toInt ei hidx e, broadcastInDim_scalar_apply, constant_apply]
  by_cases hd : dstOf ei e = n
  · rw [if_pos hd, if_pos (by rw [hd])]
  · rw [if_neg hd, if_neg (fun h' => hd (Fin.ext (by exact_mod_cast h')))]

theorem dinvVec_apply (ei : IVec SEI 32) (hidx : InRange ei) (n : Fin 16384) :
    dinvVec ei (ix1 n) = dinv (dstOf ei) n := by
  unfold dinvVec dinv
  rw [select_apply, cmpf_apply, broadcastInDim_scalar_apply, broadcastInDim_scalar_apply, host_rsqrt_apply,
    degVec_apply ei hidx n]
  generalize deg (dstOf ei) n = d
  show Scalar.select (Ideal.cmp .ogt d (Ideal.ofBits .f32 0x00000000#32)) (Ideal.rsqrt d)
    (Ideal.ofBits .f32 0x00000000#32) = _
  rw [Ideal.ofBits_zero_f32]
  by_cases hp : 0 < d
  · rw [if_pos hp]
    have : Ideal.cmp .ogt d 0 = 1#1 := by
      show BitVec.ofBool (decide (0 < d)) = 1#1
      rw [decide_eq_true hp]; rfl
    rw [this, select_one]
  · rw [if_neg hp]
    have : Ideal.cmp .ogt d 0 = 0#1 := by
      show BitVec.ofBool (decide (0 < d)) = 0#1
      rw [decide_eq_false hp]; rfl
    rw [this, select_zero]

/-- A look-up at a list whose words, read signed, are the nodes `f e`. -/
theorem lookup_apply (ei : IVec SEI 32) (hidx : InRange ei) (v : IVec SEdge 32) (f : Fin 540672 → Fin 16384)
    (hv : ∀ e, (v (ix1 e)).toInt = ((f e).val : ℤ)) (e : Fin 540672) :
    lookup ei v (ix1 e) = dinv (dstOf ei) (f e) := by
  unfold lookup
  rw [gatherFlat_apply (by decide : 0 < 16384), column_apply,
    wrapWords_apply v (ix1 e) (by rw [hv e]; exact Int.natCast_nonneg _),
    clampRow_of_eq _ _ (f e) (hv e)]
  exact dinvVec_apply ei hidx (f e)

/-- THE EDGE WEIGHTS: entry `e` is `norm e` of the decoded graph. -/
theorem normVec_apply (ei : IVec SEI 32) (hidx : InRange ei) (e : Fin 540672) :
    normVec ei (ix1 e) = GcnSpec.norm (srcOf ei) (dstOf ei) e := by
  unfold normVec GcnSpec.norm
  rw [mulf_apply, lookup_apply ei hidx _ (srcOf ei) (srcWords_toInt ei hidx) e,
    lookup_apply ei hidx _ (dstOf ei) (dstWords_toInt ei hidx) e]

/-- … a real number. -/
theorem normVec_apply_real (ei : IVec SEI 32) (hidx : InRange ei) (e : Fin 540672) :
    normVec ei (ix1 e) = ((nrmR (srcOf ei) (dstOf ei) e : ℝ) : EReal) := by
  rw [normVec_apply ei hidx e, norm_eq_coe]

end Cert.GcnPrefix

end
-- ==== Proof.RefLayer.lean ====
/-
  One graph-convolution stage of the host program, read at an entry.

  From a table `T : [16384, 128]` (the features times the weights) and a bias `b : [128]` the host program
    * looks up, for every edge `e`, row `src e` of `T` (the source word normalised, clamped): a `[540672, 128]` array;
    * multiplies row `e` by the weight `norm e`, spread along the row;
    * scatters the rows, accumulating, to the rows `dst e` of a zero table;
    * adds the bias, spread down the rows, and takes the maximum with zero.
  On an edge array whose words are node numbers the result at `(n, k)` is
    `max ((Σ_e [dst e = n] T (src e, k) * norm e) + b k) 0`.
-/
import proofs.«105428_j37495064494476_1_alg».proof.Proof.RefPrefix

noncomputable section

open scoped BigOperators

namespace Cert.GcnLayer

open Idealize.ShloMosaic Idealize.ShloMosaic.ValueIdx Idealize.ShloMosaic.SegmentIdx Cert.GcnSpec Cert.GcnPrefix

/-! ## Shapes and their conditions -/

abbrev STab : Shape := ⟨2, ![16384, 128]⟩
abbrev SMsg : Shape := ⟨2, ![540672, 128]⟩
abbrev SBias : Shape := ⟨1, ![128]⟩
abbrev SBiasRow : Shape := ⟨2, ![1, 128]⟩

theorem bcastTab : S0.BroadcastsInDim STab (![] : Fin 0 → Fin STab.rank) := by decide
theorem bcastMsg : SCol.BroadcastsInDim SMsg (![0, 1] : Fin 2 → Fin SMsg.rank) := by decide
theorem bcastBiasRow : SBias.BroadcastsInDim SBiasRow (![1] : Fin 1 → Fin SBiasRow.rank) := by decide
theorem bcastBias : SBiasRow.BroadcastsInDim STab (![0, 1] : Fin 2 → Fin STab.rank) := by decide
theorem scatterRowsWF : ScatterDims.WF STab SCol SMsg [1] [0] [0] 1 := by decide
theorem gatherRowsWF : GatherDims.WF STab SCol SMsg [1] [0] [] [0] [] 1 ![1, 128] := by decide

/-! ## The stage -/

/-- The weights as a column, spread along the 128 features. -/
def normRows (ei : IVec SEI 32) : FVec Ideal SMsg .f32 :=
  broadcastInDim SMsg ![0, 1] bcastMsg (broadcastInDim SCol ![0] bcastCol (normVec ei))

/-- The rows of `T` at the edges' sources, each times its edge's weight. -/
def messages (ei : IVec SEI 32) (T : FVec Ideal STab .f32) : FVec Ideal SMsg .f32 :=
  mulf (Host.gather (gatherRowsDims 16384 540672 128 gatherRowsWF) T (column (wrapWords (srcWords ei)))) (normRows ei)

/-- The messages summed at the edges' targets. -/
def aggregate (ei : IVec SEI 32) (T : FVec Ideal STab .f32) : FVec Ideal STab .f32 :=
  Host.scatterAdd (F := Ideal) (scatterRowsDims 16384 540672 128 scatterRowsWF)
    (broadcastInDim STab ![] bcastTab (constant (F := Ideal) S0 .f32 0x00000000#32))
    (column (dstWords ei)) (messages ei T)

/-- The bias spread down the rows. -/
def biasRows (b : FVec Ideal SBias .f32) : FVec Ideal STab .f32 :=
  broadcastInDim STab ![0, 1] bcastBias (broadcastInDim SBiasRow ![1] bcastBiasRow b)

/-- One stage: aggregate, add the bias, cut at zero. -/
def stage (ei : IVec SEI 32) (T : FVec Ideal STab .f32) (b : FVec Ideal SBias .f32) : FVec Ideal STab .f32 :=
  maximumf (addf (aggregate ei T) (biasRows b))
    (broadcastInDim STab ![] bcastTab (constant (F := Ideal) S0 .f32 0x00000000#32))

/-! ## At an entry -/

theorem normRows_apply (ei : IVec SEI 32) (e : Fin 540672) (k : Fin 128) :
    normRows ei (ix2 e k) = normVec ei (ix1 e) := by
  unfold normRows
  rw [broadcastInDim_apply _ bcastMsg _ (ix2 e k) (ix2 e (0 : Fin 1)) (fun a => match a with
    | ⟨0, _⟩ => by show e.val = if (540672 : Nat) = 1 then 0 else e.val; rw [if_neg (by decide)]
    | ⟨1, _⟩ => by show (0 : Nat) = if (1 : Nat) = 1 then 0 else k.val; rw [if_pos rfl])]
  exact broadcastInDim_apply _ bcastCol _ (ix2 e (0 : Fin 1)) (ix1 e) (fun a => match a with
    | ⟨0, _⟩ => by show e.val = if (540672 : Nat) = 1 then 0 else e.val; rw [if_neg (by decide)])

theorem biasRows_apply (b : FVec Ideal SBias .f32) (n : Fin 16384) (k : Fin 128) :
    biasRows b (ix2 n k) = b (ix1 k) := by
  unfold biasRows
  rw [broadcastInDim_apply _ bcastBias _ (ix2 n k) (ix2 (0 : Fin 1) k) (fun a => match a with
    | ⟨0, _⟩ => by show (0 : Nat) = if (1 : Nat) = 1 then 0 else n.val; rw [if_pos rfl]
    | ⟨1, _⟩ => by show k.val = if (128 : Nat) = 1 then 0 else k.val; rw [if_neg (by decide)])]
  exact broadcastInDim_apply _ bcastBiasRow _ (ix2 (0 : Fin 1) k) (ix1 k) (fun a => match a with
    | ⟨0, _⟩ => by show k.val = if (128 : Nat) = 1 then 0 else k.val; rw [if_neg (by decide)])

theorem messages_apply (ei : IVec SEI 32) (hidx : InRange ei) (T : FVec Ideal STab .f32) (e : Fin 540672) (k : Fin 128) :
    messages ei T (ix2 e k) = T (ix2 (srcOf ei e) k) * GcnSpec.norm (srcOf ei) (dstOf ei) e := by
  unfold messages
  rw [mulf_apply, gatherRows_apply (by decide : 0 < 16384), column_apply,
    wrapWords_apply _ (ix1 e) (by rw [srcWords_toInt ei hidx e]; exact Int.natCast_nonneg _),
    clampRow_of_eq _ _ (srcOf ei e) (srcWords_toInt ei hidx e), normRows_apply, normVec_apply ei hidx e]

/-- THE STAGE AT AN ENTRY, for a table that is `t` entry by entry. -/
theorem stage_apply (ei : IVec SEI 32) (hidx : InRange ei) (T : FVec Ideal STab .f32) (b : FVec Ideal SBias .f32)
    (t : Fin 16384 → Fin 128 → EReal) (ht : ∀ n k, T (ix2 n k) = t n k) (n : Fin 16384) (k : Fin 128) :
    stage ei T b (ix2 n k)
      = max ((∑ e : Fin 540672, if dstOf ei e = n then t (srcOf ei e) k * GcnSpec.norm (srcOf ei) (dstOf ei) e else 0)
          + b (ix1 k)) 0 := by
  unfold stage aggregate
  rw [maximumf_apply, addf_apply, scatterAddRows_apply, biasRows_apply, broadcastInDim_scalar_apply, constant_apply,
    Ideal.ofBits_zero_f32, zero_add]
  refine congrArg (fun s : EReal => max (s + b (ix1 k)) 0) (Finset.sum_congr rfl fun e _ => ?_)
  rw [column_apply, dstWords_toInt ei hidx e, messages_apply ei hidx T e k, ht]
  by_cases hd : dstOf ei e = n
  · rw [if_pos hd, if_pos (by rw [hd])]
  · rw [if_neg hd, if_neg (fun h' => hd (Fin.ext (by exact_mod_cast h')))]

end Cert.GcnLayer

end
-- ==== Proof.RefIsSpec.lean ====
/-
  The reference program computes the graph-convolution network of `GcnSpec`.

  Its run carries, per operation, a term in the argument arrays. Operation by operation these terms are the named arrays
  of `GcnPrefix` (sources, targets, weights) and `GcnLayer.stage` (one convolution with its bias and rectifier), applied
  three times with a matrix product in front of each, and a last matrix product plus bias. On an edge array whose
  words are node numbers, reading the final term at `(i, j)` gives `GcnSpec.logitsArr` of the arguments at `(i, j)`:
  each matrix product is the sum over the contracted axis, each stage is `GcnLayer.stage_apply`.
-/
import proofs.«105428_j37495064494476_1_alg».proof.Proof.RefReadP
import proofs.«105428_j37495064494476_1_alg».proof.Proof.RefLayer

noncomputable section

open scoped BigOperators

namespace Cert.ReferenceIdeal.RefValue

open Cert.ReferenceIdeal Cert.ReferenceIdeal.Gen Cert.ReferenceIdeal.ReadP Idealize.ShloMosaic Idealize.ShloMosaic.ValueIdx
  Cert.GcnSpec Cert.GcnPrefix Cert.GcnLayer

variable (x0 : (⟨S16384x16, .f32⟩ : BufTy).Contents (Elt Ideal)) (x1 : (⟨S2x524288, .i32⟩ : BufTy).Contents (Elt Ideal))
  (x2 : (⟨S16x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x16384, .f32⟩ : BufTy).Contents (Elt Ideal)) (x9 : (⟨S16384, .f32⟩ : BufTy).Contents (Elt Ideal))

/-! ## The run's terms are the named arrays -/

theorem v3_eq : val_main_v3 (F := Ideal) x1 = srcWords x1 := rfl
theorem v6_eq : val_main_v6 (F := Ideal) x1 = dstWords x1 := rfl
theorem v29_eq : val_main_v29 (F := Ideal) x1 = normVec x1 := rfl

theorem v47_eq : val_main_v47 (F := Ideal) x0 x1 x2 x3 = stage x1 (val_main_v30 (F := Ideal) x0 x2) x3 := rfl
theorem v65_eq : val_main_v65 (F := Ideal) x0 x1 x2 x3 x4 x5
    = stage x1 (val_main_v48 (F := Ideal) x0 x1 x2 x3 x4) x5 := rfl
theorem v83_eq : val_main_v83 (F := Ideal) x0 x1 x2 x3 x4 x5 x6 x7
    = stage x1 (val_main_v66 (F := Ideal) x0 x1 x2 x3 x4 x5 x6) x7 := rfl

/-! ## The three layers -/

/-- The first product: the features times the first weights. -/
theorem v30_at (n : Fin 16384) (k : Fin 128) :
    val_main_v30 (F := Ideal) x0 x2 (ix2 n k) = xw (mat x0) (mat x2) n k := by
  rw [val_main_v30_apply]
  unfold xw
  refine Finset.sum_congr rfl fun l _ => ?_
  have e1 : lidx_main_v30 (ix2 n k) l = ix2 n l :=
    funext fun a => Fin.ext (by match a with | ⟨0, _⟩ => rfl | ⟨1, _⟩ => rfl)
  have e2 : ridx_main_v30 (ix2 n k) l = ix2 l k :=
    funext fun a => Fin.ext (by match a with | ⟨0, _⟩ => rfl | ⟨1, _⟩ => rfl)
  rw [e1, e2]

theorem hidden1_at (hidx : InRange x1) (n : Fin 16384) (k : Fin 128) :
    val_main_v47 (F := Ideal) x0 x1 x2 x3 (ix2 n k)
      = hidden1 (srcOf x1) (dstOf x1) (mat x0) (mat x2) (vec x3) n k := by
  rw [v47_eq]
  unfold hidden1 layer conv
  exact stage_apply x1 hidx _ x3 (xw (mat x0) (mat x2)) (fun n k => v30_at x0 x2 n k) n k

theorem v48_at (hidx : InRange x1) (n : Fin 16384) (k : Fin 128) :
    val_main_v48 (F := Ideal) x0 x1 x2 x3 x4 (ix2 n k)
      = xw (hidden1 (srcOf x1) (dstOf x1) (mat x0) (mat x2) (vec x3)) (mat x4) n k := by
  rw [val_main_v48_apply]
  unfold xw
  refine Finset.sum_congr rfl fun l _ => ?_
  have e1 : lidx_main_v48 (ix2 n k) l = ix2 n l :=
    funext fun a => Fin.ext (by match a with | ⟨0, _⟩ => rfl | ⟨1, _⟩ => rfl)
  have e2 : ridx_main_v48 (ix2 n k) l = ix2 l k :=
    funext fun a => Fin.ext (by match a with | ⟨0, _⟩ => rfl | ⟨1, _⟩ => rfl)
  rw [e1, e2, hidden1_at x0 x1 x2 x3 hidx n l]

theorem hidden2_at (hidx : InRange x1) (n : Fin 16384) (k : Fin 128) :
    val_main_v65 (F := Ideal) x0 x1 x2 x3 x4 x5 (ix2 n k)
      = hidden2 (srcOf x1) (dstOf x1) (mat x0) (mat x2) (vec x3) (mat x4) (vec x5) n k := by
  rw [v65_eq]
  unfold hidden2 layer conv
  exact stage_apply x1 hidx _ x5 _ (fun n k => v48_at x0 x1 x2 x3 x4 hidx n k) n k

theorem v66_at (hidx : InRange x1) (n : Fin 16384) (k : Fin 128) :
    val_main_v66 (F := Ideal) x0 x1 x2 x3 x4 x5 x6 (ix2 n k)
      = xw (hidden2 (srcOf x1) (dstOf x1) (mat x0) (mat x2) (vec x3) (mat x4) (vec x5)) (mat x6) n k := by
  rw [val_main_v66_apply]
  unfold xw
  refine Finset.sum_congr rfl fun l _ => ?_
  have e1 : lidx_main_v66 (ix2 n k) l = ix2 n l :=
    funext fun a => Fin.ext (by match a with | ⟨0, _⟩ => rfl | ⟨1, _⟩ => rfl)
  have e2 : ridx_main_v66 (ix2 n k) l = ix2 l k :=
    funext fun a => Fin.ext (by match a with | ⟨0, _⟩ => rfl | ⟨1, _⟩ => rfl)
  rw [e1, e2, hidden2_at x0 x1 x2 x3 x4 x5 hidx n l]

theorem hidden3_at (hidx : InRange x1) (n : Fin 16384) (k : Fin 128) :
    val_main_v83 (F := Ideal) x0 x1 x2 x3 x4 x5 x6 x7 (ix2 n k)
      = hidden3 (srcOf x1) (dstOf x1) (mat x0) (mat x2) (vec x3) (mat x4) (vec x5) (mat x6) (vec x7) n k := by
  rw [v83_eq]
  unfold hidden3 layer conv
  exact stage_apply x1 hidx _ x7 _ (fun n k => v66_at x0 x1 x2 x3 x4 x5 x6 hidx n k) n k

/-! ## The result -/

/-- THE REFERENCE IS THE SPECIFICATION: on an edge array whose words are node numbers, the final term of the run read
    at `(i, j)` is the network of `GcnSpec` at `(i, j)`. -/
theorem ref_is_spec (hidx : ∀ (r : Fin 2) (e : Fin 524288), 0 ≤ (x1 (ix2 r e)).toInt ∧ (x1 (ix2 r e)).toInt < 16384)
    (i j : Fin 16384) :
    val_main_v87 (F := Ideal) x0 x1 x2 x3 x4 x5 x6 x7 x8 x9 (ix2 i j) = logitsArr x1 x0 x2 x3 x4 x5 x6 x7 x8 x9 i j := by
  rw [val_main_v87_apply, Ideal.addf_def, val_main_v84_apply, val_main_v86_apply, val_main_v85_apply]
  unfold logitsArr logits xw
  have eb : idx_main_v85 (idx_main_v86 (ix2 i j)) = ix1 j :=
    funext fun a => Fin.ext (by match a with | ⟨0, _⟩ => rfl)
  rw [eb]
  refine congrArg (fun s : EReal => s + x9 (ix1 j)) (Finset.sum_congr rfl fun l _ => ?_)
  have e1 : lidx_main_v84 (ix2 i j) l = ix2 i l :=
    funext fun a => Fin.ext (by match a with | ⟨0, _⟩ => rfl | ⟨1, _⟩ => rfl)
  have e2 : ridx_main_v84 (ix2 i j) l = ix2 l j :=
    funext fun a => Fin.ext (by match a with | ⟨0, _⟩ => rfl | ⟨1, _⟩ => rfl)
  rw [e1, e2, hidden3_at x0 x1 x2 x3 x4 x5 x6 x7 hidx i l]

end Cert.ReferenceIdeal.RefValue

end
-- ==== Proof.RegionsKit.lean ====
import proofs.«105428_j37495064494476_1_alg».proof.Proof.Gen.KernelIdeal.Regions
import Idealize.ShloMosaic.Lib.Pipeline.FrameBody
import Idealize.ShloMosaic.Lib.Pipeline.RegionsLoop
import Idealize.ShloMosaic.Lib.Pipeline.FrameSuffix

noncomputable section

/-! # A program of four kernel calls among host operations: the run, given each call's proof data

@main is ten items in order: three stretches of host operations, then four kernel calls each followed by nothing or
by one more host stretch. Between two items a core holds every unscoped buffer whole, at contents that are a function
of the launch memory: the launch contents, then each host stretch applied, then — after a call — the call's output
array replaced by what its write-backs leave and every other buffer kept. A call's input arrays are outputs of
earlier calls, so a call's proof data is a FUNCTION of the contents it is entered from, and the contents the calls
leave are chosen in order, each mentioning only the calls before it.

Given, per call, proof data whose arrays are read off the entry contents, that hold full shares, owe nothing, meet
the body obligation and whose invariant is entered from and left at "the scoped buffers no window stages, and the
generator register", every call is a segment entered from "all unscoped buffers at the entry contents" and left at
"all unscoped buffers at the exit contents"; the segments chain; and every weakly fair execution of @main terminates
with each argument array as launched and the result array at what the last call leaves. -/

namespace Cert.KernelIdeal.RunKit

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

/-- The proof data of one pallas_call as a function of the buffer contents the call is entered from. -/
abbrev DatAt (cfg : Pipeline.Cfg sig Λ₀) : Type :=
  (V : Dev nD → Valuation τ sig (Elt F)) → (c : Dev nD) → Dat τ (Elt F) Unit ℕ (UR sig nD τ) ℕ cfg c

/-- What the several-call run needs of one call's proof data, at every entry contents `V`: the arrays are read off
    `V`, full shares, nothing owed, the body obligation, and the invariant entered from and left at the scoped rest
    beside the generator register. -/
structure CallKit (cfg : Pipeline.Cfg sig Λ₀) (dat : DatAt (F := F) cfg) : Prop where
  A_eq : ∀ V c w, (dat V c).A w = V c (Pipeline.arrRef cfg.spec w)
  q_full : ∀ V c w, (dat V c).q w = fullShare
  owed_zero : ∀ V c t, (dat V c).owed t = 0
  body : ∀ V c, BodyObligation (dat V c) (defs₀ (F := F)) Variants.none () Set.univ
  hin : ∀ V c, (Pipeline.ΦA cfg.spec c : sProp 𝕄) ⊢ (dat V c).Φ 0
  hout : ∀ V c, (dat V c).Φ (Fin.last cfg.N) ⊢ (Pipeline.ΦA cfg.spec c : sProp 𝕄)
  recorded_univ : ∀ V c t, (dat V c).recorded t = Set.univ

/-- Proof data that owe nothing before point `t`, with no bound on the recorded pairs there: the core's `owes` at nothing
    is what the pipeline holds at `t`, -/
theorem owesAt_of_zero {cfg : Pipeline.Cfg sig Λ₀} {c : Dev nD} (dat : Dat τ (Elt F) Unit ℕ (UR sig nD τ) ℕ cfg c) (t : Fin (cfg.N + 1))
    (h0 : dat.owed t = 0) (hR : dat.recorded t = Set.univ) :
    (iprop(∃ W, owes (c : Thread nD τ) (0 : CellTallies nD τ sig Unit) W) : sProp 𝕄) ⊢ dat.owesAt () t := by
  unfold Pipeline.Dat.owesAt Pipeline.owesWithin; rw [h0]
  iintro ⟨%W, HO⟩; iexists W; isplitr
  · ipureintro; exact fun x _ => Or.inl (by rw [hR]; trivial)
  iexact HO

/-- and back. -/
theorem owesAt_zero {cfg : Pipeline.Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin; rw [h0]
  iintro ⟨%W, -, HO⟩; iexists W; iexact HO

/-- Two families over the cores, each held on every core, are their pairs held on every core. -/
theorem bigSep_join (Φ Ψ : Dev nD → sProp 𝕄) :
    iprop(bigSep Finset.univ Φ ∗ bigSep Finset.univ Ψ) ⊢ bigSep Finset.univ (fun c => iprop(Φ c ∗ Ψ c)) := by
  rw [bigSep_sep']

section Run

variable (dat0 : DatAt (F := F) cfg0) (dat1 : DatAt (F := F) cfg1) (dat2 : DatAt (F := F) cfg2) (dat3 : DatAt (F := F) cfg3)
variable (m : (ℓ : Loc nD τ sig) → Buf (Elt F) ℓ)

/-! ## What each call leaves in its output array

The contents the calls leave are named in order: a call's entry contents mention only the calls before it. Each is
stated at every buffer `r` (the call's arrays at what its write-backs leave, any other buffer as entered), and read only
at the call's output array. -/

/-- After call 0, entered from `V3`. -/
def o4 (r : Ref sig .tc) (c : Dev nD) : Buf (Elt F) ((c : Thread nD τ).loc r) :=
  Pipeline.withArrays spec0 c (V3 m c) (fun w => (dat0 (V3 m) c).arrAt w cfg0.N) (Proc.devRef .tc r)
/-- The contents known once call 0 has run. -/
def outsA : Outs (F := F) := fun _ r c => o4 dat0 m r c
/-- After call 1, entered from `V5` (which reads call 0's output only). -/
def o6 (r : Ref sig .tc) (c : Dev nD) : Buf (Elt F) ((c : Thread nD τ).loc r) :=
  Pipeline.withArrays spec1 c (V5 m (outsA dat0 m) c) (fun w => (dat1 (V5 m (outsA dat0 m)) c).arrAt w cfg1.N) (Proc.devRef .tc r)
/-- The contents known once calls 0 and 1 have run. -/
def outsB : Outs (F := F) := fun J r c => match J with
  | 4 => o4 dat0 m r c
  | _ => o6 dat0 dat1 m r c
/-- After call 2, entered from `V7`. -/
def o8 (r : Ref sig .tc) (c : Dev nD) : Buf (Elt F) ((c : Thread nD τ).loc r) :=
  Pipeline.withArrays spec2 c (V7 m (outsB dat0 dat1 m) c) (fun w => (dat2 (V7 m (outsB dat0 dat1 m)) c).arrAt w cfg2.N) (Proc.devRef .tc r)
/-- The contents known once calls 0, 1 and 2 have run. -/
def outsC : Outs (F := F) := fun J r c => match J with
  | 4 => o4 dat0 m r c
  | 6 => o6 dat0 dat1 m r c
  | _ => o8 dat0 dat1 dat2 m r c
/-- After call 3, entered from `V9`. -/
def o10 (r : Ref sig .tc) (c : Dev nD) : Buf (Elt F) ((c : Thread nD τ).loc r) :=
  Pipeline.withArrays spec3 c (V9 m (outsC dat0 dat1 dat2 m) c) (fun w => (dat3 (V9 m (outsC dat0 dat1 dat2 m)) c).arrAt w cfg3.N) (Proc.devRef .tc r)
/-- What every call leaves: the unknowns of the generated valuations `V4 … V10`, chosen. -/
def outs : Outs (F := F) := fun J r c => match J with
  | 4 => o4 dat0 m r c
  | 6 => o6 dat0 dat1 m r c
  | 8 => o8 dat0 dat1 dat2 m r c
  | _ => o10 dat0 dat1 dat2 dat3 m r c

/-- The entry contents of calls 1, 2, 3 read only the outputs of the calls before them. -/
theorem V5_outs : V5 m (outs dat0 dat1 dat2 dat3 m) = V5 m (outsA dat0 m) := rfl
theorem V7_outs : V7 m (outs dat0 dat1 dat2 dat3 m) = V7 m (outsB dat0 dat1 m) := rfl
theorem V9_outs : V9 m (outs dat0 dat1 dat2 dat3 m) = V9 m (outsC dat0 dat1 dat2 m) := rfl

/-! ## The chosen contents, read back -/

/-- What call 0 leaves in `main_v47` is its output array after the last point. -/
theorem outs_4 (c : Dev nD) : outs dat0 dat1 dat2 dat3 m 4 main_v47 c = (dat0 (V3 m) c).arrAt 4 cfg0.N := by
  have h0 : outs dat0 dat1 dat2 dat3 m 4 main_v47 c = Pipeline.withArrays spec0 c (V3 m c) (fun w => (dat0 (V3 m) c).arrAt w cfg0.N) (Proc.devRef .tc main_v47) := rfl
  exact h0.trans (Pipeline.withArrays_arr spec0 launch0.win.arr_inj c _ _ 4)
/-- What call 1 leaves in `main_v49`. -/
theorem outs_6 (c : Dev nD) : outs dat0 dat1 dat2 dat3 m 6 main_v49 c = (dat1 (V5 m (outs dat0 dat1 dat2 dat3 m)) c).arrAt 4 cfg1.N := by
  rw [V5_outs dat0 dat1 dat2 dat3 m]
  have h0 : outs dat0 dat1 dat2 dat3 m 6 main_v49 c = Pipeline.withArrays spec1 c (V5 m (outsA dat0 m) c) (fun w => (dat1 (V5 m (outsA dat0 m)) c).arrAt w cfg1.N) (Proc.devRef .tc main_v49) := rfl
  exact h0.trans (Pipeline.withArrays_arr spec1 launch1.win.arr_inj c _ _ 4)
/-- What call 2 leaves in `main_v51`. -/
theorem outs_8 (c : Dev nD) : outs dat0 dat1 dat2 dat3 m 8 main_v51 c = (dat2 (V7 m (outs dat0 dat1 dat2 dat3 m)) c).arrAt 4 cfg2.N := by
  rw [V7_outs dat0 dat1 dat2 dat3 m]
  have h0 : outs dat0 dat1 dat2 dat3 m 8 main_v51 c = Pipeline.withArrays spec2 c (V7 m (outsB dat0 dat1 m) c) (fun w => (dat2 (V7 m (outsB dat0 dat1 m)) c).arrAt w cfg2.N) (Proc.devRef .tc main_v51) := rfl
  exact h0.trans (Pipeline.withArrays_arr spec2 launch2.win.arr_inj c _ _ 4)
/-- What call 3 leaves in `main_v53`: the program's result. -/
theorem outs_10 (c : Dev nD) : outs dat0 dat1 dat2 dat3 m 10 main_v53 c = (dat3 (V9 m (outs dat0 dat1 dat2 dat3 m)) c).arrAt 3 cfg3.N := by
  rw [V9_outs dat0 dat1 dat2 dat3 m]
  have h0 : outs dat0 dat1 dat2 dat3 m 10 main_v53 c = Pipeline.withArrays spec3 c (V9 m (outsC dat0 dat1 dat2 m) c) (fun w => (dat3 (V9 m (outsC dat0 dat1 dat2 m)) c).arrAt w cfg3.N) (Proc.devRef .tc main_v53) := rfl
  exact h0.trans (Pipeline.withArrays_arr spec3 launch3.win.arr_inj c _ _ 3)

/-- Every call's proof data, each at its entry contents. -/
def pdats : (p : Fin 4) → (c : Dev nD) → Dat τ (Elt F) Unit ℕ (UR sig nD τ) ℕ (cfgs p) c
  | ⟨0, _⟩ => fun c => dat0 (V3 m) c
  | ⟨1, _⟩ => fun c => dat1 (V5 m (outs dat0 dat1 dat2 dat3 m)) c
  | ⟨2, _⟩ => fun c => dat2 (V7 m (outs dat0 dat1 dat2 dat3 m)) c
  | ⟨3, _⟩ => fun c => dat3 (V9 m (outs dat0 dat1 dat2 dat3 m)) c

/-- No core owes another anything: no level is assigned. -/
abbrev L : GSem nD τ sig → Finset Unit := fun _ => ∅
abbrev lv : GSem nD τ sig → Unit → ℕ := fun _ _ => 0
/-- What rides beside the buffers between two items of @main: the core's generator register at some state and its
    `owes`, at nothing. -/
abbrev R (c : Dev nD) : sProp 𝕄 := iprop((∃ r, prngReg c r) ∗ ∃ W, owes (c : Thread nD τ) (0 : CellTallies nD τ sig Unit) W)

variable (k0 : CallKit cfg0 dat0) (k1 : CallKit cfg1 dat1) (k2 : CallKit cfg2 dat2) (k3 : CallKit cfg3 dat3)

/-! ## Call 0 -/

include k0 in
/-- At call 0's exit each of its arrays holds what the pipeline leaves: an input array is never written and the exit
    contents keep it; the output array is, by the choice of `outs`, at its folded write-backs. -/
theorem hF0 (c : Dev nD) (w : Fin cfg0.W) : (dat0 (V3 m) c).arrAt w cfg0.N = V4 m (outs dat0 dat1 dat2 dat3 m) c (Pipeline.arrRef spec0 w) := by
  by_cases hw : w = 4
  · subst hw
    have h1 : V4 m (outs dat0 dat1 dat2 dat3 m) c (Pipeline.arrRef spec0 4) = outs dat0 dat1 dat2 dat3 m 4 main_v47 c := Function.update_self _ _ _
    exact (h1.trans (outs_4 dat0 dat1 dat2 dat3 m c)).symm
  · have hin : (cfg0.win w).isOut = false := (by decide : ∀ w : Fin cfg0.W, w ≠ 4 → (cfg0.win w).isOut = false) w hw
    have hne : Pipeline.arrRef spec0 w ∉ ([main_v47] : List (Ref sig .tc)) :=
      (by decide : ∀ w : Fin cfg0.W, w ≠ 4 → Pipeline.arrRef spec0 w ∉ ([main_v47] : List (Ref sig .tc))) w hw
    exact ((dat0 (V3 m) c).arrAt_in w hin _).trans ((k0.A_eq (V3 m) c w).trans (V4_of m (outs dat0 dat1 dat2 dat3 m) c _ hne).symm)

/-- Every buffer that is no array of call 0 is as at its entry. -/
theorem hrest0 (c : Dev nD) : ∀ b : Ref sig .tc, b ∉ Finset.univ.image (Pipeline.arrRef spec0) → V4 m (outs dat0 dat1 dat2 dat3 m) c b = V3 m c b :=
  fun b hb => V4_of m (outs dat0 dat1 dat2 dat3 m) c b fun h => hb (by
    rw [List.mem_singleton.mp h]; exact Finset.mem_image.mpr ⟨4, Finset.mem_univ _, rfl⟩)

-- a library lemma stated over the pinned configuration unifies with the printed one only when unification may unfold
-- plain definitions in a metavariable's type
set_option backward.isDefEq.respectTransparency.types false in
/-- Call 0 as a segment of @main: entered from every unscoped buffer at `V3`, left at `V4`. Its arrays are split
    out of the unscoped buffers and put back at the exit contents; the generator register and the scoped rest enter the
    body's invariant and come back; nothing is owed; the kernel has no semaphore of its own. -/
def reg0 : RegionSeg (pcfgs (F := F)) adm (pdats dat0 dat1 dat2 dat3 m) () defs₀ Variants.none L lv 0 where
  win := launch0.win.to₀
  block_pos := launch0.block_pos
  stage_whole := launch0.stage_whole
  K := PEmpty
  osem k := k.elim
  ho := Pipeline.OwnSemFacts.none _
  hbody c := (k0.body (V3 m) c).loose
  hwaits := Pipeline.hwaits_of_owed_zero _ _ _ _ L lv 0 fun c t => k0.owed_zero (V3 m) c t
  pre c := iprop(StableHlo.held (c : Thread nD τ) (Pipeline.ucRefs τ sig) (V3 m c) ∗ R c)
  post c := iprop(StableHlo.held (c : Thread nD τ) (Pipeline.ucRefs τ sig) (V4 m (outs dat0 dat1 dat2 dat3 m) c) ∗ R c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) adm (pdats dat0 dat1 dat2 dat3 m) launch0.win launch0.arr_whole c
      (((pdats dat0 dat1 dat2 dat3 m) 0 c).share_full fun w => k0.q_full (V3 m) c w) (fun b => V3 m c b) fun w => k0.A_eq (V3 m) c w
    rw [Pipeline.unscopedBufs_held c (V3 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero ((pdats dat0 dat1 dat2 dat3 m) 0 c) 0 (k0.owed_zero (V3 m) c 0) (k0.recorded_univ (V3 m) c 0))
      iexact HO
    isplitl [Hp]; · iexact Hp
    iexact Hrest
  hin c := by
    refine BIBase.Entails.trans ?_ (k0.hin (V3 m) c)
    unfold Pipeline.ΦA
    iintro ⟨Hp, -, Hr⟩
    isplitl [Hr]; · iexact Hr
    iexact Hp
  hout c := by
    rw [Pipeline.ownSems0_none]
    refine BIBase.Entails.trans (k0.hout (V3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 dat2 dat3 m) (((pdats dat0 dat1 dat2 dat3 m) 0 c).share_full fun w => k0.q_full (V3 m) c w)
      (fun b => V3 m c b) (fun b => V4 m (outs dat0 dat1 dat2 dat3 m) c b) (((pdats dat0 dat1 dat2 dat3 m) 0 c).arrAt · cfg0.N) (hF0 dat0 dat1 dat2 dat3 m k0 c) (hrest0 dat0 dat1 dat2 dat3 m c)
    rw [Pipeline.unscopedBufs_held c (V4 m (outs dat0 dat1 dat2 dat3 m) c)] at hjoin
    iintro ⟨Ha, HO, HY, Hrest⟩
    imodintro
    isplitl [Ha Hrest]
    · iapply hjoin; isplitl [Ha] <;> iassumption
    isplitl [HY]; · iexact HY
    iapply (owesAt_zero ((pdats dat0 dat1 dat2 dat3 m) 0 c) _ (k0.owed_zero (V3 m) c _))
    iexact HO

/-! ## Call 1 -/

include k1 in
/-- At call 1's exit each of its arrays holds what the pipeline leaves: an input array is never written and the exit
    contents keep it; the output array is, by the choice of `outs`, at its folded write-backs. -/
theorem hF1 (c : Dev nD) (w : Fin cfg1.W) : (dat1 (V5 m (outs dat0 dat1 dat2 dat3 m)) c).arrAt w cfg1.N = V6 m (outs dat0 dat1 dat2 dat3 m) c (Pipeline.arrRef spec1 w) := by
  by_cases hw : w = 4
  · subst hw
    have h1 : V6 m (outs dat0 dat1 dat2 dat3 m) c (Pipeline.arrRef spec1 4) = outs dat0 dat1 dat2 dat3 m 6 main_v49 c := Function.update_self _ _ _
    exact (h1.trans (outs_6 dat0 dat1 dat2 dat3 m c)).symm
  · have hin : (cfg1.win w).isOut = false := (by decide : ∀ w : Fin cfg1.W, w ≠ 4 → (cfg1.win w).isOut = false) w hw
    have hne : Pipeline.arrRef spec1 w ∉ ([main_v49] : List (Ref sig .tc)) :=
      (by decide : ∀ w : Fin cfg1.W, w ≠ 4 → Pipeline.arrRef spec1 w ∉ ([main_v49] : List (Ref sig .tc))) w hw
    exact ((dat1 (V5 m (outs dat0 dat1 dat2 dat3 m)) c).arrAt_in w hin _).trans ((k1.A_eq (V5 m (outs dat0 dat1 dat2 dat3 m)) c w).trans (V6_of m (outs dat0 dat1 dat2 dat3 m) c _ hne).symm)

/-- Every buffer that is no array of call 1 is as at its entry. -/
theorem hrest1 (c : Dev nD) : ∀ b : Ref sig .tc, b ∉ Finset.univ.image (Pipeline.arrRef spec1) → V6 m (outs dat0 dat1 dat2 dat3 m) c b = V5 m (outs dat0 dat1 dat2 dat3 m) c b :=
  fun b hb => V6_of m (outs dat0 dat1 dat2 dat3 m) c b fun h => hb (by
    rw [List.mem_singleton.mp h]; exact Finset.mem_image.mpr ⟨4, Finset.mem_univ _, rfl⟩)

-- a library lemma stated over the pinned configuration unifies with the printed one only when unification may unfold
-- plain definitions in a metavariable's type
set_option backward.isDefEq.respectTransparency.types false in
/-- Call 1 as a segment of @main: entered from every unscoped buffer at `V5`, left at `V6`. Its arrays are split
    out of the unscoped buffers and put back at the exit contents; the generator register and the scoped rest enter the
    body's invariant and come back; nothing is owed; the kernel has no semaphore of its own. -/
def reg1 : RegionSeg (pcfgs (F := F)) adm (pdats dat0 dat1 dat2 dat3 m) () defs₀ Variants.none L lv 1 where
  win := launch1.win.to₀
  block_pos := launch1.block_pos
  stage_whole := launch1.stage_whole
  K := PEmpty
  osem k := k.elim
  ho := Pipeline.OwnSemFacts.none _
  hbody c := (k1.body (V5 m (outs dat0 dat1 dat2 dat3 m)) c).loose
  hwaits := Pipeline.hwaits_of_owed_zero _ _ _ _ L lv 1 fun c t => k1.owed_zero (V5 m (outs dat0 dat1 dat2 dat3 m)) c t
  pre c := iprop(StableHlo.held (c : Thread nD τ) (Pipeline.ucRefs τ sig) (V5 m (outs dat0 dat1 dat2 dat3 m) c) ∗ R c)
  post c := iprop(StableHlo.held (c : Thread nD τ) (Pipeline.ucRefs τ sig) (V6 m (outs dat0 dat1 dat2 dat3 m) c) ∗ R c)
  X c := iprop(∃ r, prngReg c r)
  Y c := iprop(∃ r, prngReg c r)
  Z c := Pipeline.unscopedRest (Ix := Unit) (Name := ℕ) (U := UR sig nD τ) (Lvl := ℕ) spec1 c (fun b => V5 m (outs dat0 dat1 dat2 dat3 m) c b)
  hentry c := by
    rw [Pipeline.ownSems0_none]
    have hsplit := Pipeline.arrays_of_unscopedBufs (p := 1) (pcfgs (F := F)) adm (pdats dat0 dat1 dat2 dat3 m) launch1.win launch1.arr_whole c
      (((pdats dat0 dat1 dat2 dat3 m) 1 c).share_full fun w => k1.q_full (V5 m (outs dat0 dat1 dat2 dat3 m)) c w) (fun b => V5 m (outs dat0 dat1 dat2 dat3 m) c b) fun w => k1.A_eq (V5 m (outs dat0 dat1 dat2 dat3 m)) c w
    rw [Pipeline.unscopedBufs_held c (V5 m (outs dat0 dat1 dat2 dat3 m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero ((pdats dat0 dat1 dat2 dat3 m) 1 c) 0 (k1.owed_zero (V5 m (outs dat0 dat1 dat2 dat3 m)) c 0) (k1.recorded_univ (V5 m (outs dat0 dat1 dat2 dat3 m)) c 0))
      iexact HO
    isplitl [Hp]; · iexact Hp
    iexact Hrest
  hin c := by
    refine BIBase.Entails.trans ?_ (k1.hin (V5 m (outs dat0 dat1 dat2 dat3 m)) c)
    unfold Pipeline.ΦA
    iintro ⟨Hp, -, Hr⟩
    isplitl [Hr]; · iexact Hr
    iexact Hp
  hout c := by
    rw [Pipeline.ownSems0_none]
    refine BIBase.Entails.trans (k1.hout (V5 m (outs dat0 dat1 dat2 dat3 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 dat2 dat3 m) (((pdats dat0 dat1 dat2 dat3 m) 1 c).share_full fun w => k1.q_full (V5 m (outs dat0 dat1 dat2 dat3 m)) c w)
      (fun b => V5 m (outs dat0 dat1 dat2 dat3 m) c b) (fun b => V6 m (outs dat0 dat1 dat2 dat3 m) c b) (((pdats dat0 dat1 dat2 dat3 m) 1 c).arrAt · cfg1.N) (hF1 dat0 dat1 dat2 dat3 m k1 c) (hrest1 dat0 dat1 dat2 dat3 m c)
    rw [Pipeline.unscopedBufs_held c (V6 m (outs dat0 dat1 dat2 dat3 m) c)] at hjoin
    iintro ⟨Ha, HO, HY, Hrest⟩
    imodintro
    isplitl [Ha Hrest]
    · iapply hjoin; isplitl [Ha] <;> iassumption
    isplitl [HY]; · iexact HY
    iapply (owesAt_zero ((pdats dat0 dat1 dat2 dat3 m) 1 c) _ (k1.owed_zero (V5 m (outs dat0 dat1 dat2 dat3 m)) c _))
    iexact HO

/-! ## Call 2 -/

include k2 in
/-- At call 2's exit each of its arrays holds what the pipeline leaves: an input array is never written and the exit
    contents keep it; the output array is, by the choice of `outs`, at its folded write-backs. -/
theorem hF2 (c : Dev nD) (w : Fin cfg2.W) : (dat2 (V7 m (outs dat0 dat1 dat2 dat3 m)) c).arrAt w cfg2.N = V8 m (outs dat0 dat1 dat2 dat3 m) c (Pipeline.arrRef spec2 w) := by
  by_cases hw : w = 4
  · subst hw
    have h1 : V8 m (outs dat0 dat1 dat2 dat3 m) c (Pipeline.arrRef spec2 4) = outs dat0 dat1 dat2 dat3 m 8 main_v51 c := Function.update_self _ _ _
    exact (h1.trans (outs_8 dat0 dat1 dat2 dat3 m c)).symm
  · have hin : (cfg2.win w).isOut = false := (by decide : ∀ w : Fin cfg2.W, w ≠ 4 → (cfg2.win w).isOut = false) w hw
    have hne : Pipeline.arrRef spec2 w ∉ ([main_v51] : List (Ref sig .tc)) :=
      (by decide : ∀ w : Fin cfg2.W, w ≠ 4 → Pipeline.arrRef spec2 w ∉ ([main_v51] : List (Ref sig .tc))) w hw
    exact ((dat2 (V7 m (outs dat0 dat1 dat2 dat3 m)) c).arrAt_in w hin _).trans ((k2.A_eq (V7 m (outs dat0 dat1 dat2 dat3 m)) c w).trans (V8_of m (outs dat0 dat1 dat2 dat3 m) c _ hne).symm)

/-- Every buffer that is no array of call 2 is as at its entry. -/
theorem hrest2 (c : Dev nD) : ∀ b : Ref sig .tc, b ∉ Finset.univ.image (Pipeline.arrRef spec2) → V8 m (outs dat0 dat1 dat2 dat3 m) c b = V7 m (outs dat0 dat1 dat2 dat3 m) c b :=
  fun b hb => V8_of m (outs dat0 dat1 dat2 dat3 m) c b fun h => hb (by
    rw [List.mem_singleton.mp h]; exact Finset.mem_image.mpr ⟨4, Finset.mem_univ _, rfl⟩)

-- a library lemma stated over the pinned configuration unifies with the printed one only when unification may unfold
-- plain definitions in a metavariable's type
set_option backward.isDefEq.respectTransparency.types false in
/-- Call 2 as a segment of @main: entered from every unscoped buffer at `V7`, left at `V8`. Its arrays are split
    out of the unscoped buffers and put back at the exit contents; the generator register and the scoped rest enter the
    body's invariant and come back; nothing is owed; the kernel has no semaphore of its own. -/
def reg2 : RegionSeg (pcfgs (F := F)) adm (pdats dat0 dat1 dat2 dat3 m) () defs₀ Variants.none L lv 2 where
  win := launch2.win.to₀
  block_pos := launch2.block_pos
  stage_whole := launch2.stage_whole
  K := PEmpty
  osem k := k.elim
  ho := Pipeline.OwnSemFacts.none _
  hbody c := (k2.body (V7 m (outs dat0 dat1 dat2 dat3 m)) c).loose
  hwaits := Pipeline.hwaits_of_owed_zero _ _ _ _ L lv 2 fun c t => k2.owed_zero (V7 m (outs dat0 dat1 dat2 dat3 m)) c t
  pre c := iprop(StableHlo.held (c : Thread nD τ) (Pipeline.ucRefs τ sig) (V7 m (outs dat0 dat1 dat2 dat3 m) c) ∗ R c)
  post c := iprop(StableHlo.held (c : Thread nD τ) (Pipeline.ucRefs τ sig) (V8 m (outs dat0 dat1 dat2 dat3 m) c) ∗ R c)
  X c := iprop(∃ r, prngReg c r)
  Y c := iprop(∃ r, prngReg c r)
  Z c := Pipeline.unscopedRest (Ix := Unit) (Name := ℕ) (U := UR sig nD τ) (Lvl := ℕ) spec2 c (fun b => V7 m (outs dat0 dat1 dat2 dat3 m) c b)
  hentry c := by
    rw [Pipeline.ownSems0_none]
    have hsplit := Pipeline.arrays_of_unscopedBufs (p := 2) (pcfgs (F := F)) adm (pdats dat0 dat1 dat2 dat3 m) launch2.win launch2.arr_whole c
      (((pdats dat0 dat1 dat2 dat3 m) 2 c).share_full fun w => k2.q_full (V7 m (outs dat0 dat1 dat2 dat3 m)) c w) (fun b => V7 m (outs dat0 dat1 dat2 dat3 m) c b) fun w => k2.A_eq (V7 m (outs dat0 dat1 dat2 dat3 m)) c w
    rw [Pipeline.unscopedBufs_held c (V7 m (outs dat0 dat1 dat2 dat3 m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero ((pdats dat0 dat1 dat2 dat3 m) 2 c) 0 (k2.owed_zero (V7 m (outs dat0 dat1 dat2 dat3 m)) c 0) (k2.recorded_univ (V7 m (outs dat0 dat1 dat2 dat3 m)) c 0))
      iexact HO
    isplitl [Hp]; · iexact Hp
    iexact Hrest
  hin c := by
    refine BIBase.Entails.trans ?_ (k2.hin (V7 m (outs dat0 dat1 dat2 dat3 m)) c)
    unfold Pipeline.ΦA
    iintro ⟨Hp, -, Hr⟩
    isplitl [Hr]; · iexact Hr
    iexact Hp
  hout c := by
    rw [Pipeline.ownSems0_none]
    refine BIBase.Entails.trans (k2.hout (V7 m (outs dat0 dat1 dat2 dat3 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats dat0 dat1 dat2 dat3 m) (((pdats dat0 dat1 dat2 dat3 m) 2 c).share_full fun w => k2.q_full (V7 m (outs dat0 dat1 dat2 dat3 m)) c w)
      (fun b => V7 m (outs dat0 dat1 dat2 dat3 m) c b) (fun b => V8 m (outs dat0 dat1 dat2 dat3 m) c b) (((pdats dat0 dat1 dat2 dat3 m) 2 c).arrAt · cfg2.N) (hF2 dat0 dat1 dat2 dat3 m k2 c) (hrest2 dat0 dat1 dat2 dat3 m c)
    rw [Pipeline.unscopedBufs_held c (V8 m (outs dat0 dat1 dat2 dat3 m) c)] at hjoin
    iintro ⟨Ha, HO, HY, Hrest⟩
    imodintro
    isplitl [Ha Hrest]
    · iapply hjoin; isplitl [Ha] <;> iassumption
    isplitl [HY]; · iexact HY
    iapply (owesAt_zero ((pdats dat0 dat1 dat2 dat3 m) 2 c) _ (k2.owed_zero (V7 m (outs dat0 dat1 dat2 dat3 m)) c _))
    iexact HO

/-! ## Call 3 -/

include k3 in
/-- At call 3's exit each of its arrays holds what the pipeline leaves: an input array is never written and the exit
    contents keep it; the output array is, by the choice of `outs`, at its folded write-backs. -/
theorem hF3 (c : Dev nD) (w : Fin cfg3.W) : (dat3 (V9 m (outs dat0 dat1 dat2 dat3 m)) c).arrAt w cfg3.N = V10 m (outs dat0 dat1 dat2 dat3 m) c (Pipeline.arrRef spec3 w) := by
  by_cases hw : w = 3
  · subst hw
    have h1 : V10 m (outs dat0 dat1 dat2 dat3 m) c (Pipeline.arrRef spec3 3) = outs dat0 dat1 dat2 dat3 m 10 main_v53 c := Function.update_self _ _ _
    exact (h1.trans (outs_10 dat0 dat1 dat2 dat3 m c)).symm
  · have hin : (cfg3.win w).isOut = false := (by decide : ∀ w : Fin cfg3.W, w ≠ 3 → (cfg3.win w).isOut = false) w hw
    have hne : Pipeline.arrRef spec3 w ∉ ([main_v53] : List (Ref sig .tc)) :=
      (by decide : ∀ w : Fin cfg3.W, w ≠ 3 → Pipeline.arrRef spec3 w ∉ ([main_v53] : List (Ref sig .tc))) w hw
    exact ((dat3 (V9 m (outs dat0 dat1 dat2 dat3 m)) c).arrAt_in w hin _).trans ((k3.A_eq (V9 m (outs dat0 dat1 dat2 dat3 m)) c w).trans (V10_of m (outs dat0 dat1 dat2 dat3 m) c _ hne).symm)

/-- Every buffer that is no array of call 3 is as at its entry. -/
theorem hrest3 (c : Dev nD) : ∀ b : Ref sig .tc, b ∉ Finset.univ.image (Pipeline.arrRef spec3) → V10 m (outs dat0 dat1 dat2 dat3 m) c b = V9 m (outs dat0 dat1 dat2 dat3 m) c b :=
  fun b hb => V10_of m (outs dat0 dat1 dat2 dat3 m) c b fun h => hb (by
    rw [List.mem_singleton.mp h]; exact Finset.mem_image.mpr ⟨3, Finset.mem_univ _, rfl⟩)

-- a library lemma stated over the pinned configuration unifies with the printed one only when unification may unfold
-- plain definitions in a metavariable's type
set_option backward.isDefEq.respectTransparency.types false in
/-- Call 3 as a segment of @main: entered from every unscoped buffer at `V9`, left at `V10`. Its arrays are split
    out of the unscoped buffers and put back at the exit contents; the generator register and the scoped rest enter the
    body's invariant and come back; nothing is owed; the kernel has no semaphore of its own. -/
def reg3 : RegionSeg (pcfgs (F := F)) adm (pdats dat0 dat1 dat2 dat3 m) () defs₀ Variants.none L lv 3 where
  win := launch3.win.to₀
  block_pos := launch3.block_pos
  stage_whole := launch3.stage_whole
  K := PEmpty
  osem k := k.elim
  ho := Pipeline.OwnSemFacts.none _
  hbody c := (k3.body (V9 m (outs dat0 dat1 dat2 dat3 m)) c).loose
  hwaits := Pipeline.hwaits_of_owed_zero _ _ _ _ L lv 3 fun c t => k3.owed_zero (V9 m (outs dat0 dat1 dat2 dat3 m)) c t
  pre c := iprop(StableHlo.held (c : Thread nD τ) (Pipeline.ucRefs τ sig) (V9 m (outs dat0 dat1 dat2 dat3 m) c) ∗ R c)
  post c := iprop(StableHlo.held (c : Thread nD τ) (Pipeline.ucRefs τ sig) (V10 m (outs dat0 dat1 dat2 dat3 m) c) ∗ R c)
  X c := iprop(∃ r, prngReg c r)
  Y c := iprop(∃ r, prngReg c r)
  Z c := Pipeline.unscopedRest (Ix := Unit) (Name := ℕ) (U := UR sig nD τ) (Lvl := ℕ) spec3 c (fun b => V9 m (outs dat0 dat1 dat2 dat3 m) c b)
  hentry c := by
    rw [Pipeline.ownSems0_none]
    have hsplit := Pipeline.arrays_of_unscopedBufs (p := 3) (pcfgs (F := F)) adm (pdats dat0 dat1 dat2 dat3 m) launch3.win launch3.arr_whole c
      (((pdats dat0 dat1 dat2 dat3 m) 3 c).share_full fun w => k3.q_full (V9 m (outs dat0 dat1 dat2 dat3 m)) c w) (fun b => V9 m (outs dat0 dat1 dat2 dat3 m) c b) fun w => k3.A_eq (V9 m (outs dat0 dat1 dat2 dat3 m)) c w
    rw [Pipeline.unscopedBufs_held c (V9 m (outs dat0 dat1 dat2 dat3 m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero ((pdats dat0 dat1 dat2 dat3 m) 3 c) 0 (k3.owed_zero (V9 m (outs dat0 dat1 dat2 dat3 m)) c 0) (k3.recorded_univ (V9 m (outs dat0 dat1 dat2 dat3 m)) c 0))
      iexact HO
    isplitl [Hp]; · iexact Hp
    iexact Hrest
  hin c := by
    refine BIBase.Entails.trans ?_ (k3.hin (V9 m (outs dat0 dat1 dat2 dat3 m)) c)
    unfold Pipeline.ΦA
    iintro ⟨Hp, -, Hr⟩
    isplitl [Hr]; · iexact Hr
    iexact Hp
  hout c := by
    rw [Pipeline.ownSems0_none]
    refine BIBase.Entails.trans (k3.hout (V9 m (outs dat0 dat1 dat2 dat3 m)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats dat0 dat1 dat2 dat3 m) (((pdats dat0 dat1 dat2 dat3 m) 3 c).share_full fun w => k3.q_full (V9 m (outs dat0 dat1 dat2 dat3 m)) c w)
      (fun b => V9 m (outs dat0 dat1 dat2 dat3 m) c b) (fun b => V10 m (outs dat0 dat1 dat2 dat3 m) c b) (((pdats dat0 dat1 dat2 dat3 m) 3 c).arrAt · cfg3.N) (hF3 dat0 dat1 dat2 dat3 m k3 c) (hrest3 dat0 dat1 dat2 dat3 m c)
    rw [Pipeline.unscopedBufs_held c (V10 m (outs dat0 dat1 dat2 dat3 m) c)] at hjoin
    iintro ⟨Ha, HO, HY, Hrest⟩
    imodintro
    isplitl [Ha Hrest]
    · iapply hjoin; isplitl [Ha] <;> iassumption
    isplitl [HY]; · iexact HY
    iapply (owesAt_zero ((pdats dat0 dat1 dat2 dat3 m) 3 c) _ (k3.owed_zero (V9 m (outs dat0 dat1 dat2 dat3 m)) c _))
    iexact HO

/-! ## The run -/

/-- The launch's user element and ghost resources: the pipeline library's at every staging cell, nothing else. -/
theorem hu₀ : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals beside the buffers makes `R` on every core at once. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- `R` ends owing nothing. -/
theorem hE4 (c : Dev nD) : R (F := F) c ⊢ (iprop(∃ W, owes (c : Thread nD τ) (0 : CellTallies nD τ sig Unit) W) : sProp 𝕄) := by
  iintro ⟨-, HO⟩; iexact HO

include k0 k1 k2 k3 in
set_option backward.isDefEq.respectTransparency.types false in
/-- THE FRAME of the program: the generated conditional frame at the four calls' segments. Every weakly fair execution
    of @main from memory `m` with zero counters terminates, and every final memory holds each argument as launched. -/
theorem frame_run (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m (emb₁ : Emb (UR sig nD τ) 𝕄) () Variants.none L lv (fun _ _ => rfl) ρ (outs dat0 dat1 dat2 dat3 m) (pdats dat0 dat1 dat2 dat3 m)
    (0 : Dev nD → CellTallies nD τ sig Unit) (fun _ => iprop(emp)) (initOf (Pipeline.cells cfgs cellOf_inj) (Pipeline.launchToks cfgs cellOf_inj))
    hu₀ (fun _ c => R c) (hE0 ρ) hE4
    (reg0 dat0 dat1 dat2 dat3 m k0) (fun _ => .rfl) (fun _ => .rfl)
    (reg1 dat0 dat1 dat2 dat3 m k1) (fun _ => .rfl) (fun _ => .rfl)
    (reg2 dat0 dat1 dat2 dat3 m k2) (fun _ => .rfl) (fun _ => .rfl)
    (reg3 dat0 dat1 dat2 dat3 m k3) (fun _ => .rfl) (fun _ => .rfl)

include k0 k1 k2 k3 in
-- the launch theorem's implicit arguments are found by unifying its conclusion with this one, which takes unfolding plain
-- definitions in a metavariable's type
set_option backward.isDefEq.respectTransparency.types false in
/-- THE RUN WITH ITS RESULT NAMED: as `frame_run`, and every final memory holds in `main_v53` (the program's result)
    what the last call's write-backs leave there, `outs 10 main_v53`. The same launch over the same segments as the
    generated conditional frame, the last thread state read at one more buffer. -/
theorem value_run (ρ : Dev nD → PrngReg) :
    θ_run defs (onTc (τ := τ) (main (F := F))) ⟨m, fun _ => 0, ρ⟩ (fun r => ∀ c : Dev nD,
      r.2.mem ((c.tc : Thread nD τ).loc main_v53) = outs dat0 dat1 dat2 dat3 m 10 main_v53 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats dat0 dat1 dat2 dat3 m) () cellOf_inj (emb₁ : Emb (UR sig nD τ) 𝕄) defs₀ Variants.none L lv m ρ main
    (segs m (outs dat0 dat1 dat2 dat3 m) Variants.none L lv (fun _ c => R c) () (pdats dat0 dat1 dat2 dat3 m) (reg0 dat0 dat1 dat2 dat3 m k0) (reg1 dat0 dat1 dat2 dat3 m k1) (reg2 dat0 dat1 dat2 dat3 m k2) (reg3 dat0 dat1 dat2 dat3 m k3))
    (fun c Q => by
      rewrite [main_chain c, Seg.run_eq_chain,
        show ((segs m (outs dat0 dat1 dat2 dat3 m) Variants.none L lv (fun _ c => R c) () (pdats dat0 dat1 dat2 dat3 m) (reg0 dat0 dat1 dat2 dat3 m k0) (reg1 dat0 dat1 dat2 dat3 m k1) (reg2 dat0 dat1 dat2 dat3 m k2) (reg3 dat0 dat1 dat2 dat3 m k3)) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (0 : Dev nD → CellTallies nD τ sig Unit) (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ R c))
    (Tₙ := fun c => StableHlo.held (c : Thread nD τ) (Pipeline.ucRefs τ sig) (V10 m (outs dat0 dat1 dat2 dat3 m) c))
    (hch := fun c => ⟨.rfl, .rfl, .rfl, .rfl, .rfl, .rfl, .rfl, .rfl, .rfl, .rfl, sep_mono .rfl (hE4 c)⟩)
    (hinit := ?_)
    (QY := fun c s => s.mem ((c.tc : Thread nD τ).loc main_v53) = outs dat0 dat1 dat2 dat3 m 10 main_v53 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9))
    (hfin := fun c s' => ?_) (hQ := fun _ h => h)
  · -- the launch: the unscoped buffers are held at `V0`; the rest makes `R` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    iapply (bigSep_join (fun c : Dev nD => StableHlo.held (c : Thread nD τ) (Pipeline.ucRefs τ sig) (V0 m c)) (fun c : Dev nD => R (F := F) c))
    isplitl [Hh]; · iexact Hh
    iexact HE
  · -- the end: the result's buffer and each argument's, read off the last valuation
    unfold StableHlo.held
    iintro ⟨Hh, HSI⟩
    ihave Hr := (pointsTo_read_all (Pipeline.ucRefs τ sig) (fun b => ((c : Thread nD τ).1, b)) (V10 m (outs dat0 dat1 dat2 dat3 m) c) s') $$ [Hh HSI]
    · isplitl [Hh] <;> iassumption
    icases Hr with ⟨%h, HSI⟩
    imodintro
    isplitr
    · ipureintro
      exact ⟨(h (Proc.devRef .tc main_v53) (Finset.mem_filter.mpr ⟨StableHlo.devRef_mem_tcRefs main_v53, by decide⟩)).trans (Function.update_self _ _ _),
        (h (Proc.devRef .tc main_arg0) (Finset.mem_filter.mpr ⟨StableHlo.devRef_mem_tcRefs main_arg0, by decide⟩)).trans (V10_main_arg0 m (outs dat0 dat1 dat2 dat3 m) c),
        (h (Proc.devRef .tc main_arg1) (Finset.mem_filter.mpr ⟨StableHlo.devRef_mem_tcRefs main_arg1, by decide⟩)).trans (V10_main_arg1 m (outs dat0 dat1 dat2 dat3 m) c),
        (h (Proc.devRef .tc main_arg2) (Finset.mem_filter.mpr ⟨StableHlo.devRef_mem_tcRefs main_arg2, by decide⟩)).trans (V10_main_arg2 m (outs dat0 dat1 dat2 dat3 m) c),
        (h (Proc.devRef .tc main_arg3) (Finset.mem_filter.mpr ⟨StableHlo.devRef_mem_tcRefs main_arg3, by decide⟩)).trans (V10_main_arg3 m (outs dat0 dat1 dat2 dat3 m) c),
        (h (Proc.devRef .tc main_arg4) (Finset.mem_filter.mpr ⟨StableHlo.devRef_mem_tcRefs main_arg4, by decide⟩)).trans (V10_main_arg4 m (outs dat0 dat1 dat2 dat3 m) c),
        (h (Proc.devRef .tc main_arg5) (Finset.mem_filter.mpr ⟨StableHlo.devRef_mem_tcRefs main_arg5, by decide⟩)).trans (V10_main_arg5 m (outs dat0 dat1 dat2 dat3 m) c),
        (h (Proc.devRef .tc main_arg6) (Finset.mem_filter.mpr ⟨StableHlo.devRef_mem_tcRefs main_arg6, by decide⟩)).trans (V10_main_arg6 m (outs dat0 dat1 dat2 dat3 m) c),
        (h (Proc.devRef .tc main_arg7) (Finset.mem_filter.mpr ⟨StableHlo.devRef_mem_tcRefs main_arg7, by decide⟩)).trans (V10_main_arg7 m (outs dat0 dat1 dat2 dat3 m) c),
        (h (Proc.devRef .tc main_arg8) (Finset.mem_filter.mpr ⟨StableHlo.devRef_mem_tcRefs main_arg8, by decide⟩)).trans (V10_main_arg8 m (outs dat0 dat1 dat2 dat3 m) c),
        (h (Proc.devRef .tc main_arg9) (Finset.mem_filter.mpr ⟨StableHlo.devRef_mem_tcRefs main_arg9, by decide⟩)).trans (V10_main_arg9 m (outs dat0 dat1 dat2 dat3 m) c)⟩
    · iexact HSI

end Run
end Cert.KernelIdeal.RunKit

end
-- ==== Proof.LayerRun0.lean ====
import proofs.«105428_j37495064494476_1_alg».proof.Proof.Gen.KernelIdeal.Launch
import proofs.«105428_j37495064494476_1_alg».proof.Proof.Gen.KernelIdeal.Skeleton
import proofs.«105428_j37495064494476_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The first graph-convolution layer's kernel body, case by case

The body runs at the 64 points `t = 4 * i + k` of a 16 × 4 grid (row block `i`, reduction step `k`).
It keeps a 1024 × 128 accumulator in a buffer of its own across the four steps of a row block:
at `k = 0` the accumulator is first zeroed; at every step it becomes
`acc + A(i,k) · (h(k) · W)`; at `k = 3` the output block is stored as `max (acc + b) 0`.
Which of the two conditionals fire depends on `k = t % 4` alone, so there are three control
cases: `k = 0`, `k ∈ {1, 2}`, `k = 3`. -/

/-! ## The body's branch conditions -/

/-- The first conditional's test (`k = 0`), from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's test (`k = 3`), from the grid coordinates. -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where `k ≠ 3` nothing is stored into the output block and it is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- Where `k = 3` the output block is stored. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S1024x128 .f32 := (Memref.whole cc0_stg4_0 : Memref sig .tc .vmem S1024x128 .f32).view
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
/-- The accumulator: a whole buffer of the kernel's own, passed beside the windows. -/
abbrev scM0_0 : Memref sig .tc .vmem S1024x128 .f32 := Memref.whole cc0_scratch0
abbrev VS0_0 : View sig .tc .vmem S1024x128 .f32 := scM0_0.view

/-- Every other scoped buffer of the core: carried through the region unopened. -/
abbrev restS (c : Dev nD) : sProp 𝕄 :=
  Pipeline.scopedRestBut (Ix := Unit) (Name := ℕ) (U := UR sig nD τ) (Lvl := ℕ) (Val := Elt F) spec0 c [cc0_scratch0]

/-- What the region hands the body before the first point: the accumulator at some contents, the other scoped
    buffers, the generator register at some state. -/
theorem PhiA0_eq (c : Dev nD) :
    (Pipeline.ΦA spec0 c : sProp 𝕄)
      = iprop(iprop((∃ d, owns (c : Thread nD τ) scM0_0 fullShare d) ∗ restS (F := F) c) ∗ (∃ r, prngReg c r)) := by
  unfold Pipeline.ΦA; rw [scopedRest0_split]; simp only [scM0_0, owns_whole]; try rfl

/-! ## The body's triple in each case

Each is a pair of store lists (what ends in the output block's buffer, what ends in the accumulator) with the proof
that the body, run on whole buffers holding the inputs' blocks, ends with exactly those stores made. -/

set_option maxHeartbeats 1000000 in
/-- `k = 0`: the accumulator is zeroed, then accumulated into; the output block's buffer is untouched. -/
noncomputable def kernelRun0_A (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x4096 .bf16) (x1 : Vec F S4096x16 .f32) (x2 : Vec F S16x128 .f32) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨[], ?_, fun xi4 E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- `k ∈ {1, 2}`: the accumulator, holding `xs0`, is accumulated into; the output block's buffer is untouched. -/
noncomputable def kernelRun0_B (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x4096 .bf16) (x1 : Vec F S4096x16 .f32) (x2 : Vec F S16x128 .f32) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨[], ?_, fun xi4 E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- `k = 3`: the accumulator, holding `xs0`, is accumulated into, and the output block is stored from it. -/
noncomputable def kernelRun0_C (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x4096 .bf16) (x1 : Vec F S4096x16 .f32) (x2 : Vec F S16x128 .f32) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨?_, ?_, fun E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Layer0

end
-- ==== Proof.LayerBody0.lean ====
import proofs.«105428_j37495064494476_1_alg».proof.Proof.LayerRun0

set_option maxRecDepth 16384

noncomputable section

namespace Cert.KernelIdeal.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The first graph-convolution layer as a region: proof data, body obligation, what it leaves

The region is stated at ANY contents `V` of the core's buffers at its entry. The accumulator after
each point, and the output block's staging buffer after the points `k = 3`, are defined by recursion on
the point; the region invariant carries the accumulator at that value, every other scoped buffer unopened. -/

variable (V : Dev nD → Valuation τ sig (Elt F))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- `k = 0` stores nothing into the output block's buffer: a placeholder nothing consults. -/
def out0_A_4 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x4096 .bf16) (x1 : Vec F S4096x16 .f32) (x2 : Vec F S16x128 .f32) (x3 : Vec F S1x128 .f32) : Vec F S1024x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- The stores of `k = 0` into the accumulator cover it. -/
theorem scover0_A_0 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x4096 .bf16) (x1 : Vec F S4096x16 .f32) (x2 : Vec F S16x128 .f32) (x3 : Vec F S1x128 .f32) (y : S1024x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x128.size (by sl_kernel_rfl) y

/-- What `k = 0` leaves in the accumulator. -/
def sout0_A_0 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x4096 .bf16) (x1 : Vec F S4096x16 .f32) (x2 : Vec F S16x128 .f32) (x3 : Vec F S1x128 .f32) : Vec F S1024x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- `k ∈ {1, 2}` stores nothing into the output block's buffer: a placeholder nothing consults. -/
def out0_B_4 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x4096 .bf16) (x1 : Vec F S4096x16 .f32) (x2 : Vec F S16x128 .f32) (x3 : Vec F S1x128 .f32) (xs0 : Vec F S1024x128 .f32) : Vec F S1024x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

theorem scover0_B_0 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x4096 .bf16) (x1 : Vec F S4096x16 .f32) (x2 : Vec F S16x128 .f32) (x3 : Vec F S1x128 .f32) (xs0 : Vec F S1024x128 .f32) (y : S1024x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x128.size (by sl_kernel_rfl) y

/-- What `k ∈ {1, 2}` leaves in the accumulator. -/
def sout0_B_0 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x4096 .bf16) (x1 : Vec F S4096x16 .f32) (x2 : Vec F S16x128 .f32) (x3 : Vec F S1x128 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- The store of `k = 3` into the output block's buffer covers it. -/
theorem cover0_C_4 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x4096 .bf16) (x1 : Vec F S4096x16 .f32) (x2 : Vec F S16x128 .f32) (x3 : Vec F S1x128 .f32) (xs0 : Vec F S1024x128 .f32) (y : S1024x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x128.size (by sl_kernel_rfl) y

/-- What `k = 3` leaves in the output block's buffer. -/
def out0_C_4 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x4096 .bf16) (x1 : Vec F S4096x16 .f32) (x2 : Vec F S16x128 .f32) (x3 : Vec F S1x128 .f32) (xs0 : Vec F S1024x128 .f32) : Vec F S1024x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x4096 .bf16) (x1 : Vec F S4096x16 .f32) (x2 : Vec F S16x128 .f32) (x3 : Vec F S1x128 .f32) (xs0 : Vec F S1024x128 .f32) (y : S1024x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x128.size (by sl_kernel_rfl) y

/-- What `k = 3` leaves in the accumulator. -/
def sout0_C_0 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x4096 .bf16) (x1 : Vec F S4096x16 .f32) (x2 : Vec F S16x128 .f32) (x3 : Vec F S1x128 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output block's buffer and the accumulator hold after each point -/

/-- After the body at position `n`: (the output block's staging buffer, the accumulator). The case is selected by
    `n % 4`; the cases `k ≠ 0` start from the accumulator the point before left. -/
def outsAt0 (c : Dev nD) : (n : ℕ) → n < cfg0.N → Vec F S1024x128 .f32 × Vec F S1024x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 4 = 0 then
      if h1 : (n + 1) % 4 = 3 then
        False.elim (by have hN : n + 1 < 64 := lt_of_lt_of_eq hn (show cfg0.N = 64 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk V c 0 t) (iblk V c 1 t) (iblk V c 2 t) (iblk V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the region is handed; afterwards the
    accumulator at what the point before left, the other scoped buffers unopened, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS (F := F) c) ∗ (∃ r, prngReg c r)) := by
  cases n with
  | zero => exact absurd rfl hz
  | succ n => rfl

/-! ## The region's proof data -/

/-- The proof data on core `c`, entered from contents `V`: after the body at point `t` each input's buffer holds its
    block, the output's what `outsAt0` says; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk V c 0 t :=
  before0_0_of V (dat0 V c) (A_eq0 V c 0) (after0_0 V c) t d
theorem before0_1 (c : Dev nD) (t : Fin cfg0.N) (d) : (dat0 V c).before 1 t d = iblk V c 1 t :=
  before0_1_of V (dat0 V c) (A_eq0 V c 1) (after0_1 V c) t d
theorem before0_2 (c : Dev nD) (t : Fin cfg0.N) (d) : (dat0 V c).before 2 t d = iblk V c 2 t :=
  before0_2_of V (dat0 V c) (A_eq0 V c 2) (after0_2 V c) t d
theorem before0_3 (c : Dev nD) (t : Fin cfg0.N) (d) : (dat0 V c).before 3 t d = iblk V c 3 t :=
  before0_3_of V (dat0 V c) (A_eq0 V c 3) (after0_3 V c) t d

/-! ## The body obligation -/

/-- What the body is called with at point `t`, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: `t % 4` selects the case; the inputs' buffers hold their blocks; the invariant hands over
    the accumulator (at anything before the first point, else at what the point before left) and takes it back at
    this point's value; the other scoped buffers and the generator register pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk V c 0 t) (iblk V c 1 t) (iblk V c 2 t) (iblk V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk V c 0 t) (iblk V c 1 t) (iblk V c 2 t) (iblk V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the same resources back: the accumulator's value is forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out V c _ (by rw [Fin.val_last]; have : cfg0.N = 64 := N_0; omega)

end Cert.KernelIdeal.Layer0

end
-- ==== Proof.LayerRun1.lean ====
import proofs.«105428_j37495064494476_1_alg».proof.Proof.Gen.KernelIdeal.Launch
import proofs.«105428_j37495064494476_1_alg».proof.Proof.Gen.KernelIdeal.Skeleton
import proofs.«105428_j37495064494476_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The second graph-convolution layer's kernel body, case by case

The body runs at the 64 points `t = 4 * i + k` of a 16 × 4 grid (row block `i`, reduction step `k`).
It keeps a 1024 × 128 accumulator in a buffer of its own across the four steps of a row block:
at `k = 0` the accumulator is first zeroed; at every step it becomes
`acc + A(i,k) · (h(k) · W)`; at `k = 3` the output block is stored as `max (acc + b) 0`.
Which of the two conditionals fire depends on `k = t % 4` alone, so there are three control
cases: `k = 0`, `k ∈ {1, 2}`, `k = 3`. -/

/-! ## The body's branch conditions -/

/-- The first conditional's test (`k = 0`), from the grid coordinates. -/
abbrev cond1_0 (i : grid1.Coords) : Prop := (Scalar.cmpi .ne (Scalar.extui (Scalar.cmpi .eq (BitVec.ofNat 32 (i 1).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's test (`k = 3`), from the grid coordinates. -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where `k ≠ 3` nothing is stored into the output block and it is not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- Where `k = 3` the output block is stored. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S1024x128 .f32 := (Memref.whole cc1_stg4_0 : Memref sig .tc .vmem S1024x128 .f32).view
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The accumulator: a whole buffer of the kernel's own, passed beside the windows. -/
abbrev scM1_0 : Memref sig .tc .vmem S1024x128 .f32 := Memref.whole cc1_scratch0
abbrev VS1_0 : View sig .tc .vmem S1024x128 .f32 := scM1_0.view

/-- Every other scoped buffer of the core: carried through the region unopened. -/
abbrev restS (c : Dev nD) : sProp 𝕄 :=
  Pipeline.scopedRestBut (Ix := Unit) (Name := ℕ) (U := UR sig nD τ) (Lvl := ℕ) (Val := Elt F) spec1 c [cc1_scratch0]

/-- What the region hands the body before the first point: the accumulator at some contents, the other scoped
    buffers, the generator register at some state. -/
theorem PhiA1_eq (c : Dev nD) :
    (Pipeline.ΦA spec1 c : sProp 𝕄)
      = iprop(iprop((∃ d, owns (c : Thread nD τ) scM1_0 fullShare d) ∗ restS (F := F) c) ∗ (∃ r, prngReg c r)) := by
  unfold Pipeline.ΦA; rw [scopedRest1_split]; simp only [scM1_0, owns_whole]; try rfl

/-! ## The body's triple in each case

Each is a pair of store lists (what ends in the output block's buffer, what ends in the accumulator) with the proof
that the body, run on whole buffers holding the inputs' blocks, ends with exactly those stores made. -/

set_option maxHeartbeats 1000000 in
/-- `k = 0`: the accumulator is zeroed, then accumulated into; the output block's buffer is untouched. -/
noncomputable def kernelRun1_A (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x4096 .bf16) (x1 : Vec F S4096x128 .f32) (x2 : Vec F S128x128 .f32) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨[], ?_, fun xi4 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- `k ∈ {1, 2}`: the accumulator, holding `xs0`, is accumulated into; the output block's buffer is untouched. -/
noncomputable def kernelRun1_B (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x4096 .bf16) (x1 : Vec F S4096x128 .f32) (x2 : Vec F S128x128 .f32) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨[], ?_, fun xi4 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- `k = 3`: the accumulator, holding `xs0`, is accumulated into, and the output block is stored from it. -/
noncomputable def kernelRun1_C (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x4096 .bf16) (x1 : Vec F S4096x128 .f32) (x2 : Vec F S128x128 .f32) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨?_, ?_, fun E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Layer1

end
-- ==== Proof.LayerBody1.lean ====
import proofs.«105428_j37495064494476_1_alg».proof.Proof.LayerRun1

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The second graph-convolution layer as a region: proof data, body obligation, what it leaves

The region is stated at ANY contents `V` of the core's buffers at its entry. The accumulator after
each point, and the output block's staging buffer after the points `k = 3`, are defined by recursion on
the point; the region invariant carries the accumulator at that value, every other scoped buffer unopened. -/

variable (V : Dev nD → Valuation τ sig (Elt F))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- `k = 0` stores nothing into the output block's buffer: a placeholder nothing consults. -/
def out1_A_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x4096 .bf16) (x1 : Vec F S4096x128 .f32) (x2 : Vec F S128x128 .f32) (x3 : Vec F S1x128 .f32) : Vec F S1024x128 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- The stores of `k = 0` into the accumulator cover it. -/
theorem scover1_A_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x4096 .bf16) (x1 : Vec F S4096x128 .f32) (x2 : Vec F S128x128 .f32) (x3 : Vec F S1x128 .f32) (y : S1024x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x128.size (by sl_kernel_rfl) y

/-- What `k = 0` leaves in the accumulator. -/
def sout1_A_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x4096 .bf16) (x1 : Vec F S4096x128 .f32) (x2 : Vec F S128x128 .f32) (x3 : Vec F S1x128 .f32) : Vec F S1024x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- `k ∈ {1, 2}` stores nothing into the output block's buffer: a placeholder nothing consults. -/
def out1_B_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x4096 .bf16) (x1 : Vec F S4096x128 .f32) (x2 : Vec F S128x128 .f32) (x3 : Vec F S1x128 .f32) (xs0 : Vec F S1024x128 .f32) : Vec F S1024x128 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

theorem scover1_B_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x4096 .bf16) (x1 : Vec F S4096x128 .f32) (x2 : Vec F S128x128 .f32) (x3 : Vec F S1x128 .f32) (xs0 : Vec F S1024x128 .f32) (y : S1024x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x128.size (by sl_kernel_rfl) y

/-- What `k ∈ {1, 2}` leaves in the accumulator. -/
def sout1_B_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x4096 .bf16) (x1 : Vec F S4096x128 .f32) (x2 : Vec F S128x128 .f32) (x3 : Vec F S1x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- The store of `k = 3` into the output block's buffer covers it. -/
theorem cover1_C_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x4096 .bf16) (x1 : Vec F S4096x128 .f32) (x2 : Vec F S128x128 .f32) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x128.size (by sl_kernel_rfl) y

/-- What `k = 3` leaves in the output block's buffer. -/
def out1_C_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x4096 .bf16) (x1 : Vec F S4096x128 .f32) (x2 : Vec F S128x128 .f32) (x3 : Vec F S1x128 .f32) (xs0 : Vec F S1024x128 .f32) : Vec F S1024x128 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

theorem scover1_C_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x4096 .bf16) (x1 : Vec F S4096x128 .f32) (x2 : Vec F S128x128 .f32) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x128.size (by sl_kernel_rfl) y

/-- What `k = 3` leaves in the accumulator. -/
def sout1_C_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x4096 .bf16) (x1 : Vec F S4096x128 .f32) (x2 : Vec F S128x128 .f32) (x3 : Vec F S1x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the output block's buffer and the accumulator hold after each point -/

/-- After the body at position `n`: (the output block's staging buffer, the accumulator). The case is selected by
    `n % 4`; the cases `k ≠ 0` start from the accumulator the point before left. -/
def outsAt1 (c : Dev nD) : (n : ℕ) → n < cfg1.N → Vec F S1024x128 .f32 × Vec F S1024x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 4 = 0 then
      if h1 : (n + 1) % 4 = 3 then
        False.elim (by have hN : n + 1 < 64 := lt_of_lt_of_eq hn (show cfg1.N = 64 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk V c 0 t) (iblk V c 1 t) (iblk V c 2 t) (iblk V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk V c 0 t) (iblk V c 1 t) (iblk V c 2 t) (iblk V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk V c 0 t) (iblk V c 1 t) (iblk V c 2 t) (iblk V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the region is handed; afterwards the
    accumulator at what the point before left, the other scoped buffers unopened, the generator register at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restS (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2) ∗ restS (F := F) c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ restS (F := F) c) ∗ (∃ r, prngReg c r)) := by
  cases n with
  | zero => exact absurd rfl hz
  | succ n => rfl

/-! ## The region's proof data -/

/-- The proof data on core `c`, entered from contents `V`: after the body at point `t` each input's buffer holds its
    block, the output's what `outsAt1` says; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = iblk V c 2 t := by dsimp only [dat1]
theorem after1_3 (c : Dev nD) (t : Fin cfg1.N) : (dat1 V c).after 3 t = iblk V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk V c 0 t :=
  before1_0_of V (dat1 V c) (A_eq1 V c 0) (after1_0 V c) t d
theorem before1_1 (c : Dev nD) (t : Fin cfg1.N) (d) : (dat1 V c).before 1 t d = iblk V c 1 t :=
  before1_1_of V (dat1 V c) (A_eq1 V c 1) (after1_1 V c) t d
theorem before1_2 (c : Dev nD) (t : Fin cfg1.N) (d) : (dat1 V c).before 2 t d = iblk V c 2 t :=
  before1_2_of V (dat1 V c) (A_eq1 V c 2) (after1_2 V c) t d
theorem before1_3 (c : Dev nD) (t : Fin cfg1.N) (d) : (dat1 V c).before 3 t d = iblk V c 3 t :=
  before1_3_of V (dat1 V c) (A_eq1 V c 3) (after1_3 V c) t d

/-! ## The body obligation -/

/-- What the body is called with at point `t`, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: `t % 4` selects the case; the inputs' buffers hold their blocks; the invariant hands over
    the accumulator (at anything before the first point, else at what the point before left) and takes it back at
    this point's value; the other scoped buffers and the generator register pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk V c 0 t) (iblk V c 1 t) (iblk V c 2 t) (iblk V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk V c 0 t) (iblk V c 1 t) (iblk V c 2 t) (iblk V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the same resources back: the accumulator's value is forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out V c _ (by rw [Fin.val_last]; have : cfg1.N = 64 := N_1; omega)

end Cert.KernelIdeal.Layer1

end
-- ==== Proof.LayerRun2.lean ====
import proofs.«105428_j37495064494476_1_alg».proof.Proof.Gen.KernelIdeal.Launch
import proofs.«105428_j37495064494476_1_alg».proof.Proof.Gen.KernelIdeal.Skeleton
import proofs.«105428_j37495064494476_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The third graph-convolution layer's kernel body, case by case

The body runs at the 64 points `t = 4 * i + k` of a 16 × 4 grid (row block `i`, reduction step `k`).
It keeps a 1024 × 128 accumulator in a buffer of its own across the four steps of a row block:
at `k = 0` the accumulator is first zeroed; at every step it becomes
`acc + A(i,k) · (h(k) · W)`; at `k = 3` the output block is stored as `max (acc + b) 0`.
Which of the two conditionals fire depends on `k = t % 4` alone, so there are three control
cases: `k = 0`, `k ∈ {1, 2}`, `k = 3`. -/

/-! ## The body's branch conditions -/

/-- The first conditional's test (`k = 0`), from the grid coordinates. -/
abbrev cond2_0 (i : grid2.Coords) : Prop := (Scalar.cmpi .ne (Scalar.extui (Scalar.cmpi .eq (BitVec.ofNat 32 (i 1).val) 0#32)) 0#32) = 1#1
/-- It holds exactly at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's test (`k = 3`), from the grid coordinates. -/
abbrev cond2_1 (i : grid2.Coords) : Prop := k2_cond2 i = 1#1
/-- It holds exactly at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where `k ≠ 3` nothing is stored into the output block and it is not written back. -/
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
/-- Where `k = 3` the output block is stored. -/
theorem liveAt2_4_C : ∀ t : Fin cfg2.N, ¬cond2_0 (grid2.coords t) → cond2_1 (grid2.coords t) → cfg2.idle 4 (grid2.coords t) = false := by decide +kernel

/-! ## The memrefs the body is called with -/

/-- One staging buffer of the output window, through which its contents are stated. -/
abbrev VO2_4 : View sig .tc .vmem S1024x128 .f32 := (Memref.whole cc2_stg4_0 : Memref sig .tc .vmem S1024x128 .f32).view
abbrev ms2_0 (t : Fin cfg2.N) : Memref sig .tc .vmem S1024x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x128 .f32 := win2_4.stage (cfg2.slots t 4)
abbrev hs2_4 (t : Fin cfg2.N) : (ms2_4 t).IsWhole := hstage2_4 ((cfg2.slots t 4).cast nbuf2_4)
/-- The accumulator: a whole buffer of the kernel's own, passed beside the windows. -/
abbrev scM2_0 : Memref sig .tc .vmem S1024x128 .f32 := Memref.whole cc2_scratch0
abbrev VS2_0 : View sig .tc .vmem S1024x128 .f32 := scM2_0.view

/-- Every other scoped buffer of the core: carried through the region unopened. -/
abbrev restS (c : Dev nD) : sProp 𝕄 :=
  Pipeline.scopedRestBut (Ix := Unit) (Name := ℕ) (U := UR sig nD τ) (Lvl := ℕ) (Val := Elt F) spec2 c [cc2_scratch0]

/-- What the region hands the body before the first point: the accumulator at some contents, the other scoped
    buffers, the generator register at some state. -/
theorem PhiA2_eq (c : Dev nD) :
    (Pipeline.ΦA spec2 c : sProp 𝕄)
      = iprop(iprop((∃ d, owns (c : Thread nD τ) scM2_0 fullShare d) ∗ restS (F := F) c) ∗ (∃ r, prngReg c r)) := by
  unfold Pipeline.ΦA; rw [scopedRest2_split]; simp only [scM2_0, owns_whole]; try rfl

/-! ## The body's triple in each case

Each is a pair of store lists (what ends in the output block's buffer, what ends in the accumulator) with the proof
that the body, run on whole buffers holding the inputs' blocks, ends with exactly those stores made. -/

set_option maxHeartbeats 1000000 in
/-- `k = 0`: the accumulator is zeroed, then accumulated into; the output block's buffer is untouched. -/
noncomputable def kernelRun2_A (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : ¬cond2_1 i)
    (x0 : Vec F S1024x4096 .bf16) (x1 : Vec F S4096x128 .f32) (x2 : Vec F S128x128 .f32) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨[], ?_, fun xi4 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- `k ∈ {1, 2}`: the accumulator, holding `xs0`, is accumulated into; the output block's buffer is untouched. -/
noncomputable def kernelRun2_B (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : ¬cond2_1 i)
    (x0 : Vec F S1024x4096 .bf16) (x1 : Vec F S4096x128 .f32) (x2 : Vec F S128x128 .f32) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨[], ?_, fun xi4 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- `k = 3`: the accumulator, holding `xs0`, is accumulated into, and the output block is stored from it. -/
noncomputable def kernelRun2_C (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : cond2_1 i)
    (x0 : Vec F S1024x4096 .bf16) (x1 : Vec F S4096x128 .f32) (x2 : Vec F S128x128 .f32) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨?_, ?_, fun E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Layer2

end
-- ==== Proof.LayerBody2.lean ====
import proofs.«105428_j37495064494476_1_alg».proof.Proof.LayerRun2

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The third graph-convolution layer as a region: proof data, body obligation, what it leaves

The region is stated at ANY contents `V` of the core's buffers at its entry. The accumulator after
each point, and the output block's staging buffer after the points `k = 3`, are defined by recursion on
the point; the region invariant carries the accumulator at that value, every other scoped buffer unopened. -/

variable (V : Dev nD → Valuation τ sig (Elt F))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- `k = 0` stores nothing into the output block's buffer: a placeholder nothing consults. -/
def out2_A_4 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : ¬cond2_1 i)
    (x0 : Vec F S1024x4096 .bf16) (x1 : Vec F S4096x128 .f32) (x2 : Vec F S128x128 .f32) (x3 : Vec F S1x128 .f32) : Vec F S1024x128 .f32 :=
  VO2_4.read (Elt F) (VO2_4.writes (Elt F) VO2_4.junk (kernelRun2_A c i arg2 harg2 arg3 harg3 arg4 harg4 arg5 harg5 arg6 harg6 arg7 harg7 hc0 hc1 x0 x1 x2 x3).1)

/-- The stores of `k = 0` into the accumulator cover it. -/
theorem scover2_A_0 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : ¬cond2_1 i)
    (x0 : Vec F S1024x4096 .bf16) (x1 : Vec F S4096x128 .f32) (x2 : Vec F S128x128 .f32) (x3 : Vec F S1x128 .f32) (y : S1024x128.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S1024x128.size (by sl_kernel_rfl) y

/-- What `k = 0` leaves in the accumulator. -/
def sout2_A_0 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : ¬cond2_1 i)
    (x0 : Vec F S1024x4096 .bf16) (x1 : Vec F S4096x128 .f32) (x2 : Vec F S128x128 .f32) (x3 : Vec F S1x128 .f32) : Vec F S1024x128 .f32 :=
  VS2_0.read (Elt F) (VS2_0.writes (Elt F) VS2_0.junk (kernelRun2_A c i arg2 harg2 arg3 harg3 arg4 harg4 arg5 harg5 arg6 harg6 arg7 harg7 hc0 hc1 x0 x1 x2 x3).2.1)

/-- `k ∈ {1, 2}` stores nothing into the output block's buffer: a placeholder nothing consults. -/
def out2_B_4 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : ¬cond2_1 i)
    (x0 : Vec F S1024x4096 .bf16) (x1 : Vec F S4096x128 .f32) (x2 : Vec F S128x128 .f32) (x3 : Vec F S1x128 .f32) (xs0 : Vec F S1024x128 .f32) : Vec F S1024x128 .f32 :=
  VO2_4.read (Elt F) (VO2_4.writes (Elt F) VO2_4.junk (kernelRun2_B c i arg2 harg2 arg3 harg3 arg4 harg4 arg5 harg5 arg6 harg6 arg7 harg7 hc0 hc1 x0 x1 x2 x3 xs0).1)

theorem scover2_B_0 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : ¬cond2_1 i)
    (x0 : Vec F S1024x4096 .bf16) (x1 : Vec F S4096x128 .f32) (x2 : Vec F S128x128 .f32) (x3 : Vec F S1x128 .f32) (xs0 : Vec F S1024x128 .f32) (y : S1024x128.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S1024x128.size (by sl_kernel_rfl) y

/-- What `k ∈ {1, 2}` leaves in the accumulator. -/
def sout2_B_0 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : ¬cond2_1 i)
    (x0 : Vec F S1024x4096 .bf16) (x1 : Vec F S4096x128 .f32) (x2 : Vec F S128x128 .f32) (x3 : Vec F S1x128 .f32) (xs0 : Vec F S1024x128 .f32) : Vec F S1024x128 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).2.1)

/-- The store of `k = 3` into the output block's buffer covers it. -/
theorem cover2_C_4 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : cond2_1 i)
    (x0 : Vec F S1024x4096 .bf16) (x1 : Vec F S4096x128 .f32) (x2 : Vec F S128x128 .f32) (x3 : Vec F S1x128 .f32) (xs0 : Vec F S1024x128 .f32) (y : S1024x128.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S1024x128.size (by sl_kernel_rfl) y

/-- What `k = 3` leaves in the output block's buffer. -/
def out2_C_4 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : cond2_1 i)
    (x0 : Vec F S1024x4096 .bf16) (x1 : Vec F S4096x128 .f32) (x2 : Vec F S128x128 .f32) (x3 : Vec F S1x128 .f32) (xs0 : Vec F S1024x128 .f32) : Vec F S1024x128 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)

theorem scover2_C_0 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : cond2_1 i)
    (x0 : Vec F S1024x4096 .bf16) (x1 : Vec F S4096x128 .f32) (x2 : Vec F S128x128 .f32) (x3 : Vec F S1x128 .f32) (xs0 : Vec F S1024x128 .f32) (y : S1024x128.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S1024x128.size (by sl_kernel_rfl) y

/-- What `k = 3` leaves in the accumulator. -/
def sout2_C_0 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : cond2_1 i)
    (x0 : Vec F S1024x4096 .bf16) (x1 : Vec F S4096x128 .f32) (x2 : Vec F S128x128 .f32) (x3 : Vec F S1x128 .f32) (xs0 : Vec F S1024x128 .f32) : Vec F S1024x128 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)

/-! ## What the output block's buffer and the accumulator hold after each point -/

/-- After the body at position `n`: (the output block's staging buffer, the accumulator). The case is selected by
    `n % 4`; the cases `k ≠ 0` start from the accumulator the point before left. -/
def outsAt2 (c : Dev nD) : (n : ℕ) → n < cfg2.N → Vec F S1024x128 .f32 × Vec F S1024x128 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk V c 0 ⟨0, hn⟩) (iblk V c 1 ⟨0, hn⟩) (iblk V c 2 ⟨0, hn⟩) (iblk V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 4 = 0 then
      if h1 : (n + 1) % 4 = 3 then
        False.elim (by have hN : n + 1 < 64 := lt_of_lt_of_eq hn (show cfg2.N = 64 from N_2); omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 4 = 3 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk V c 0 t) (iblk V c 1 t) (iblk V c 2 t) (iblk V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk V c 0 t) (iblk V c 1 t) (iblk V c 2 t) (iblk V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk V c 0 t) (iblk V c 1 t) (iblk V c 2 t) (iblk V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk V c 0 t) (iblk V c 1 t) (iblk V c 2 t) (iblk V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk V c 0 t) (iblk V c 1 t) (iblk V c 2 t) (iblk V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the region is handed; afterwards the
    accumulator at what the point before left, the other scoped buffers unopened, the generator register at some state. -/
def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restS (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2_0 fullShare ((outsAt2 V c n hn).2) ∗ restS (F := F) c) ∗ (∃ r, prngReg c r)) := rfl

theorem PhiS_pos (c : Dev nD) (n : ℕ) (h : n ≤ cfg2.N) (hz : n ≠ 0) :
    PhiS V c n h = iprop(iprop(owns (c : Thread nD τ) scM2_0 fullShare ((outsAt2 V c (n - 1) (by omega)).2) ∗ restS (F := F) c) ∗ (∃ r, prngReg c r)) := by
  cases n with
  | zero => exact absurd rfl hz
  | succ n => rfl

/-! ## The region's proof data -/

/-- The proof data on core `c`, entered from contents `V`: after the body at point `t` each input's buffer holds its
    block, the output's what `outsAt2` says; nothing owed; full shares. -/
def dat2 (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk V c 0 t := by dsimp only [dat2]
theorem after2_1 (c : Dev nD) (t : Fin cfg2.N) : (dat2 V c).after 1 t = iblk V c 1 t := by dsimp only [dat2]
theorem after2_2 (c : Dev nD) (t : Fin cfg2.N) : (dat2 V c).after 2 t = iblk V c 2 t := by dsimp only [dat2]
theorem after2_3 (c : Dev nD) (t : Fin cfg2.N) : (dat2 V c).after 3 t = iblk V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk V c 0 t :=
  before2_0_of V (dat2 V c) (A_eq2 V c 0) (after2_0 V c) t d
theorem before2_1 (c : Dev nD) (t : Fin cfg2.N) (d) : (dat2 V c).before 1 t d = iblk V c 1 t :=
  before2_1_of V (dat2 V c) (A_eq2 V c 1) (after2_1 V c) t d
theorem before2_2 (c : Dev nD) (t : Fin cfg2.N) (d) : (dat2 V c).before 2 t d = iblk V c 2 t :=
  before2_2_of V (dat2 V c) (A_eq2 V c 2) (after2_2 V c) t d
theorem before2_3 (c : Dev nD) (t : Fin cfg2.N) (d) : (dat2 V c).before 3 t d = iblk V c 3 t :=
  before2_3_of V (dat2 V c) (A_eq2 V c 3) (after2_3 V c) t d

/-! ## The body obligation -/

/-- What the body is called with at point `t`, -/
def bodyPre (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: `t % 4` selects the case; the inputs' buffers hold their blocks; the invariant hands over
    the accumulator (at anything before the first point, else at what the point before left) and takes it back at
    this point's value; the other scoped buffers and the generator register pass through. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  have hN : t.val < 64 := lt_of_lt_of_eq t.isLt (show cfg2.N = 64 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0; (try dsimp only)
      by_cases hz : t.val = 0
      · rw [PhiS_castSucc V c t, PhiS_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk V c 0 t) (iblk V c 1 t) (iblk V c 2 t) (iblk V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk V c 0 t) (iblk V c 1 t) (iblk V c 2 t) (iblk V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the same resources back: the accumulator's value is forgotten. -/
theorem Phi_out (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out V c _ (by rw [Fin.val_last]; have : cfg2.N = 64 := N_2; omega)

end Cert.KernelIdeal.Layer2

end
-- ==== Proof.FcBody.lean ====
import proofs.«105428_j37495064494476_1_alg».proof.Proof.Gen.KernelIdeal.Launch
import proofs.«105428_j37495064494476_1_alg».proof.Proof.Gen.KernelIdeal.Skeleton
import proofs.«105428_j37495064494476_1_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

/-!
# The dense head: h @ Wfc + bfc, one 1024 × 1024 tile of the result per grid point

The last kernel region runs over a 16 × 16 grid. At point (p, q) it is handed rows
1024 p … 1024 p + 1023 of the hidden features (a 1024 × 128 block), columns
1024 q … 1024 q + 1023 of the weight matrix (128 × 1024) and of the bias row (1 × 1024), and it
overwrites the 1024 × 1024 staging tile of the result with one value computed from those three
blocks. Nothing is kept from point to point and every tile is written back where it belongs, so

* the region's invariant is the plain one (the buffers no window stages, the generator register);
* after the body the three input buffers still hold their blocks and the output buffer holds the
  tile value of those blocks;
* the 256 tiles cover the 16384 × 16384 result exactly, tile (p, q) at rows 1024 p … and columns
  1024 q …, so the array the region leaves is one function of the three arrays it read: at index
  (r, s) the tile value of row block r / 1024 and column block s / 1024, at (r % 1024, s % 1024).
-/

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents when the region is entered, per core: the parameter everything below is stated at. -/
variable (V : Dev nD → Valuation τ sig (Elt F))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (the row block of
    the features is fetched only when the row index moves: unfetched, the index has not moved), for any proof data
    whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer through its whole rectangle -/

abbrev rH : Rect S1024x128 := Rect.unit (s := S1024x128) ![0, 0] S1024x128.size inb_S1024x128_S1024x128_0_0
abbrev rW : Rect S128x1024 := Rect.unit (s := S128x1024) ![0, 0] S128x1024.size inb_S128x1024_S128x1024_0_0
abbrev rB : Rect S1x1024 := Rect.unit (s := S1x1024) ![0, 0] S1x1024.size inb_S1x1024_S1x1024_0_0
abbrev rO : Rect S1024x1024 := Rect.unit (s := S1024x1024) ![0, 0] S1024x1024.size inb_S1024x1024_S1024x1024_0_0

theorem hz : (![0, 0] : Fin 2 → Nat) = fun _ => 0 := funext fun a => by fin_cases a <;> rfl

/-! ## What the body leaves in the output buffer -/

/-- The output tile after the body, from the three input blocks: its one store, through the whole rectangle. -/
def out3_3 (x0 : Vec F S1024x128 .f32) (x1 : Vec F S128x1024 .f32) (x2 : Vec F S1x1024 .f32) : Vec F S1024x1024 .f32 :=
  View.canon [⟨rO, k3_pay1 (View.ld x0 rH) (View.ld x1 rW) (View.ld x2 rB)⟩]

/-- That store covers the buffer: its rectangle is the whole shape. -/
theorem cover3_3 (p0 : Vec F S1024x1024 .f32) (y : S1024x1024.Idx) :
    ∃ pc ∈ ([⟨rO, p0⟩] : List (View.Piece (Elt F) S1024x1024 .f32)), y ∈ pc.1.set :=
  ⟨_, List.mem_singleton_self _, View.mem_set_unit_zero hz inb_S1024x1024_S1024x1024_0_0 y⟩

/-! ## The body's triple -/

set_option maxHeartbeats 1000000 in
/-- The body on whole staging buffers, the three inputs' at read contents x0, x1, x2 and the output's at anything, runs
    to the continuation holding the inputs' as they were and the output's at the tile value of the inputs'. (The
    body also loads the output buffer before storing into it; the value read is not used.) -/
theorem sound_kernel3 (c : Dev nD) (E : Set ℕ) (i : grid3.Coords)
    (arg2 : Memref sig .tc .vmem S1024x128 .f32) (harg2 : arg2.IsWhole) (arg3 : Memref sig .tc .vmem S128x1024 .f32) (harg3 : arg3.IsWhole)
    (arg4 : Memref sig .tc .vmem S1x1024 .f32) (harg4 : arg4.IsWhole) (arg5 : Memref sig .tc .vmem S1024x1024 .f32) (harg5 : arg5.IsWhole)
    (x0 : Vec F S1024x128 .f32) (x1 : Vec F S128x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3_3 x0 x1 x2)) -∗ K ⟨⟩))
      ⊢ wp frame (wpE (defs₀ (F := F)) Variants.none c none) E (cc3__fc_kernel i arg2 harg2 arg3 harg3 arg4 harg4 arg5 harg5) K := by
  simp only [cc3__fc_kernel_eq_skeleton]; unfold cc3__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The region's proof data -/

/-- The proof data of the region on core c, entered at the contents V: the arrays as found; after the body at point t
    each input buffer at its block and the output buffer at the tile value of the three blocks; the plain invariant;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- The invariant is entered from, and gives back, the plain one. -/
theorem hin3 (c : Dev nD) : Pipeline.ΦA spec3 c ⊢ (dat3 V c).Φ 0 := .rfl
theorem hout3 (c : Dev nD) : (dat3 V c).Φ (Fin.last cfg3.N) ⊢ Pipeline.ΦA spec3 c := .rfl

/-! ## The body obligation, at a generic point -/

/-- What the body is called with at point t, the windows one by one, -/
def bodyPre (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and
    the core's dues pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body V c t

/-! ## The array the region leaves

The result as ONE function of the three arrays the region read. Row block p of the features is rows 1024 p … of that
array, column block q of the weights and of the bias is columns 1024 q …; the result at (r, s) is the tile value of
row block r / 1024 and column block s / 1024, read at (r % 1024, s % 1024). -/

open ValueIdx in
/-- Rows 1024 p … 1024 p + 1023 of a 16384 × 128 array. -/
def rowBlk (a : S16384x128.Idx → Elt F .f32) (p : Fin 16) : Vec F S1024x128 .f32 := fun y =>
  a (ix2 (⟨p.val * 1024 + (y 0).val, by have := idx2_lt0 y; have := p.isLt; omega⟩ : Fin 16384) (⟨(y 1).val, idx2_lt1 y⟩ : Fin 128))

open ValueIdx in
/-- Columns 1024 q … 1024 q + 1023 of a 128 × 16384 array. -/
def colBlk (a : S128x16384.Idx → Elt F .f32) (q : Fin 16) : Vec F S128x1024 .f32 := fun y =>
  a (ix2 (⟨(y 0).val, idx2_lt0 y⟩ : Fin 128) (⟨q.val * 1024 + (y 1).val, by have := idx2_lt1 y; have := q.isLt; omega⟩ : Fin 16384))

open ValueIdx in
/-- Columns 1024 q … 1024 q + 1023 of a 1 × 16384 row. -/
def biasBlk (a : S1x16384.Idx → Elt F .f32) (q : Fin 16) : Vec F S1x1024 .f32 := fun y =>
  a (ix2 (⟨(y 0).val, idx2_lt0 y⟩ : Fin 1) (⟨q.val * 1024 + (y 1).val, by have := idx2_lt1 y; have := q.isLt; omega⟩ : Fin 16384))

/-- The tile a coordinate below 16384 falls in, -/
def tileOf (n : Nat) (h : n < 16384) : Fin 16 := ⟨n / 1024, by omega⟩
/-- and its place inside the tile. -/
def inTile (n : Nat) : Fin 1024 := ⟨n % 1024, Nat.mod_lt _ (by decide)⟩

theorem tileOf_eq (n : Nat) (h : n < 16384) (p : Fin 16) (r : Nat) (hr : r < 1024) (e : n = p.val * 1024 + r) : tileOf n h = p :=
  Fin.ext (by show n / 1024 = p.val; omega)
theorem inTile_eq (n : Nat) (p r : Nat) (hr : r < 1024) (e : n = p * 1024 + r) : (inTile n).val = r := by
  show n % 1024 = r; omega

open ValueIdx in
/-- The result array from the features a0, the weights a1 and the bias row a2. -/
def fcOut (a0 : S16384x128.Idx → Elt F .f32) (a1 : S128x16384.Idx → Elt F .f32) (a2 : S1x16384.Idx → Elt F .f32) :
    S16384x16384.Idx → Elt F .f32 := fun i =>
  k3_pay1 (rowBlk a0 (tileOf (i 0).val (idx2_lt0 i))) (colBlk a1 (tileOf (i 1).val (idx2_lt1 i))) (biasBlk a2 (tileOf (i 1).val (idx2_lt1 i)))
    (ix2 (inTile (i 0).val) (inTile (i 1).val))

open ValueIdx in
/-- At an index of tile (p, q), at place j inside it, the result is the tile value of row block p and column block q at j. -/
theorem fcOut_at_tile (a0 : S16384x128.Idx → Elt F .f32) (a1 : S128x16384.Idx → Elt F .f32) (a2 : S1x16384.Idx → Elt F .f32)
    (x0 : Vec F S1024x128 .f32) (x1 : Vec F S128x1024 .f32) (x2 : Vec F S1x1024 .f32) (p q : Fin 16)
    (i : S16384x16384.Idx) (j : S1024x1024.Idx)
    (h0 : (i 0).val = p.val * 1024 + (j 0).val) (h1 : (i 1).val = q.val * 1024 + (j 1).val)
    (e0 : x0 = rowBlk a0 p) (e1 : x1 = colBlk a1 q) (e2 : x2 = biasBlk a2 q) :
    k3_pay1 x0 x1 x2 j = fcOut a0 a1 a2 i := by
  subst e0 e1 e2
  have hp : tileOf (i 0).val (idx2_lt0 i) = p := tileOf_eq _ _ p (j 0).val (idx2_lt0 j) h0
  have hq : tileOf (i 1).val (idx2_lt1 i) = q := tileOf_eq _ _ q (j 1).val (idx2_lt1 j) h1
  have hj : ix2 (inTile (i 0).val) (inTile (i 1).val) = j := by
    funext a
    match a with
    | ⟨0, _⟩ => exact Fin.ext (inTile_eq _ p.val (j 0).val (idx2_lt0 j) h0)
    | ⟨1, _⟩ => exact Fin.ext (inTile_eq _ q.val (j 1).val (idx2_lt1 j) h1)
  unfold fcOut
  rw [hp, hq, hj]

/-- The printed index maps over the grid, point t = 16 p + q: the features' block index is (p, 0), the weights' and the
    bias's (0, q), the result's (p, q). -/
theorem idx_facts3 : ∀ t : Fin cfg3.N,
    win3_3.index t (0 : Fin 2) = t.val / 16 ∧ win3_3.index t (1 : Fin 2) = t.val % 16
    ∧ win3_0.index t (0 : Fin 2) = t.val / 16 ∧ win3_0.index t (1 : Fin 2) = 0
    ∧ win3_1.index t (0 : Fin 2) = 0 ∧ win3_1.index t (1 : Fin 2) = t.val % 16
    ∧ win3_2.index t (0 : Fin 2) = 0 ∧ win3_2.index t (1 : Fin 2) = t.val % 16 :=
  (by decide +kernel : ∀ t : Fin grid3.N, _)

theorem lt_N3 (t : Fin cfg3.N) : t.val < 256 := by
  have h : t.val < grid3.N := t.isLt
  rw [N_3] at h; exact h

open ValueIdx in
/-- The features' block at point t is row block t / 16 of the array. -/
theorem iblk3_0_eq (c : Dev nD) (t : Fin cfg3.N) (p : Fin 16) (hp : p.val = t.val / 16) :
    iblk3 V c 0 t = rowBlk (V c (Pipeline.arrRef spec3 0)) p := by
  obtain ⟨e0, e1, e2, e3, e4, e5, e6, e7⟩ := idx_facts3 t
  funext y
  show V c (Pipeline.arrRef spec3 0) (((cfg3.win 0).blk t).view.emb y) = V c (Pipeline.arrRef spec3 0) (ix2 _ _)
  refine congrArg _ ?_
  funext a; apply Fin.ext
  match a with
  | ⟨0, _⟩ => show win3_0.index t (0 : Fin 2) * 1024 + 1 * (y 0).val = p.val * 1024 + (y 0).val; omega
  | ⟨1, _⟩ => show win3_0.index t (1 : Fin 2) * 128 + 1 * (y 1).val = (y 1).val; omega

open ValueIdx in
/-- The weights' block at point t is column block t % 16 of the array. -/
theorem iblk3_1_eq (c : Dev nD) (t : Fin cfg3.N) (q : Fin 16) (hq : q.val = t.val % 16) :
    iblk3 V c 1 t = colBlk (V c (Pipeline.arrRef spec3 1)) q := by
  obtain ⟨e0, e1, e2, e3, e4, e5, e6, e7⟩ := idx_facts3 t
  funext y
  show V c (Pipeline.arrRef spec3 1) (((cfg3.win 1).blk t).view.emb y) = V c (Pipeline.arrRef spec3 1) (ix2 _ _)
  refine congrArg _ ?_
  funext a; apply Fin.ext
  match a with
  | ⟨0, _⟩ => show win3_1.index t (0 : Fin 2) * 128 + 1 * (y 0).val = (y 0).val; omega
  | ⟨1, _⟩ => show win3_1.index t (1 : Fin 2) * 1024 + 1 * (y 1).val = q.val * 1024 + (y 1).val; omega

open ValueIdx in
/-- The bias's block at point t is column block t % 16 of the row. -/
theorem iblk3_2_eq (c : Dev nD) (t : Fin cfg3.N) (q : Fin 16) (hq : q.val = t.val % 16) :
    iblk3 V c 2 t = biasBlk (V c (Pipeline.arrRef spec3 2)) q := by
  obtain ⟨e0, e1, e2, e3, e4, e5, e6, e7⟩ := idx_facts3 t
  funext y
  show V c (Pipeline.arrRef spec3 2) (((cfg3.win 2).blk t).view.emb y) = V c (Pipeline.arrRef spec3 2) (ix2 _ _)
  refine congrArg _ ?_
  funext a; apply Fin.ext
  match a with
  | ⟨0, _⟩ => show win3_2.index t (0 : Fin 2) * 1 + 1 * (y 0).val = (y 0).val; omega
  | ⟨1, _⟩ => show win3_2.index t (1 : Fin 2) * 1024 + 1 * (y 1).val = q.val * 1024 + (y 1).val; omega

/-- What point t writes back is tile t of the result function of the arrays as the region finds them. -/
theorem flushed3_eq (c : Dev nD) (t : Fin cfg3.N) :
    (dat3 V c).flushed 3 t = ((cfg3.win 3).blk t).view.read (Elt F)
      (fcOut (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S1024x128) hz, View.ld_unit_zero (S := S128x1024) hz, View.ld_unit_zero (S := S1x1024) hz]
  obtain ⟨e0, e1, e2, e3, e4, e5, e6, e7⟩ := idx_facts3 t
  have ht := lt_N3 t
  funext j
  show k3_pay1 (iblk3 V c 0 t) (iblk3 V c 1 t) (iblk3 V c 2 t) j
    = fcOut (V c (Pipeline.arrRef spec3 0)) (V c (Pipeline.arrRef spec3 1)) (V c (Pipeline.arrRef spec3 2)) (((cfg3.win 3).blk t).view.emb j)
  refine fcOut_at_tile (V c (Pipeline.arrRef spec3 0)) (V c (Pipeline.arrRef spec3 1)) (V c (Pipeline.arrRef spec3 2))
    (iblk3 V c 0 t) (iblk3 V c 1 t) (iblk3 V c 2 t) ⟨t.val / 16, by omega⟩ ⟨t.val % 16, by omega⟩ (((cfg3.win 3).blk t).view.emb j) j ?_ ?_
    (iblk3_0_eq V c t _ rfl) (iblk3_1_eq V c t _ rfl) (iblk3_2_eq V c t _ rfl)
  · show win3_3.index t (0 : Fin 2) * 1024 + 1 * (j 0).val = t.val / 16 * 1024 + (j 0).val; omega
  · show win3_3.index t (1 : Fin 2) * 1024 + 1 * (j 1).val = t.val % 16 * 1024 + (j 1).val; omega

/-- An index of the result is in point t's tile iff each coordinate is in the tile's range on its axis. -/
theorem mem_blk3 (t : Fin cfg3.N) (i : S16384x16384.Idx) :
    i ∈ ((cfg3.win 3).blk t).view.set ↔ ∀ a : Fin 2, win3_3.index t a * S1024x1024.size a ≤ (i a).val ∧ (i a).val < win3_3.index t a * S1024x1024.size a + S1024x1024.size a := by
  show i ∈ ((View.whole main_v53).slice (win3_3.rect t)).set ↔ _
  rw [View.set_slice_whole, Rect.mem_set_unit]
  exact Iff.rfl

open ValueIdx in
/-- Every index of the result is in the tile of the point 16 (r / 1024) + s / 1024, which writes its tile back. -/
theorem cover3 (i : S16384x16384.Idx) :
    ∃ t : Fin cfg3.N, (cfg3.win 3).flush t = true ∧ i ∈ ((cfg3.win 3).blk t).view.set := by
  have h0 := idx2_lt0 i
  have h1 := idx2_lt1 i
  have hN : (i 0).val / 1024 * 16 + (i 1).val / 1024 < grid3.N := by rw [N_3]; omega
  obtain ⟨e0, e1, -⟩ := idx_facts3 ⟨(i 0).val / 1024 * 16 + (i 1).val / 1024, hN⟩
  refine ⟨⟨(i 0).val / 1024 * 16 + (i 1).val / 1024, hN⟩, flush3_3 _, ?_⟩
  rw [mem_blk3]
  intro a
  match a with
  | ⟨0, _⟩ =>
    show win3_3.index ⟨(i 0).val / 1024 * 16 + (i 1).val / 1024, hN⟩ (0 : Fin 2) * 1024 ≤ (i 0).val
      ∧ (i 0).val < win3_3.index ⟨(i 0).val / 1024 * 16 + (i 1).val / 1024, hN⟩ (0 : Fin 2) * 1024 + 1024
    rw [e0]; show ((i 0).val / 1024 * 16 + (i 1).val / 1024) / 16 * 1024 ≤ _ ∧ _ < ((i 0).val / 1024 * 16 + (i 1).val / 1024) / 16 * 1024 + 1024
    omega
  | ⟨1, _⟩ =>
    show win3_3.index ⟨(i 0).val / 1024 * 16 + (i 1).val / 1024, hN⟩ (1 : Fin 2) * 1024 ≤ (i 1).val
      ∧ (i 1).val < win3_3.index ⟨(i 0).val / 1024 * 16 + (i 1).val / 1024, hN⟩ (1 : Fin 2) * 1024 + 1024
    rw [e1]; show ((i 0).val / 1024 * 16 + (i 1).val / 1024) % 16 * 1024 ≤ _ ∧ _ < ((i 0).val / 1024 * 16 + (i 1).val / 1024) % 16 * 1024 + 1024
    omega

/-- THE RESULT after the region: the result function of the three arrays as the region found them. -/
theorem final3 (c : Dev nD) :
    (dat3 V c).arrAt 3 cfg3.N
      = fcOut (V c (Pipeline.arrRef spec3 0)) (V c (Pipeline.arrRef spec3 1)) (V c (Pipeline.arrRef spec3 2)) :=
  (dat3 V c).arrAt_eq_of_cover 3 _ (fun t _ => flushed3_eq V c t) cover3

/-- The three arrays the region reads are as it found them afterwards. -/
theorem kept3_0 (c : Dev nD) : (dat3 V c).arrAt 0 cfg3.N = V c (Pipeline.arrRef spec3 0) :=
  ((dat3 V c).arrAt_in 0 rfl _).trans (A_eq3 V c 0)
theorem kept3_1 (c : Dev nD) : (dat3 V c).arrAt 1 cfg3.N = V c (Pipeline.arrRef spec3 1) :=
  ((dat3 V c).arrAt_in 1 rfl _).trans (A_eq3 V c 1)
theorem kept3_2 (c : Dev nD) : (dat3 V c).arrAt 2 cfg3.N = V c (Pipeline.arrRef spec3 2) :=
  ((dat3 V c).arrAt_in 2 rfl _).trans (A_eq3 V c 2)

end Cert.KernelIdeal.Fc

end
-- ==== Proof.RegionsRun.lean ====
import proofs.«105428_j37495064494476_1_alg».proof.Proof.RegionsKit
import proofs.«105428_j37495064494476_1_alg».proof.Proof.LayerBody0
import proofs.«105428_j37495064494476_1_alg».proof.Proof.LayerBody1
import proofs.«105428_j37495064494476_1_alg».proof.Proof.LayerBody2
import proofs.«105428_j37495064494476_1_alg».proof.Proof.FcBody

noncomputable section

/-! # The four kernel calls' run, at the calls' own proof data

The several-call run (stated over any per-call proof data) at the three layer calls' and the final dense call's:
`outs` names what each call leaves in its output array, `frame_run` is the program's frame, and `value_run` is the
same run with the result array named: it ends at `outs 10 main_v53`, the last call's output array after its last
point, whose inputs are in turn the earlier calls' output arrays (`outs_4 … outs_10`). -/

namespace Cert.KernelIdeal.Run

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

/-- Call 0's proof data meet what the several-call run asks: the arrays are read off the entry contents (by the
    definition), full shares, nothing owed, no bound on the recorded pairs, and the body's facts. -/
theorem kit0 : RunKit.CallKit cfg0 (Layer0.dat0 (F := F)) where
  A_eq := Layer0.A_eq0
  q_full := fun _ _ _ => rfl
  owed_zero := fun _ _ _ => rfl
  body := Layer0.body_obligation0
  hin := Layer0.hin0
  hout := Layer0.hout0
  recorded_univ := fun _ _ _ => rfl

/-- Call 1's proof data meet what the several-call run asks: the arrays are read off the entry contents (by the
    definition), full shares, nothing owed, no bound on the recorded pairs, and the body's facts. -/
theorem kit1 : RunKit.CallKit cfg1 (Layer1.dat1 (F := F)) where
  A_eq := Layer1.A_eq1
  q_full := fun _ _ _ => rfl
  owed_zero := fun _ _ _ => rfl
  body := Layer1.body_obligation1
  hin := Layer1.hin1
  hout := Layer1.hout1
  recorded_univ := fun _ _ _ => rfl

/-- Call 2's proof data meet what the several-call run asks: the arrays are read off the entry contents (by the
    definition), full shares, nothing owed, no bound on the recorded pairs, and the body's facts. -/
theorem kit2 : RunKit.CallKit cfg2 (Layer2.dat2 (F := F)) where
  A_eq := Layer2.A_eq2
  q_full := fun _ _ _ => rfl
  owed_zero := fun _ _ _ => rfl
  body := Layer2.body_obligation2
  hin := Layer2.hin2
  hout := Layer2.hout2
  recorded_univ := fun _ _ _ => rfl

/-- Call 3's proof data meet what the several-call run asks: the arrays are read off the entry contents (by the
    definition), full shares, nothing owed, no bound on the recorded pairs, and the body's facts. -/
theorem kit3 : RunKit.CallKit cfg3 (Fc.dat3 (F := F)) where
  A_eq := Fc.A_eq3
  q_full := fun _ _ _ => rfl
  owed_zero := fun _ _ _ => rfl
  body := Fc.body_obligation3
  hin := Fc.hin3
  hout := Fc.hout3
  recorded_univ := fun _ _ _ => rfl

variable (m : (ℓ : Loc nD τ sig) → Buf (Elt F) ℓ)

/-- What every call leaves in its output array, per core: `outs 4 main_v47`, `outs 6 main_v49`, `outs 8 main_v51` after
    the three layer calls, `outs 10 main_v53` after the dense call. -/
def outs : Outs (F := F) := RunKit.outs Layer0.dat0 Layer1.dat1 Layer2.dat2 Fc.dat3 m

/-- Every call's proof data, each at its entry contents. -/
def pdats : (p : Fin 4) → (c : Dev nD) → Dat τ (Elt F) Unit ℕ (UR sig nD τ) ℕ (cfgs p) c := RunKit.pdats Layer0.dat0 Layer1.dat1 Layer2.dat2 Fc.dat3 m

/-- Layer call 0 leaves in `main_v47` its output array after the last point, entered from `V3`. -/
theorem outs_4 (c : Dev nD) : outs m 4 main_v47 c = (Layer0.dat0 (V3 m) c).arrAt 4 cfg0.N := RunKit.outs_4 Layer0.dat0 Layer1.dat1 Layer2.dat2 Fc.dat3 m c
/-- Layer call 1 leaves in `main_v49` its output array after the last point, entered from `V5`. -/
theorem outs_6 (c : Dev nD) : outs m 6 main_v49 c = (Layer1.dat1 (V5 m (outs m)) c).arrAt 4 cfg1.N := RunKit.outs_6 Layer0.dat0 Layer1.dat1 Layer2.dat2 Fc.dat3 m c
/-- Layer call 2 leaves in `main_v51` its output array after the last point, entered from `V7`. -/
theorem outs_8 (c : Dev nD) : outs m 8 main_v51 c = (Layer2.dat2 (V7 m (outs m)) c).arrAt 4 cfg2.N := RunKit.outs_8 Layer0.dat0 Layer1.dat1 Layer2.dat2 Fc.dat3 m c
/-- The dense call leaves in `main_v53` its output array after the last point, entered from `V9`. -/
theorem outs_10 (c : Dev nD) : outs m 10 main_v53 c = (Fc.dat3 (V9 m (outs m)) c).arrAt 3 cfg3.N := RunKit.outs_10 Layer0.dat0 Layer1.dat1 Layer2.dat2 Fc.dat3 m c

/-- A later call reads an earlier call's output: the host stretch between them does not write it. -/
theorem V5_main_v47 (c : Dev nD) : V5 m (outs m) c main_v47 = outs m 4 main_v47 c :=
  (V5_of m (outs m) c main_v47 (by decide)).trans (Function.update_self _ _ _)
theorem V7_main_v49 (c : Dev nD) : V7 m (outs m) c main_v49 = outs m 6 main_v49 c :=
  (V7_of m (outs m) c main_v49 (by decide)).trans (Function.update_self _ _ _)
theorem V9_main_v51 (c : Dev nD) : V9 m (outs m) c main_v51 = outs m 8 main_v51 c :=
  (V9_of m (outs m) c main_v51 (by decide)).trans (Function.update_self _ _ _)

/-- THE FRAME: every weakly fair execution of @main from memory `m` with zero counters terminates, and every final
    memory holds each argument as launched. -/
theorem frame_run (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  RunKit.frame_run Layer0.dat0 Layer1.dat1 Layer2.dat2 Fc.dat3 m kit0 kit1 kit2 kit3 ρ

/-- THE RUN WITH ITS RESULT NAMED: moreover every final memory holds in `main_v53` what the dense call leaves there. -/
theorem value_run (ρ : Dev nD → PrngReg) :
    θ_run defs (onTc (τ := τ) (main (F := F))) ⟨m, fun _ => 0, ρ⟩ (fun r => ∀ c : Dev nD,
      r.2.mem ((c.tc : Thread nD τ).loc main_v53) = outs m 10 main_v53 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  RunKit.value_run Layer0.dat0 Layer1.dat1 Layer2.dat2 Fc.dat3 m kit0 kit1 kit2 kit3 ρ

end Cert.KernelIdeal.Run

end
-- ==== Proof.BitsRegionsKit.lean ====
import proofs.«105428_j37495064494476_1_alg».proof.Proof.Gen.Kernel.Regions
import Idealize.ShloMosaic.Lib.Pipeline.FrameBody
import Idealize.ShloMosaic.Lib.Pipeline.RegionsLoop
import Idealize.ShloMosaic.Lib.Pipeline.FrameSuffix

noncomputable section

/-! # A program of four kernel calls among host operations: the run, given each call's proof data

@main is ten items in order: three stretches of host operations, then four kernel calls each followed by nothing or
by one more host stretch. Between two items a core holds every unscoped buffer whole, at contents that are a function
of the launch memory: the launch contents, then each host stretch applied, then — after a call — the call's output
array replaced by what its write-backs leave and every other buffer kept. A call's input arrays are outputs of
earlier calls, so a call's proof data is a FUNCTION of the contents it is entered from, and the contents the calls
leave are chosen in order, each mentioning only the calls before it.

Given, per call, proof data whose arrays are read off the entry contents, that hold full shares, owe nothing, meet
the body obligation and whose invariant is entered from and left at "the scoped buffers no window stages, and the
generator register", every call is a segment entered from "all unscoped buffers at the entry contents" and left at
"all unscoped buffers at the exit contents"; the segments chain; and every weakly fair execution of @main terminates
with each argument array as launched and the result array at what the last call leaves. -/

namespace Cert.Kernel.RunKit

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

/-- The proof data of one pallas_call as a function of the buffer contents the call is entered from. -/
abbrev DatAt (cfg : Pipeline.Cfg sig Λ₀) : Type :=
  (V : Dev nD → Valuation τ sig (Elt F)) → (c : Dev nD) → Dat τ (Elt F) Unit ℕ (UR sig nD τ) ℕ cfg c

/-- What the several-call run needs of one call's proof data, at every entry contents `V`: the arrays are read off
    `V`, full shares, nothing owed, the body obligation, and the invariant entered from and left at the scoped rest
    beside the generator register. -/
structure CallKit (cfg : Pipeline.Cfg sig Λ₀) (dat : DatAt (F := F) cfg) : Prop where
  A_eq : ∀ V c w, (dat V c).A w = V c (Pipeline.arrRef cfg.spec w)
  q_full : ∀ V c w, (dat V c).q w = fullShare
  owed_zero : ∀ V c t, (dat V c).owed t = 0
  body : ∀ V c, BodyObligation (dat V c) (defs₀ (F := F)) Variants.none () Set.univ
  hin : ∀ V c, (Pipeline.ΦA cfg.spec c : sProp 𝕄) ⊢ (dat V c).Φ 0
  hout : ∀ V c, (dat V c).Φ (Fin.last cfg.N) ⊢ (Pipeline.ΦA cfg.spec c : sProp 𝕄)
  recorded_univ : ∀ V c t, (dat V c).recorded t = Set.univ

/-- Proof data that owe nothing before point `t`, with no bound on the recorded pairs there: the core's `owes` at nothing
    is what the pipeline holds at `t`, -/
theorem owesAt_of_zero {cfg : Pipeline.Cfg sig Λ₀} {c : Dev nD} (dat : Dat τ (Elt F) Unit ℕ (UR sig nD τ) ℕ cfg c) (t : Fin (cfg.N + 1))
    (h0 : dat.owed t = 0) (hR : dat.recorded t = Set.univ) :
    (iprop(∃ W, owes (c : Thread nD τ) (0 : CellTallies nD τ sig Unit) W) : sProp 𝕄) ⊢ dat.owesAt () t := by
  unfold Pipeline.Dat.owesAt Pipeline.owesWithin; rw [h0]
  iintro ⟨%W, HO⟩; iexists W; isplitr
  · ipureintro; exact fun x _ => Or.inl (by rw [hR]; trivial)
  iexact HO

/-- and back. -/
theorem owesAt_zero {cfg : Pipeline.Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin; rw [h0]
  iintro ⟨%W, -, HO⟩; iexists W; iexact HO

/-- Two families over the cores, each held on every core, are their pairs held on every core. -/
theorem bigSep_join (Φ Ψ : Dev nD → sProp 𝕄) :
    iprop(bigSep Finset.univ Φ ∗ bigSep Finset.univ Ψ) ⊢ bigSep Finset.univ (fun c => iprop(Φ c ∗ Ψ c)) := by
  rw [bigSep_sep']

section Run

variable (dat0 : DatAt (F := F) cfg0) (dat1 : DatAt (F := F) cfg1) (dat2 : DatAt (F := F) cfg2) (dat3 : DatAt (F := F) cfg3)
variable (m : (ℓ : Loc nD τ sig) → Buf (Elt F) ℓ)

/-! ## What each call leaves in its output array

The contents the calls leave are named in order: a call's entry contents mention only the calls before it. Each is
stated at every buffer `r` (the call's arrays at what its write-backs leave, any other buffer as entered), and read only
at the call's output array. -/

/-- After call 0, entered from `V3`. -/
def o4 (r : Ref sig .tc) (c : Dev nD) : Buf (Elt F) ((c : Thread nD τ).loc r) :=
  Pipeline.withArrays spec0 c (V3 m c) (fun w => (dat0 (V3 m) c).arrAt w cfg0.N) (Proc.devRef .tc r)
/-- The contents known once call 0 has run. -/
def outsA : Outs (F := F) := fun _ r c => o4 dat0 m r c
/-- After call 1, entered from `V5` (which reads call 0's output only). -/
def o6 (r : Ref sig .tc) (c : Dev nD) : Buf (Elt F) ((c : Thread nD τ).loc r) :=
  Pipeline.withArrays spec1 c (V5 m (outsA dat0 m) c) (fun w => (dat1 (V5 m (outsA dat0 m)) c).arrAt w cfg1.N) (Proc.devRef .tc r)
/-- The contents known once calls 0 and 1 have run. -/
def outsB : Outs (F := F) := fun J r c => match J with
  | 4 => o4 dat0 m r c
  | _ => o6 dat0 dat1 m r c
/-- After call 2, entered from `V7`. -/
def o8 (r : Ref sig .tc) (c : Dev nD) : Buf (Elt F) ((c : Thread nD τ).loc r) :=
  Pipeline.withArrays spec2 c (V7 m (outsB dat0 dat1 m) c) (fun w => (dat2 (V7 m (outsB dat0 dat1 m)) c).arrAt w cfg2.N) (Proc.devRef .tc r)
/-- The contents known once calls 0, 1 and 2 have run. -/
def outsC : Outs (F := F) := fun J r c => match J with
  | 4 => o4 dat0 m r c
  | 6 => o6 dat0 dat1 m r c
  | _ => o8 dat0 dat1 dat2 m r c
/-- After call 3, entered from `V9`. -/
def o10 (r : Ref sig .tc) (c : Dev nD) : Buf (Elt F) ((c : Thread nD τ).loc r) :=
  Pipeline.withArrays spec3 c (V9 m (outsC dat0 dat1 dat2 m) c) (fun w => (dat3 (V9 m (outsC dat0 dat1 dat2 m)) c).arrAt w cfg3.N) (Proc.devRef .tc r)
/-- What every call leaves: the unknowns of the generated valuations `V4 … V10`, chosen. -/
def outs : Outs (F := F) := fun J r c => match J with
  | 4 => o4 dat0 m r c
  | 6 => o6 dat0 dat1 m r c
  | 8 => o8 dat0 dat1 dat2 m r c
  | _ => o10 dat0 dat1 dat2 dat3 m r c

/-- The entry contents of calls 1, 2, 3 read only the outputs of the calls before them. -/
theorem V5_outs : V5 m (outs dat0 dat1 dat2 dat3 m) = V5 m (outsA dat0 m) := rfl
theorem V7_outs : V7 m (outs dat0 dat1 dat2 dat3 m) = V7 m (outsB dat0 dat1 m) := rfl
theorem V9_outs : V9 m (outs dat0 dat1 dat2 dat3 m) = V9 m (outsC dat0 dat1 dat2 m) := rfl

/-! ## The chosen contents, read back -/

/-- What call 0 leaves in `main_v47` is its output array after the last point. -/
theorem outs_4 (c : Dev nD) : outs dat0 dat1 dat2 dat3 m 4 main_v47 c = (dat0 (V3 m) c).arrAt 4 cfg0.N := by
  have h0 : outs dat0 dat1 dat2 dat3 m 4 main_v47 c = Pipeline.withArrays spec0 c (V3 m c) (fun w => (dat0 (V3 m) c).arrAt w cfg0.N) (Proc.devRef .tc main_v47) := rfl
  exact h0.trans (Pipeline.withArrays_arr spec0 launch0.win.arr_inj c _ _ 4)
/-- What call 1 leaves in `main_v49`. -/
theorem outs_6 (c : Dev nD) : outs dat0 dat1 dat2 dat3 m 6 main_v49 c = (dat1 (V5 m (outs dat0 dat1 dat2 dat3 m)) c).arrAt 4 cfg1.N := by
  rw [V5_outs dat0 dat1 dat2 dat3 m]
  have h0 : outs dat0 dat1 dat2 dat3 m 6 main_v49 c = Pipeline.withArrays spec1 c (V5 m (outsA dat0 m) c) (fun w => (dat1 (V5 m (outsA dat0 m)) c).arrAt w cfg1.N) (Proc.devRef .tc main_v49) := rfl
  exact h0.trans (Pipeline.withArrays_arr spec1 launch1.win.arr_inj c _ _ 4)
/-- What call 2 leaves in `main_v51`. -/
theorem outs_8 (c : Dev nD) : outs dat0 dat1 dat2 dat3 m 8 main_v51 c = (dat2 (V7 m (outs dat0 dat1 dat2 dat3 m)) c).arrAt 4 cfg2.N := by
  rw [V7_outs dat0 dat1 dat2 dat3 m]
  have h0 : outs dat0 dat1 dat2 dat3 m 8 main_v51 c = Pipeline.withArrays spec2 c (V7 m (outsB dat0 dat1 m) c) (fun w => (dat2 (V7 m (outsB dat0 dat1 m)) c).arrAt w cfg2.N) (Proc.devRef .tc main_v51) := rfl
  exact h0.trans (Pipeline.withArrays_arr spec2 launch2.win.arr_inj c _ _ 4)
/-- What call 3 leaves in `main_v53`: the program's result. -/
theorem outs_10 (c : Dev nD) : outs dat0 dat1 dat2 dat3 m 10 main_v53 c = (dat3 (V9 m (outs dat0 dat1 dat2 dat3 m)) c).arrAt 3 cfg3.N := by
  rw [V9_outs dat0 dat1 dat2 dat3 m]
  have h0 : outs dat0 dat1 dat2 dat3 m 10 main_v53 c = Pipeline.withArrays spec3 c (V9 m (outsC dat0 dat1 dat2 m) c) (fun w => (dat3 (V9 m (outsC dat0 dat1 dat2 m)) c).arrAt w cfg3.N) (Proc.devRef .tc main_v53) := rfl
  exact h0.trans (Pipeline.withArrays_arr spec3 launch3.win.arr_inj c _ _ 3)

/-- Every call's proof data, each at its entry contents. -/
def pdats : (p : Fin 4) → (c : Dev nD) → Dat τ (Elt F) Unit ℕ (UR sig nD τ) ℕ (cfgs p) c
  | ⟨0, _⟩ => fun c => dat0 (V3 m) c
  | ⟨1, _⟩ => fun c => dat1 (V5 m (outs dat0 dat1 dat2 dat3 m)) c
  | ⟨2, _⟩ => fun c => dat2 (V7 m (outs dat0 dat1 dat2 dat3 m)) c
  | ⟨3, _⟩ => fun c => dat3 (V9 m (outs dat0 dat1 dat2 dat3 m)) c

/-- No core owes another anything: no level is assigned. -/
abbrev L : GSem nD τ sig → Finset Unit := fun _ => ∅
abbrev lv : GSem nD τ sig → Unit → ℕ := fun _ _ => 0
/-- What rides beside the buffers between two items of @main: the core's generator register at some state and its
    `owes`, at nothing. -/
abbrev R (c : Dev nD) : sProp 𝕄 := iprop((∃ r, prngReg c r) ∗ ∃ W, owes (c : Thread nD τ) (0 : CellTallies nD τ sig Unit) W)

variable (k0 : CallKit cfg0 dat0) (k1 : CallKit cfg1 dat1) (k2 : CallKit cfg2 dat2) (k3 : CallKit cfg3 dat3)

/-! ## Call 0 -/

include k0 in
/-- At call 0's exit each of its arrays holds what the pipeline leaves: an input array is never written and the exit
    contents keep it; the output array is, by the choice of `outs`, at its folded write-backs. -/
theorem hF0 (c : Dev nD) (w : Fin cfg0.W) : (dat0 (V3 m) c).arrAt w cfg0.N = V4 m (outs dat0 dat1 dat2 dat3 m) c (Pipeline.arrRef spec0 w) := by
  by_cases hw : w = 4
  · subst hw
    have h1 : V4 m (outs dat0 dat1 dat2 dat3 m) c (Pipeline.arrRef spec0 4) = outs dat0 dat1 dat2 dat3 m 4 main_v47 c := Function.update_self _ _ _
    exact (h1.trans (outs_4 dat0 dat1 dat2 dat3 m c)).symm
  · have hin : (cfg0.win w).isOut = false := (by decide : ∀ w : Fin cfg0.W, w ≠ 4 → (cfg0.win w).isOut = false) w hw
    have hne : Pipeline.arrRef spec0 w ∉ ([main_v47] : List (Ref sig .tc)) :=
      (by decide : ∀ w : Fin cfg0.W, w ≠ 4 → Pipeline.arrRef spec0 w ∉ ([main_v47] : List (Ref sig .tc))) w hw
    exact ((dat0 (V3 m) c).arrAt_in w hin _).trans ((k0.A_eq (V3 m) c w).trans (V4_of m (outs dat0 dat1 dat2 dat3 m) c _ hne).symm)

/-- Every buffer that is no array of call 0 is as at its entry. -/
theorem hrest0 (c : Dev nD) : ∀ b : Ref sig .tc, b ∉ Finset.univ.image (Pipeline.arrRef spec0) → V4 m (outs dat0 dat1 dat2 dat3 m) c b = V3 m c b :=
  fun b hb => V4_of m (outs dat0 dat1 dat2 dat3 m) c b fun h => hb (by
    rw [List.mem_singleton.mp h]; exact Finset.mem_image.mpr ⟨4, Finset.mem_univ _, rfl⟩)

-- a library lemma stated over the pinned configuration unifies with the printed one only when unification may unfold
-- plain definitions in a metavariable's type
set_option backward.isDefEq.respectTransparency.types false in
/-- Call 0 as a segment of @main: entered from every unscoped buffer at `V3`, left at `V4`. Its arrays are split
    out of the unscoped buffers and put back at the exit contents; the generator register and the scoped rest enter the
    body's invariant and come back; nothing is owed; the kernel has no semaphore of its own. -/
def reg0 : RegionSeg (pcfgs (F := F)) adm (pdats dat0 dat1 dat2 dat3 m) () defs₀ Variants.none L lv 0 where
  win := launch0.win.to₀
  block_pos := launch0.block_pos
  stage_whole := launch0.stage_whole
  K := PEmpty
  osem k := k.elim
  ho := Pipeline.OwnSemFacts.none _
  hbody c := (k0.body (V3 m) c).loose
  hwaits := Pipeline.hwaits_of_owed_zero _ _ _ _ L lv 0 fun c t => k0.owed_zero (V3 m) c t
  pre c := iprop(StableHlo.held (c : Thread nD τ) (Pipeline.ucRefs τ sig) (V3 m c) ∗ R c)
  post c := iprop(StableHlo.held (c : Thread nD τ) (Pipeline.ucRefs τ sig) (V4 m (outs dat0 dat1 dat2 dat3 m) c) ∗ R c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) adm (pdats dat0 dat1 dat2 dat3 m) launch0.win launch0.arr_whole c
      (((pdats dat0 dat1 dat2 dat3 m) 0 c).share_full fun w => k0.q_full (V3 m) c w) (fun b => V3 m c b) fun w => k0.A_eq (V3 m) c w
    rw [Pipeline.unscopedBufs_held c (V3 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero ((pdats dat0 dat1 dat2 dat3 m) 0 c) 0 (k0.owed_zero (V3 m) c 0) (k0.recorded_univ (V3 m) c 0))
      iexact HO
    isplitl [Hp]; · iexact Hp
    iexact Hrest
  hin c := by
    refine BIBase.Entails.trans ?_ (k0.hin (V3 m) c)
    unfold Pipeline.ΦA
    iintro ⟨Hp, -, Hr⟩
    isplitl [Hr]; · iexact Hr
    iexact Hp
  hout c := by
    rw [Pipeline.ownSems0_none]
    refine BIBase.Entails.trans (k0.hout (V3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 dat2 dat3 m) (((pdats dat0 dat1 dat2 dat3 m) 0 c).share_full fun w => k0.q_full (V3 m) c w)
      (fun b => V3 m c b) (fun b => V4 m (outs dat0 dat1 dat2 dat3 m) c b) (((pdats dat0 dat1 dat2 dat3 m) 0 c).arrAt · cfg0.N) (hF0 dat0 dat1 dat2 dat3 m k0 c) (hrest0 dat0 dat1 dat2 dat3 m c)
    rw [Pipeline.unscopedBufs_held c (V4 m (outs dat0 dat1 dat2 dat3 m) c)] at hjoin
    iintro ⟨Ha, HO, HY, Hrest⟩
    imodintro
    isplitl [Ha Hrest]
    · iapply hjoin; isplitl [Ha] <;> iassumption
    isplitl [HY]; · iexact HY
    iapply (owesAt_zero ((pdats dat0 dat1 dat2 dat3 m) 0 c) _ (k0.owed_zero (V3 m) c _))
    iexact HO

/-! ## Call 1 -/

include k1 in
/-- At call 1's exit each of its arrays holds what the pipeline leaves: an input array is never written and the exit
    contents keep it; the output array is, by the choice of `outs`, at its folded write-backs. -/
theorem hF1 (c : Dev nD) (w : Fin cfg1.W) : (dat1 (V5 m (outs dat0 dat1 dat2 dat3 m)) c).arrAt w cfg1.N = V6 m (outs dat0 dat1 dat2 dat3 m) c (Pipeline.arrRef spec1 w) := by
  by_cases hw : w = 4
  · subst hw
    have h1 : V6 m (outs dat0 dat1 dat2 dat3 m) c (Pipeline.arrRef spec1 4) = outs dat0 dat1 dat2 dat3 m 6 main_v49 c := Function.update_self _ _ _
    exact (h1.trans (outs_6 dat0 dat1 dat2 dat3 m c)).symm
  · have hin : (cfg1.win w).isOut = false := (by decide : ∀ w : Fin cfg1.W, w ≠ 4 → (cfg1.win w).isOut = false) w hw
    have hne : Pipeline.arrRef spec1 w ∉ ([main_v49] : List (Ref sig .tc)) :=
      (by decide : ∀ w : Fin cfg1.W, w ≠ 4 → Pipeline.arrRef spec1 w ∉ ([main_v49] : List (Ref sig .tc))) w hw
    exact ((dat1 (V5 m (outs dat0 dat1 dat2 dat3 m)) c).arrAt_in w hin _).trans ((k1.A_eq (V5 m (outs dat0 dat1 dat2 dat3 m)) c w).trans (V6_of m (outs dat0 dat1 dat2 dat3 m) c _ hne).symm)

/-- Every buffer that is no array of call 1 is as at its entry. -/
theorem hrest1 (c : Dev nD) : ∀ b : Ref sig .tc, b ∉ Finset.univ.image (Pipeline.arrRef spec1) → V6 m (outs dat0 dat1 dat2 dat3 m) c b = V5 m (outs dat0 dat1 dat2 dat3 m) c b :=
  fun b hb => V6_of m (outs dat0 dat1 dat2 dat3 m) c b fun h => hb (by
    rw [List.mem_singleton.mp h]; exact Finset.mem_image.mpr ⟨4, Finset.mem_univ _, rfl⟩)

-- a library lemma stated over the pinned configuration unifies with the printed one only when unification may unfold
-- plain definitions in a metavariable's type
set_option backward.isDefEq.respectTransparency.types false in
/-- Call 1 as a segment of @main: entered from every unscoped buffer at `V5`, left at `V6`. Its arrays are split
    out of the unscoped buffers and put back at the exit contents; the generator register and the scoped rest enter the
    body's invariant and come back; nothing is owed; the kernel has no semaphore of its own. -/
def reg1 : RegionSeg (pcfgs (F := F)) adm (pdats dat0 dat1 dat2 dat3 m) () defs₀ Variants.none L lv 1 where
  win := launch1.win.to₀
  block_pos := launch1.block_pos
  stage_whole := launch1.stage_whole
  K := PEmpty
  osem k := k.elim
  ho := Pipeline.OwnSemFacts.none _
  hbody c := (k1.body (V5 m (outs dat0 dat1 dat2 dat3 m)) c).loose
  hwaits := Pipeline.hwaits_of_owed_zero _ _ _ _ L lv 1 fun c t => k1.owed_zero (V5 m (outs dat0 dat1 dat2 dat3 m)) c t
  pre c := iprop(StableHlo.held (c : Thread nD τ) (Pipeline.ucRefs τ sig) (V5 m (outs dat0 dat1 dat2 dat3 m) c) ∗ R c)
  post c := iprop(StableHlo.held (c : Thread nD τ) (Pipeline.ucRefs τ sig) (V6 m (outs dat0 dat1 dat2 dat3 m) c) ∗ R c)
  X c := iprop(∃ r, prngReg c r)
  Y c := iprop(∃ r, prngReg c r)
  Z c := Pipeline.unscopedRest (Ix := Unit) (Name := ℕ) (U := UR sig nD τ) (Lvl := ℕ) spec1 c (fun b => V5 m (outs dat0 dat1 dat2 dat3 m) c b)
  hentry c := by
    rw [Pipeline.ownSems0_none]
    have hsplit := Pipeline.arrays_of_unscopedBufs (p := 1) (pcfgs (F := F)) adm (pdats dat0 dat1 dat2 dat3 m) launch1.win launch1.arr_whole c
      (((pdats dat0 dat1 dat2 dat3 m) 1 c).share_full fun w => k1.q_full (V5 m (outs dat0 dat1 dat2 dat3 m)) c w) (fun b => V5 m (outs dat0 dat1 dat2 dat3 m) c b) fun w => k1.A_eq (V5 m (outs dat0 dat1 dat2 dat3 m)) c w
    rw [Pipeline.unscopedBufs_held c (V5 m (outs dat0 dat1 dat2 dat3 m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero ((pdats dat0 dat1 dat2 dat3 m) 1 c) 0 (k1.owed_zero (V5 m (outs dat0 dat1 dat2 dat3 m)) c 0) (k1.recorded_univ (V5 m (outs dat0 dat1 dat2 dat3 m)) c 0))
      iexact HO
    isplitl [Hp]; · iexact Hp
    iexact Hrest
  hin c := by
    refine BIBase.Entails.trans ?_ (k1.hin (V5 m (outs dat0 dat1 dat2 dat3 m)) c)
    unfold Pipeline.ΦA
    iintro ⟨Hp, -, Hr⟩
    isplitl [Hr]; · iexact Hr
    iexact Hp
  hout c := by
    rw [Pipeline.ownSems0_none]
    refine BIBase.Entails.trans (k1.hout (V5 m (outs dat0 dat1 dat2 dat3 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 dat2 dat3 m) (((pdats dat0 dat1 dat2 dat3 m) 1 c).share_full fun w => k1.q_full (V5 m (outs dat0 dat1 dat2 dat3 m)) c w)
      (fun b => V5 m (outs dat0 dat1 dat2 dat3 m) c b) (fun b => V6 m (outs dat0 dat1 dat2 dat3 m) c b) (((pdats dat0 dat1 dat2 dat3 m) 1 c).arrAt · cfg1.N) (hF1 dat0 dat1 dat2 dat3 m k1 c) (hrest1 dat0 dat1 dat2 dat3 m c)
    rw [Pipeline.unscopedBufs_held c (V6 m (outs dat0 dat1 dat2 dat3 m) c)] at hjoin
    iintro ⟨Ha, HO, HY, Hrest⟩
    imodintro
    isplitl [Ha Hrest]
    · iapply hjoin; isplitl [Ha] <;> iassumption
    isplitl [HY]; · iexact HY
    iapply (owesAt_zero ((pdats dat0 dat1 dat2 dat3 m) 1 c) _ (k1.owed_zero (V5 m (outs dat0 dat1 dat2 dat3 m)) c _))
    iexact HO

/-! ## Call 2 -/

include k2 in
/-- At call 2's exit each of its arrays holds what the pipeline leaves: an input array is never written and the exit
    contents keep it; the output array is, by the choice of `outs`, at its folded write-backs. -/
theorem hF2 (c : Dev nD) (w : Fin cfg2.W) : (dat2 (V7 m (outs dat0 dat1 dat2 dat3 m)) c).arrAt w cfg2.N = V8 m (outs dat0 dat1 dat2 dat3 m) c (Pipeline.arrRef spec2 w) := by
  by_cases hw : w = 4
  · subst hw
    have h1 : V8 m (outs dat0 dat1 dat2 dat3 m) c (Pipeline.arrRef spec2 4) = outs dat0 dat1 dat2 dat3 m 8 main_v51 c := Function.update_self _ _ _
    exact (h1.trans (outs_8 dat0 dat1 dat2 dat3 m c)).symm
  · have hin : (cfg2.win w).isOut = false := (by decide : ∀ w : Fin cfg2.W, w ≠ 4 → (cfg2.win w).isOut = false) w hw
    have hne : Pipeline.arrRef spec2 w ∉ ([main_v51] : List (Ref sig .tc)) :=
      (by decide : ∀ w : Fin cfg2.W, w ≠ 4 → Pipeline.arrRef spec2 w ∉ ([main_v51] : List (Ref sig .tc))) w hw
    exact ((dat2 (V7 m (outs dat0 dat1 dat2 dat3 m)) c).arrAt_in w hin _).trans ((k2.A_eq (V7 m (outs dat0 dat1 dat2 dat3 m)) c w).trans (V8_of m (outs dat0 dat1 dat2 dat3 m) c _ hne).symm)

/-- Every buffer that is no array of call 2 is as at its entry. -/
theorem hrest2 (c : Dev nD) : ∀ b : Ref sig .tc, b ∉ Finset.univ.image (Pipeline.arrRef spec2) → V8 m (outs dat0 dat1 dat2 dat3 m) c b = V7 m (outs dat0 dat1 dat2 dat3 m) c b :=
  fun b hb => V8_of m (outs dat0 dat1 dat2 dat3 m) c b fun h => hb (by
    rw [List.mem_singleton.mp h]; exact Finset.mem_image.mpr ⟨4, Finset.mem_univ _, rfl⟩)

-- a library lemma stated over the pinned configuration unifies with the printed one only when unification may unfold
-- plain definitions in a metavariable's type
set_option backward.isDefEq.respectTransparency.types false in
/-- Call 2 as a segment of @main: entered from every unscoped buffer at `V7`, left at `V8`. Its arrays are split
    out of the unscoped buffers and put back at the exit contents; the generator register and the scoped rest enter the
    body's invariant and come back; nothing is owed; the kernel has no semaphore of its own. -/
def reg2 : RegionSeg (pcfgs (F := F)) adm (pdats dat0 dat1 dat2 dat3 m) () defs₀ Variants.none L lv 2 where
  win := launch2.win.to₀
  block_pos := launch2.block_pos
  stage_whole := launch2.stage_whole
  K := PEmpty
  osem k := k.elim
  ho := Pipeline.OwnSemFacts.none _
  hbody c := (k2.body (V7 m (outs dat0 dat1 dat2 dat3 m)) c).loose
  hwaits := Pipeline.hwaits_of_owed_zero _ _ _ _ L lv 2 fun c t => k2.owed_zero (V7 m (outs dat0 dat1 dat2 dat3 m)) c t
  pre c := iprop(StableHlo.held (c : Thread nD τ) (Pipeline.ucRefs τ sig) (V7 m (outs dat0 dat1 dat2 dat3 m) c) ∗ R c)
  post c := iprop(StableHlo.held (c : Thread nD τ) (Pipeline.ucRefs τ sig) (V8 m (outs dat0 dat1 dat2 dat3 m) c) ∗ R c)
  X c := iprop(∃ r, prngReg c r)
  Y c := iprop(∃ r, prngReg c r)
  Z c := Pipeline.unscopedRest (Ix := Unit) (Name := ℕ) (U := UR sig nD τ) (Lvl := ℕ) spec2 c (fun b => V7 m (outs dat0 dat1 dat2 dat3 m) c b)
  hentry c := by
    rw [Pipeline.ownSems0_none]
    have hsplit := Pipeline.arrays_of_unscopedBufs (p := 2) (pcfgs (F := F)) adm (pdats dat0 dat1 dat2 dat3 m) launch2.win launch2.arr_whole c
      (((pdats dat0 dat1 dat2 dat3 m) 2 c).share_full fun w => k2.q_full (V7 m (outs dat0 dat1 dat2 dat3 m)) c w) (fun b => V7 m (outs dat0 dat1 dat2 dat3 m) c b) fun w => k2.A_eq (V7 m (outs dat0 dat1 dat2 dat3 m)) c w
    rw [Pipeline.unscopedBufs_held c (V7 m (outs dat0 dat1 dat2 dat3 m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero ((pdats dat0 dat1 dat2 dat3 m) 2 c) 0 (k2.owed_zero (V7 m (outs dat0 dat1 dat2 dat3 m)) c 0) (k2.recorded_univ (V7 m (outs dat0 dat1 dat2 dat3 m)) c 0))
      iexact HO
    isplitl [Hp]; · iexact Hp
    iexact Hrest
  hin c := by
    refine BIBase.Entails.trans ?_ (k2.hin (V7 m (outs dat0 dat1 dat2 dat3 m)) c)
    unfold Pipeline.ΦA
    iintro ⟨Hp, -, Hr⟩
    isplitl [Hr]; · iexact Hr
    iexact Hp
  hout c := by
    rw [Pipeline.ownSems0_none]
    refine BIBase.Entails.trans (k2.hout (V7 m (outs dat0 dat1 dat2 dat3 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats dat0 dat1 dat2 dat3 m) (((pdats dat0 dat1 dat2 dat3 m) 2 c).share_full fun w => k2.q_full (V7 m (outs dat0 dat1 dat2 dat3 m)) c w)
      (fun b => V7 m (outs dat0 dat1 dat2 dat3 m) c b) (fun b => V8 m (outs dat0 dat1 dat2 dat3 m) c b) (((pdats dat0 dat1 dat2 dat3 m) 2 c).arrAt · cfg2.N) (hF2 dat0 dat1 dat2 dat3 m k2 c) (hrest2 dat0 dat1 dat2 dat3 m c)
    rw [Pipeline.unscopedBufs_held c (V8 m (outs dat0 dat1 dat2 dat3 m) c)] at hjoin
    iintro ⟨Ha, HO, HY, Hrest⟩
    imodintro
    isplitl [Ha Hrest]
    · iapply hjoin; isplitl [Ha] <;> iassumption
    isplitl [HY]; · iexact HY
    iapply (owesAt_zero ((pdats dat0 dat1 dat2 dat3 m) 2 c) _ (k2.owed_zero (V7 m (outs dat0 dat1 dat2 dat3 m)) c _))
    iexact HO

/-! ## Call 3 -/

include k3 in
/-- At call 3's exit each of its arrays holds what the pipeline leaves: an input array is never written and the exit
    contents keep it; the output array is, by the choice of `outs`, at its folded write-backs. -/
theorem hF3 (c : Dev nD) (w : Fin cfg3.W) : (dat3 (V9 m (outs dat0 dat1 dat2 dat3 m)) c).arrAt w cfg3.N = V10 m (outs dat0 dat1 dat2 dat3 m) c (Pipeline.arrRef spec3 w) := by
  by_cases hw : w = 3
  · subst hw
    have h1 : V10 m (outs dat0 dat1 dat2 dat3 m) c (Pipeline.arrRef spec3 3) = outs dat0 dat1 dat2 dat3 m 10 main_v53 c := Function.update_self _ _ _
    exact (h1.trans (outs_10 dat0 dat1 dat2 dat3 m c)).symm
  · have hin : (cfg3.win w).isOut = false := (by decide : ∀ w : Fin cfg3.W, w ≠ 3 → (cfg3.win w).isOut = false) w hw
    have hne : Pipeline.arrRef spec3 w ∉ ([main_v53] : List (Ref sig .tc)) :=
      (by decide : ∀ w : Fin cfg3.W, w ≠ 3 → Pipeline.arrRef spec3 w ∉ ([main_v53] : List (Ref sig .tc))) w hw
    exact ((dat3 (V9 m (outs dat0 dat1 dat2 dat3 m)) c).arrAt_in w hin _).trans ((k3.A_eq (V9 m (outs dat0 dat1 dat2 dat3 m)) c w).trans (V10_of m (outs dat0 dat1 dat2 dat3 m) c _ hne).symm)

/-- Every buffer that is no array of call 3 is as at its entry. -/
theorem hrest3 (c : Dev nD) : ∀ b : Ref sig .tc, b ∉ Finset.univ.image (Pipeline.arrRef spec3) → V10 m (outs dat0 dat1 dat2 dat3 m) c b = V9 m (outs dat0 dat1 dat2 dat3 m) c b :=
  fun b hb => V10_of m (outs dat0 dat1 dat2 dat3 m) c b fun h => hb (by
    rw [List.mem_singleton.mp h]; exact Finset.mem_image.mpr ⟨3, Finset.mem_univ _, rfl⟩)

-- a library lemma stated over the pinned configuration unifies with the printed one only when unification may unfold
-- plain definitions in a metavariable's type
set_option backward.isDefEq.respectTransparency.types false in
/-- Call 3 as a segment of @main: entered from every unscoped buffer at `V9`, left at `V10`. Its arrays are split
    out of the unscoped buffers and put back at the exit contents; the generator register and the scoped rest enter the
    body's invariant and come back; nothing is owed; the kernel has no semaphore of its own. -/
def reg3 : RegionSeg (pcfgs (F := F)) adm (pdats dat0 dat1 dat2 dat3 m) () defs₀ Variants.none L lv 3 where
  win := launch3.win.to₀
  block_pos := launch3.block_pos
  stage_whole := launch3.stage_whole
  K := PEmpty
  osem k := k.elim
  ho := Pipeline.OwnSemFacts.none _
  hbody c := (k3.body (V9 m (outs dat0 dat1 dat2 dat3 m)) c).loose
  hwaits := Pipeline.hwaits_of_owed_zero _ _ _ _ L lv 3 fun c t => k3.owed_zero (V9 m (outs dat0 dat1 dat2 dat3 m)) c t
  pre c := iprop(StableHlo.held (c : Thread nD τ) (Pipeline.ucRefs τ sig) (V9 m (outs dat0 dat1 dat2 dat3 m) c) ∗ R c)
  post c := iprop(StableHlo.held (c : Thread nD τ) (Pipeline.ucRefs τ sig) (V10 m (outs dat0 dat1 dat2 dat3 m) c) ∗ R c)
  X c := iprop(∃ r, prngReg c r)
  Y c := iprop(∃ r, prngReg c r)
  Z c := Pipeline.unscopedRest (Ix := Unit) (Name := ℕ) (U := UR sig nD τ) (Lvl := ℕ) spec3 c (fun b => V9 m (outs dat0 dat1 dat2 dat3 m) c b)
  hentry c := by
    rw [Pipeline.ownSems0_none]
    have hsplit := Pipeline.arrays_of_unscopedBufs (p := 3) (pcfgs (F := F)) adm (pdats dat0 dat1 dat2 dat3 m) launch3.win launch3.arr_whole c
      (((pdats dat0 dat1 dat2 dat3 m) 3 c).share_full fun w => k3.q_full (V9 m (outs dat0 dat1 dat2 dat3 m)) c w) (fun b => V9 m (outs dat0 dat1 dat2 dat3 m) c b) fun w => k3.A_eq (V9 m (outs dat0 dat1 dat2 dat3 m)) c w
    rw [Pipeline.unscopedBufs_held c (V9 m (outs dat0 dat1 dat2 dat3 m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero ((pdats dat0 dat1 dat2 dat3 m) 3 c) 0 (k3.owed_zero (V9 m (outs dat0 dat1 dat2 dat3 m)) c 0) (k3.recorded_univ (V9 m (outs dat0 dat1 dat2 dat3 m)) c 0))
      iexact HO
    isplitl [Hp]; · iexact Hp
    iexact Hrest
  hin c := by
    refine BIBase.Entails.trans ?_ (k3.hin (V9 m (outs dat0 dat1 dat2 dat3 m)) c)
    unfold Pipeline.ΦA
    iintro ⟨Hp, -, Hr⟩
    isplitl [Hr]; · iexact Hr
    iexact Hp
  hout c := by
    rw [Pipeline.ownSems0_none]
    refine BIBase.Entails.trans (k3.hout (V9 m (outs dat0 dat1 dat2 dat3 m)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats dat0 dat1 dat2 dat3 m) (((pdats dat0 dat1 dat2 dat3 m) 3 c).share_full fun w => k3.q_full (V9 m (outs dat0 dat1 dat2 dat3 m)) c w)
      (fun b => V9 m (outs dat0 dat1 dat2 dat3 m) c b) (fun b => V10 m (outs dat0 dat1 dat2 dat3 m) c b) (((pdats dat0 dat1 dat2 dat3 m) 3 c).arrAt · cfg3.N) (hF3 dat0 dat1 dat2 dat3 m k3 c) (hrest3 dat0 dat1 dat2 dat3 m c)
    rw [Pipeline.unscopedBufs_held c (V10 m (outs dat0 dat1 dat2 dat3 m) c)] at hjoin
    iintro ⟨Ha, HO, HY, Hrest⟩
    imodintro
    isplitl [Ha Hrest]
    · iapply hjoin; isplitl [Ha] <;> iassumption
    isplitl [HY]; · iexact HY
    iapply (owesAt_zero ((pdats dat0 dat1 dat2 dat3 m) 3 c) _ (k3.owed_zero (V9 m (outs dat0 dat1 dat2 dat3 m)) c _))
    iexact HO

/-! ## The run -/

/-- The launch's user element and ghost resources: the pipeline library's at every staging cell, nothing else. -/
theorem hu₀ : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals beside the buffers makes `R` on every core at once. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- `R` ends owing nothing. -/
theorem hE4 (c : Dev nD) : R (F := F) c ⊢ (iprop(∃ W, owes (c : Thread nD τ) (0 : CellTallies nD τ sig Unit) W) : sProp 𝕄) := by
  iintro ⟨-, HO⟩; iexact HO

include k0 k1 k2 k3 in
set_option backward.isDefEq.respectTransparency.types false in
/-- THE FRAME of the program: the generated conditional frame at the four calls' segments. Every weakly fair execution
    of @main from memory `m` with zero counters terminates, and every final memory holds each argument as launched. -/
theorem frame_run (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m (emb₁ : Emb (UR sig nD τ) 𝕄) () Variants.none L lv (fun _ _ => rfl) ρ (outs dat0 dat1 dat2 dat3 m) (pdats dat0 dat1 dat2 dat3 m)
    (0 : Dev nD → CellTallies nD τ sig Unit) (fun _ => iprop(emp)) (initOf (Pipeline.cells cfgs cellOf_inj) (Pipeline.launchToks cfgs cellOf_inj))
    hu₀ (fun _ c => R c) (hE0 ρ) hE4
    (reg0 dat0 dat1 dat2 dat3 m k0) (fun _ => .rfl) (fun _ => .rfl)
    (reg1 dat0 dat1 dat2 dat3 m k1) (fun _ => .rfl) (fun _ => .rfl)
    (reg2 dat0 dat1 dat2 dat3 m k2) (fun _ => .rfl) (fun _ => .rfl)
    (reg3 dat0 dat1 dat2 dat3 m k3) (fun _ => .rfl) (fun _ => .rfl)

include k0 k1 k2 k3 in
-- the launch theorem's implicit arguments are found by unifying its conclusion with this one, which takes unfolding plain
-- definitions in a metavariable's type
set_option backward.isDefEq.respectTransparency.types false in
/-- THE RUN WITH ITS RESULT NAMED: as `frame_run`, and every final memory holds in `main_v53` (the program's result)
    what the last call's write-backs leave there, `outs 10 main_v53`. The same launch over the same segments as the
    generated conditional frame, the last thread state read at one more buffer. -/
theorem value_run (ρ : Dev nD → PrngReg) :
    θ_run defs (onTc (τ := τ) (main (F := F))) ⟨m, fun _ => 0, ρ⟩ (fun r => ∀ c : Dev nD,
      r.2.mem ((c.tc : Thread nD τ).loc main_v53) = outs dat0 dat1 dat2 dat3 m 10 main_v53 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats dat0 dat1 dat2 dat3 m) () cellOf_inj (emb₁ : Emb (UR sig nD τ) 𝕄) defs₀ Variants.none L lv m ρ main
    (segs m (outs dat0 dat1 dat2 dat3 m) Variants.none L lv (fun _ c => R c) () (pdats dat0 dat1 dat2 dat3 m) (reg0 dat0 dat1 dat2 dat3 m k0) (reg1 dat0 dat1 dat2 dat3 m k1) (reg2 dat0 dat1 dat2 dat3 m k2) (reg3 dat0 dat1 dat2 dat3 m k3))
    (fun c Q => by
      rewrite [main_chain c, Seg.run_eq_chain,
        show ((segs m (outs dat0 dat1 dat2 dat3 m) Variants.none L lv (fun _ c => R c) () (pdats dat0 dat1 dat2 dat3 m) (reg0 dat0 dat1 dat2 dat3 m k0) (reg1 dat0 dat1 dat2 dat3 m k1) (reg2 dat0 dat1 dat2 dat3 m k2) (reg3 dat0 dat1 dat2 dat3 m k3)) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (0 : Dev nD → CellTallies nD τ sig Unit) (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ R c))
    (Tₙ := fun c => StableHlo.held (c : Thread nD τ) (Pipeline.ucRefs τ sig) (V10 m (outs dat0 dat1 dat2 dat3 m) c))
    (hch := fun c => ⟨.rfl, .rfl, .rfl, .rfl, .rfl, .rfl, .rfl, .rfl, .rfl, .rfl, sep_mono .rfl (hE4 c)⟩)
    (hinit := ?_)
    (QY := fun c s => s.mem ((c.tc : Thread nD τ).loc main_v53) = outs dat0 dat1 dat2 dat3 m 10 main_v53 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9))
    (hfin := fun c s' => ?_) (hQ := fun _ h => h)
  · -- the launch: the unscoped buffers are held at `V0`; the rest makes `R` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    iapply (bigSep_join (fun c : Dev nD => StableHlo.held (c : Thread nD τ) (Pipeline.ucRefs τ sig) (V0 m c)) (fun c : Dev nD => R (F := F) c))
    isplitl [Hh]; · iexact Hh
    iexact HE
  · -- the end: the result's buffer and each argument's, read off the last valuation
    unfold StableHlo.held
    iintro ⟨Hh, HSI⟩
    ihave Hr := (pointsTo_read_all (Pipeline.ucRefs τ sig) (fun b => ((c : Thread nD τ).1, b)) (V10 m (outs dat0 dat1 dat2 dat3 m) c) s') $$ [Hh HSI]
    · isplitl [Hh] <;> iassumption
    icases Hr with ⟨%h, HSI⟩
    imodintro
    isplitr
    · ipureintro
      exact ⟨(h (Proc.devRef .tc main_v53) (Finset.mem_filter.mpr ⟨StableHlo.devRef_mem_tcRefs main_v53, by decide⟩)).trans (Function.update_self _ _ _),
        (h (Proc.devRef .tc main_arg0) (Finset.mem_filter.mpr ⟨StableHlo.devRef_mem_tcRefs main_arg0, by decide⟩)).trans (V10_main_arg0 m (outs dat0 dat1 dat2 dat3 m) c),
        (h (Proc.devRef .tc main_arg1) (Finset.mem_filter.mpr ⟨StableHlo.devRef_mem_tcRefs main_arg1, by decide⟩)).trans (V10_main_arg1 m (outs dat0 dat1 dat2 dat3 m) c),
        (h (Proc.devRef .tc main_arg2) (Finset.mem_filter.mpr ⟨StableHlo.devRef_mem_tcRefs main_arg2, by decide⟩)).trans (V10_main_arg2 m (outs dat0 dat1 dat2 dat3 m) c),
        (h (Proc.devRef .tc main_arg3) (Finset.mem_filter.mpr ⟨StableHlo.devRef_mem_tcRefs main_arg3, by decide⟩)).trans (V10_main_arg3 m (outs dat0 dat1 dat2 dat3 m) c),
        (h (Proc.devRef .tc main_arg4) (Finset.mem_filter.mpr ⟨StableHlo.devRef_mem_tcRefs main_arg4, by decide⟩)).trans (V10_main_arg4 m (outs dat0 dat1 dat2 dat3 m) c),
        (h (Proc.devRef .tc main_arg5) (Finset.mem_filter.mpr ⟨StableHlo.devRef_mem_tcRefs main_arg5, by decide⟩)).trans (V10_main_arg5 m (outs dat0 dat1 dat2 dat3 m) c),
        (h (Proc.devRef .tc main_arg6) (Finset.mem_filter.mpr ⟨StableHlo.devRef_mem_tcRefs main_arg6, by decide⟩)).trans (V10_main_arg6 m (outs dat0 dat1 dat2 dat3 m) c),
        (h (Proc.devRef .tc main_arg7) (Finset.mem_filter.mpr ⟨StableHlo.devRef_mem_tcRefs main_arg7, by decide⟩)).trans (V10_main_arg7 m (outs dat0 dat1 dat2 dat3 m) c),
        (h (Proc.devRef .tc main_arg8) (Finset.mem_filter.mpr ⟨StableHlo.devRef_mem_tcRefs main_arg8, by decide⟩)).trans (V10_main_arg8 m (outs dat0 dat1 dat2 dat3 m) c),
        (h (Proc.devRef .tc main_arg9) (Finset.mem_filter.mpr ⟨StableHlo.devRef_mem_tcRefs main_arg9, by decide⟩)).trans (V10_main_arg9 m (outs dat0 dat1 dat2 dat3 m) c)⟩
    · iexact HSI

end Run
end Cert.Kernel.RunKit

end
-- ==== Proof.BitsLayerRun0.lean ====
import proofs.«105428_j37495064494476_1_alg».proof.Proof.Gen.Kernel.Launch
import proofs.«105428_j37495064494476_1_alg».proof.Proof.Gen.Kernel.Skeleton
import proofs.«105428_j37495064494476_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The first graph-convolution layer's kernel body, case by case

The body runs at the 64 points `t = 4 * i + k` of a 16 × 4 grid (row block `i`, reduction step `k`).
It keeps a 1024 × 128 accumulator in a buffer of its own across the four steps of a row block:
at `k = 0` the accumulator is first zeroed; at every step it becomes
`acc + A(i,k) · (h(k) · W)`; at `k = 3` the output block is stored as `max (acc + b) 0`.
Which of the two conditionals fire depends on `k = t % 4` alone, so there are three control
cases: `k = 0`, `k ∈ {1, 2}`, `k = 3`. -/

/-! ## The body's branch conditions -/

/-- The first conditional's test (`k = 0`), from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's test (`k = 3`), from the grid coordinates. -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where `k ≠ 3` nothing is stored into the output block and it is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- Where `k = 3` the output block is stored. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S1024x128 .f32 := (Memref.whole cc0_stg4_0 : Memref sig .tc .vmem S1024x128 .f32).view
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
/-- The accumulator: a whole buffer of the kernel's own, passed beside the windows. -/
abbrev scM0_0 : Memref sig .tc .vmem S1024x128 .f32 := Memref.whole cc0_scratch0
abbrev VS0_0 : View sig .tc .vmem S1024x128 .f32 := scM0_0.view

/-- Every other scoped buffer of the core: carried through the region unopened. -/
abbrev restS (c : Dev nD) : sProp 𝕄 :=
  Pipeline.scopedRestBut (Ix := Unit) (Name := ℕ) (U := UR sig nD τ) (Lvl := ℕ) (Val := Elt F) spec0 c [cc0_scratch0]

/-- What the region hands the body before the first point: the accumulator at some contents, the other scoped
    buffers, the generator register at some state. -/
theorem PhiA0_eq (c : Dev nD) :
    (Pipeline.ΦA spec0 c : sProp 𝕄)
      = iprop(iprop((∃ d, owns (c : Thread nD τ) scM0_0 fullShare d) ∗ restS (F := F) c) ∗ (∃ r, prngReg c r)) := by
  unfold Pipeline.ΦA; rw [scopedRest0_split]; simp only [scM0_0, owns_whole]; try rfl

/-! ## The body's triple in each case

Each is a pair of store lists (what ends in the output block's buffer, what ends in the accumulator) with the proof
that the body, run on whole buffers holding the inputs' blocks, ends with exactly those stores made. -/

set_option maxHeartbeats 1000000 in
/-- `k = 0`: the accumulator is zeroed, then accumulated into; the output block's buffer is untouched. -/
noncomputable def kernelRun0_A (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x4096 .bf16) (x1 : Vec F S4096x16 .f32) (x2 : Vec F S16x128 .f32) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨[], ?_, fun xi4 E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- `k ∈ {1, 2}`: the accumulator, holding `xs0`, is accumulated into; the output block's buffer is untouched. -/
noncomputable def kernelRun0_B (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x4096 .bf16) (x1 : Vec F S4096x16 .f32) (x2 : Vec F S16x128 .f32) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨[], ?_, fun xi4 E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- `k = 3`: the accumulator, holding `xs0`, is accumulated into, and the output block is stored from it. -/
noncomputable def kernelRun0_C (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x4096 .bf16) (x1 : Vec F S4096x16 .f32) (x2 : Vec F S16x128 .f32) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨?_, ?_, fun E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Layer0

end
-- ==== Proof.BitsLayerBody0.lean ====
import proofs.«105428_j37495064494476_1_alg».proof.Proof.BitsLayerRun0

set_option maxRecDepth 16384

noncomputable section

namespace Cert.Kernel.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The first graph-convolution layer as a region: proof data, body obligation, what it leaves

The region is stated at ANY contents `V` of the core's buffers at its entry. The accumulator after
each point, and the output block's staging buffer after the points `k = 3`, are defined by recursion on
the point; the region invariant carries the accumulator at that value, every other scoped buffer unopened. -/

variable (V : Dev nD → Valuation τ sig (Elt F))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- `k = 0` stores nothing into the output block's buffer: a placeholder nothing consults. -/
def out0_A_4 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x4096 .bf16) (x1 : Vec F S4096x16 .f32) (x2 : Vec F S16x128 .f32) (x3 : Vec F S1x128 .f32) : Vec F S1024x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- The stores of `k = 0` into the accumulator cover it. -/
theorem scover0_A_0 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x4096 .bf16) (x1 : Vec F S4096x16 .f32) (x2 : Vec F S16x128 .f32) (x3 : Vec F S1x128 .f32) (y : S1024x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x128.size (by sl_kernel_rfl) y

/-- What `k = 0` leaves in the accumulator. -/
def sout0_A_0 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x4096 .bf16) (x1 : Vec F S4096x16 .f32) (x2 : Vec F S16x128 .f32) (x3 : Vec F S1x128 .f32) : Vec F S1024x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- `k ∈ {1, 2}` stores nothing into the output block's buffer: a placeholder nothing consults. -/
def out0_B_4 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x4096 .bf16) (x1 : Vec F S4096x16 .f32) (x2 : Vec F S16x128 .f32) (x3 : Vec F S1x128 .f32) (xs0 : Vec F S1024x128 .f32) : Vec F S1024x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

theorem scover0_B_0 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x4096 .bf16) (x1 : Vec F S4096x16 .f32) (x2 : Vec F S16x128 .f32) (x3 : Vec F S1x128 .f32) (xs0 : Vec F S1024x128 .f32) (y : S1024x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x128.size (by sl_kernel_rfl) y

/-- What `k ∈ {1, 2}` leaves in the accumulator. -/
def sout0_B_0 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x4096 .bf16) (x1 : Vec F S4096x16 .f32) (x2 : Vec F S16x128 .f32) (x3 : Vec F S1x128 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- The store of `k = 3` into the output block's buffer covers it. -/
theorem cover0_C_4 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x4096 .bf16) (x1 : Vec F S4096x16 .f32) (x2 : Vec F S16x128 .f32) (x3 : Vec F S1x128 .f32) (xs0 : Vec F S1024x128 .f32) (y : S1024x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x128.size (by sl_kernel_rfl) y

/-- What `k = 3` leaves in the output block's buffer. -/
def out0_C_4 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x4096 .bf16) (x1 : Vec F S4096x16 .f32) (x2 : Vec F S16x128 .f32) (x3 : Vec F S1x128 .f32) (xs0 : Vec F S1024x128 .f32) : Vec F S1024x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x4096 .bf16) (x1 : Vec F S4096x16 .f32) (x2 : Vec F S16x128 .f32) (x3 : Vec F S1x128 .f32) (xs0 : Vec F S1024x128 .f32) (y : S1024x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x128.size (by sl_kernel_rfl) y

/-- What `k = 3` leaves in the accumulator. -/
def sout0_C_0 (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x4096 .bf16) (x1 : Vec F S4096x16 .f32) (x2 : Vec F S16x128 .f32) (x3 : Vec F S1x128 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output block's buffer and the accumulator hold after each point -/

/-- After the body at position `n`: (the output block's staging buffer, the accumulator). The case is selected by
    `n % 4`; the cases `k ≠ 0` start from the accumulator the point before left. -/
def outsAt0 (c : Dev nD) : (n : ℕ) → n < cfg0.N → Vec F S1024x128 .f32 × Vec F S1024x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 4 = 0 then
      if h1 : (n + 1) % 4 = 3 then
        False.elim (by have hN : n + 1 < 64 := lt_of_lt_of_eq hn (show cfg0.N = 64 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk V c 0 t) (iblk V c 1 t) (iblk V c 2 t) (iblk V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the region is handed; afterwards the
    accumulator at what the point before left, the other scoped buffers unopened, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS (F := F) c) ∗ (∃ r, prngReg c r)) := by
  cases n with
  | zero => exact absurd rfl hz
  | succ n => rfl

/-! ## The region's proof data -/

/-- The proof data on core `c`, entered from contents `V`: after the body at point `t` each input's buffer holds its
    block, the output's what `outsAt0` says; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk V c 0 t :=
  before0_0_of V (dat0 V c) (A_eq0 V c 0) (after0_0 V c) t d
theorem before0_1 (c : Dev nD) (t : Fin cfg0.N) (d) : (dat0 V c).before 1 t d = iblk V c 1 t :=
  before0_1_of V (dat0 V c) (A_eq0 V c 1) (after0_1 V c) t d
theorem before0_2 (c : Dev nD) (t : Fin cfg0.N) (d) : (dat0 V c).before 2 t d = iblk V c 2 t :=
  before0_2_of V (dat0 V c) (A_eq0 V c 2) (after0_2 V c) t d
theorem before0_3 (c : Dev nD) (t : Fin cfg0.N) (d) : (dat0 V c).before 3 t d = iblk V c 3 t :=
  before0_3_of V (dat0 V c) (A_eq0 V c 3) (after0_3 V c) t d

/-! ## The body obligation -/

/-- What the body is called with at point `t`, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: `t % 4` selects the case; the inputs' buffers hold their blocks; the invariant hands over
    the accumulator (at anything before the first point, else at what the point before left) and takes it back at
    this point's value; the other scoped buffers and the generator register pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk V c 0 t) (iblk V c 1 t) (iblk V c 2 t) (iblk V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk V c 0 t) (iblk V c 1 t) (iblk V c 2 t) (iblk V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the same resources back: the accumulator's value is forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out V c _ (by rw [Fin.val_last]; have : cfg0.N = 64 := N_0; omega)

end Cert.Kernel.Layer0

end
-- ==== Proof.BitsLayerRun1.lean ====
import proofs.«105428_j37495064494476_1_alg».proof.Proof.Gen.Kernel.Launch
import proofs.«105428_j37495064494476_1_alg».proof.Proof.Gen.Kernel.Skeleton
import proofs.«105428_j37495064494476_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The second graph-convolution layer's kernel body, case by case

The body runs at the 64 points `t = 4 * i + k` of a 16 × 4 grid (row block `i`, reduction step `k`).
It keeps a 1024 × 128 accumulator in a buffer of its own across the four steps of a row block:
at `k = 0` the accumulator is first zeroed; at every step it becomes
`acc + A(i,k) · (h(k) · W)`; at `k = 3` the output block is stored as `max (acc + b) 0`.
Which of the two conditionals fire depends on `k = t % 4` alone, so there are three control
cases: `k = 0`, `k ∈ {1, 2}`, `k = 3`. -/

/-! ## The body's branch conditions -/

/-- The first conditional's test (`k = 0`), from the grid coordinates. -/
abbrev cond1_0 (i : grid1.Coords) : Prop := (Scalar.cmpi .ne (Scalar.extui (Scalar.cmpi .eq (BitVec.ofNat 32 (i 1).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's test (`k = 3`), from the grid coordinates. -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where `k ≠ 3` nothing is stored into the output block and it is not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- Where `k = 3` the output block is stored. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S1024x128 .f32 := (Memref.whole cc1_stg4_0 : Memref sig .tc .vmem S1024x128 .f32).view
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The accumulator: a whole buffer of the kernel's own, passed beside the windows. -/
abbrev scM1_0 : Memref sig .tc .vmem S1024x128 .f32 := Memref.whole cc1_scratch0
abbrev VS1_0 : View sig .tc .vmem S1024x128 .f32 := scM1_0.view

/-- Every other scoped buffer of the core: carried through the region unopened. -/
abbrev restS (c : Dev nD) : sProp 𝕄 :=
  Pipeline.scopedRestBut (Ix := Unit) (Name := ℕ) (U := UR sig nD τ) (Lvl := ℕ) (Val := Elt F) spec1 c [cc1_scratch0]

/-- What the region hands the body before the first point: the accumulator at some contents, the other scoped
    buffers, the generator register at some state. -/
theorem PhiA1_eq (c : Dev nD) :
    (Pipeline.ΦA spec1 c : sProp 𝕄)
      = iprop(iprop((∃ d, owns (c : Thread nD τ) scM1_0 fullShare d) ∗ restS (F := F) c) ∗ (∃ r, prngReg c r)) := by
  unfold Pipeline.ΦA; rw [scopedRest1_split]; simp only [scM1_0, owns_whole]; try rfl

/-! ## The body's triple in each case

Each is a pair of store lists (what ends in the output block's buffer, what ends in the accumulator) with the proof
that the body, run on whole buffers holding the inputs' blocks, ends with exactly those stores made. -/

set_option maxHeartbeats 1000000 in
/-- `k = 0`: the accumulator is zeroed, then accumulated into; the output block's buffer is untouched. -/
noncomputable def kernelRun1_A (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x4096 .bf16) (x1 : Vec F S4096x128 .f32) (x2 : Vec F S128x128 .f32) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨[], ?_, fun xi4 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- `k ∈ {1, 2}`: the accumulator, holding `xs0`, is accumulated into; the output block's buffer is untouched. -/
noncomputable def kernelRun1_B (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x4096 .bf16) (x1 : Vec F S4096x128 .f32) (x2 : Vec F S128x128 .f32) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨[], ?_, fun xi4 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- `k = 3`: the accumulator, holding `xs0`, is accumulated into, and the output block is stored from it. -/
noncomputable def kernelRun1_C (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x4096 .bf16) (x1 : Vec F S4096x128 .f32) (x2 : Vec F S128x128 .f32) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨?_, ?_, fun E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Layer1

end
-- ==== Proof.BitsLayerBody1.lean ====
import proofs.«105428_j37495064494476_1_alg».proof.Proof.BitsLayerRun1

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The second graph-convolution layer as a region: proof data, body obligation, what it leaves

The region is stated at ANY contents `V` of the core's buffers at its entry. The accumulator after
each point, and the output block's staging buffer after the points `k = 3`, are defined by recursion on
the point; the region invariant carries the accumulator at that value, every other scoped buffer unopened. -/

variable (V : Dev nD → Valuation τ sig (Elt F))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- `k = 0` stores nothing into the output block's buffer: a placeholder nothing consults. -/
def out1_A_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x4096 .bf16) (x1 : Vec F S4096x128 .f32) (x2 : Vec F S128x128 .f32) (x3 : Vec F S1x128 .f32) : Vec F S1024x128 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- The stores of `k = 0` into the accumulator cover it. -/
theorem scover1_A_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x4096 .bf16) (x1 : Vec F S4096x128 .f32) (x2 : Vec F S128x128 .f32) (x3 : Vec F S1x128 .f32) (y : S1024x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x128.size (by sl_kernel_rfl) y

/-- What `k = 0` leaves in the accumulator. -/
def sout1_A_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x4096 .bf16) (x1 : Vec F S4096x128 .f32) (x2 : Vec F S128x128 .f32) (x3 : Vec F S1x128 .f32) : Vec F S1024x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- `k ∈ {1, 2}` stores nothing into the output block's buffer: a placeholder nothing consults. -/
def out1_B_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x4096 .bf16) (x1 : Vec F S4096x128 .f32) (x2 : Vec F S128x128 .f32) (x3 : Vec F S1x128 .f32) (xs0 : Vec F S1024x128 .f32) : Vec F S1024x128 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

theorem scover1_B_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x4096 .bf16) (x1 : Vec F S4096x128 .f32) (x2 : Vec F S128x128 .f32) (x3 : Vec F S1x128 .f32) (xs0 : Vec F S1024x128 .f32) (y : S1024x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x128.size (by sl_kernel_rfl) y

/-- What `k ∈ {1, 2}` leaves in the accumulator. -/
def sout1_B_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x4096 .bf16) (x1 : Vec F S4096x128 .f32) (x2 : Vec F S128x128 .f32) (x3 : Vec F S1x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- The store of `k = 3` into the output block's buffer covers it. -/
theorem cover1_C_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x4096 .bf16) (x1 : Vec F S4096x128 .f32) (x2 : Vec F S128x128 .f32) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x128.size (by sl_kernel_rfl) y

/-- What `k = 3` leaves in the output block's buffer. -/
def out1_C_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x4096 .bf16) (x1 : Vec F S4096x128 .f32) (x2 : Vec F S128x128 .f32) (x3 : Vec F S1x128 .f32) (xs0 : Vec F S1024x128 .f32) : Vec F S1024x128 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

theorem scover1_C_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x4096 .bf16) (x1 : Vec F S4096x128 .f32) (x2 : Vec F S128x128 .f32) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x128.size (by sl_kernel_rfl) y

/-- What `k = 3` leaves in the accumulator. -/
def sout1_C_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x4096 .bf16) (x1 : Vec F S4096x128 .f32) (x2 : Vec F S128x128 .f32) (x3 : Vec F S1x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the output block's buffer and the accumulator hold after each point -/

/-- After the body at position `n`: (the output block's staging buffer, the accumulator). The case is selected by
    `n % 4`; the cases `k ≠ 0` start from the accumulator the point before left. -/
def outsAt1 (c : Dev nD) : (n : ℕ) → n < cfg1.N → Vec F S1024x128 .f32 × Vec F S1024x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 4 = 0 then
      if h1 : (n + 1) % 4 = 3 then
        False.elim (by have hN : n + 1 < 64 := lt_of_lt_of_eq hn (show cfg1.N = 64 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk V c 0 t) (iblk V c 1 t) (iblk V c 2 t) (iblk V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk V c 0 t) (iblk V c 1 t) (iblk V c 2 t) (iblk V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk V c 0 t) (iblk V c 1 t) (iblk V c 2 t) (iblk V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the region is handed; afterwards the
    accumulator at what the point before left, the other scoped buffers unopened, the generator register at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restS (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2) ∗ restS (F := F) c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ restS (F := F) c) ∗ (∃ r, prngReg c r)) := by
  cases n with
  | zero => exact absurd rfl hz
  | succ n => rfl

/-! ## The region's proof data -/

/-- The proof data on core `c`, entered from contents `V`: after the body at point `t` each input's buffer holds its
    block, the output's what `outsAt1` says; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = iblk V c 2 t := by dsimp only [dat1]
theorem after1_3 (c : Dev nD) (t : Fin cfg1.N) : (dat1 V c).after 3 t = iblk V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk V c 0 t :=
  before1_0_of V (dat1 V c) (A_eq1 V c 0) (after1_0 V c) t d
theorem before1_1 (c : Dev nD) (t : Fin cfg1.N) (d) : (dat1 V c).before 1 t d = iblk V c 1 t :=
  before1_1_of V (dat1 V c) (A_eq1 V c 1) (after1_1 V c) t d
theorem before1_2 (c : Dev nD) (t : Fin cfg1.N) (d) : (dat1 V c).before 2 t d = iblk V c 2 t :=
  before1_2_of V (dat1 V c) (A_eq1 V c 2) (after1_2 V c) t d
theorem before1_3 (c : Dev nD) (t : Fin cfg1.N) (d) : (dat1 V c).before 3 t d = iblk V c 3 t :=
  before1_3_of V (dat1 V c) (A_eq1 V c 3) (after1_3 V c) t d

/-! ## The body obligation -/

/-- What the body is called with at point `t`, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: `t % 4` selects the case; the inputs' buffers hold their blocks; the invariant hands over
    the accumulator (at anything before the first point, else at what the point before left) and takes it back at
    this point's value; the other scoped buffers and the generator register pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk V c 0 t) (iblk V c 1 t) (iblk V c 2 t) (iblk V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk V c 0 t) (iblk V c 1 t) (iblk V c 2 t) (iblk V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the same resources back: the accumulator's value is forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out V c _ (by rw [Fin.val_last]; have : cfg1.N = 64 := N_1; omega)

end Cert.Kernel.Layer1

end
-- ==== Proof.BitsLayerRun2.lean ====
import proofs.«105428_j37495064494476_1_alg».proof.Proof.Gen.Kernel.Launch
import proofs.«105428_j37495064494476_1_alg».proof.Proof.Gen.Kernel.Skeleton
import proofs.«105428_j37495064494476_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The third graph-convolution layer's kernel body, case by case

The body runs at the 64 points `t = 4 * i + k` of a 16 × 4 grid (row block `i`, reduction step `k`).
It keeps a 1024 × 128 accumulator in a buffer of its own across the four steps of a row block:
at `k = 0` the accumulator is first zeroed; at every step it becomes
`acc + A(i,k) · (h(k) · W)`; at `k = 3` the output block is stored as `max (acc + b) 0`.
Which of the two conditionals fire depends on `k = t % 4` alone, so there are three control
cases: `k = 0`, `k ∈ {1, 2}`, `k = 3`. -/

/-! ## The body's branch conditions -/

/-- The first conditional's test (`k = 0`), from the grid coordinates. -/
abbrev cond2_0 (i : grid2.Coords) : Prop := (Scalar.cmpi .ne (Scalar.extui (Scalar.cmpi .eq (BitVec.ofNat 32 (i 1).val) 0#32)) 0#32) = 1#1
/-- It holds exactly at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's test (`k = 3`), from the grid coordinates. -/
abbrev cond2_1 (i : grid2.Coords) : Prop := k2_cond2 i = 1#1
/-- It holds exactly at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where `k ≠ 3` nothing is stored into the output block and it is not written back. -/
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
/-- Where `k = 3` the output block is stored. -/
theorem liveAt2_4_C : ∀ t : Fin cfg2.N, ¬cond2_0 (grid2.coords t) → cond2_1 (grid2.coords t) → cfg2.idle 4 (grid2.coords t) = false := by decide +kernel

/-! ## The memrefs the body is called with -/

/-- One staging buffer of the output window, through which its contents are stated. -/
abbrev VO2_4 : View sig .tc .vmem S1024x128 .f32 := (Memref.whole cc2_stg4_0 : Memref sig .tc .vmem S1024x128 .f32).view
abbrev ms2_0 (t : Fin cfg2.N) : Memref sig .tc .vmem S1024x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x128 .f32 := win2_4.stage (cfg2.slots t 4)
abbrev hs2_4 (t : Fin cfg2.N) : (ms2_4 t).IsWhole := hstage2_4 ((cfg2.slots t 4).cast nbuf2_4)
/-- The accumulator: a whole buffer of the kernel's own, passed beside the windows. -/
abbrev scM2_0 : Memref sig .tc .vmem S1024x128 .f32 := Memref.whole cc2_scratch0
abbrev VS2_0 : View sig .tc .vmem S1024x128 .f32 := scM2_0.view

/-- Every other scoped buffer of the core: carried through the region unopened. -/
abbrev restS (c : Dev nD) : sProp 𝕄 :=
  Pipeline.scopedRestBut (Ix := Unit) (Name := ℕ) (U := UR sig nD τ) (Lvl := ℕ) (Val := Elt F) spec2 c [cc2_scratch0]

/-- What the region hands the body before the first point: the accumulator at some contents, the other scoped
    buffers, the generator register at some state. -/
theorem PhiA2_eq (c : Dev nD) :
    (Pipeline.ΦA spec2 c : sProp 𝕄)
      = iprop(iprop((∃ d, owns (c : Thread nD τ) scM2_0 fullShare d) ∗ restS (F := F) c) ∗ (∃ r, prngReg c r)) := by
  unfold Pipeline.ΦA; rw [scopedRest2_split]; simp only [scM2_0, owns_whole]; try rfl

/-! ## The body's triple in each case

Each is a pair of store lists (what ends in the output block's buffer, what ends in the accumulator) with the proof
that the body, run on whole buffers holding the inputs' blocks, ends with exactly those stores made. -/

set_option maxHeartbeats 1000000 in
/-- `k = 0`: the accumulator is zeroed, then accumulated into; the output block's buffer is untouched. -/
noncomputable def kernelRun2_A (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : ¬cond2_1 i)
    (x0 : Vec F S1024x4096 .bf16) (x1 : Vec F S4096x128 .f32) (x2 : Vec F S128x128 .f32) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨[], ?_, fun xi4 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- `k ∈ {1, 2}`: the accumulator, holding `xs0`, is accumulated into; the output block's buffer is untouched. -/
noncomputable def kernelRun2_B (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : ¬cond2_1 i)
    (x0 : Vec F S1024x4096 .bf16) (x1 : Vec F S4096x128 .f32) (x2 : Vec F S128x128 .f32) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨[], ?_, fun xi4 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- `k = 3`: the accumulator, holding `xs0`, is accumulated into, and the output block is stored from it. -/
noncomputable def kernelRun2_C (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : cond2_1 i)
    (x0 : Vec F S1024x4096 .bf16) (x1 : Vec F S4096x128 .f32) (x2 : Vec F S128x128 .f32) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨?_, ?_, fun E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Layer2

end
-- ==== Proof.BitsLayerBody2.lean ====
import proofs.«105428_j37495064494476_1_alg».proof.Proof.BitsLayerRun2

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The third graph-convolution layer as a region: proof data, body obligation, what it leaves

The region is stated at ANY contents `V` of the core's buffers at its entry. The accumulator after
each point, and the output block's staging buffer after the points `k = 3`, are defined by recursion on
the point; the region invariant carries the accumulator at that value, every other scoped buffer unopened. -/

variable (V : Dev nD → Valuation τ sig (Elt F))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- `k = 0` stores nothing into the output block's buffer: a placeholder nothing consults. -/
def out2_A_4 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : ¬cond2_1 i)
    (x0 : Vec F S1024x4096 .bf16) (x1 : Vec F S4096x128 .f32) (x2 : Vec F S128x128 .f32) (x3 : Vec F S1x128 .f32) : Vec F S1024x128 .f32 :=
  VO2_4.read (Elt F) (VO2_4.writes (Elt F) VO2_4.junk (kernelRun2_A c i arg2 harg2 arg3 harg3 arg4 harg4 arg5 harg5 arg6 harg6 arg7 harg7 hc0 hc1 x0 x1 x2 x3).1)

/-- The stores of `k = 0` into the accumulator cover it. -/
theorem scover2_A_0 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : ¬cond2_1 i)
    (x0 : Vec F S1024x4096 .bf16) (x1 : Vec F S4096x128 .f32) (x2 : Vec F S128x128 .f32) (x3 : Vec F S1x128 .f32) (y : S1024x128.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S1024x128.size (by sl_kernel_rfl) y

/-- What `k = 0` leaves in the accumulator. -/
def sout2_A_0 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : ¬cond2_1 i)
    (x0 : Vec F S1024x4096 .bf16) (x1 : Vec F S4096x128 .f32) (x2 : Vec F S128x128 .f32) (x3 : Vec F S1x128 .f32) : Vec F S1024x128 .f32 :=
  VS2_0.read (Elt F) (VS2_0.writes (Elt F) VS2_0.junk (kernelRun2_A c i arg2 harg2 arg3 harg3 arg4 harg4 arg5 harg5 arg6 harg6 arg7 harg7 hc0 hc1 x0 x1 x2 x3).2.1)

/-- `k ∈ {1, 2}` stores nothing into the output block's buffer: a placeholder nothing consults. -/
def out2_B_4 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : ¬cond2_1 i)
    (x0 : Vec F S1024x4096 .bf16) (x1 : Vec F S4096x128 .f32) (x2 : Vec F S128x128 .f32) (x3 : Vec F S1x128 .f32) (xs0 : Vec F S1024x128 .f32) : Vec F S1024x128 .f32 :=
  VO2_4.read (Elt F) (VO2_4.writes (Elt F) VO2_4.junk (kernelRun2_B c i arg2 harg2 arg3 harg3 arg4 harg4 arg5 harg5 arg6 harg6 arg7 harg7 hc0 hc1 x0 x1 x2 x3 xs0).1)

theorem scover2_B_0 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : ¬cond2_1 i)
    (x0 : Vec F S1024x4096 .bf16) (x1 : Vec F S4096x128 .f32) (x2 : Vec F S128x128 .f32) (x3 : Vec F S1x128 .f32) (xs0 : Vec F S1024x128 .f32) (y : S1024x128.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S1024x128.size (by sl_kernel_rfl) y

/-- What `k ∈ {1, 2}` leaves in the accumulator. -/
def sout2_B_0 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : ¬cond2_1 i)
    (x0 : Vec F S1024x4096 .bf16) (x1 : Vec F S4096x128 .f32) (x2 : Vec F S128x128 .f32) (x3 : Vec F S1x128 .f32) (xs0 : Vec F S1024x128 .f32) : Vec F S1024x128 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).2.1)

/-- The store of `k = 3` into the output block's buffer covers it. -/
theorem cover2_C_4 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : cond2_1 i)
    (x0 : Vec F S1024x4096 .bf16) (x1 : Vec F S4096x128 .f32) (x2 : Vec F S128x128 .f32) (x3 : Vec F S1x128 .f32) (xs0 : Vec F S1024x128 .f32) (y : S1024x128.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S1024x128.size (by sl_kernel_rfl) y

/-- What `k = 3` leaves in the output block's buffer. -/
def out2_C_4 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : cond2_1 i)
    (x0 : Vec F S1024x4096 .bf16) (x1 : Vec F S4096x128 .f32) (x2 : Vec F S128x128 .f32) (x3 : Vec F S1x128 .f32) (xs0 : Vec F S1024x128 .f32) : Vec F S1024x128 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)

theorem scover2_C_0 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : cond2_1 i)
    (x0 : Vec F S1024x4096 .bf16) (x1 : Vec F S4096x128 .f32) (x2 : Vec F S128x128 .f32) (x3 : Vec F S1x128 .f32) (xs0 : Vec F S1024x128 .f32) (y : S1024x128.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S1024x128.size (by sl_kernel_rfl) y

/-- What `k = 3` leaves in the accumulator. -/
def sout2_C_0 (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : cond2_1 i)
    (x0 : Vec F S1024x4096 .bf16) (x1 : Vec F S4096x128 .f32) (x2 : Vec F S128x128 .f32) (x3 : Vec F S1x128 .f32) (xs0 : Vec F S1024x128 .f32) : Vec F S1024x128 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)

/-! ## What the output block's buffer and the accumulator hold after each point -/

/-- After the body at position `n`: (the output block's staging buffer, the accumulator). The case is selected by
    `n % 4`; the cases `k ≠ 0` start from the accumulator the point before left. -/
def outsAt2 (c : Dev nD) : (n : ℕ) → n < cfg2.N → Vec F S1024x128 .f32 × Vec F S1024x128 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk V c 0 ⟨0, hn⟩) (iblk V c 1 ⟨0, hn⟩) (iblk V c 2 ⟨0, hn⟩) (iblk V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 4 = 0 then
      if h1 : (n + 1) % 4 = 3 then
        False.elim (by have hN : n + 1 < 64 := lt_of_lt_of_eq hn (show cfg2.N = 64 from N_2); omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 4 = 3 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk V c 0 t) (iblk V c 1 t) (iblk V c 2 t) (iblk V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk V c 0 t) (iblk V c 1 t) (iblk V c 2 t) (iblk V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk V c 0 t) (iblk V c 1 t) (iblk V c 2 t) (iblk V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk V c 0 t) (iblk V c 1 t) (iblk V c 2 t) (iblk V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk V c 0 t) (iblk V c 1 t) (iblk V c 2 t) (iblk V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the region is handed; afterwards the
    accumulator at what the point before left, the other scoped buffers unopened, the generator register at some state. -/
def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restS (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2_0 fullShare ((outsAt2 V c n hn).2) ∗ restS (F := F) c) ∗ (∃ r, prngReg c r)) := rfl

theorem PhiS_pos (c : Dev nD) (n : ℕ) (h : n ≤ cfg2.N) (hz : n ≠ 0) :
    PhiS V c n h = iprop(iprop(owns (c : Thread nD τ) scM2_0 fullShare ((outsAt2 V c (n - 1) (by omega)).2) ∗ restS (F := F) c) ∗ (∃ r, prngReg c r)) := by
  cases n with
  | zero => exact absurd rfl hz
  | succ n => rfl

/-! ## The region's proof data -/

/-- The proof data on core `c`, entered from contents `V`: after the body at point `t` each input's buffer holds its
    block, the output's what `outsAt2` says; nothing owed; full shares. -/
def dat2 (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk V c 0 t := by dsimp only [dat2]
theorem after2_1 (c : Dev nD) (t : Fin cfg2.N) : (dat2 V c).after 1 t = iblk V c 1 t := by dsimp only [dat2]
theorem after2_2 (c : Dev nD) (t : Fin cfg2.N) : (dat2 V c).after 2 t = iblk V c 2 t := by dsimp only [dat2]
theorem after2_3 (c : Dev nD) (t : Fin cfg2.N) : (dat2 V c).after 3 t = iblk V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk V c 0 t :=
  before2_0_of V (dat2 V c) (A_eq2 V c 0) (after2_0 V c) t d
theorem before2_1 (c : Dev nD) (t : Fin cfg2.N) (d) : (dat2 V c).before 1 t d = iblk V c 1 t :=
  before2_1_of V (dat2 V c) (A_eq2 V c 1) (after2_1 V c) t d
theorem before2_2 (c : Dev nD) (t : Fin cfg2.N) (d) : (dat2 V c).before 2 t d = iblk V c 2 t :=
  before2_2_of V (dat2 V c) (A_eq2 V c 2) (after2_2 V c) t d
theorem before2_3 (c : Dev nD) (t : Fin cfg2.N) (d) : (dat2 V c).before 3 t d = iblk V c 3 t :=
  before2_3_of V (dat2 V c) (A_eq2 V c 3) (after2_3 V c) t d

/-! ## The body obligation -/

/-- What the body is called with at point `t`, -/
def bodyPre (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: `t % 4` selects the case; the inputs' buffers hold their blocks; the invariant hands over
    the accumulator (at anything before the first point, else at what the point before left) and takes it back at
    this point's value; the other scoped buffers and the generator register pass through. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  have hN : t.val < 64 := lt_of_lt_of_eq t.isLt (show cfg2.N = 64 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0; (try dsimp only)
      by_cases hz : t.val = 0
      · rw [PhiS_castSucc V c t, PhiS_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk V c 0 t) (iblk V c 1 t) (iblk V c 2 t) (iblk V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk V c 0 t) (iblk V c 1 t) (iblk V c 2 t) (iblk V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the same resources back: the accumulator's value is forgotten. -/
theorem Phi_out (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out V c _ (by rw [Fin.val_last]; have : cfg2.N = 64 := N_2; omega)

end Cert.Kernel.Layer2

end
-- ==== Proof.BitsFcBody.lean ====
import proofs.«105428_j37495064494476_1_alg».proof.Proof.Gen.Kernel.Launch
import proofs.«105428_j37495064494476_1_alg».proof.Proof.Gen.Kernel.Skeleton
import proofs.«105428_j37495064494476_1_alg».proof.Proof.Gen.Kernel.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

/-!
# The dense head: h @ Wfc + bfc, one 1024 × 1024 tile of the result per grid point

The last kernel region runs over a 16 × 16 grid. At point (p, q) it is handed rows
1024 p … 1024 p + 1023 of the hidden features (a 1024 × 128 block), columns
1024 q … 1024 q + 1023 of the weight matrix (128 × 1024) and of the bias row (1 × 1024), and it
overwrites the 1024 × 1024 staging tile of the result with one value computed from those three
blocks. Nothing is kept from point to point and every tile is written back where it belongs, so

* the region's invariant is the plain one (the buffers no window stages, the generator register);
* after the body the three input buffers still hold their blocks and the output buffer holds the
  tile value of those blocks;
* the 256 tiles cover the 16384 × 16384 result exactly, tile (p, q) at rows 1024 p … and columns
  1024 q …, so the array the region leaves is one function of the three arrays it read: at index
  (r, s) the tile value of row block r / 1024 and column block s / 1024, at (r % 1024, s % 1024).
-/

set_option maxRecDepth 16384

noncomputable section

namespace Cert.Kernel.Fc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffers' contents when the region is entered, per core: the parameter everything below is stated at. -/
variable (V : Dev nD → Valuation τ sig (Elt F))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (the row block of
    the features is fetched only when the row index moves: unfetched, the index has not moved), for any proof data
    whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer through its whole rectangle -/

abbrev rH : Rect S1024x128 := Rect.unit (s := S1024x128) ![0, 0] S1024x128.size inb_S1024x128_S1024x128_0_0
abbrev rW : Rect S128x1024 := Rect.unit (s := S128x1024) ![0, 0] S128x1024.size inb_S128x1024_S128x1024_0_0
abbrev rB : Rect S1x1024 := Rect.unit (s := S1x1024) ![0, 0] S1x1024.size inb_S1x1024_S1x1024_0_0
abbrev rO : Rect S1024x1024 := Rect.unit (s := S1024x1024) ![0, 0] S1024x1024.size inb_S1024x1024_S1024x1024_0_0

theorem hz : (![0, 0] : Fin 2 → Nat) = fun _ => 0 := funext fun a => by fin_cases a <;> rfl

/-! ## What the body leaves in the output buffer -/

/-- The output tile after the body, from the three input blocks: its one store, through the whole rectangle. -/
def out3_3 (x0 : Vec F S1024x128 .f32) (x1 : Vec F S128x1024 .f32) (x2 : Vec F S1x1024 .f32) : Vec F S1024x1024 .f32 :=
  View.canon [⟨rO, k3_pay1 (View.ld x0 rH) (View.ld x1 rW) (View.ld x2 rB)⟩]

/-- That store covers the buffer: its rectangle is the whole shape. -/
theorem cover3_3 (p0 : Vec F S1024x1024 .f32) (y : S1024x1024.Idx) :
    ∃ pc ∈ ([⟨rO, p0⟩] : List (View.Piece (Elt F) S1024x1024 .f32)), y ∈ pc.1.set :=
  ⟨_, List.mem_singleton_self _, View.mem_set_unit_zero hz inb_S1024x1024_S1024x1024_0_0 y⟩

/-! ## The body's triple -/

set_option maxHeartbeats 1000000 in
/-- The body on whole staging buffers, the three inputs' at read contents x0, x1, x2 and the output's at anything, runs
    to the continuation holding the inputs' as they were and the output's at the tile value of the inputs'. (The
    body also loads the output buffer before storing into it; the value read is not used.) -/
theorem sound_kernel3 (c : Dev nD) (E : Set ℕ) (i : grid3.Coords)
    (arg2 : Memref sig .tc .vmem S1024x128 .f32) (harg2 : arg2.IsWhole) (arg3 : Memref sig .tc .vmem S128x1024 .f32) (harg3 : arg3.IsWhole)
    (arg4 : Memref sig .tc .vmem S1x1024 .f32) (harg4 : arg4.IsWhole) (arg5 : Memref sig .tc .vmem S1024x1024 .f32) (harg5 : arg5.IsWhole)
    (x0 : Vec F S1024x128 .f32) (x1 : Vec F S128x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3_3 x0 x1 x2)) -∗ K ⟨⟩))
      ⊢ wp frame (wpE (defs₀ (F := F)) Variants.none c none) E (cc3__fc_kernel i arg2 harg2 arg3 harg3 arg4 harg4 arg5 harg5) K := by
  simp only [cc3__fc_kernel_eq_skeleton]; unfold cc3__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The region's proof data -/

/-- The proof data of the region on core c, entered at the contents V: the arrays as found; after the body at point t
    each input buffer at its block and the output buffer at the tile value of the three blocks; the plain invariant;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- The invariant is entered from, and gives back, the plain one. -/
theorem hin3 (c : Dev nD) : Pipeline.ΦA spec3 c ⊢ (dat3 V c).Φ 0 := .rfl
theorem hout3 (c : Dev nD) : (dat3 V c).Φ (Fin.last cfg3.N) ⊢ Pipeline.ΦA spec3 c := .rfl

/-! ## The body obligation, at a generic point -/

/-- What the body is called with at point t, the windows one by one, -/
def bodyPre (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and
    the core's dues pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body V c t

/-! ## The array the region leaves

The result as ONE function of the three arrays the region read. Row block p of the features is rows 1024 p … of that
array, column block q of the weights and of the bias is columns 1024 q …; the result at (r, s) is the tile value of
row block r / 1024 and column block s / 1024, read at (r % 1024, s % 1024). -/

open ValueIdx in
/-- Rows 1024 p … 1024 p + 1023 of a 16384 × 128 array. -/
def rowBlk (a : S16384x128.Idx → Elt F .f32) (p : Fin 16) : Vec F S1024x128 .f32 := fun y =>
  a (ix2 (⟨p.val * 1024 + (y 0).val, by have := idx2_lt0 y; have := p.isLt; omega⟩ : Fin 16384) (⟨(y 1).val, idx2_lt1 y⟩ : Fin 128))

open ValueIdx in
/-- Columns 1024 q … 1024 q + 1023 of a 128 × 16384 array. -/
def colBlk (a : S128x16384.Idx → Elt F .f32) (q : Fin 16) : Vec F S128x1024 .f32 := fun y =>
  a (ix2 (⟨(y 0).val, idx2_lt0 y⟩ : Fin 128) (⟨q.val * 1024 + (y 1).val, by have := idx2_lt1 y; have := q.isLt; omega⟩ : Fin 16384))

open ValueIdx in
/-- Columns 1024 q … 1024 q + 1023 of a 1 × 16384 row. -/
def biasBlk (a : S1x16384.Idx → Elt F .f32) (q : Fin 16) : Vec F S1x1024 .f32 := fun y =>
  a (ix2 (⟨(y 0).val, idx2_lt0 y⟩ : Fin 1) (⟨q.val * 1024 + (y 1).val, by have := idx2_lt1 y; have := q.isLt; omega⟩ : Fin 16384))

/-- The tile a coordinate below 16384 falls in, -/
def tileOf (n : Nat) (h : n < 16384) : Fin 16 := ⟨n / 1024, by omega⟩
/-- and its place inside the tile. -/
def inTile (n : Nat) : Fin 1024 := ⟨n % 1024, Nat.mod_lt _ (by decide)⟩

theorem tileOf_eq (n : Nat) (h : n < 16384) (p : Fin 16) (r : Nat) (hr : r < 1024) (e : n = p.val * 1024 + r) : tileOf n h = p :=
  Fin.ext (by show n / 1024 = p.val; omega)
theorem inTile_eq (n : Nat) (p r : Nat) (hr : r < 1024) (e : n = p * 1024 + r) : (inTile n).val = r := by
  show n % 1024 = r; omega

open ValueIdx in
/-- The result array from the features a0, the weights a1 and the bias row a2. -/
def fcOut (a0 : S16384x128.Idx → Elt F .f32) (a1 : S128x16384.Idx → Elt F .f32) (a2 : S1x16384.Idx → Elt F .f32) :
    S16384x16384.Idx → Elt F .f32 := fun i =>
  k3_pay1 (rowBlk a0 (tileOf (i 0).val (idx2_lt0 i))) (colBlk a1 (tileOf (i 1).val (idx2_lt1 i))) (biasBlk a2 (tileOf (i 1).val (idx2_lt1 i)))
    (ix2 (inTile (i 0).val) (inTile (i 1).val))

open ValueIdx in
/-- At an index of tile (p, q), at place j inside it, the result is the tile value of row block p and column block q at j. -/
theorem fcOut_at_tile (a0 : S16384x128.Idx → Elt F .f32) (a1 : S128x16384.Idx → Elt F .f32) (a2 : S1x16384.Idx → Elt F .f32)
    (x0 : Vec F S1024x128 .f32) (x1 : Vec F S128x1024 .f32) (x2 : Vec F S1x1024 .f32) (p q : Fin 16)
    (i : S16384x16384.Idx) (j : S1024x1024.Idx)
    (h0 : (i 0).val = p.val * 1024 + (j 0).val) (h1 : (i 1).val = q.val * 1024 + (j 1).val)
    (e0 : x0 = rowBlk a0 p) (e1 : x1 = colBlk a1 q) (e2 : x2 = biasBlk a2 q) :
    k3_pay1 x0 x1 x2 j = fcOut a0 a1 a2 i := by
  subst e0 e1 e2
  have hp : tileOf (i 0).val (idx2_lt0 i) = p := tileOf_eq _ _ p (j 0).val (idx2_lt0 j) h0
  have hq : tileOf (i 1).val (idx2_lt1 i) = q := tileOf_eq _ _ q (j 1).val (idx2_lt1 j) h1
  have hj : ix2 (inTile (i 0).val) (inTile (i 1).val) = j := by
    funext a
    match a with
    | ⟨0, _⟩ => exact Fin.ext (inTile_eq _ p.val (j 0).val (idx2_lt0 j) h0)
    | ⟨1, _⟩ => exact Fin.ext (inTile_eq _ q.val (j 1).val (idx2_lt1 j) h1)
  unfold fcOut
  rw [hp, hq, hj]

/-- The printed index maps over the grid, point t = 16 p + q: the features' block index is (p, 0), the weights' and the
    bias's (0, q), the result's (p, q). -/
theorem idx_facts3 : ∀ t : Fin cfg3.N,
    win3_3.index t (0 : Fin 2) = t.val / 16 ∧ win3_3.index t (1 : Fin 2) = t.val % 16
    ∧ win3_0.index t (0 : Fin 2) = t.val / 16 ∧ win3_0.index t (1 : Fin 2) = 0
    ∧ win3_1.index t (0 : Fin 2) = 0 ∧ win3_1.index t (1 : Fin 2) = t.val % 16
    ∧ win3_2.index t (0 : Fin 2) = 0 ∧ win3_2.index t (1 : Fin 2) = t.val % 16 :=
  (by decide +kernel : ∀ t : Fin grid3.N, _)

theorem lt_N3 (t : Fin cfg3.N) : t.val < 256 := by
  have h : t.val < grid3.N := t.isLt
  rw [N_3] at h; exact h

open ValueIdx in
/-- The features' block at point t is row block t / 16 of the array. -/
theorem iblk3_0_eq (c : Dev nD) (t : Fin cfg3.N) (p : Fin 16) (hp : p.val = t.val / 16) :
    iblk3 V c 0 t = rowBlk (V c (Pipeline.arrRef spec3 0)) p := by
  obtain ⟨e0, e1, e2, e3, e4, e5, e6, e7⟩ := idx_facts3 t
  funext y
  show V c (Pipeline.arrRef spec3 0) (((cfg3.win 0).blk t).view.emb y) = V c (Pipeline.arrRef spec3 0) (ix2 _ _)
  refine congrArg _ ?_
  funext a; apply Fin.ext
  match a with
  | ⟨0, _⟩ => show win3_0.index t (0 : Fin 2) * 1024 + 1 * (y 0).val = p.val * 1024 + (y 0).val; omega
  | ⟨1, _⟩ => show win3_0.index t (1 : Fin 2) * 128 + 1 * (y 1).val = (y 1).val; omega

open ValueIdx in
/-- The weights' block at point t is column block t % 16 of the array. -/
theorem iblk3_1_eq (c : Dev nD) (t : Fin cfg3.N) (q : Fin 16) (hq : q.val = t.val % 16) :
    iblk3 V c 1 t = colBlk (V c (Pipeline.arrRef spec3 1)) q := by
  obtain ⟨e0, e1, e2, e3, e4, e5, e6, e7⟩ := idx_facts3 t
  funext y
  show V c (Pipeline.arrRef spec3 1) (((cfg3.win 1).blk t).view.emb y) = V c (Pipeline.arrRef spec3 1) (ix2 _ _)
  refine congrArg _ ?_
  funext a; apply Fin.ext
  match a with
  | ⟨0, _⟩ => show win3_1.index t (0 : Fin 2) * 128 + 1 * (y 0).val = (y 0).val; omega
  | ⟨1, _⟩ => show win3_1.index t (1 : Fin 2) * 1024 + 1 * (y 1).val = q.val * 1024 + (y 1).val; omega

open ValueIdx in
/-- The bias's block at point t is column block t % 16 of the row. -/
theorem iblk3_2_eq (c : Dev nD) (t : Fin cfg3.N) (q : Fin 16) (hq : q.val = t.val % 16) :
    iblk3 V c 2 t = biasBlk (V c (Pipeline.arrRef spec3 2)) q := by
  obtain ⟨e0, e1, e2, e3, e4, e5, e6, e7⟩ := idx_facts3 t
  funext y
  show V c (Pipeline.arrRef spec3 2) (((cfg3.win 2).blk t).view.emb y) = V c (Pipeline.arrRef spec3 2) (ix2 _ _)
  refine congrArg _ ?_
  funext a; apply Fin.ext
  match a with
  | ⟨0, _⟩ => show win3_2.index t (0 : Fin 2) * 1 + 1 * (y 0).val = (y 0).val; omega
  | ⟨1, _⟩ => show win3_2.index t (1 : Fin 2) * 1024 + 1 * (y 1).val = q.val * 1024 + (y 1).val; omega

/-- What point t writes back is tile t of the result function of the arrays as the region finds them. -/
theorem flushed3_eq (c : Dev nD) (t : Fin cfg3.N) :
    (dat3 V c).flushed 3 t = ((cfg3.win 3).blk t).view.read (Elt F)
      (fcOut (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S1024x128) hz, View.ld_unit_zero (S := S128x1024) hz, View.ld_unit_zero (S := S1x1024) hz]
  obtain ⟨e0, e1, e2, e3, e4, e5, e6, e7⟩ := idx_facts3 t
  have ht := lt_N3 t
  funext j
  show k3_pay1 (iblk3 V c 0 t) (iblk3 V c 1 t) (iblk3 V c 2 t) j
    = fcOut (V c (Pipeline.arrRef spec3 0)) (V c (Pipeline.arrRef spec3 1)) (V c (Pipeline.arrRef spec3 2)) (((cfg3.win 3).blk t).view.emb j)
  refine fcOut_at_tile (V c (Pipeline.arrRef spec3 0)) (V c (Pipeline.arrRef spec3 1)) (V c (Pipeline.arrRef spec3 2))
    (iblk3 V c 0 t) (iblk3 V c 1 t) (iblk3 V c 2 t) ⟨t.val / 16, by omega⟩ ⟨t.val % 16, by omega⟩ (((cfg3.win 3).blk t).view.emb j) j ?_ ?_
    (iblk3_0_eq V c t _ rfl) (iblk3_1_eq V c t _ rfl) (iblk3_2_eq V c t _ rfl)
  · show win3_3.index t (0 : Fin 2) * 1024 + 1 * (j 0).val = t.val / 16 * 1024 + (j 0).val; omega
  · show win3_3.index t (1 : Fin 2) * 1024 + 1 * (j 1).val = t.val % 16 * 1024 + (j 1).val; omega

/-- An index of the result is in point t's tile iff each coordinate is in the tile's range on its axis. -/
theorem mem_blk3 (t : Fin cfg3.N) (i : S16384x16384.Idx) :
    i ∈ ((cfg3.win 3).blk t).view.set ↔ ∀ a : Fin 2, win3_3.index t a * S1024x1024.size a ≤ (i a).val ∧ (i a).val < win3_3.index t a * S1024x1024.size a + S1024x1024.size a := by
  show i ∈ ((View.whole main_v53).slice (win3_3.rect t)).set ↔ _
  rw [View.set_slice_whole, Rect.mem_set_unit]
  exact Iff.rfl

open ValueIdx in
/-- Every index of the result is in the tile of the point 16 (r / 1024) + s / 1024, which writes its tile back. -/
theorem cover3 (i : S16384x16384.Idx) :
    ∃ t : Fin cfg3.N, (cfg3.win 3).flush t = true ∧ i ∈ ((cfg3.win 3).blk t).view.set := by
  have h0 := idx2_lt0 i
  have h1 := idx2_lt1 i
  have hN : (i 0).val / 1024 * 16 + (i 1).val / 1024 < grid3.N := by rw [N_3]; omega
  obtain ⟨e0, e1, -⟩ := idx_facts3 ⟨(i 0).val / 1024 * 16 + (i 1).val / 1024, hN⟩
  refine ⟨⟨(i 0).val / 1024 * 16 + (i 1).val / 1024, hN⟩, flush3_3 _, ?_⟩
  rw [mem_blk3]
  intro a
  match a with
  | ⟨0, _⟩ =>
    show win3_3.index ⟨(i 0).val / 1024 * 16 + (i 1).val / 1024, hN⟩ (0 : Fin 2) * 1024 ≤ (i 0).val
      ∧ (i 0).val < win3_3.index ⟨(i 0).val / 1024 * 16 + (i 1).val / 1024, hN⟩ (0 : Fin 2) * 1024 + 1024
    rw [e0]; show ((i 0).val / 1024 * 16 + (i 1).val / 1024) / 16 * 1024 ≤ _ ∧ _ < ((i 0).val / 1024 * 16 + (i 1).val / 1024) / 16 * 1024 + 1024
    omega
  | ⟨1, _⟩ =>
    show win3_3.index ⟨(i 0).val / 1024 * 16 + (i 1).val / 1024, hN⟩ (1 : Fin 2) * 1024 ≤ (i 1).val
      ∧ (i 1).val < win3_3.index ⟨(i 0).val / 1024 * 16 + (i 1).val / 1024, hN⟩ (1 : Fin 2) * 1024 + 1024
    rw [e1]; show ((i 0).val / 1024 * 16 + (i 1).val / 1024) % 16 * 1024 ≤ _ ∧ _ < ((i 0).val / 1024 * 16 + (i 1).val / 1024) % 16 * 1024 + 1024
    omega

/-- THE RESULT after the region: the result function of the three arrays as the region found them. -/
theorem final3 (c : Dev nD) :
    (dat3 V c).arrAt 3 cfg3.N
      = fcOut (V c (Pipeline.arrRef spec3 0)) (V c (Pipeline.arrRef spec3 1)) (V c (Pipeline.arrRef spec3 2)) :=
  (dat3 V c).arrAt_eq_of_cover 3 _ (fun t _ => flushed3_eq V c t) cover3

/-- The three arrays the region reads are as it found them afterwards. -/
theorem kept3_0 (c : Dev nD) : (dat3 V c).arrAt 0 cfg3.N = V c (Pipeline.arrRef spec3 0) :=
  ((dat3 V c).arrAt_in 0 rfl _).trans (A_eq3 V c 0)
theorem kept3_1 (c : Dev nD) : (dat3 V c).arrAt 1 cfg3.N = V c (Pipeline.arrRef spec3 1) :=
  ((dat3 V c).arrAt_in 1 rfl _).trans (A_eq3 V c 1)
theorem kept3_2 (c : Dev nD) : (dat3 V c).arrAt 2 cfg3.N = V c (Pipeline.arrRef spec3 2) :=
  ((dat3 V c).arrAt_in 2 rfl _).trans (A_eq3 V c 2)

end Cert.Kernel.Fc

end
-- ==== Proof.BitsRegionsRun.lean ====
import proofs.«105428_j37495064494476_1_alg».proof.Proof.BitsRegionsKit
import proofs.«105428_j37495064494476_1_alg».proof.Proof.BitsLayerBody0
import proofs.«105428_j37495064494476_1_alg».proof.Proof.BitsLayerBody1
import proofs.«105428_j37495064494476_1_alg».proof.Proof.BitsLayerBody2
import proofs.«105428_j37495064494476_1_alg».proof.Proof.BitsFcBody

noncomputable section

/-! # The four kernel calls' run, at the calls' own proof data

The several-call run (stated over any per-call proof data) at the three layer calls' and the final dense call's:
`outs` names what each call leaves in its output array, `frame_run` is the program's frame, and `value_run` is the
same run with the result array named: it ends at `outs 10 main_v53`, the last call's output array after its last
point, whose inputs are in turn the earlier calls' output arrays (`outs_4 … outs_10`). -/

namespace Cert.Kernel.Run

open Idealize.ShloMosaic Idealize.ShloMosaic.TcCoe
open Idealize.SL Idealize.SL.Sem
open Idealize.ShloMosaic.Pipeline (Dat)
open Cert.Kernel Cert.Kernel.Gen

variable {F : FTy → Type} [FloatOps F]

/-- Call 0's proof data meet what the several-call run asks: the arrays are read off the entry contents (by the
    definition), full shares, nothing owed, no bound on the recorded pairs, and the body's facts. -/
theorem kit0 : RunKit.CallKit cfg0 (Layer0.dat0 (F := F)) where
  A_eq := Layer0.A_eq0
  q_full := fun _ _ _ => rfl
  owed_zero := fun _ _ _ => rfl
  body := Layer0.body_obligation0
  hin := Layer0.hin0
  hout := Layer0.hout0
  recorded_univ := fun _ _ _ => rfl

/-- Call 1's proof data meet what the several-call run asks: the arrays are read off the entry contents (by the
    definition), full shares, nothing owed, no bound on the recorded pairs, and the body's facts. -/
theorem kit1 : RunKit.CallKit cfg1 (Layer1.dat1 (F := F)) where
  A_eq := Layer1.A_eq1
  q_full := fun _ _ _ => rfl
  owed_zero := fun _ _ _ => rfl
  body := Layer1.body_obligation1
  hin := Layer1.hin1
  hout := Layer1.hout1
  recorded_univ := fun _ _ _ => rfl

/-- Call 2's proof data meet what the several-call run asks: the arrays are read off the entry contents (by the
    definition), full shares, nothing owed, no bound on the recorded pairs, and the body's facts. -/
theorem kit2 : RunKit.CallKit cfg2 (Layer2.dat2 (F := F)) where
  A_eq := Layer2.A_eq2
  q_full := fun _ _ _ => rfl
  owed_zero := fun _ _ _ => rfl
  body := Layer2.body_obligation2
  hin := Layer2.hin2
  hout := Layer2.hout2
  recorded_univ := fun _ _ _ => rfl

/-- Call 3's proof data meet what the several-call run asks: the arrays are read off the entry contents (by the
    definition), full shares, nothing owed, no bound on the recorded pairs, and the body's facts. -/
theorem kit3 : RunKit.CallKit cfg3 (Fc.dat3 (F := F)) where
  A_eq := Fc.A_eq3
  q_full := fun _ _ _ => rfl
  owed_zero := fun _ _ _ => rfl
  body := Fc.body_obligation3
  hin := Fc.hin3
  hout := Fc.hout3
  recorded_univ := fun _ _ _ => rfl

variable (m : (ℓ : Loc nD τ sig) → Buf (Elt F) ℓ)

/-- What every call leaves in its output array, per core: `outs 4 main_v47`, `outs 6 main_v49`, `outs 8 main_v51` after
    the three layer calls, `outs 10 main_v53` after the dense call. -/
def outs : Outs (F := F) := RunKit.outs Layer0.dat0 Layer1.dat1 Layer2.dat2 Fc.dat3 m

/-- Every call's proof data, each at its entry contents. -/
def pdats : (p : Fin 4) → (c : Dev nD) → Dat τ (Elt F) Unit ℕ (UR sig nD τ) ℕ (cfgs p) c := RunKit.pdats Layer0.dat0 Layer1.dat1 Layer2.dat2 Fc.dat3 m

/-- Layer call 0 leaves in `main_v47` its output array after the last point, entered from `V3`. -/
theorem outs_4 (c : Dev nD) : outs m 4 main_v47 c = (Layer0.dat0 (V3 m) c).arrAt 4 cfg0.N := RunKit.outs_4 Layer0.dat0 Layer1.dat1 Layer2.dat2 Fc.dat3 m c
/-- Layer call 1 leaves in `main_v49` its output array after the last point, entered from `V5`. -/
theorem outs_6 (c : Dev nD) : outs m 6 main_v49 c = (Layer1.dat1 (V5 m (outs m)) c).arrAt 4 cfg1.N := RunKit.outs_6 Layer0.dat0 Layer1.dat1 Layer2.dat2 Fc.dat3 m c
/-- Layer call 2 leaves in `main_v51` its output array after the last point, entered from `V7`. -/
theorem outs_8 (c : Dev nD) : outs m 8 main_v51 c = (Layer2.dat2 (V7 m (outs m)) c).arrAt 4 cfg2.N := RunKit.outs_8 Layer0.dat0 Layer1.dat1 Layer2.dat2 Fc.dat3 m c
/-- The dense call leaves in `main_v53` its output array after the last point, entered from `V9`. -/
theorem outs_10 (c : Dev nD) : outs m 10 main_v53 c = (Fc.dat3 (V9 m (outs m)) c).arrAt 3 cfg3.N := RunKit.outs_10 Layer0.dat0 Layer1.dat1 Layer2.dat2 Fc.dat3 m c

/-- A later call reads an earlier call's output: the host stretch between them does not write it. -/
theorem V5_main_v47 (c : Dev nD) : V5 m (outs m) c main_v47 = outs m 4 main_v47 c :=
  (V5_of m (outs m) c main_v47 (by decide)).trans (Function.update_self _ _ _)
theorem V7_main_v49 (c : Dev nD) : V7 m (outs m) c main_v49 = outs m 6 main_v49 c :=
  (V7_of m (outs m) c main_v49 (by decide)).trans (Function.update_self _ _ _)
theorem V9_main_v51 (c : Dev nD) : V9 m (outs m) c main_v51 = outs m 8 main_v51 c :=
  (V9_of m (outs m) c main_v51 (by decide)).trans (Function.update_self _ _ _)

/-- THE FRAME: every weakly fair execution of @main from memory `m` with zero counters terminates, and every final
    memory holds each argument as launched. -/
theorem frame_run (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  RunKit.frame_run Layer0.dat0 Layer1.dat1 Layer2.dat2 Fc.dat3 m kit0 kit1 kit2 kit3 ρ

/-- THE RUN WITH ITS RESULT NAMED: moreover every final memory holds in `main_v53` what the dense call leaves there. -/
theorem value_run (ρ : Dev nD → PrngReg) :
    θ_run defs (onTc (τ := τ) (main (F := F))) ⟨m, fun _ => 0, ρ⟩ (fun r => ∀ c : Dev nD,
      r.2.mem ((c.tc : Thread nD τ).loc main_v53) = outs m 10 main_v53 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  RunKit.value_run Layer0.dat0 Layer1.dat1 Layer2.dat2 Fc.dat3 m kit0 kit1 kit2 kit3 ρ

end Cert.Kernel.Run

end
-- ==== Proof.RegionsEntry.lean ====
import proofs.«105428_j37495064494476_1_alg».proof.Proof.Gen.KernelIdeal.Regions
import Idealize.ShloMosaic.Lib.StableHlo.Run

noncomputable section

/-! # What each kernel call finds in its input arrays

Between the items of @main a core's buffers are the launch contents with each host stretch applied and, after a call,
the call's output array replaced (by any contents `outs`). A call's input arrays are then, reading back through the
items that do not write them: the adjacency as the first call finds it (no later item writes it); the features, the
weights and the transposed dense weights as launched; each bias vector as launched, laid out as one row by the one
host operation before its call; and, for the second and third layer calls and the dense call, the output array of the
call before. These equations hold whatever the calls leave. -/

namespace Cert.KernelIdeal.Entry

open Cert.KernelIdeal Cert.KernelIdeal.Gen Idealize.ShloMosaic Idealize.ShloMosaic.TcCoe Idealize.SL.Sem
  Idealize.ShloMosaic.StableHlo

variable {F : FTy → Type} [FloatOps F]
variable (m : (ℓ : Loc nD τ sig) → Buf (Elt F) ℓ) (outs : Outs (F := F)) (c : Dev nD)

/-! ## Buffers no item up to a call's entry writes -/

/-- A buffer the three opening host stretches do not write is, at the first call's entry, as launched. -/
theorem V3_keep (r : Ref sig .tc) (h0 : r ∉ hostOps0_W) (h1 : r ∉ hostOps0_1_W) (h2 : r ∉ hostOps0_2_W) :
    V3 m c r = m ((c.tc : Thread nD τ).loc r) :=
  (V3_of m c r h2).trans <| (V2_of m c r h1).trans <| (V1_of m c r h0).trans rfl
/-- A buffer that is neither the first call's output nor written by the stretch after it is, at the second call's
    entry, as at the first's. -/
theorem V5_keep (r : Ref sig .tc) (h : r ∉ ([main_v47] : List (Ref sig .tc))) (h' : r ∉ hostOps1_W) : V5 m outs c r = V3 m c r :=
  (V5_of m outs c r h').trans (V4_of m outs c r h)
theorem V7_keep (r : Ref sig .tc) (h : r ∉ ([main_v49] : List (Ref sig .tc))) (h' : r ∉ hostOps2_W) : V7 m outs c r = V5 m outs c r :=
  (V7_of m outs c r h').trans (V6_of m outs c r h)
theorem V9_keep (r : Ref sig .tc) (h : r ∉ ([main_v51] : List (Ref sig .tc))) (h' : r ∉ hostOps3_W) : V9 m outs c r = V7 m outs c r :=
  (V9_of m outs c r h').trans (V8_of m outs c r h)

/-! ## Layer call 0, entered from `V3` -/

/-- The adjacency. -/
theorem entry0_0 : (V3 m c (Pipeline.arrRef spec0 0) : S16384x16384.Idx → Elt F .bf16) = V3 m c main_v45 := rfl
/-- The features, as launched. -/
theorem entry0_1 : (V3 m c (Pipeline.arrRef spec0 1) : S16384x16.Idx → Elt F .f32) = m ((c.tc : Thread nD τ).loc main_arg0) :=
  V3_keep m c main_arg0 (by decide) (by decide) (by decide)
/-- The first weights, as launched. -/
theorem entry0_2 : (V3 m c (Pipeline.arrRef spec0 2) : S16x128.Idx → Elt F .f32) = m ((c.tc : Thread nD τ).loc main_arg2) :=
  V3_keep m c main_arg2 (by decide) (by decide) (by decide)
/-- The first bias row. -/
theorem entry0_3 : (V3 m c (Pipeline.arrRef spec0 3) : S1x128.Idx → Elt F .f32) = V3 m c main_v46 := rfl

/-! ## Layer call 1, entered from `V5` -/

/-- The adjacency, as the first call found it. -/
theorem entry1_0 : (V5 m outs c (Pipeline.arrRef spec1 0) : S16384x16384.Idx → Elt F .bf16) = V3 m c main_v45 :=
  V5_keep m outs c main_v45 (by decide) (by decide)
/-- The first call's output. -/
theorem entry1_1 : (V5 m outs c (Pipeline.arrRef spec1 1) : S16384x128.Idx → Elt F .f32) = outs 4 main_v47 c :=
  (V5_of m outs c main_v47 (by decide)).trans (Function.update_self _ _ _)
/-- The second weights, as launched. -/
theorem entry1_2 : (V5 m outs c (Pipeline.arrRef spec1 2) : S128x128.Idx → Elt F .f32) = m ((c.tc : Thread nD τ).loc main_arg4) :=
  (V5_keep m outs c main_arg4 (by decide) (by decide)).trans (V3_keep m c main_arg4 (by decide) (by decide) (by decide))
/-- The second bias vector as launched, as one row. -/
theorem entry1_3 : (V5 m outs c (Pipeline.arrRef spec1 3) : S1x128.Idx → Elt F .f32)
    = shapeCast S1x128 (m ((c.tc : Thread nD τ).loc main_arg5)) shapeCasts_S128_S1x128 := by
  have h : (V5 m outs c main_v48 : S1x128.Idx → Elt F .f32) = shapeCast S1x128 (V4 m outs c main_arg5) shapeCasts_S128_S1x128 := by
    dsimp only [Gen.V5, Gen.hostOps1]
    after_results_simp <;> rfl
  rw [show V4 m outs c main_arg5 = m ((c.tc : Thread nD τ).loc main_arg5) from
    (V4_of m outs c main_arg5 (by decide)).trans (V3_keep m c main_arg5 (by decide) (by decide) (by decide))] at h
  exact h

/-! ## Layer call 2, entered from `V7` -/

/-- The adjacency, as the first call found it. -/
theorem entry2_0 : (V7 m outs c (Pipeline.arrRef spec2 0) : S16384x16384.Idx → Elt F .bf16) = V3 m c main_v45 :=
  (V7_keep m outs c main_v45 (by decide) (by decide)).trans (V5_keep m outs c main_v45 (by decide) (by decide))
/-- The second call's output. -/
theorem entry2_1 : (V7 m outs c (Pipeline.arrRef spec2 1) : S16384x128.Idx → Elt F .f32) = outs 6 main_v49 c :=
  (V7_of m outs c main_v49 (by decide)).trans (Function.update_self _ _ _)
/-- The third weights, as launched. -/
theorem entry2_2 : (V7 m outs c (Pipeline.arrRef spec2 2) : S128x128.Idx → Elt F .f32) = m ((c.tc : Thread nD τ).loc main_arg6) :=
  (V7_keep m outs c main_arg6 (by decide) (by decide)).trans <| (V5_keep m outs c main_arg6 (by decide) (by decide)).trans
    (V3_keep m c main_arg6 (by decide) (by decide) (by decide))
/-- The third bias vector as launched, as one row. -/
theorem entry2_3 : (V7 m outs c (Pipeline.arrRef spec2 3) : S1x128.Idx → Elt F .f32)
    = shapeCast S1x128 (m ((c.tc : Thread nD τ).loc main_arg7)) shapeCasts_S128_S1x128 := by
  have h : (V7 m outs c main_v50 : S1x128.Idx → Elt F .f32) = shapeCast S1x128 (V6 m outs c main_arg7) shapeCasts_S128_S1x128 := by
    dsimp only [Gen.V7, Gen.hostOps2]
    after_results_simp <;> rfl
  rw [show V6 m outs c main_arg7 = m ((c.tc : Thread nD τ).loc main_arg7) from
    (V6_of m outs c main_arg7 (by decide)).trans <| (V5_keep m outs c main_arg7 (by decide) (by decide)).trans
      (V3_keep m c main_arg7 (by decide) (by decide) (by decide))] at h
  exact h

/-! ## The dense call, entered from `V9` -/

/-- The third call's output. -/
theorem entry3_0 : (V9 m outs c (Pipeline.arrRef spec3 0) : S16384x128.Idx → Elt F .f32) = outs 8 main_v51 c :=
  (V9_of m outs c main_v51 (by decide)).trans (Function.update_self _ _ _)
/-- The dense weights, as launched. -/
theorem entry3_1 : (V9 m outs c (Pipeline.arrRef spec3 1) : S128x16384.Idx → Elt F .f32) = m ((c.tc : Thread nD τ).loc main_arg8) :=
  (V9_keep m outs c main_arg8 (by decide) (by decide)).trans <| (V7_keep m outs c main_arg8 (by decide) (by decide)).trans <|
    (V5_keep m outs c main_arg8 (by decide) (by decide)).trans (V3_keep m c main_arg8 (by decide) (by decide) (by decide))
/-- The dense bias vector as launched, as one row. -/
theorem entry3_2 : (V9 m outs c (Pipeline.arrRef spec3 2) : S1x16384.Idx → Elt F .f32)
    = shapeCast S1x16384 (m ((c.tc : Thread nD τ).loc main_arg9)) shapeCasts_S16384_S1x16384 := by
  have h : (V9 m outs c main_v52 : S1x16384.Idx → Elt F .f32) = shapeCast S1x16384 (V8 m outs c main_arg9) shapeCasts_S16384_S1x16384 := by
    dsimp only [Gen.V9, Gen.hostOps3]
    after_results_simp <;> rfl
  rw [show V8 m outs c main_arg9 = m ((c.tc : Thread nD τ).loc main_arg9) from
    (V8_of m outs c main_arg9 (by decide)).trans <| (V7_keep m outs c main_arg9 (by decide) (by decide)).trans <|
      (V5_keep m outs c main_arg9 (by decide) (by decide)).trans (V3_keep m c main_arg9 (by decide) (by decide) (by decide))] at h
  exact h

end Cert.KernelIdeal.Entry

end
-- ==== Proof.LayerValue0.lean ====
import proofs.«105428_j37495064494476_1_alg».proof.Proof.LayerBody0
import Idealize.ShloMosaic.Lib.Pipeline.Value

set_option maxRecDepth 16384

noncomputable section

namespace Cert.KernelIdeal.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # What the first graph-convolution layer's region leaves in its output array

Over the four steps `k = 0 … 3` of row block `i` (points `4 i … 4 i + 3`) the accumulator runs through
`acc₀ = step(h₀, W, 0, A₀)`, `acc_{k+1} = step(h_{k+1}, W, acc_k, A_{k+1})` where `step` is the body's accumulation
payload, `A_k` the adjacency block `(i, k)`, `h_k` the feature block `k`; the block written back at `4 i + 3` is
the bias-and-rectify payload of `acc₃`. -/

/-! ## What each case's stores amount to

Every store of the body writes a whole buffer, and every load reads one; so what a case leaves in a buffer is the
payload of its last store there, over the blocks the buffers held. -/

theorem hz : (![0, 0] : Fin 2 → Nat) = fun _ => 0 := funext fun a => by fin_cases a <;> rfl

/-- `k = 0`: the accumulator ends at one accumulation step from the zero block. -/
theorem sout0_A_0_eq (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x4096 .bf16) (x1 : Vec F S4096x16 .f32) (x2 : Vec F S16x128 .f32) (x3 : Vec F S1x128 .f32) :
    sout0_A_0 c i arg2 harg2 arg3 harg3 arg4 harg4 arg5 harg5 arg6 harg6 arg7 harg7 hc0 hc1 x0 x1 x2 x3 = k0_pay2 x1 x2 (k0_pay1 (F := F)) x0 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x128) hz, View.readCov_unit_zero (S := S1024x128) _ hz]
  simp only [View.readAt_eq_ld, harg2.read_unread, harg3.read_unread, harg4.read_unread, harg5.read_unread, harg7.read_unread, View.ld_unit_zero (S := S1024x4096) hz, View.ld_unit_zero (S := S4096x16) hz, View.ld_unit_zero (S := S16x128) hz, View.ld_unit_zero (S := S1x128) hz, View.ld_unit_zero (S := S1024x128) hz]

/-- `k ∈ {1, 2}`: the accumulator ends at one accumulation step from what it held. -/
theorem sout0_B_0_eq (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x4096 .bf16) (x1 : Vec F S4096x16 .f32) (x2 : Vec F S16x128 .f32) (x3 : Vec F S1x128 .f32) (xs0 : Vec F S1024x128 .f32) :
    sout0_B_0 c i arg2 harg2 arg3 harg3 arg4 harg4 arg5 harg5 arg6 harg6 arg7 harg7 hc0 hc1 x0 x1 x2 x3 xs0 = k0_pay2 x1 x2 xs0 x0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S1024x128) hz]
  simp only [View.readAt_eq_ld, harg2.read_unread, harg3.read_unread, harg4.read_unread, harg5.read_unread, harg7.read_unread, View.ld_unit_zero (S := S1024x4096) hz, View.ld_unit_zero (S := S4096x16) hz, View.ld_unit_zero (S := S16x128) hz, View.ld_unit_zero (S := S1x128) hz, View.ld_unit_zero (S := S1024x128) hz]

/-- `k = 3`: the same for the accumulator, -/
theorem sout0_C_0_eq (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x4096 .bf16) (x1 : Vec F S4096x16 .f32) (x2 : Vec F S16x128 .f32) (x3 : Vec F S1x128 .f32) (xs0 : Vec F S1024x128 .f32) :
    sout0_C_0 c i arg2 harg2 arg3 harg3 arg4 harg4 arg5 harg5 arg6 harg6 arg7 harg7 hc0 hc1 x0 x1 x2 x3 xs0 = k0_pay2 x1 x2 xs0 x0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1024x128) hz]
  simp only [View.readAt_eq_ld, harg2.read_unread, harg3.read_unread, harg4.read_unread, harg5.read_unread, harg7.read_unread, View.ld_unit_zero (S := S1024x4096) hz, View.ld_unit_zero (S := S4096x16) hz, View.ld_unit_zero (S := S16x128) hz, View.ld_unit_zero (S := S1x128) hz, View.ld_unit_zero (S := S1024x128) hz]

/-- and the output block is the bias-and-rectify step of that new accumulator. -/
theorem out0_C_4_eq (c : Dev nD) (i : grid0.Coords) (arg2 : Memref sig .tc .vmem S1024x4096 .bf16) (harg2 : arg2.IsWhole) (arg3 : Memref sig .tc .vmem S4096x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x4096 .bf16) (x1 : Vec F S4096x16 .f32) (x2 : Vec F S16x128 .f32) (x3 : Vec F S1x128 .f32) (xs0 : Vec F S1024x128 .f32) :
    out0_C_4 c i arg2 harg2 arg3 harg3 arg4 harg4 arg5 harg5 arg6 harg6 arg7 harg7 hc0 hc1 x0 x1 x2 x3 xs0 = k0_pay3 (k0_pay2 x1 x2 xs0 x0) x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1024x128) hz, View.readCov_unit_zero (S := S1024x128) _ hz]
  simp only [View.readAt_eq_ld, harg2.read_unread, harg3.read_unread, harg4.read_unread, harg5.read_unread, harg7.read_unread, View.ld_unit_zero (S := S1024x4096) hz, View.ld_unit_zero (S := S4096x16) hz, View.ld_unit_zero (S := S16x128) hz, View.ld_unit_zero (S := S1x128) hz, View.ld_unit_zero (S := S1024x128) hz]

variable (V : Dev nD → Valuation τ sig (Elt F))

/-! ## The accumulator as a fold over a row block's points -/

/-- The accumulator after position `n`. -/
def acc0 (c : Dev nD) (n : ℕ) (h : n < cfg0.N) : Vec F S1024x128 .f32 := (outsAt0 V c n h).2

/-- One accumulation step at point `n` from the zero block: what a first step of a row block leaves. -/
def reset0 (c : Dev nD) (n : ℕ) (h : n < cfg0.N) : Vec F S1024x128 .f32 :=
  k0_pay2 (iblk V c 1 ⟨n, h⟩) (iblk V c 2 ⟨n, h⟩) (k0_pay1 (F := F)) (iblk V c 0 ⟨n, h⟩)

/-- One accumulation step at point `n` from accumulator contents `a`. -/
def step0 (c : Dev nD) (n : ℕ) (h : n < cfg0.N) (a : Vec F S1024x128 .f32) : Vec F S1024x128 .f32 :=
  k0_pay2 (iblk V c 1 ⟨n, h⟩) (iblk V c 2 ⟨n, h⟩) a (iblk V c 0 ⟨n, h⟩)

theorem acc0_reset_at (c : Dev nD) (t : Fin cfg0.N) (h0 : t.val % 4 = 0) :
    acc0 V c t.val t.isLt = reset0 V c t.val t.isLt := by
  have h1 : ¬t.val % 4 = 3 := by omega
  unfold acc0 reset0
  rw [outsAt0_A V c t h0 h1]
  dsimp only
  exact sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk V c 0 t) (iblk V c 1 t) (iblk V c 2 t) (iblk V c 3 t)

theorem acc0_step_at (c : Dev nD) (t : Fin cfg0.N) (h0 : ¬t.val % 4 = 0) :
    acc0 V c t.val t.isLt = step0 V c t.val t.isLt (acc0 V c (t.val - 1) (Nat.lt_of_le_of_lt (Nat.sub_le _ _) t.isLt)) := by
  unfold acc0 step0
  by_cases h1 : t.val % 4 = 3
  · rw [outsAt0_C V c t h0 h1]
    dsimp only
    exact sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2
  · rw [outsAt0_B V c t h0 h1]
    dsimp only
    exact sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2

/-- At a point `≡ 0 (mod 4)` the accumulator restarts, -/
theorem acc0_reset (c : Dev nD) (n : ℕ) (h : n < cfg0.N) (h0 : n % 4 = 0) : acc0 V c n h = reset0 V c n h :=
  acc0_reset_at V c ⟨n, h⟩ h0

/-- and at every other point it steps from what the point before left. -/
theorem acc0_step (c : Dev nD) (n : ℕ) (h : n + 1 < cfg0.N) (h0 : ¬(n + 1) % 4 = 0) :
    acc0 V c (n + 1) h = step0 V c (n + 1) h (acc0 V c n (Nat.lt_of_succ_lt h)) :=
  acc0_step_at V c ⟨n + 1, h⟩ h0

/-- So at any point it is the fold over the row block's points up to it. -/
theorem acc0_eq_accAt (c : Dev nD) (t : ℕ) (ht : t < cfg0.N) (h' : 4 * (t / 4) + t % 4 < cfg0.N) :
    acc0 V c t ht = Pipeline.accAt (reset0 V c) (step0 V c) (4 * (t / 4)) (t % 4) h' :=
  Pipeline.eq_accAt_of_mod (acc0 V c) 4 (reset0 V c) (step0 V c) (acc0_reset V c) (acc0_step V c) (by omega) t ht h'

/-! ## The block written back -/

/-- At the last step of a row block the output block's buffer holds the bias-and-rectify payload of the accumulator. -/
theorem out0_at (c : Dev nD) (t : Fin cfg0.N) (h1 : t.val % 4 = 3) :
    (outsAt0 V c t.val t.isLt).1 = k0_pay3 (acc0 V c t.val t.isLt) (iblk V c 3 t) := by
  have h0 : ¬t.val % 4 = 0 := by omega
  rw [acc0_step_at V c t h0]
  unfold acc0 step0
  rw [outsAt0_C V c t h0 h1]
  dsimp only
  exact out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2

/-- What the write-back at the last step of a row block writes. -/
theorem flushed0_4 (c : Dev nD) (t : Fin cfg0.N) (h1 : t.val % 4 = 3) :
    (dat0 V c).flushed 4 t = k0_pay3 (acc0 V c t.val t.isLt) (iblk V c 3 t) := by
  show (cfg0.win 4).cut (grid0.coords t) ((dat0 V c).after 4 t) = _
  rw [after0_4]
  exact out0_at V c t h1

end Cert.KernelIdeal.Layer0

end
-- ==== Proof.LayerTiles.lean ====
/-
  A layer region's result as one array, tile by tile.

  A layer kernel visits the 16 row blocks of 1024 rows; within row block p it visits the four column blocks k of
  4096 columns of the adjacency, adding at each the product of adjacency block (p, k) with (feature block k times
  the weights) to a running block that starts from the reset value, and at the fourth it writes back the running
  block plus the bias row, cut at zero. layerOut is that value laid out as the whole 16384 x 128 result.
-/
import proofs.«105428_j37495064494476_1_alg».proof.Proof.Gen.KernelIdeal.Skeleton
import Idealize.ShloMosaic.Lib.ValueIdx

noncomputable section

namespace Cert.KernelIdeal.Tiles

open Idealize.ShloMosaic Idealize.ShloMosaic.ValueIdx Cert.KernelIdeal Cert.KernelIdeal.Gen

variable {F : FTy → Type} [FloatOps F]

/-- The row block a row below 16384 falls in, -/
def tile (n : Nat) (h : n < 16384) : Fin 16 := ⟨n / 1024, by omega⟩
/-- and its place inside the block. -/
def place (n : Nat) : Fin 1024 := ⟨n % 1024, Nat.mod_lt _ (by decide)⟩

theorem tile_eq (n : Nat) (h : n < 16384) (p : Fin 16) (r : Nat) (hr : r < 1024) (e : n = p.val * 1024 + r) : tile n h = p :=
  Fin.ext (by show n / 1024 = p.val; omega)
theorem place_eq (n : Nat) (p r : Nat) (hr : r < 1024) (e : n = p * 1024 + r) : (place n).val = r := by
  show n % 1024 = r; omega

/-- Rows 1024 p … 1024 p + 1023, columns 4096 k … 4096 k + 4095 of the adjacency. -/
def adjBlk (A : S16384x16384.Idx → Elt F .bf16) (p : Fin 16) (k : Fin 4) : Vec F S1024x4096 .bf16 := fun y =>
  A (ix2 (⟨p.val * 1024 + (y 0).val, by have := idx2_lt0 y; have := p.isLt; omega⟩ : Fin 16384)
    (⟨k.val * 4096 + (y 1).val, by have := idx2_lt1 y; have := k.isLt; omega⟩ : Fin 16384))

/-- Rows 4096 k … 4096 k + 4095 of layer 1's feature array. -/
def featBlk0 (H : S16384x16.Idx → Elt F .f32) (k : Fin 4) : Vec F S4096x16 .f32 := fun y =>
  H (ix2 (⟨k.val * 4096 + (y 0).val, by have := idx2_lt0 y; have := k.isLt; omega⟩ : Fin 16384) (⟨(y 1).val, idx2_lt1 y⟩ : Fin 16))

/-- The running block of row block p after its four column blocks: reset at the first, added to at each. -/
def accTile0 (A : S16384x16384.Idx → Elt F .bf16) (H : S16384x16.Idx → Elt F .f32) (W : S16x128.Idx → Elt F .f32)
    (p : Fin 16) : Vec F S1024x128 .f32 :=
  k0_pay2 (featBlk0 H 3) W
    (k0_pay2 (featBlk0 H 2) W
      (k0_pay2 (featBlk0 H 1) W
        (k0_pay2 (featBlk0 H 0) W (k0_pay1 (F := F)) (adjBlk A p 0))
        (adjBlk A p 1))
      (adjBlk A p 2))
    (adjBlk A p 3)

/-- Layer 1's result array: at (i, j), row block i / 1024's closing step at place (i % 1024, j). -/
def layerOut0 (A : S16384x16384.Idx → Elt F .bf16) (H : S16384x16.Idx → Elt F .f32) (W : S16x128.Idx → Elt F .f32)
    (B : S1x128.Idx → Elt F .f32) : S16384x128.Idx → Elt F .f32 := fun i =>
  k0_pay3 (accTile0 A H W (tile (i 0).val (idx2_lt0 i))) B (ix2 (place (i 0).val) (⟨(i 1).val, idx2_lt1 i⟩ : Fin 128))

/-- Rows 4096 k … 4096 k + 4095 of layer 2's feature array. -/
def featBlk1 (H : S16384x128.Idx → Elt F .f32) (k : Fin 4) : Vec F S4096x128 .f32 := fun y =>
  H (ix2 (⟨k.val * 4096 + (y 0).val, by have := idx2_lt0 y; have := k.isLt; omega⟩ : Fin 16384) (⟨(y 1).val, idx2_lt1 y⟩ : Fin 128))

/-- The running block of row block p after its four column blocks: reset at the first, added to at each. -/
def accTile1 (A : S16384x16384.Idx → Elt F .bf16) (H : S16384x128.Idx → Elt F .f32) (W : S128x128.Idx → Elt F .f32)
    (p : Fin 16) : Vec F S1024x128 .f32 :=
  k1_pay2 (featBlk1 H 3) W
    (k1_pay2 (featBlk1 H 2) W
      (k1_pay2 (featBlk1 H 1) W
        (k1_pay2 (featBlk1 H 0) W (k1_pay1 (F := F)) (adjBlk A p 0))
        (adjBlk A p 1))
      (adjBlk A p 2))
    (adjBlk A p 3)

/-- Layer 2's result array: at (i, j), row block i / 1024's closing step at place (i % 1024, j). -/
def layerOut1 (A : S16384x16384.Idx → Elt F .bf16) (H : S16384x128.Idx → Elt F .f32) (W : S128x128.Idx → Elt F .f32)
    (B : S1x128.Idx → Elt F .f32) : S16384x128.Idx → Elt F .f32 := fun i =>
  k1_pay3 (accTile1 A H W (tile (i 0).val (idx2_lt0 i))) B (ix2 (place (i 0).val) (⟨(i 1).val, idx2_lt1 i⟩ : Fin 128))

/-- Rows 4096 k … 4096 k + 4095 of layer 3's feature array. -/
def featBlk2 (H : S16384x128.Idx → Elt F .f32) (k : Fin 4) : Vec F S4096x128 .f32 := fun y =>
  H (ix2 (⟨k.val * 4096 + (y 0).val, by have := idx2_lt0 y; have := k.isLt; omega⟩ : Fin 16384) (⟨(y 1).val, idx2_lt1 y⟩ : Fin 128))

/-- The running block of row block p after its four column blocks: reset at the first, added to at each. -/
def accTile2 (A : S16384x16384.Idx → Elt F .bf16) (H : S16384x128.Idx → Elt F .f32) (W : S128x128.Idx → Elt F .f32)
    (p : Fin 16) : Vec F S1024x128 .f32 :=
  k2_pay2 (featBlk2 H 3) W
    (k2_pay2 (featBlk2 H 2) W
      (k2_pay2 (featBlk2 H 1) W
        (k2_pay2 (featBlk2 H 0) W (k2_pay1 (F := F)) (adjBlk A p 0))
        (adjBlk A p 1))
      (adjBlk A p 2))
    (adjBlk A p 3)

/-- Layer 3's result array: at (i, j), row block i / 1024's closing step at place (i % 1024, j). -/
def layerOut2 (A : S16384x16384.Idx → Elt F .bf16) (H : S16384x128.Idx → Elt F .f32) (W : S128x128.Idx → Elt F .f32)
    (B : S1x128.Idx → Elt F .f32) : S16384x128.Idx → Elt F .f32 := fun i =>
  k2_pay3 (accTile2 A H W (tile (i 0).val (idx2_lt0 i))) B (ix2 (place (i 0).val) (⟨(i 1).val, idx2_lt1 i⟩ : Fin 128))

end Cert.KernelIdeal.Tiles

end
-- ==== Proof.LayerFinal0.lean ====
import proofs.«105428_j37495064494476_1_alg».proof.Proof.LayerValue0
import proofs.«105428_j37495064494476_1_alg».proof.Proof.LayerTiles

set_option maxRecDepth 16384

noncomputable section

namespace Cert.KernelIdeal.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The array the first graph-convolution layer's region leaves

Point `t = 4 p + k` of the grid reads adjacency block `(p, k)`, feature block `k`, the whole weight matrix and the
whole bias row, and, at `k = 3`, writes back rows `1024 p … 1024 p + 1023` of the result. So the blocks the fold of
a row block runs over are tiles of the arrays the region found, the write-backs tile the result, and the result is
one function of those arrays. -/

open ValueIdx

variable (V : Dev nD → Valuation τ sig (Elt F))

/-- The printed index maps over the grid, at point `t = 4 p + k`: the adjacency's block index is `(p, k)`, the
    features' `(k, 0)`, the weights' and the bias's `(0, 0)`, the result's `(p, 0)`. -/
theorem idx_facts0 : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0 :=
  (by decide +kernel : ∀ t : Fin grid0.N, _)

theorem lt_N0 (t : Fin cfg0.N) : t.val < 64 := by
  have h : t.val < grid0.N := t.isLt
  rw [N_0] at h; exact h

/-- The adjacency's block at point `4 p + k` is tile `(p, k)` of the array. -/
theorem iblk0_0_eq (c : Dev nD) (t : Fin cfg0.N) (p : Fin 16) (k : Fin 4) (ht : t.val = 4 * p.val + k.val) :
    iblk V c 0 t = Tiles.adjBlk (V c (Pipeline.arrRef spec0 0)) p k := by
  obtain ⟨e0, e1, -⟩ := idx_facts0 t
  have hk := k.isLt
  funext y
  show V c (Pipeline.arrRef spec0 0) (((cfg0.win 0).blk t).view.emb y) = V c (Pipeline.arrRef spec0 0) (ix2 _ _)
  refine congrArg _ ?_
  funext a; apply Fin.ext
  match a with
  | ⟨0, _⟩ => show win0_0.index t (0 : Fin 2) * 1024 + 1 * (y 0).val = p.val * 1024 + (y 0).val; omega
  | ⟨1, _⟩ => show win0_0.index t (1 : Fin 2) * 4096 + 1 * (y 1).val = k.val * 4096 + (y 1).val; omega

/-- The features' block at point `4 p + k` is row block `k` of the array. -/
theorem iblk0_1_eq (c : Dev nD) (t : Fin cfg0.N) (p : Fin 16) (k : Fin 4) (ht : t.val = 4 * p.val + k.val) :
    iblk V c 1 t = Tiles.featBlk0 (V c (Pipeline.arrRef spec0 1)) k := by
  obtain ⟨-, -, e2, e3, -⟩ := idx_facts0 t
  have hk := k.isLt
  funext y
  show V c (Pipeline.arrRef spec0 1) (((cfg0.win 1).blk t).view.emb y) = V c (Pipeline.arrRef spec0 1) (ix2 _ _)
  refine congrArg _ ?_
  funext a; apply Fin.ext
  match a with
  | ⟨0, _⟩ => show win0_1.index t (0 : Fin 2) * 4096 + 1 * (y 0).val = k.val * 4096 + (y 0).val; omega
  | ⟨1, _⟩ => show win0_1.index t (1 : Fin 2) * 16 + 1 * (y 1).val = (y 1).val; omega

/-- The weights' block at every point is the whole matrix, -/
theorem iblk0_2_eq (c : Dev nD) (t : Fin cfg0.N) :
    (iblk V c 2 t : Vec F S16x128 .f32) = (V c (Pipeline.arrRef spec0 2) : S16x128.Idx → Elt F .f32) := by
  obtain ⟨-, -, -, -, e4, e5, -⟩ := idx_facts0 t
  funext y
  show V c (Pipeline.arrRef spec0 2) (((cfg0.win 2).blk t).view.emb y) = V c (Pipeline.arrRef spec0 2) y
  refine congrArg _ ?_
  funext a; apply Fin.ext
  match a with
  | ⟨0, _⟩ => show win0_2.index t (0 : Fin 2) * 16 + 1 * (y 0).val = (y 0).val; omega
  | ⟨1, _⟩ => show win0_2.index t (1 : Fin 2) * 128 + 1 * (y 1).val = (y 1).val; omega

/-- and the bias's the whole row. -/
theorem iblk0_3_eq (c : Dev nD) (t : Fin cfg0.N) :
    (iblk V c 3 t : Vec F S1x128 .f32) = (V c (Pipeline.arrRef spec0 3) : S1x128.Idx → Elt F .f32) := by
  obtain ⟨-, -, -, -, -, -, e6, e7, -⟩ := idx_facts0 t
  funext y
  show V c (Pipeline.arrRef spec0 3) (((cfg0.win 3).blk t).view.emb y) = V c (Pipeline.arrRef spec0 3) y
  refine congrArg _ ?_
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The fold over row block `q`'s four points, written out. -/
theorem acc0_row (c : Dev nD) (q : ℕ) (h : 4 * q + 3 < cfg0.N) :
    acc0 V c (4 * q + 3) h
      = step0 V c (4 * q + 3) h (step0 V c (4 * q + 2) (by omega) (step0 V c (4 * q + 1) (by omega) (reset0 V c (4 * q) (by omega)))) :=
  (Pipeline.eq_accAt (acc0 V c) 4 (reset0 V c) (step0 V c) (acc0_reset V c) (acc0_step V c) q 3 (by omega) h).trans rfl

/-- After the last point of row block `p` the accumulator holds that row block's tile value. -/
theorem acc0_tile (c : Dev nD) (p : Fin 16) (h : 4 * p.val + 3 < cfg0.N) :
    acc0 V c (4 * p.val + 3) h
      = Tiles.accTile0 (V c (Pipeline.arrRef spec0 0)) (V c (Pipeline.arrRef spec0 1)) (V c (Pipeline.arrRef spec0 2)) p := by
  rw [acc0_row V c p.val h]
  unfold step0 reset0 Tiles.accTile0
  rw [iblk0_0_eq V c ⟨4 * p.val + 3, h⟩ p 3 rfl, iblk0_0_eq V c ⟨4 * p.val + 2, by omega⟩ p 2 rfl,
    iblk0_0_eq V c ⟨4 * p.val + 1, by omega⟩ p 1 rfl, iblk0_0_eq V c ⟨4 * p.val, by omega⟩ p 0 rfl,
    iblk0_1_eq V c ⟨4 * p.val + 3, h⟩ p 3 rfl, iblk0_1_eq V c ⟨4 * p.val + 2, by omega⟩ p 2 rfl,
    iblk0_1_eq V c ⟨4 * p.val + 1, by omega⟩ p 1 rfl, iblk0_1_eq V c ⟨4 * p.val, by omega⟩ p 0 rfl,
    iblk0_2_eq V c ⟨4 * p.val + 3, h⟩, iblk0_2_eq V c ⟨4 * p.val + 2, by omega⟩,
    iblk0_2_eq V c ⟨4 * p.val + 1, by omega⟩, iblk0_2_eq V c ⟨4 * p.val, by omega⟩]

/-- At an index of row block `p`, at place `j` inside it, the result is the closing step of the tile value at `j`. -/
theorem layerOut0_at_tile (A : S16384x16384.Idx → Elt F .bf16) (H : S16384x16.Idx → Elt F .f32) (W : S16x128.Idx → Elt F .f32)
    (B : S1x128.Idx → Elt F .f32) (x : Vec F S1024x128 .f32) (b : Vec F S1x128 .f32) (p : Fin 16)
    (i : S16384x128.Idx) (j : S1024x128.Idx)
    (h0 : (i 0).val = p.val * 1024 + (j 0).val) (h1 : (i 1).val = (j 1).val)
    (ex : x = Tiles.accTile0 A H W p) (eb : b = B) :
    k0_pay3 x b j = Tiles.layerOut0 A H W B i := by
  subst ex eb
  have hp : Tiles.tile (i 0).val (idx2_lt0 i) = p := Tiles.tile_eq _ _ p (j 0).val (idx2_lt0 j) h0
  have hj : ix2 (Tiles.place (i 0).val) (⟨(i 1).val, idx2_lt1 i⟩ : Fin 128) = j := by
    funext a
    match a with
    | ⟨0, _⟩ => exact Fin.ext (Tiles.place_eq _ p.val (j 0).val (idx2_lt0 j) h0)
    | ⟨1, _⟩ => exact Fin.ext h1
  unfold Tiles.layerOut0
  rw [hp, hj]

/-- What a point that writes back writes is its tile of the result function of the arrays as the region finds them. -/
theorem flushed0_eq (c : Dev nD) (t : Fin cfg0.N) (hf : (cfg0.win 4).flush t = true) :
    (dat0 V c).flushed 4 t = ((cfg0.win 4).blk t).view.read (Elt F)
      (Tiles.layerOut0 (V c (Pipeline.arrRef spec0 0)) (V c (Pipeline.arrRef spec0 1)) (V c (Pipeline.arrRef spec0 2)) (V c (Pipeline.arrRef spec0 3))) := by
  have h3 : t.val % 4 = 3 := (flush0_4 t).mp hf
  have ht := lt_N0 t
  rw [flushed0_4 V c t h3]
  obtain ⟨-, -, -, -, -, -, -, -, e8, e9⟩ := idx_facts0 t
  have hlt : 4 * (t.val / 4) + 3 < cfg0.N := lt_of_lt_of_eq (by omega) (show (64 : ℕ) = cfg0.N from N_0.symm)
  have same : ∀ (u : ℕ) (hu : u < cfg0.N), u = t.val → acc0 V c u hu = acc0 V c t.val t.isLt := fun u hu e => by subst e; rfl
  funext j
  show k0_pay3 (acc0 V c t.val t.isLt) (iblk V c 3 t) j
    = Tiles.layerOut0 (V c (Pipeline.arrRef spec0 0)) (V c (Pipeline.arrRef spec0 1)) (V c (Pipeline.arrRef spec0 2)) (V c (Pipeline.arrRef spec0 3)) (((cfg0.win 4).blk t).view.emb j)
  refine layerOut0_at_tile (V c (Pipeline.arrRef spec0 0)) (V c (Pipeline.arrRef spec0 1)) (V c (Pipeline.arrRef spec0 2)) (V c (Pipeline.arrRef spec0 3))
    (acc0 V c t.val t.isLt) (iblk V c 3 t) ⟨t.val / 4, by omega⟩ (((cfg0.win 4).blk t).view.emb j) j ?_ ?_
    ((same _ hlt (by omega)).symm.trans (acc0_tile V c ⟨t.val / 4, by omega⟩ hlt)) (iblk0_3_eq V c t)
  · show win0_4.index t (0 : Fin 2) * 1024 + 1 * (j 0).val = t.val / 4 * 1024 + (j 0).val; omega
  · show win0_4.index t (1 : Fin 2) * 128 + 1 * (j 1).val = (j 1).val; omega

/-- An index of the result is in point `t`'s tile iff each coordinate is in the tile's range on its axis. -/
theorem mem_blk0 (t : Fin cfg0.N) (i : S16384x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v47).slice (win0_4.rect t)).set ↔ _
  rw [View.set_slice_whole, Rect.mem_set_unit]
  exact Iff.rfl

/-- Every index of the result is in the tile of the last point of its row block, which writes its tile back. -/
theorem cover0 (i : S16384x128.Idx) :
    ∃ t : Fin cfg0.N, (cfg0.win 4).flush t = true ∧ i ∈ ((cfg0.win 4).blk t).view.set := by
  have h0 := idx2_lt0 i
  have h1 := idx2_lt1 i
  have hN : 4 * ((i 0).val / 1024) + 3 < grid0.N := by rw [N_0]; omega
  obtain ⟨-, -, -, -, -, -, -, -, e8, e9⟩ := idx_facts0 ⟨4 * ((i 0).val / 1024) + 3, hN⟩
  refine ⟨⟨4 * ((i 0).val / 1024) + 3, hN⟩, (flush0_4 _).mpr (by show (4 * ((i 0).val / 1024) + 3) % 4 = 3; omega), ?_⟩
  rw [mem_blk0]
  intro a
  match a with
  | ⟨0, _⟩ =>
    show win0_4.index ⟨4 * ((i 0).val / 1024) + 3, hN⟩ (0 : Fin 2) * 1024 ≤ (i 0).val
      ∧ (i 0).val < win0_4.index ⟨4 * ((i 0).val / 1024) + 3, hN⟩ (0 : Fin 2) * 1024 + 1024
    rw [e8]; show (4 * ((i 0).val / 1024) + 3) / 4 * 1024 ≤ _ ∧ _ < (4 * ((i 0).val / 1024) + 3) / 4 * 1024 + 1024
    omega
  | ⟨1, _⟩ =>
    show win0_4.index ⟨4 * ((i 0).val / 1024) + 3, hN⟩ (1 : Fin 2) * 128 ≤ (i 1).val
      ∧ (i 1).val < win0_4.index ⟨4 * ((i 0).val / 1024) + 3, hN⟩ (1 : Fin 2) * 128 + 128
    rw [e9]; omega

/-- THE RESULT after the region: the result function of the four arrays as the region found them. -/
theorem final0 (c : Dev nD) :
    (dat0 V c).arrAt 4 cfg0.N
      = Tiles.layerOut0 (V c (Pipeline.arrRef spec0 0)) (V c (Pipeline.arrRef spec0 1)) (V c (Pipeline.arrRef spec0 2)) (V c (Pipeline.arrRef spec0 3)) :=
  (dat0 V c).arrAt_eq_of_cover 4 _ (fun t hf => flushed0_eq V c t hf) cover0

/-- The four arrays the region reads are as it found them afterwards. -/
theorem kept0_0 (c : Dev nD) : (dat0 V c).arrAt 0 cfg0.N = V c (Pipeline.arrRef spec0 0) :=
  ((dat0 V c).arrAt_in 0 rfl _).trans (A_eq0 V c 0)
theorem kept0_1 (c : Dev nD) : (dat0 V c).arrAt 1 cfg0.N = V c (Pipeline.arrRef spec0 1) :=
  ((dat0 V c).arrAt_in 1 rfl _).trans (A_eq0 V c 1)
theorem kept0_2 (c : Dev nD) : (dat0 V c).arrAt 2 cfg0.N = V c (Pipeline.arrRef spec0 2) :=
  ((dat0 V c).arrAt_in 2 rfl _).trans (A_eq0 V c 2)
theorem kept0_3 (c : Dev nD) : (dat0 V c).arrAt 3 cfg0.N = V c (Pipeline.arrRef spec0 3) :=
  ((dat0 V c).arrAt_in 3 rfl _).trans (A_eq0 V c 3)

end Cert.KernelIdeal.Layer0

end
-- ==== Proof.LayerValue1.lean ====
import proofs.«105428_j37495064494476_1_alg».proof.Proof.LayerBody1
import Idealize.ShloMosaic.Lib.Pipeline.Value

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # What the second graph-convolution layer's region leaves in its output array

Over the four steps `k = 0 … 3` of row block `i` (points `4 i … 4 i + 3`) the accumulator runs through
`acc₀ = step(h₀, W, 0, A₀)`, `acc_{k+1} = step(h_{k+1}, W, acc_k, A_{k+1})` where `step` is the body's accumulation
payload, `A_k` the adjacency block `(i, k)`, `h_k` the feature block `k`; the block written back at `4 i + 3` is
the bias-and-rectify payload of `acc₃`. -/

/-! ## What each case's stores amount to

Every store of the body writes a whole buffer, and every load reads one; so what a case leaves in a buffer is the
payload of its last store there, over the blocks the buffers held. -/

theorem hz : (![0, 0] : Fin 2 → Nat) = fun _ => 0 := funext fun a => by fin_cases a <;> rfl

/-- `k = 0`: the accumulator ends at one accumulation step from the zero block. -/
theorem sout1_A_0_eq (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x4096 .bf16) (x1 : Vec F S4096x128 .f32) (x2 : Vec F S128x128 .f32) (x3 : Vec F S1x128 .f32) :
    sout1_A_0 c i arg2 harg2 arg3 harg3 arg4 harg4 arg5 harg5 arg6 harg6 arg7 harg7 hc0 hc1 x0 x1 x2 x3 = k1_pay2 x1 x2 (k1_pay1 (F := F)) x0 := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S1024x128) hz, View.readCov_unit_zero (S := S1024x128) _ hz]
  simp only [View.readAt_eq_ld, harg2.read_unread, harg3.read_unread, harg4.read_unread, harg5.read_unread, harg7.read_unread, View.ld_unit_zero (S := S1024x4096) hz, View.ld_unit_zero (S := S4096x128) hz, View.ld_unit_zero (S := S128x128) hz, View.ld_unit_zero (S := S1x128) hz, View.ld_unit_zero (S := S1024x128) hz]

/-- `k ∈ {1, 2}`: the accumulator ends at one accumulation step from what it held. -/
theorem sout1_B_0_eq (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x4096 .bf16) (x1 : Vec F S4096x128 .f32) (x2 : Vec F S128x128 .f32) (x3 : Vec F S1x128 .f32) (xs0 : Vec F S1024x128 .f32) :
    sout1_B_0 c i arg2 harg2 arg3 harg3 arg4 harg4 arg5 harg5 arg6 harg6 arg7 harg7 hc0 hc1 x0 x1 x2 x3 xs0 = k1_pay2 x1 x2 xs0 x0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  sl_unfold_words
  rw [View.canon_unit_zero (S := S1024x128) hz]
  simp only [View.readAt_eq_ld, harg2.read_unread, harg3.read_unread, harg4.read_unread, harg5.read_unread, harg7.read_unread, View.ld_unit_zero (S := S1024x4096) hz, View.ld_unit_zero (S := S4096x128) hz, View.ld_unit_zero (S := S128x128) hz, View.ld_unit_zero (S := S1x128) hz, View.ld_unit_zero (S := S1024x128) hz]

/-- `k = 3`: the same for the accumulator, -/
theorem sout1_C_0_eq (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x4096 .bf16) (x1 : Vec F S4096x128 .f32) (x2 : Vec F S128x128 .f32) (x3 : Vec F S1x128 .f32) (xs0 : Vec F S1024x128 .f32) :
    sout1_C_0 c i arg2 harg2 arg3 harg3 arg4 harg4 arg5 harg5 arg6 harg6 arg7 harg7 hc0 hc1 x0 x1 x2 x3 xs0 = k1_pay2 x1 x2 xs0 x0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  sl_unfold_words
  rw [View.canon_unit_zero (S := S1024x128) hz]
  simp only [View.readAt_eq_ld, harg2.read_unread, harg3.read_unread, harg4.read_unread, harg5.read_unread, harg7.read_unread, View.ld_unit_zero (S := S1024x4096) hz, View.ld_unit_zero (S := S4096x128) hz, View.ld_unit_zero (S := S128x128) hz, View.ld_unit_zero (S := S1x128) hz, View.ld_unit_zero (S := S1024x128) hz]

/-- and the output block is the bias-and-rectify step of that new accumulator. -/
theorem out1_C_4_eq (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x4096 .bf16) (x1 : Vec F S4096x128 .f32) (x2 : Vec F S128x128 .f32) (x3 : Vec F S1x128 .f32) (xs0 : Vec F S1024x128 .f32) :
    out1_C_4 c i arg2 harg2 arg3 harg3 arg4 harg4 arg5 harg5 arg6 harg6 arg7 harg7 hc0 hc1 x0 x1 x2 x3 xs0 = k1_pay3 (k1_pay2 x1 x2 xs0 x0) x3 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero (S := S1024x128) hz, View.readCov_unit_zero (S := S1024x128) _ hz]
  simp only [View.readAt_eq_ld, harg2.read_unread, harg3.read_unread, harg4.read_unread, harg5.read_unread, harg7.read_unread, View.ld_unit_zero (S := S1024x4096) hz, View.ld_unit_zero (S := S4096x128) hz, View.ld_unit_zero (S := S128x128) hz, View.ld_unit_zero (S := S1x128) hz, View.ld_unit_zero (S := S1024x128) hz]

variable (V : Dev nD → Valuation τ sig (Elt F))

/-! ## The accumulator as a fold over a row block's points -/

/-- The accumulator after position `n`. -/
def acc1 (c : Dev nD) (n : ℕ) (h : n < cfg1.N) : Vec F S1024x128 .f32 := (outsAt1 V c n h).2

/-- One accumulation step at point `n` from the zero block: what a first step of a row block leaves. -/
def reset1 (c : Dev nD) (n : ℕ) (h : n < cfg1.N) : Vec F S1024x128 .f32 :=
  k1_pay2 (iblk V c 1 ⟨n, h⟩) (iblk V c 2 ⟨n, h⟩) (k1_pay1 (F := F)) (iblk V c 0 ⟨n, h⟩)

/-- One accumulation step at point `n` from accumulator contents `a`. -/
def step1 (c : Dev nD) (n : ℕ) (h : n < cfg1.N) (a : Vec F S1024x128 .f32) : Vec F S1024x128 .f32 :=
  k1_pay2 (iblk V c 1 ⟨n, h⟩) (iblk V c 2 ⟨n, h⟩) a (iblk V c 0 ⟨n, h⟩)

theorem acc1_reset_at (c : Dev nD) (t : Fin cfg1.N) (h0 : t.val % 4 = 0) :
    acc1 V c t.val t.isLt = reset1 V c t.val t.isLt := by
  have h1 : ¬t.val % 4 = 3 := by omega
  unfold acc1 reset1
  rw [outsAt1_A V c t h0 h1]
  dsimp only
  exact sout1_A_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk V c 0 t) (iblk V c 1 t) (iblk V c 2 t) (iblk V c 3 t)

theorem acc1_step_at (c : Dev nD) (t : Fin cfg1.N) (h0 : ¬t.val % 4 = 0) :
    acc1 V c t.val t.isLt = step1 V c t.val t.isLt (acc1 V c (t.val - 1) (Nat.lt_of_le_of_lt (Nat.sub_le _ _) t.isLt)) := by
  unfold acc1 step1
  by_cases h1 : t.val % 4 = 3
  · rw [outsAt1_C V c t h0 h1]
    dsimp only
    exact sout1_C_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2
  · rw [outsAt1_B V c t h0 h1]
    dsimp only
    exact sout1_B_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk V c 0 t) (iblk V c 1 t) (iblk V c 2 t) (iblk V c 3 t) (outsAt1 V c (t.val - 1) (Nat.lt_of_le_of_lt (Nat.sub_le _ _) t.isLt)).2

/-- At a point `≡ 0 (mod 4)` the accumulator restarts, -/
theorem acc1_reset (c : Dev nD) (n : ℕ) (h : n < cfg1.N) (h0 : n % 4 = 0) : acc1 V c n h = reset1 V c n h :=
  acc1_reset_at V c ⟨n, h⟩ h0

/-- and at every other point it steps from what the point before left. -/
theorem acc1_step (c : Dev nD) (n : ℕ) (h : n + 1 < cfg1.N) (h0 : ¬(n + 1) % 4 = 0) :
    acc1 V c (n + 1) h = step1 V c (n + 1) h (acc1 V c n (Nat.lt_of_succ_lt h)) :=
  acc1_step_at V c ⟨n + 1, h⟩ h0

/-- So at any point it is the fold over the row block's points up to it. -/
theorem acc1_eq_accAt (c : Dev nD) (t : ℕ) (ht : t < cfg1.N) (h' : 4 * (t / 4) + t % 4 < cfg1.N) :
    acc1 V c t ht = Pipeline.accAt (reset1 V c) (step1 V c) (4 * (t / 4)) (t % 4) h' :=
  Pipeline.eq_accAt_of_mod (acc1 V c) 4 (reset1 V c) (step1 V c) (acc1_reset V c) (acc1_step V c) (by omega) t ht h'

/-! ## The block written back -/

/-- At the last step of a row block the output block's buffer holds the bias-and-rectify payload of the accumulator. -/
theorem out1_at (c : Dev nD) (t : Fin cfg1.N) (h1 : t.val % 4 = 3) :
    (outsAt1 V c t.val t.isLt).1 = k1_pay3 (acc1 V c t.val t.isLt) (iblk V c 3 t) := by
  have h0 : ¬t.val % 4 = 0 := by omega
  rw [acc1_step_at V c t h0]
  unfold acc1 step1
  rw [outsAt1_C V c t h0 h1]
  dsimp only
  exact out1_C_4_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2

/-- What the write-back at the last step of a row block writes. -/
theorem flushed1_4 (c : Dev nD) (t : Fin cfg1.N) (h1 : t.val % 4 = 3) :
    (dat1 V c).flushed 4 t = k1_pay3 (acc1 V c t.val t.isLt) (iblk V c 3 t) := by
  show (cfg1.win 4).cut (grid1.coords t) ((dat1 V c).after 4 t) = _
  rw [after1_4]
  exact out1_at V c t h1

end Cert.KernelIdeal.Layer1

end
-- ==== Proof.LayerFinal1.lean ====
import proofs.«105428_j37495064494476_1_alg».proof.Proof.LayerValue1
import proofs.«105428_j37495064494476_1_alg».proof.Proof.LayerTiles

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The array the second graph-convolution layer's region leaves

Point `t = 4 p + k` of the grid reads adjacency block `(p, k)`, feature block `k`, the whole weight matrix and the
whole bias row, and, at `k = 3`, writes back rows `1024 p … 1024 p + 1023` of the result. So the blocks the fold of
a row block runs over are tiles of the arrays the region found, the write-backs tile the result, and the result is
one function of those arrays. -/

open ValueIdx

variable (V : Dev nD → Valuation τ sig (Elt F))

/-- The printed index maps over the grid, at point `t = 4 p + k`: the adjacency's block index is `(p, k)`, the
    features' `(k, 0)`, the weights' and the bias's `(0, 0)`, the result's `(p, 0)`. -/
theorem idx_facts1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0 :=
  (by decide +kernel : ∀ t : Fin grid1.N, _)

theorem lt_N1 (t : Fin cfg1.N) : t.val < 64 := by
  have h : t.val < grid1.N := t.isLt
  rw [N_1] at h; exact h

/-- The adjacency's block at point `4 p + k` is tile `(p, k)` of the array. -/
theorem iblk1_0_eq (c : Dev nD) (t : Fin cfg1.N) (p : Fin 16) (k : Fin 4) (ht : t.val = 4 * p.val + k.val) :
    iblk V c 0 t = Tiles.adjBlk (V c (Pipeline.arrRef spec1 0)) p k := by
  obtain ⟨e0, e1, -⟩ := idx_facts1 t
  have hk := k.isLt
  funext y
  show V c (Pipeline.arrRef spec1 0) (((cfg1.win 0).blk t).view.emb y) = V c (Pipeline.arrRef spec1 0) (ix2 _ _)
  refine congrArg _ ?_
  funext a; apply Fin.ext
  match a with
  | ⟨0, _⟩ => show win1_0.index t (0 : Fin 2) * 1024 + 1 * (y 0).val = p.val * 1024 + (y 0).val; omega
  | ⟨1, _⟩ => show win1_0.index t (1 : Fin 2) * 4096 + 1 * (y 1).val = k.val * 4096 + (y 1).val; omega

/-- The features' block at point `4 p + k` is row block `k` of the array. -/
theorem iblk1_1_eq (c : Dev nD) (t : Fin cfg1.N) (p : Fin 16) (k : Fin 4) (ht : t.val = 4 * p.val + k.val) :
    iblk V c 1 t = Tiles.featBlk1 (V c (Pipeline.arrRef spec1 1)) k := by
  obtain ⟨-, -, e2, e3, -⟩ := idx_facts1 t
  have hk := k.isLt
  funext y
  show V c (Pipeline.arrRef spec1 1) (((cfg1.win 1).blk t).view.emb y) = V c (Pipeline.arrRef spec1 1) (ix2 _ _)
  refine congrArg _ ?_
  funext a; apply Fin.ext
  match a with
  | ⟨0, _⟩ => show win1_1.index t (0 : Fin 2) * 4096 + 1 * (y 0).val = k.val * 4096 + (y 0).val; omega
  | ⟨1, _⟩ => show win1_1.index t (1 : Fin 2) * 128 + 1 * (y 1).val = (y 1).val; omega

/-- The weights' block at every point is the whole matrix, -/
theorem iblk1_2_eq (c : Dev nD) (t : Fin cfg1.N) :
    (iblk V c 2 t : Vec F S128x128 .f32) = (V c (Pipeline.arrRef spec1 2) : S128x128.Idx → Elt F .f32) := by
  obtain ⟨-, -, -, -, e4, e5, -⟩ := idx_facts1 t
  funext y
  show V c (Pipeline.arrRef spec1 2) (((cfg1.win 2).blk t).view.emb y) = V c (Pipeline.arrRef spec1 2) y
  refine congrArg _ ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- and the bias's the whole row. -/
theorem iblk1_3_eq (c : Dev nD) (t : Fin cfg1.N) :
    (iblk V c 3 t : Vec F S1x128 .f32) = (V c (Pipeline.arrRef spec1 3) : S1x128.Idx → Elt F .f32) := by
  obtain ⟨-, -, -, -, -, -, e6, e7, -⟩ := idx_facts1 t
  funext y
  show V c (Pipeline.arrRef spec1 3) (((cfg1.win 3).blk t).view.emb y) = V c (Pipeline.arrRef spec1 3) y
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The fold over row block `q`'s four points, written out. -/
theorem acc1_row (c : Dev nD) (q : ℕ) (h : 4 * q + 3 < cfg1.N) :
    acc1 V c (4 * q + 3) h
      = step1 V c (4 * q + 3) h (step1 V c (4 * q + 2) (by omega) (step1 V c (4 * q + 1) (by omega) (reset1 V c (4 * q) (by omega)))) :=
  (Pipeline.eq_accAt (acc1 V c) 4 (reset1 V c) (step1 V c) (acc1_reset V c) (acc1_step V c) q 3 (by omega) h).trans rfl

/-- After the last point of row block `p` the accumulator holds that row block's tile value. -/
theorem acc1_tile (c : Dev nD) (p : Fin 16) (h : 4 * p.val + 3 < cfg1.N) :
    acc1 V c (4 * p.val + 3) h
      = Tiles.accTile1 (V c (Pipeline.arrRef spec1 0)) (V c (Pipeline.arrRef spec1 1)) (V c (Pipeline.arrRef spec1 2)) p := by
  rw [acc1_row V c p.val h]
  unfold step1 reset1 Tiles.accTile1
  rw [iblk1_0_eq V c ⟨4 * p.val + 3, h⟩ p 3 rfl, iblk1_0_eq V c ⟨4 * p.val + 2, by omega⟩ p 2 rfl,
    iblk1_0_eq V c ⟨4 * p.val + 1, by omega⟩ p 1 rfl, iblk1_0_eq V c ⟨4 * p.val, by omega⟩ p 0 rfl,
    iblk1_1_eq V c ⟨4 * p.val + 3, h⟩ p 3 rfl, iblk1_1_eq V c ⟨4 * p.val + 2, by omega⟩ p 2 rfl,
    iblk1_1_eq V c ⟨4 * p.val + 1, by omega⟩ p 1 rfl, iblk1_1_eq V c ⟨4 * p.val, by omega⟩ p 0 rfl,
    iblk1_2_eq V c ⟨4 * p.val + 3, h⟩, iblk1_2_eq V c ⟨4 * p.val + 2, by omega⟩,
    iblk1_2_eq V c ⟨4 * p.val + 1, by omega⟩, iblk1_2_eq V c ⟨4 * p.val, by omega⟩]

/-- At an index of row block `p`, at place `j` inside it, the result is the closing step of the tile value at `j`. -/
theorem layerOut1_at_tile (A : S16384x16384.Idx → Elt F .bf16) (H : S16384x128.Idx → Elt F .f32) (W : S128x128.Idx → Elt F .f32)
    (B : S1x128.Idx → Elt F .f32) (x : Vec F S1024x128 .f32) (b : Vec F S1x128 .f32) (p : Fin 16)
    (i : S16384x128.Idx) (j : S1024x128.Idx)
    (h0 : (i 0).val = p.val * 1024 + (j 0).val) (h1 : (i 1).val = (j 1).val)
    (ex : x = Tiles.accTile1 A H W p) (eb : b = B) :
    k1_pay3 x b j = Tiles.layerOut1 A H W B i := by
  subst ex eb
  have hp : Tiles.tile (i 0).val (idx2_lt0 i) = p := Tiles.tile_eq _ _ p (j 0).val (idx2_lt0 j) h0
  have hj : ix2 (Tiles.place (i 0).val) (⟨(i 1).val, idx2_lt1 i⟩ : Fin 128) = j := by
    funext a
    match a with
    | ⟨0, _⟩ => exact Fin.ext (Tiles.place_eq _ p.val (j 0).val (idx2_lt0 j) h0)
    | ⟨1, _⟩ => exact Fin.ext h1
  unfold Tiles.layerOut1
  rw [hp, hj]

/-- What a point that writes back writes is its tile of the result function of the arrays as the region finds them. -/
theorem flushed1_eq (c : Dev nD) (t : Fin cfg1.N) (hf : (cfg1.win 4).flush t = true) :
    (dat1 V c).flushed 4 t = ((cfg1.win 4).blk t).view.read (Elt F)
      (Tiles.layerOut1 (V c (Pipeline.arrRef spec1 0)) (V c (Pipeline.arrRef spec1 1)) (V c (Pipeline.arrRef spec1 2)) (V c (Pipeline.arrRef spec1 3))) := by
  have h3 : t.val % 4 = 3 := (flush1_4 t).mp hf
  have ht := lt_N1 t
  rw [flushed1_4 V c t h3]
  obtain ⟨-, -, -, -, -, -, -, -, e8, e9⟩ := idx_facts1 t
  have hlt : 4 * (t.val / 4) + 3 < cfg1.N := lt_of_lt_of_eq (by omega) (show (64 : ℕ) = cfg1.N from N_1.symm)
  have same : ∀ (u : ℕ) (hu : u < cfg1.N), u = t.val → acc1 V c u hu = acc1 V c t.val t.isLt := fun u hu e => by subst e; rfl
  funext j
  show k1_pay3 (acc1 V c t.val t.isLt) (iblk V c 3 t) j
    = Tiles.layerOut1 (V c (Pipeline.arrRef spec1 0)) (V c (Pipeline.arrRef spec1 1)) (V c (Pipeline.arrRef spec1 2)) (V c (Pipeline.arrRef spec1 3)) (((cfg1.win 4).blk t).view.emb j)
  refine layerOut1_at_tile (V c (Pipeline.arrRef spec1 0)) (V c (Pipeline.arrRef spec1 1)) (V c (Pipeline.arrRef spec1 2)) (V c (Pipeline.arrRef spec1 3))
    (acc1 V c t.val t.isLt) (iblk V c 3 t) ⟨t.val / 4, by omega⟩ (((cfg1.win 4).blk t).view.emb j) j ?_ ?_
    ((same _ hlt (by omega)).symm.trans (acc1_tile V c ⟨t.val / 4, by omega⟩ hlt)) (iblk1_3_eq V c t)
  · show win1_4.index t (0 : Fin 2) * 1024 + 1 * (j 0).val = t.val / 4 * 1024 + (j 0).val; omega
  · show win1_4.index t (1 : Fin 2) * 128 + 1 * (j 1).val = (j 1).val; omega

/-- An index of the result is in point `t`'s tile iff each coordinate is in the tile's range on its axis. -/
theorem mem_blk1 (t : Fin cfg1.N) (i : S16384x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v49).slice (win1_4.rect t)).set ↔ _
  rw [View.set_slice_whole, Rect.mem_set_unit]
  exact Iff.rfl

/-- Every index of the result is in the tile of the last point of its row block, which writes its tile back. -/
theorem cover1 (i : S16384x128.Idx) :
    ∃ t : Fin cfg1.N, (cfg1.win 4).flush t = true ∧ i ∈ ((cfg1.win 4).blk t).view.set := by
  have h0 := idx2_lt0 i
  have h1 := idx2_lt1 i
  have hN : 4 * ((i 0).val / 1024) + 3 < grid1.N := by rw [N_1]; omega
  obtain ⟨-, -, -, -, -, -, -, -, e8, e9⟩ := idx_facts1 ⟨4 * ((i 0).val / 1024) + 3, hN⟩
  refine ⟨⟨4 * ((i 0).val / 1024) + 3, hN⟩, (flush1_4 _).mpr (by show (4 * ((i 0).val / 1024) + 3) % 4 = 3; omega), ?_⟩
  rw [mem_blk1]
  intro a
  match a with
  | ⟨0, _⟩ =>
    show win1_4.index ⟨4 * ((i 0).val / 1024) + 3, hN⟩ (0 : Fin 2) * 1024 ≤ (i 0).val
      ∧ (i 0).val < win1_4.index ⟨4 * ((i 0).val / 1024) + 3, hN⟩ (0 : Fin 2) * 1024 + 1024
    rw [e8]; show (4 * ((i 0).val / 1024) + 3) / 4 * 1024 ≤ _ ∧ _ < (4 * ((i 0).val / 1024) + 3) / 4 * 1024 + 1024
    omega
  | ⟨1, _⟩ =>
    show win1_4.index ⟨4 * ((i 0).val / 1024) + 3, hN⟩ (1 : Fin 2) * 128 ≤ (i 1).val
      ∧ (i 1).val < win1_4.index ⟨4 * ((i 0).val / 1024) + 3, hN⟩ (1 : Fin 2) * 128 + 128
    rw [e9]; omega

/-- THE RESULT after the region: the result function of the four arrays as the region found them. -/
theorem final1 (c : Dev nD) :
    (dat1 V c).arrAt 4 cfg1.N
      = Tiles.layerOut1 (V c (Pipeline.arrRef spec1 0)) (V c (Pipeline.arrRef spec1 1)) (V c (Pipeline.arrRef spec1 2)) (V c (Pipeline.arrRef spec1 3)) :=
  (dat1 V c).arrAt_eq_of_cover 4 _ (fun t hf => flushed1_eq V c t hf) cover1

/-- The four arrays the region reads are as it found them afterwards. -/
theorem kept1_0 (c : Dev nD) : (dat1 V c).arrAt 0 cfg1.N = V c (Pipeline.arrRef spec1 0) :=
  ((dat1 V c).arrAt_in 0 rfl _).trans (A_eq1 V c 0)
theorem kept1_1 (c : Dev nD) : (dat1 V c).arrAt 1 cfg1.N = V c (Pipeline.arrRef spec1 1) :=
  ((dat1 V c).arrAt_in 1 rfl _).trans (A_eq1 V c 1)
theorem kept1_2 (c : Dev nD) : (dat1 V c).arrAt 2 cfg1.N = V c (Pipeline.arrRef spec1 2) :=
  ((dat1 V c).arrAt_in 2 rfl _).trans (A_eq1 V c 2)
theorem kept1_3 (c : Dev nD) : (dat1 V c).arrAt 3 cfg1.N = V c (Pipeline.arrRef spec1 3) :=
  ((dat1 V c).arrAt_in 3 rfl _).trans (A_eq1 V c 3)

end Cert.KernelIdeal.Layer1

end
-- ==== Proof.LayerValue2.lean ====
import proofs.«105428_j37495064494476_1_alg».proof.Proof.LayerBody2
import Idealize.ShloMosaic.Lib.Pipeline.Value

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # What the third graph-convolution layer's region leaves in its output array

Over the four steps `k = 0 … 3` of row block `i` (points `4 i … 4 i + 3`) the accumulator runs through
`acc₀ = step(h₀, W, 0, A₀)`, `acc_{k+1} = step(h_{k+1}, W, acc_k, A_{k+1})` where `step` is the body's accumulation
payload, `A_k` the adjacency block `(i, k)`, `h_k` the feature block `k`; the block written back at `4 i + 3` is
the bias-and-rectify payload of `acc₃`. -/

/-! ## What each case's stores amount to

Every store of the body writes a whole buffer, and every load reads one; so what a case leaves in a buffer is the
payload of its last store there, over the blocks the buffers held. -/

theorem hz : (![0, 0] : Fin 2 → Nat) = fun _ => 0 := funext fun a => by fin_cases a <;> rfl

/-- `k = 0`: the accumulator ends at one accumulation step from the zero block. -/
theorem sout2_A_0_eq (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : ¬cond2_1 i)
    (x0 : Vec F S1024x4096 .bf16) (x1 : Vec F S4096x128 .f32) (x2 : Vec F S128x128 .f32) (x3 : Vec F S1x128 .f32) :
    sout2_A_0 c i arg2 harg2 arg3 harg3 arg4 harg4 arg5 harg5 arg6 harg6 arg7 harg7 hc0 hc1 x0 x1 x2 x3 = k2_pay2 x1 x2 (k2_pay1 (F := F)) x0 := by
  unfold sout2_A_0
  rw [View.read_writes_eq_canon _ _ _ (scover2_A_0 c i arg2 harg2 arg3 harg3 arg4 harg4 arg5 harg5 arg6 harg6 arg7 harg7 hc0 hc1 x0 x1 x2 x3)]
  unfold kernelRun2_A
  dsimp only
  sl_unfold_words
  rw [View.canon_cons_unit_zero (S := S1024x128) hz, View.readCov_unit_zero (S := S1024x128) _ hz]
  simp only [View.readAt_eq_ld, harg2.read_unread, harg3.read_unread, harg4.read_unread, harg5.read_unread, harg7.read_unread, View.ld_unit_zero (S := S1024x4096) hz, View.ld_unit_zero (S := S4096x128) hz, View.ld_unit_zero (S := S128x128) hz, View.ld_unit_zero (S := S1x128) hz, View.ld_unit_zero (S := S1024x128) hz]

/-- `k ∈ {1, 2}`: the accumulator ends at one accumulation step from what it held. -/
theorem sout2_B_0_eq (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : ¬cond2_1 i)
    (x0 : Vec F S1024x4096 .bf16) (x1 : Vec F S4096x128 .f32) (x2 : Vec F S128x128 .f32) (x3 : Vec F S1x128 .f32) (xs0 : Vec F S1024x128 .f32) :
    sout2_B_0 c i arg2 harg2 arg3 harg3 arg4 harg4 arg5 harg5 arg6 harg6 arg7 harg7 hc0 hc1 x0 x1 x2 x3 xs0 = k2_pay2 x1 x2 xs0 x0 := by
  unfold sout2_B_0
  rw [View.read_writes_eq_canon _ _ _ (scover2_B_0 c i arg2 harg2 arg3 harg3 arg4 harg4 arg5 harg5 arg6 harg6 arg7 harg7 hc0 hc1 x0 x1 x2 x3 xs0)]
  unfold kernelRun2_B
  dsimp only
  sl_unfold_words
  rw [View.canon_unit_zero (S := S1024x128) hz]
  simp only [View.readAt_eq_ld, harg2.read_unread, harg3.read_unread, harg4.read_unread, harg5.read_unread, harg7.read_unread, View.ld_unit_zero (S := S1024x4096) hz, View.ld_unit_zero (S := S4096x128) hz, View.ld_unit_zero (S := S128x128) hz, View.ld_unit_zero (S := S1x128) hz, View.ld_unit_zero (S := S1024x128) hz]

/-- `k = 3`: the same for the accumulator, -/
theorem sout2_C_0_eq (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : cond2_1 i)
    (x0 : Vec F S1024x4096 .bf16) (x1 : Vec F S4096x128 .f32) (x2 : Vec F S128x128 .f32) (x3 : Vec F S1x128 .f32) (xs0 : Vec F S1024x128 .f32) :
    sout2_C_0 c i arg2 harg2 arg3 harg3 arg4 harg4 arg5 harg5 arg6 harg6 arg7 harg7 hc0 hc1 x0 x1 x2 x3 xs0 = k2_pay2 x1 x2 xs0 x0 := by
  unfold sout2_C_0
  rw [View.read_writes_eq_canon _ _ _ (scover2_C_0 c i arg2 harg2 arg3 harg3 arg4 harg4 arg5 harg5 arg6 harg6 arg7 harg7 hc0 hc1 x0 x1 x2 x3 xs0)]
  unfold kernelRun2_C
  dsimp only
  sl_unfold_words
  rw [View.canon_unit_zero (S := S1024x128) hz]
  simp only [View.readAt_eq_ld, harg2.read_unread, harg3.read_unread, harg4.read_unread, harg5.read_unread, harg7.read_unread, View.ld_unit_zero (S := S1024x4096) hz, View.ld_unit_zero (S := S4096x128) hz, View.ld_unit_zero (S := S128x128) hz, View.ld_unit_zero (S := S1x128) hz, View.ld_unit_zero (S := S1024x128) hz]

/-- and the output block is the bias-and-rectify step of that new accumulator. -/
theorem out2_C_4_eq (c : Dev nD) (i : grid2.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond2_0 i) (hc1 : cond2_1 i)
    (x0 : Vec F S1024x4096 .bf16) (x1 : Vec F S4096x128 .f32) (x2 : Vec F S128x128 .f32) (x3 : Vec F S1x128 .f32) (xs0 : Vec F S1024x128 .f32) :
    out2_C_4 c i arg2 harg2 arg3 harg3 arg4 harg4 arg5 harg5 arg6 harg6 arg7 harg7 hc0 hc1 x0 x1 x2 x3 xs0 = k2_pay3 (k2_pay2 x1 x2 xs0 x0) x3 := by
  unfold out2_C_4
  rw [View.read_writes_eq_canon _ _ _ (cover2_C_4 c i arg2 harg2 arg3 harg3 arg4 harg4 arg5 harg5 arg6 harg6 arg7 harg7 hc0 hc1 x0 x1 x2 x3 xs0)]
  unfold kernelRun2_C
  dsimp only
  sl_unfold_words
  rw [View.canon_unit_zero (S := S1024x128) hz, View.readCov_unit_zero (S := S1024x128) _ hz]
  simp only [View.readAt_eq_ld, harg2.read_unread, harg3.read_unread, harg4.read_unread, harg5.read_unread, harg7.read_unread, View.ld_unit_zero (S := S1024x4096) hz, View.ld_unit_zero (S := S4096x128) hz, View.ld_unit_zero (S := S128x128) hz, View.ld_unit_zero (S := S1x128) hz, View.ld_unit_zero (S := S1024x128) hz]

variable (V : Dev nD → Valuation τ sig (Elt F))

/-! ## The accumulator as a fold over a row block's points -/

/-- The accumulator after position `n`. -/
def acc2 (c : Dev nD) (n : ℕ) (h : n < cfg2.N) : Vec F S1024x128 .f32 := (outsAt2 V c n h).2

/-- One accumulation step at point `n` from the zero block: what a first step of a row block leaves. -/
def reset2 (c : Dev nD) (n : ℕ) (h : n < cfg2.N) : Vec F S1024x128 .f32 :=
  k2_pay2 (iblk V c 1 ⟨n, h⟩) (iblk V c 2 ⟨n, h⟩) (k2_pay1 (F := F)) (iblk V c 0 ⟨n, h⟩)

/-- One accumulation step at point `n` from accumulator contents `a`. -/
def step2 (c : Dev nD) (n : ℕ) (h : n < cfg2.N) (a : Vec F S1024x128 .f32) : Vec F S1024x128 .f32 :=
  k2_pay2 (iblk V c 1 ⟨n, h⟩) (iblk V c 2 ⟨n, h⟩) a (iblk V c 0 ⟨n, h⟩)

theorem acc2_reset_at (c : Dev nD) (t : Fin cfg2.N) (h0 : t.val % 4 = 0) :
    acc2 V c t.val t.isLt = reset2 V c t.val t.isLt := by
  have h1 : ¬t.val % 4 = 3 := by omega
  unfold acc2 reset2
  rw [outsAt2_A V c t h0 h1]
  dsimp only
  exact sout2_A_0_eq c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk V c 0 t) (iblk V c 1 t) (iblk V c 2 t) (iblk V c 3 t)

theorem acc2_step_at (c : Dev nD) (t : Fin cfg2.N) (h0 : ¬t.val % 4 = 0) :
    acc2 V c t.val t.isLt = step2 V c t.val t.isLt (acc2 V c (t.val - 1) (Nat.lt_of_le_of_lt (Nat.sub_le _ _) t.isLt)) := by
  unfold acc2 step2
  by_cases h1 : t.val % 4 = 3
  · rw [outsAt2_C V c t h0 h1]
    dsimp only
    exact sout2_C_0_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk V c 0 t) (iblk V c 1 t) (iblk V c 2 t) (iblk V c 3 t) (outsAt2 V c (t.val - 1) (Nat.lt_of_le_of_lt (Nat.sub_le _ _) t.isLt)).2
  · rw [outsAt2_B V c t h0 h1]
    dsimp only
    exact sout2_B_0_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk V c 0 t) (iblk V c 1 t) (iblk V c 2 t) (iblk V c 3 t) (outsAt2 V c (t.val - 1) (Nat.lt_of_le_of_lt (Nat.sub_le _ _) t.isLt)).2

/-- At a point `≡ 0 (mod 4)` the accumulator restarts, -/
theorem acc2_reset (c : Dev nD) (n : ℕ) (h : n < cfg2.N) (h0 : n % 4 = 0) : acc2 V c n h = reset2 V c n h :=
  acc2_reset_at V c ⟨n, h⟩ h0

/-- and at every other point it steps from what the point before left. -/
theorem acc2_step (c : Dev nD) (n : ℕ) (h : n + 1 < cfg2.N) (h0 : ¬(n + 1) % 4 = 0) :
    acc2 V c (n + 1) h = step2 V c (n + 1) h (acc2 V c n (Nat.lt_of_succ_lt h)) :=
  acc2_step_at V c ⟨n + 1, h⟩ h0

/-- So at any point it is the fold over the row block's points up to it. -/
theorem acc2_eq_accAt (c : Dev nD) (t : ℕ) (ht : t < cfg2.N) (h' : 4 * (t / 4) + t % 4 < cfg2.N) :
    acc2 V c t ht = Pipeline.accAt (reset2 V c) (step2 V c) (4 * (t / 4)) (t % 4) h' :=
  Pipeline.eq_accAt_of_mod (acc2 V c) 4 (reset2 V c) (step2 V c) (acc2_reset V c) (acc2_step V c) (by omega) t ht h'

/-! ## The block written back -/

/-- At the last step of a row block the output block's buffer holds the bias-and-rectify payload of the accumulator. -/
theorem out2_at (c : Dev nD) (t : Fin cfg2.N) (h1 : t.val % 4 = 3) :
    (outsAt2 V c t.val t.isLt).1 = k2_pay3 (acc2 V c t.val t.isLt) (iblk V c 3 t) := by
  have h0 : ¬t.val % 4 = 0 := by omega
  rw [acc2_step_at V c t h0]
  unfold acc2 step2
  rw [outsAt2_C V c t h0 h1]
  dsimp only
  exact out2_C_4_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk V c 0 t) (iblk V c 1 t) (iblk V c 2 t) (iblk V c 3 t) (outsAt2 V c (t.val - 1) (Nat.lt_of_le_of_lt (Nat.sub_le _ _) t.isLt)).2

/-- What the write-back at the last step of a row block writes. -/
theorem flushed2_4 (c : Dev nD) (t : Fin cfg2.N) (h1 : t.val % 4 = 3) :
    (dat2 V c).flushed 4 t = k2_pay3 (acc2 V c t.val t.isLt) (iblk V c 3 t) := by
  show (cfg2.win 4).cut (grid2.coords t) ((dat2 V c).after 4 t) = _
  rw [after2_4]
  exact out2_at V c t h1

end Cert.KernelIdeal.Layer2

end
-- ==== Proof.LayerFinal2.lean ====
import proofs.«105428_j37495064494476_1_alg».proof.Proof.LayerValue2
import proofs.«105428_j37495064494476_1_alg».proof.Proof.LayerTiles

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The array the third graph-convolution layer's region leaves

Point `t = 4 p + k` of the grid reads adjacency block `(p, k)`, feature block `k`, the whole weight matrix and the
whole bias row, and, at `k = 3`, writes back rows `1024 p … 1024 p + 1023` of the result. So the blocks the fold of
a row block runs over are tiles of the arrays the region found, the write-backs tile the result, and the result is
one function of those arrays. -/

open ValueIdx

variable (V : Dev nD → Valuation τ sig (Elt F))

/-- The printed index maps over the grid, at point `t = 4 p + k`: the adjacency's block index is `(p, k)`, the
    features' `(k, 0)`, the weights' and the bias's `(0, 0)`, the result's `(p, 0)`. -/
theorem idx_facts2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val / 4 ∧ win2_4.index t (1 : Fin 2) = 0 :=
  (by decide +kernel : ∀ t : Fin grid2.N, _)

theorem lt_N2 (t : Fin cfg2.N) : t.val < 64 := by
  have h : t.val < grid2.N := t.isLt
  rw [N_2] at h; exact h

/-- The adjacency's block at point `4 p + k` is tile `(p, k)` of the array. -/
theorem iblk2_0_eq (c : Dev nD) (t : Fin cfg2.N) (p : Fin 16) (k : Fin 4) (ht : t.val = 4 * p.val + k.val) :
    iblk V c 0 t = Tiles.adjBlk (V c (Pipeline.arrRef spec2 0)) p k := by
  obtain ⟨e0, e1, -⟩ := idx_facts2 t
  have hk := k.isLt
  funext y
  show V c (Pipeline.arrRef spec2 0) (((cfg2.win 0).blk t).view.emb y) = V c (Pipeline.arrRef spec2 0) (ix2 _ _)
  refine congrArg _ ?_
  funext a; apply Fin.ext
  match a with
  | ⟨0, _⟩ => show win2_0.index t (0 : Fin 2) * 1024 + 1 * (y 0).val = p.val * 1024 + (y 0).val; omega
  | ⟨1, _⟩ => show win2_0.index t (1 : Fin 2) * 4096 + 1 * (y 1).val = k.val * 4096 + (y 1).val; omega

/-- The features' block at point `4 p + k` is row block `k` of the array. -/
theorem iblk2_1_eq (c : Dev nD) (t : Fin cfg2.N) (p : Fin 16) (k : Fin 4) (ht : t.val = 4 * p.val + k.val) :
    iblk V c 1 t = Tiles.featBlk2 (V c (Pipeline.arrRef spec2 1)) k := by
  obtain ⟨-, -, e2, e3, -⟩ := idx_facts2 t
  have hk := k.isLt
  funext y
  show V c (Pipeline.arrRef spec2 1) (((cfg2.win 1).blk t).view.emb y) = V c (Pipeline.arrRef spec2 1) (ix2 _ _)
  refine congrArg _ ?_
  funext a; apply Fin.ext
  match a with
  | ⟨0, _⟩ => show win2_1.index t (0 : Fin 2) * 4096 + 1 * (y 0).val = k.val * 4096 + (y 0).val; omega
  | ⟨1, _⟩ => show win2_1.index t (1 : Fin 2) * 128 + 1 * (y 1).val = (y 1).val; omega

/-- The weights' block at every point is the whole matrix, -/
theorem iblk2_2_eq (c : Dev nD) (t : Fin cfg2.N) :
    (iblk V c 2 t : Vec F S128x128 .f32) = (V c (Pipeline.arrRef spec2 2) : S128x128.Idx → Elt F .f32) := by
  obtain ⟨-, -, -, -, e4, e5, -⟩ := idx_facts2 t
  funext y
  show V c (Pipeline.arrRef spec2 2) (((cfg2.win 2).blk t).view.emb y) = V c (Pipeline.arrRef spec2 2) y
  refine congrArg _ ?_
  funext a; apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- and the bias's the whole row. -/
theorem iblk2_3_eq (c : Dev nD) (t : Fin cfg2.N) :
    (iblk V c 3 t : Vec F S1x128 .f32) = (V c (Pipeline.arrRef spec2 3) : S1x128.Idx → Elt F .f32) := by
  obtain ⟨-, -, -, -, -, -, e6, e7, -⟩ := idx_facts2 t
  funext y
  show V c (Pipeline.arrRef spec2 3) (((cfg2.win 3).blk t).view.emb y) = V c (Pipeline.arrRef spec2 3) y
  refine congrArg _ ?_
  funext a; apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The fold over row block `q`'s four points, written out. -/
theorem acc2_row (c : Dev nD) (q : ℕ) (h : 4 * q + 3 < cfg2.N) :
    acc2 V c (4 * q + 3) h
      = step2 V c (4 * q + 3) h (step2 V c (4 * q + 2) (by omega) (step2 V c (4 * q + 1) (by omega) (reset2 V c (4 * q) (by omega)))) :=
  (Pipeline.eq_accAt (acc2 V c) 4 (reset2 V c) (step2 V c) (acc2_reset V c) (acc2_step V c) q 3 (by omega) h).trans rfl

/-- After the last point of row block `p` the accumulator holds that row block's tile value. -/
theorem acc2_tile (c : Dev nD) (p : Fin 16) (h : 4 * p.val + 3 < cfg2.N) :
    acc2 V c (4 * p.val + 3) h
      = Tiles.accTile2 (V c (Pipeline.arrRef spec2 0)) (V c (Pipeline.arrRef spec2 1)) (V c (Pipeline.arrRef spec2 2)) p := by
  rw [acc2_row V c p.val h]
  unfold step2 reset2 Tiles.accTile2
  rw [iblk2_0_eq V c ⟨4 * p.val + 3, h⟩ p 3 rfl, iblk2_0_eq V c ⟨4 * p.val + 2, by omega⟩ p 2 rfl,
    iblk2_0_eq V c ⟨4 * p.val + 1, by omega⟩ p 1 rfl, iblk2_0_eq V c ⟨4 * p.val, by omega⟩ p 0 rfl,
    iblk2_1_eq V c ⟨4 * p.val + 3, h⟩ p 3 rfl, iblk2_1_eq V c ⟨4 * p.val + 2, by omega⟩ p 2 rfl,
    iblk2_1_eq V c ⟨4 * p.val + 1, by omega⟩ p 1 rfl, iblk2_1_eq V c ⟨4 * p.val, by omega⟩ p 0 rfl,
    iblk2_2_eq V c ⟨4 * p.val + 3, h⟩, iblk2_2_eq V c ⟨4 * p.val + 2, by omega⟩,
    iblk2_2_eq V c ⟨4 * p.val + 1, by omega⟩, iblk2_2_eq V c ⟨4 * p.val, by omega⟩]

/-- At an index of row block `p`, at place `j` inside it, the result is the closing step of the tile value at `j`. -/
theorem layerOut2_at_tile (A : S16384x16384.Idx → Elt F .bf16) (H : S16384x128.Idx → Elt F .f32) (W : S128x128.Idx → Elt F .f32)
    (B : S1x128.Idx → Elt F .f32) (x : Vec F S1024x128 .f32) (b : Vec F S1x128 .f32) (p : Fin 16)
    (i : S16384x128.Idx) (j : S1024x128.Idx)
    (h0 : (i 0).val = p.val * 1024 + (j 0).val) (h1 : (i 1).val = (j 1).val)
    (ex : x = Tiles.accTile2 A H W p) (eb : b = B) :
    k2_pay3 x b j = Tiles.layerOut2 A H W B i := by
  subst ex eb
  have hp : Tiles.tile (i 0).val (idx2_lt0 i) = p := Tiles.tile_eq _ _ p (j 0).val (idx2_lt0 j) h0
  have hj : ix2 (Tiles.place (i 0).val) (⟨(i 1).val, idx2_lt1 i⟩ : Fin 128) = j := by
    funext a
    match a with
    | ⟨0, _⟩ => exact Fin.ext (Tiles.place_eq _ p.val (j 0).val (idx2_lt0 j) h0)
    | ⟨1, _⟩ => exact Fin.ext h1
  unfold Tiles.layerOut2
  rw [hp, hj]

/-- What a point that writes back writes is its tile of the result function of the arrays as the region finds them. -/
theorem flushed2_eq (c : Dev nD) (t : Fin cfg2.N) (hf : (cfg2.win 4).flush t = true) :
    (dat2 V c).flushed 4 t = ((cfg2.win 4).blk t).view.read (Elt F)
      (Tiles.layerOut2 (V c (Pipeline.arrRef spec2 0)) (V c (Pipeline.arrRef spec2 1)) (V c (Pipeline.arrRef spec2 2)) (V c (Pipeline.arrRef spec2 3))) := by
  have h3 : t.val % 4 = 3 := (flush2_4 t).mp hf
  have ht := lt_N2 t
  rw [flushed2_4 V c t h3]
  obtain ⟨-, -, -, -, -, -, -, -, e8, e9⟩ := idx_facts2 t
  have hlt : 4 * (t.val / 4) + 3 < cfg2.N := lt_of_lt_of_eq (by omega) (show (64 : ℕ) = cfg2.N from N_2.symm)
  have same : ∀ (u : ℕ) (hu : u < cfg2.N), u = t.val → acc2 V c u hu = acc2 V c t.val t.isLt := fun u hu e => by subst e; rfl
  funext j
  show k2_pay3 (acc2 V c t.val t.isLt) (iblk V c 3 t) j
    = Tiles.layerOut2 (V c (Pipeline.arrRef spec2 0)) (V c (Pipeline.arrRef spec2 1)) (V c (Pipeline.arrRef spec2 2)) (V c (Pipeline.arrRef spec2 3)) (((cfg2.win 4).blk t).view.emb j)
  refine layerOut2_at_tile (V c (Pipeline.arrRef spec2 0)) (V c (Pipeline.arrRef spec2 1)) (V c (Pipeline.arrRef spec2 2)) (V c (Pipeline.arrRef spec2 3))
    (acc2 V c t.val t.isLt) (iblk V c 3 t) ⟨t.val / 4, by omega⟩ (((cfg2.win 4).blk t).view.emb j) j ?_ ?_
    ((same _ hlt (by omega)).symm.trans (acc2_tile V c ⟨t.val / 4, by omega⟩ hlt)) (iblk2_3_eq V c t)
  · show win2_4.index t (0 : Fin 2) * 1024 + 1 * (j 0).val = t.val / 4 * 1024 + (j 0).val; omega
  · show win2_4.index t (1 : Fin 2) * 128 + 1 * (j 1).val = (j 1).val; omega

/-- An index of the result is in point `t`'s tile iff each coordinate is in the tile's range on its axis. -/
theorem mem_blk2 (t : Fin cfg2.N) (i : S16384x128.Idx) :
    i ∈ ((cfg2.win 4).blk t).view.set ↔ ∀ a : Fin 2, win2_4.index t a * S1024x128.size a ≤ (i a).val ∧ (i a).val < win2_4.index t a * S1024x128.size a + S1024x128.size a := by
  show i ∈ ((View.whole main_v51).slice (win2_4.rect t)).set ↔ _
  rw [View.set_slice_whole, Rect.mem_set_unit]
  exact Iff.rfl

/-- Every index of the result is in the tile of the last point of its row block, which writes its tile back. -/
theorem cover2 (i : S16384x128.Idx) :
    ∃ t : Fin cfg2.N, (cfg2.win 4).flush t = true ∧ i ∈ ((cfg2.win 4).blk t).view.set := by
  have h0 := idx2_lt0 i
  have h1 := idx2_lt1 i
  have hN : 4 * ((i 0).val / 1024) + 3 < grid2.N := by rw [N_2]; omega
  obtain ⟨-, -, -, -, -, -, -, -, e8, e9⟩ := idx_facts2 ⟨4 * ((i 0).val / 1024) + 3, hN⟩
  refine ⟨⟨4 * ((i 0).val / 1024) + 3, hN⟩, (flush2_4 _).mpr (by show (4 * ((i 0).val / 1024) + 3) % 4 = 3; omega), ?_⟩
  rw [mem_blk2]
  intro a
  match a with
  | ⟨0, _⟩ =>
    show win2_4.index ⟨4 * ((i 0).val / 1024) + 3, hN⟩ (0 : Fin 2) * 1024 ≤ (i 0).val
      ∧ (i 0).val < win2_4.index ⟨4 * ((i 0).val / 1024) + 3, hN⟩ (0 : Fin 2) * 1024 + 1024
    rw [e8]; show (4 * ((i 0).val / 1024) + 3) / 4 * 1024 ≤ _ ∧ _ < (4 * ((i 0).val / 1024) + 3) / 4 * 1024 + 1024
    omega
  | ⟨1, _⟩ =>
    show win2_4.index ⟨4 * ((i 0).val / 1024) + 3, hN⟩ (1 : Fin 2) * 128 ≤ (i 1).val
      ∧ (i 1).val < win2_4.index ⟨4 * ((i 0).val / 1024) + 3, hN⟩ (1 : Fin 2) * 128 + 128
    rw [e9]; omega

/-- THE RESULT after the region: the result function of the four arrays as the region found them. -/
theorem final2 (c : Dev nD) :
    (dat2 V c).arrAt 4 cfg2.N
      = Tiles.layerOut2 (V c (Pipeline.arrRef spec2 0)) (V c (Pipeline.arrRef spec2 1)) (V c (Pipeline.arrRef spec2 2)) (V c (Pipeline.arrRef spec2 3)) :=
  (dat2 V c).arrAt_eq_of_cover 4 _ (fun t hf => flushed2_eq V c t hf) cover2

/-- The four arrays the region reads are as it found them afterwards. -/
theorem kept2_0 (c : Dev nD) : (dat2 V c).arrAt 0 cfg2.N = V c (Pipeline.arrRef spec2 0) :=
  ((dat2 V c).arrAt_in 0 rfl _).trans (A_eq2 V c 0)
theorem kept2_1 (c : Dev nD) : (dat2 V c).arrAt 1 cfg2.N = V c (Pipeline.arrRef spec2 1) :=
  ((dat2 V c).arrAt_in 1 rfl _).trans (A_eq2 V c 1)
theorem kept2_2 (c : Dev nD) : (dat2 V c).arrAt 2 cfg2.N = V c (Pipeline.arrRef spec2 2) :=
  ((dat2 V c).arrAt_in 2 rfl _).trans (A_eq2 V c 2)
theorem kept2_3 (c : Dev nD) : (dat2 V c).arrAt 3 cfg2.N = V c (Pipeline.arrRef spec2 3) :=
  ((dat2 V c).arrAt_in 3 rfl _).trans (A_eq2 V c 3)

end Cert.KernelIdeal.Layer2

end
-- ==== Proof.LibPairScatter.lean ====
/-
  An accumulating scatter of scalars through TWO index columns, read at an entry.

  The host program adds the entries of upd : [E] into a matrix x : [N, N'] at positions named by a table of E pairs
  of signed words, idx : [E, 2]: update e goes to row idx[e, 0] and column idx[e, 1], both read signed and NOT
  clamped, and is dropped when either lies outside the matrix. At the ideal instance the result at (r, s) is
  x (r, s) plus the sum, over every e, of upd e if idx[e, 0] = r and idx[e, 1] = s, and 0 otherwise.
  Generic in the extents and the word width; a program's printed dimension record is identified with the record
  here by rfl.
-/
import Idealize.ShloMosaic.Lib.ValueIdx
import Idealize.ShloMosaic.PureOps.Ideal.Laws

noncomputable section

open scoped BigOperators

namespace Idealize.ShloMosaic.PairScatter

open Idealize.ShloMosaic Idealize.ShloMosaic.ValueIdx

/-- Rank-1 indices are their coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- x.at[i, j].add(upd): operand [N, N'], scatter indices [E, 2], updates [E]. -/
abbrev pairDims (N N' E : Nat)
    (wf : ScatterDims.WF ⟨2, ![N, N']⟩ ⟨2, ![E, 2]⟩ ⟨1, ![E]⟩ [] [0, 1] [0, 1] 1) :
    ScatterDims ⟨2, ![N, N']⟩ ⟨2, ![E, 2]⟩ ⟨1, ![E]⟩ where
  updateWindowDims := []
  insertedWindowDims := [0, 1]
  scatterDimsToOperandDims := [0, 1]
  indexVectorDim := 1
  wf := wf

variable {N N' E w : Nat}

/-- Update e lands on (r, s) exactly when the words idx[e, 0] and idx[e, 1], read signed, are r and s. -/
theorem pair_lands (wf : ScatterDims.WF ⟨2, ![N, N']⟩ ⟨2, ![E, 2]⟩ ⟨1, ![E]⟩ [] [0, 1] [0, 1] 1)
    (idx : IVec ⟨2, ![E, 2]⟩ w) (e : Fin E) (r : Fin N) (s : Fin N') :
    (pairDims N N' E wf).resultIdx? (ix1 e) idx = some (ix2 r s)
      ↔ ((idx (ix2 e 0)).toInt = (r.val : ℤ) ∧ (idx (ix2 e 1)).toInt = (s.val : ℤ)) := by
  have hs0 : (pairDims N N' E wf).start (ix1 e) idx 0 = (idx (ix2 e 0)).toInt := by
    unfold ScatterDims.start
    rw [dif_pos (show (0 : Fin 2) ∈ (pairDims N N' E wf).scatterDimsToOperandDims from List.mem_cons_self)]
    have hsi : (pairDims N N' E wf).siIdx (ix1 e) ⟨List.idxOf (0 : Fin 2) (pairDims N N' E wf).scatterDimsToOperandDims,
        List.idxOf_lt_length_iff.2 List.mem_cons_self⟩ = ix2 e 0 := by
      funext b; refine Fin.ext ?_
      match b with
      | ⟨0, _⟩ => rfl
      | ⟨1, _⟩ => rfl
    rw [hsi]
  have hm1 : (1 : Fin 2) ∈ (pairDims N N' E wf).scatterDimsToOperandDims :=
    List.mem_cons_of_mem _ List.mem_cons_self
  have hs1 : (pairDims N N' E wf).start (ix1 e) idx 1 = (idx (ix2 e 1)).toInt := by
    unfold ScatterDims.start
    rw [dif_pos hm1]
    have hsi : (pairDims N N' E wf).siIdx (ix1 e) ⟨List.idxOf (1 : Fin 2) (pairDims N N' E wf).scatterDimsToOperandDims,
        List.idxOf_lt_length_iff.2 hm1⟩ = ix2 e 1 := by
      funext b; refine Fin.ext ?_
      match b with
      | ⟨0, _⟩ => rfl
      | ⟨1, _⟩ => rfl
    rw [hsi]
  have hw0 : (pairDims N N' E wf).window (ix1 e) 0 = 0 := rfl
  have hw1 : (pairDims N N' E wf).window (ix1 e) 1 = 0 := rfl
  unfold ScatterDims.resultIdx?
  constructor
  · intro h
    split at h
    · rename_i hin
      have hf := Option.some.inj h
      have h0 := congrArg (fun f => (f 0).val) hf
      have h1 := congrArg (fun f => (f 1).val) hf
      simp only [hs0, hs1, hw0, hw1] at h0 h1
      have hin0 := hin 0
      have hin1 := hin 1
      rw [hs0, hw0] at hin0
      rw [hs1, hw1] at hin1
      constructor
      · change ((idx (ix2 e 0)).toInt + ((0 : ℕ) : ℤ)).toNat = r.val at h0
        omega
      · change ((idx (ix2 e 1)).toInt + ((0 : ℕ) : ℤ)).toNat = s.val at h1
        omega
    · exact absurd h (by simp)
  · rintro ⟨hv0, hv1⟩
    have hin0 : 0 ≤ (pairDims N N' E wf).start (ix1 e) idx 0 + (pairDims N N' E wf).window (ix1 e) 0
        ∧ (pairDims N N' E wf).start (ix1 e) idx 0 + (pairDims N N' E wf).window (ix1 e) 0
          < (⟨2, ![N, N']⟩ : Shape).size 0 := by
      rw [hs0, hw0, hv0]
      have := r.isLt
      constructor
      · omega
      · show ((r.val : ℤ) + ((0 : ℕ) : ℤ)) < (N : ℤ)
        omega
    have hin1 : 0 ≤ (pairDims N N' E wf).start (ix1 e) idx 1 + (pairDims N N' E wf).window (ix1 e) 1
        ∧ (pairDims N N' E wf).start (ix1 e) idx 1 + (pairDims N N' E wf).window (ix1 e) 1
          < (⟨2, ![N, N']⟩ : Shape).size 1 := by
      rw [hs1, hw1, hv1]
      have := s.isLt
      constructor
      · omega
      · show ((s.val : ℤ) + ((0 : ℕ) : ℤ)) < (N' : ℤ)
        omega
    have hin : ∀ a, 0 ≤ (pairDims N N' E wf).start (ix1 e) idx a + (pairDims N N' E wf).window (ix1 e) a
        ∧ (pairDims N N' E wf).start (ix1 e) idx a + (pairDims N N' E wf).window (ix1 e) a
          < (⟨2, ![N, N']⟩ : Shape).size a := fun a =>
      match a with
      | ⟨0, _⟩ => hin0
      | ⟨1, _⟩ => hin1
    rw [dif_pos hin]
    refine congrArg some (funext fun a => Fin.ext ?_)
    match a with
    | ⟨0, _⟩ =>
      show ((pairDims N N' E wf).start (ix1 e) idx 0 + (pairDims N N' E wf).window (ix1 e) 0).toNat = r.val
      rw [hs0, hw0, hv0]
      omega
    | ⟨1, _⟩ =>
      show ((pairDims N N' E wf).start (ix1 e) idx 1 + (pairDims N N' E wf).window (ix1 e) 1).toNat = s.val
      rw [hs1, hw1, hv1]
      omega

/-- THE PAIR SCATTER-ADD AT AN ENTRY: x (r, s) plus, over every update e, upd e when the words idx[e, 0] and
    idx[e, 1] are r and s. -/
theorem scatterAddPairs_apply {φ : FTy} (wf : ScatterDims.WF ⟨2, ![N, N']⟩ ⟨2, ![E, 2]⟩ ⟨1, ![E]⟩ [] [0, 1] [0, 1] 1)
    (x : FVec Ideal ⟨2, ![N, N']⟩ φ) (idx : IVec ⟨2, ![E, 2]⟩ w) (upd : FVec Ideal ⟨1, ![E]⟩ φ)
    (r : Fin N) (s : Fin N') :
    Host.scatterAdd (F := Ideal) (pairDims N N' E wf) x idx upd (ix2 r s)
      = x (ix2 r s) + ∑ e : Fin E,
          if (idx (ix2 e 0)).toInt = (r.val : ℤ) ∧ (idx (ix2 e 1)).toInt = (s.val : ℤ) then upd (ix1 e) else 0 := by
  show x (ix2 r s) + ∑ j ∈ Finset.univ.filter
      (fun j => (pairDims N N' E wf).resultIdx? j idx = some (ix2 r s)), upd j = _
  congr 1
  rw [Finset.sum_filter, sum_idx1]
  refine Finset.sum_congr rfl fun e _ => ?_
  simp only [pair_lands wf idx e r s]

end Idealize.ShloMosaic.PairScatter

end
-- ==== Proof.LibGcnDense.lean ====
/-
  A dense adjacency product is a gather followed by a scatter-add.

  Let E edges carry real weights nrm e, sources src e and targets dst e among N nodes, and let the dense matrix
  A have at (r, s) the sum of nrm e over the edges with dst e = r and src e = s. For any real column y,
      sum_s A (r, s) * y s  =  sum_e [dst e = r] y (src e) * nrm e:
  the product with A sends along every edge the source's value times the edge's weight to its target. The
  identity is a rearrangement of a finite double sum (distributing y s over the inner sum, exchanging the sums,
  collapsing the selection of s = src e), so it is stated over the reals and then for real data read as extended
  reals, where both sides are sums of products of real numbers. Also: the coercion of the reals commutes with
  finite sums, and a sum over 4 * B indices is the sum of four consecutive blocks of B.
-/
import Mathlib.Data.EReal.Inv
import Mathlib.Algebra.BigOperators.Fin
import Mathlib.Tactic

noncomputable section

open scoped BigOperators

namespace GcnDense

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A selected real, read as an extended real. -/
theorem coe_ite (p : Prop) [Decidable p] (a : ℝ) :
    (if p then ((a : ℝ) : EReal) else 0) = (((if p then a else 0) : ℝ) : EReal) := by
  split <;> simp

/-- Over the reals: the dense product at row r is the sum over the edges into r. -/
theorem dense_eq_sparse_real {N E : ℕ} (src dst : Fin E → Fin N) (nrm : Fin E → ℝ) (y : Fin N → ℝ) (r : Fin N) :
    ∑ s : Fin N, (∑ e : Fin E, if dst e = r ∧ src e = s then nrm e else 0) * y s
      = ∑ e : Fin E, if dst e = r then y (src e) * nrm e else 0 := by
  simp_rw [Finset.sum_mul, ite_mul, zero_mul]
  rw [Finset.sum_comm]
  refine Finset.sum_congr rfl fun e _ => ?_
  by_cases h : dst e = r
  · simp only [h, true_and, if_true]
    rw [Finset.sum_ite_eq Finset.univ (src e) (fun s => nrm e * y s)]
    simp [mul_comm]
  · simp [h]

/-- The same for real data read as extended reals, the dense entries accumulated from zero as a scatter-add into
    a zero matrix leaves them, and the edge sums likewise. -/
theorem dense_eq_sparse {N E : ℕ} (src dst : Fin E → Fin N) (nrm : Fin E → ℝ) (y : Fin N → ℝ) (r : Fin N) :
    ∑ s : Fin N, ((0 : EReal) + ∑ e : Fin E, if dst e = r ∧ src e = s then ((nrm e : ℝ) : EReal) else 0) * ((y s : ℝ) : EReal)
      = (0 : EReal) + ∑ e : Fin E, if dst e = r then ((y (src e) : ℝ) : EReal) * ((nrm e : ℝ) : EReal) else 0 := by
  simp only [zero_add, coe_ite, ← coe_sum, ← EReal.coe_mul]
  exact congrArg _ (dense_eq_sparse_real src dst nrm y r)

/-- A sum over 4 * B indices as four consecutive blocks of B. -/
theorem sum_four_blocks {M : Type*} [AddCommMonoid M] (B : ℕ) (f : Fin (4 * B) → M) :
    ∑ s : Fin (4 * B), f s
      = ∑ k : Fin 4, ∑ q : Fin B, f ⟨k.val * B + q.val, by
          have := k.isLt; have := q.isLt; nlinarith⟩ := by
  rw [← Finset.sum_product', Finset.univ_product_univ]
  refine (Fintype.sum_equiv finProdFinEquiv _ _ fun p => ?_).symm
  refine congrArg f (Fin.ext ?_)
  simp only [finProdFinEquiv_apply_val]
  ring

end GcnDense

end
-- ==== Proof.GcnBridge.lean ====
/-
  The dense form of a graph convolution is the edge form.

  The kernel first builds the dense normalised adjacency
      adj (r, s) = 0 + sum_e [dst e = r and src e = s] norm e
  and then computes a layer as  max ((sum_s adj (r, s) * (h W) (s, j)) + b j) 0,  the sum over the 16384 columns
  taken as four consecutive blocks of 4096 added one after the other to a running value that starts at 0.
  The specification's layer sums, over the edges e arriving at r, (h W) (src e, j) * norm e.
  The two agree because the edge weights and the entries of h and W are real numbers: a product of a finite sum
  with a real number distributes, the two sums exchange, and the selection of the column s = src e collapses.
  A layer of real data is again real (sums, products and maxima of real numbers), which carries the hypothesis
  from one layer to the next.
-/
import proofs.«105428_j37495064494476_1_alg».proof.Proof.RefSpec
import proofs.«105428_j37495064494476_1_alg».proof.Proof.LibGcnDense

noncomputable section

open scoped BigOperators

namespace Cert.GcnBridge

open Cert.GcnSpec

variable {N M : Nat}

/-- Real data read as extended reals. -/
abbrev up {a b : Nat} (x : Fin a → Fin b → ℝ) : Fin a → Fin b → EReal := fun i j => ((x i j : ℝ) : EReal)
abbrev up1 {a : Nat} (x : Fin a → ℝ) : Fin a → EReal := fun i => ((x i : ℝ) : EReal)

/-- The dense normalised adjacency, as a scatter-add of the edge weights into a zero matrix leaves it. -/
def adj (src dst : Fin M → Fin N) (r s : Fin N) : EReal :=
  0 + ∑ e : Fin M, if dst e = r ∧ src e = s then norm src dst e else 0

/-- A layer computed through a dense matrix A. -/
def denseLayer {K H : Nat} (A : Fin N → Fin N → EReal) (h : Fin N → Fin K → EReal) (W : Fin K → Fin H → EReal)
    (b : Fin H → EReal) (i : Fin N) (j : Fin H) : EReal :=
  max ((∑ s : Fin N, A i s * xw h W s j) + b j) 0

/-- The product of real matrices is real. -/
theorem xw_up {K H : Nat} (h : Fin N → Fin K → ℝ) (W : Fin K → Fin H → ℝ) (i : Fin N) (j : Fin H) :
    xw (up h) (up W) i j = ((∑ l : Fin K, h i l * W l j : ℝ) : EReal) := by
  unfold xw
  simp only [up, ← EReal.coe_mul, ← GcnDense.coe_sum]

/-- THE BRIDGE: on real features and weights the dense layer through adj is the specification's layer. -/
theorem denseLayer_adj {K H : Nat} (src dst : Fin M → Fin N) (h : Fin N → Fin K → ℝ) (W : Fin K → Fin H → ℝ)
    (b : Fin H → EReal) (i : Fin N) (j : Fin H) :
    denseLayer (adj src dst) (up h) (up W) b i j = layer src dst (up h) (up W) b i j := by
  unfold denseLayer layer conv adj
  simp only [xw_up, norm_eq_coe]
  have key := GcnDense.dense_eq_sparse src dst (nrmR src dst) (fun s => ∑ l : Fin K, h s l * W l j) i
  rw [zero_add] at key
  rw [key]

/-- A layer of real data is real. -/
theorem layer_up {K H : Nat} (src dst : Fin M → Fin N) (h : Fin N → Fin K → ℝ) (W : Fin K → Fin H → ℝ)
    (b : Fin H → ℝ) :
    ∃ o : Fin N → Fin H → ℝ, layer src dst (up h) (up W) (up1 b) = up o := by
  refine ⟨fun i j => max ((∑ e : Fin M, if dst e = i then (∑ l : Fin K, h (src e) l * W l j) * nrmR src dst e else 0) + b j) 0, ?_⟩
  funext i j
  unfold layer conv
  simp only [xw_up, norm_eq_coe, up, up1, ← EReal.coe_mul, GcnDense.coe_ite, ← GcnDense.coe_sum, ← EReal.coe_add]
  exact (EReal.coe_strictMono.monotone.map_max (a := _) (b := (0 : ℝ))).symm

/-- The running value of a row of the kernel: four consecutive column blocks of 4096 added one after the other
    from 0. -/
def blockSum (f : Fin 16384 → EReal) (k : Fin 4) : EReal :=
  ∑ q : Fin 4096, f ⟨k.val * 4096 + q.val, by have := k.isLt; have := q.isLt; omega⟩

/-- Adding the four blocks to a running value that starts at 0 is the sum over all 16384 columns. -/
theorem four_steps (f : Fin 16384 → EReal) :
    (((0 + blockSum f 0) + blockSum f 1) + blockSum f 2) + blockSum f 3 = ∑ s : Fin 16384, f s := by
  have h := GcnDense.sum_four_blocks 4096 (f : Fin (4 * 4096) → EReal)
  rw [Fin.sum_univ_four] at h
  rw [zero_add]
  exact h.symm

end Cert.GcnBridge

end
-- ==== Proof.GcnAdj.lean ====
/-
  The dense normalised adjacency as an array, read at an entry.

  The host pairs, for every edge e, the (normalised) target word with the (normalised) source word into a table
  [540672, 2], and adds the edge's weight normVec e into a zero matrix [16384, 16384] at that (row, column); the
  result is then read in a narrower float format, the identity on the extended reals. When every word of the edge
  list is a node number, no word is moved by the normalisation and no pair falls outside the matrix, so the entry
  (r, s) is 0 plus the sum of norm e over the edges with dst e = r and src e = s: the matrix GcnBridge.adj.
  No program is imported: the shape conditions are decided here.
-/
import proofs.«105428_j37495064494476_1_alg».proof.Proof.RefPrefix
import proofs.«105428_j37495064494476_1_alg».proof.Proof.LibPairScatter
import proofs.«105428_j37495064494476_1_alg».proof.Proof.GcnBridge

noncomputable section

open scoped BigOperators

namespace Cert.GcnAdj

open Idealize.ShloMosaic Idealize.ShloMosaic.ValueIdx Idealize.ShloMosaic.PairScatter Cert.GcnSpec Cert.GcnPrefix

abbrev SAdj : Shape := ⟨2, ![16384, 16384]⟩
abbrev SPair : Shape := ⟨2, ![540672, 2]⟩

theorem bcastAdj : S0.BroadcastsInDim SAdj (![] : Fin 0 → Fin SAdj.rank) := by decide
theorem concatsPair : Shape.Concatenates [SCol, SCol] SPair 1 := by decide
theorem pairWF : ScatterDims.WF SAdj SPair SEdge [] [0, 1] [0, 1] 1 := by decide
theorem narrower : FTy.bf16.bits < FTy.f32.bits := by decide

/-- The table of (target, source) words, one row per edge. -/
def pairs (ei : IVec SEI 32) : IVec SPair 32 :=
  concatenate SPair 1 [⟨SCol, column (wrapWords (dstWords ei))⟩, ⟨SCol, column (wrapWords (srcWords ei))⟩] concatsPair

/-- The dense normalised adjacency. -/
def adjArr (ei : IVec SEI 32) : FVec Ideal SAdj .bf16 :=
  truncf .bf16 (Host.scatterAdd (F := Ideal) (pairDims 16384 16384 540672 pairWF)
    (broadcastInDim SAdj ![] bcastAdj (constant (F := Ideal) S0 .f32 0x00000000#32)) (pairs ei) (normVec ei)) narrower

/-- Row e of the table starts with edge e's target. -/
theorem pairs_row (ei : IVec SEI 32) (hidx : InRange ei) (e : Fin 540672) :
    (pairs ei (ix2 e 0)).toInt = ((dstOf ei e).val : ℤ) := by
  unfold pairs
  rw [concatenate_pair_apply_left (t := SPair) (s₁ := SCol) (s₂ := SCol) (1 : Fin 2) _ _ concatsPair (ix2 e 0) rfl (ix2 e 0)
    (fun b => by match b with | ⟨0, _⟩ => rfl | ⟨1, _⟩ => rfl)]
  rw [column_apply, wrapWords_apply _ _ (by rw [dstWords_toInt ei hidx e]; exact Int.natCast_nonneg _)]
  exact dstWords_toInt ei hidx e

/-- Row e of the table ends with edge e's source. -/
theorem pairs_col (ei : IVec SEI 32) (hidx : InRange ei) (e : Fin 540672) :
    (pairs ei (ix2 e 1)).toInt = ((srcOf ei e).val : ℤ) := by
  unfold pairs
  rw [concatenate_pair_apply_right (t := SPair) (s₁ := SCol) (s₂ := SCol) (1 : Fin 2) _ _ concatsPair (ix2 e 1) rfl rfl (ix2 e 0)
    (fun b hb => by match b, hb with | ⟨0, _⟩, _ => rfl | ⟨1, _⟩, hb => exact absurd rfl hb)
    rfl]
  rw [column_apply, wrapWords_apply _ _ (by rw [srcWords_toInt ei hidx e]; exact Int.natCast_nonneg _)]
  exact srcWords_toInt ei hidx e

/-- THE ADJACENCY AT AN ENTRY. -/
theorem adjArr_apply (ei : IVec SEI 32) (hidx : InRange ei) (r s : Fin 16384) :
    adjArr ei (ix2 r s) = GcnBridge.adj (srcOf ei) (dstOf ei) r s := by
  have hz : (broadcastInDim SAdj ![] bcastAdj (constant (F := Ideal) S0 .f32 0x00000000#32) : FVec Ideal SAdj .f32) (ix2 r s)
      = 0 := by
    rw [broadcastInDim_scalar_apply]
    exact Ideal.ofBits_zero_f32
  have hsc := scatterAddPairs_apply (φ := .f32) pairWF
    (broadcastInDim SAdj ![] bcastAdj (constant (F := Ideal) S0 .f32 0x00000000#32)) (pairs ei) (normVec ei) r s
  rw [hz] at hsc
  refine (show adjArr ei (ix2 r s) = _ from hsc).trans ?_
  show (0 : EReal) + _ = 0 + _
  refine congrArg ((0 : EReal) + ·) (Finset.sum_congr rfl fun e _ => ?_)
  rw [pairs_row ei hidx e, pairs_col ei hidx e, normVec_apply ei hidx e]
  by_cases hd : dstOf ei e = r <;> by_cases hs : srcOf ei e = s
  · rw [if_pos ⟨by rw [hd], by rw [hs]⟩, if_pos ⟨hd, hs⟩]
  · rw [if_neg (fun h => hs (Fin.ext (Int.natCast_inj.mp h.2))), if_neg (fun h => hs h.2)]
  · rw [if_neg (fun h => hd (Fin.ext (Int.natCast_inj.mp h.1))), if_neg (fun h => hd h.1)]
  · rw [if_neg (fun h => hd (Fin.ext (Int.natCast_inj.mp h.1))), if_neg (fun h => hd h.1)]

end Cert.GcnAdj

end
-- ==== Proof.KernelHost.lean ====
/-
  The kernel's host lines before its first region, as pure terms.

  From the source words srcW, the target words dstW (one per edge, self loops included) and the vector dinv of
  inverse square roots of the degrees, the host computes
    * wrapIdx w : a negative word moved up by 16384 (an index counted from the end), any other word kept;
    * normTerm  : the edge weights dinv[wrap srcW] * dinv[wrap dstW];
    * adjTerm   : the 16384 x 16384 matrix obtained by adding each edge's weight at row wrap dstW, column wrap srcW
                  of a zero matrix, then read in the narrower float format (the identity on the extended reals).
  Each bias vector [128] is passed to its region as the row [1, 128].
-/
import proofs.«105428_j37495064494476_1_alg».proof.Proof.Gen.KernelIdeal.Regions
import Idealize.ShloMosaic.Lib.StableHlo.Run
import Idealize.ShloMosaic.PureOps.Ideal
import proofs.«105428_j37495064494476_1_alg».proof.Proof.GcnAdj

noncomputable section

namespace Cert.KernelIdeal.Host

open Cert.KernelIdeal Cert.KernelIdeal.Gen Idealize.ShloMosaic Idealize.ShloMosaic.TcCoe Idealize.SL.Sem
  Idealize.ShloMosaic.StableHlo

/-- An index word counted from the end when negative. -/
def wrapIdx (w : IVec S540672 32) : IVec S540672 32 :=
  select (cmpi .slt w (broadcastInDim S540672 ![] bcast_S_S540672 (constantI S_ 32 0#32)))
    (addi w (broadcastInDim S540672 ![] bcast_S_S540672 (constantI S_ 32 16384#32))) w

/-- A vector of words as a one-column table. -/
def col (w : IVec S540672 32) : IVec S540672x1 32 := broadcastInDim S540672x1 ![0] bcast_S540672_S540672x1_0 w

/-- The edge weights. -/
def normTerm (srcW dstW : IVec S540672 32) (dinv : FVec Ideal S16384 .f32) : FVec Ideal S540672 .f32 :=
  mulf (Host.gather gather_S16384_S540672x1_S540672_n_0_n_n_0_1_1 dinv (col (wrapIdx srcW)))
    (Host.gather gather_S16384_S540672x1_S540672_n_0_n_n_0_1_1 dinv (col (wrapIdx dstW)))

/-- The dense adjacency. -/
def adjTerm (srcW dstW : IVec S540672 32) (dinv : FVec Ideal S16384 .f32) : FVec Ideal S16384x16384 .bf16 :=
  truncf .bf16 (Host.scatterAdd scatter_S16384x16384_S540672x2_S540672_n_01_01_1
    (broadcastInDim S16384x16384 ![] bcast_S_S16384x16384 (constant (F := Ideal) S_ .f32 0x00000000#32))
    (concatenate S540672x2 1 [⟨S540672x1, col (wrapIdx dstW)⟩, ⟨S540672x1, col (wrapIdx srcW)⟩]
      concatenates_S540672x1_S540672x1_S540672x2_d1)
    (normTerm srcW dstW dinv)) bitsLt_bf16_f32

variable (m : (ℓ : Loc nD τ sig) → Buf (Elt Ideal) ℓ) (c : Dev nD)

set_option maxHeartbeats 1600000 in
/-- What the first region finds in the adjacency's buffer. -/
theorem V3_adj : (Gen.V3 (F := Ideal) m c main_v45 : S16384x16384.Idx → EReal)
    = adjTerm (Gen.V2 (F := Ideal) m c main_v3) (Gen.V2 (F := Ideal) m c main_v6) (Gen.V2 (F := Ideal) m c main_v14) := by
  dsimp only [Gen.V3, Gen.hostOps0_2]
  after_results_simp <;> rfl

/-- What the first region finds in its bias row's buffer. -/
theorem V3_bias : (Gen.V3 (F := Ideal) m c main_v46 : S1x128.Idx → EReal)
    = shapeCast S1x128 (m ((c.tc : Thread nD τ).loc main_arg3)) shapeCasts_S128_S1x128 := by
  dsimp only [Gen.V3, Gen.V2, Gen.V1, Gen.V0, Gen.hostOps0, Gen.hostOps0_1, Gen.hostOps0_2]
  after_results_simp <;> rfl

/-- The edge array as launched. -/
abbrev edges : IVec S2x524288 32 := m ((c.tc : Thread nD τ).loc main_arg1)

set_option maxHeartbeats 1600000 in
/-- The source words, as the second stretch leaves them. -/
theorem V2_src : (Gen.V2 (F := Ideal) m c main_v3 : S540672.Idx → BitVec 32) = Cert.GcnPrefix.srcWords (edges m c) := by
  dsimp only [Gen.V2, Gen.V1, Gen.V0, Gen.hostOps0, Gen.hostOps0_1]
  after_results_simp <;> rfl

set_option maxHeartbeats 1600000 in
/-- The target words. -/
theorem V2_dst : (Gen.V2 (F := Ideal) m c main_v6 : S540672.Idx → BitVec 32) = Cert.GcnPrefix.dstWords (edges m c) := by
  dsimp only [Gen.V2, Gen.V1, Gen.V0, Gen.hostOps0, Gen.hostOps0_1]
  after_results_simp <;> rfl

set_option maxHeartbeats 1600000 in
/-- The inverse square roots of the degrees. -/
theorem V2_dinv : (Gen.V2 (F := Ideal) m c main_v14 : S16384.Idx → EReal) = Cert.GcnPrefix.dinvVec (edges m c) := by
  dsimp only [Gen.V2, Gen.hostOps0_1]
  after_results_simp
  simp only [TRef.toBuf, TRef.ofBuf, cast_eq]
  rfl

/-- The host's adjacency term over the decoded edge list is the dense adjacency array. -/
theorem adjTerm_eq (ei : IVec S2x524288 32) :
    adjTerm (Cert.GcnPrefix.srcWords ei) (Cert.GcnPrefix.dstWords ei) (Cert.GcnPrefix.dinvVec ei) = Cert.GcnAdj.adjArr ei := rfl

/-- THE ADJACENCY THE FIRST REGION FINDS. -/
theorem V3_adjArr : (Gen.V3 (F := Ideal) m c main_v45 : S16384x16384.Idx → EReal) = Cert.GcnAdj.adjArr (edges m c) := by
  rw [V3_adj, V2_src, V2_dst, V2_dinv]
  exact adjTerm_eq _

end Cert.KernelIdeal.Host

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.KernelPayloads.lean ====
/-
  The kernel bodies' arithmetic, read entry by entry over the extended reals.

  A layer kernel keeps a running block acc : [1024, 128]. Reading the payloads at row p and column q:
    * the reset value is 0;
    * one accumulation step with an adjacency block a : [1024, 4096], a feature block h : [4096, d] and the
      weights w : [d, 128] gives  acc (p, q) + sum_s a (p, s) * (sum_l h (s, l) * w (l, q)),
      because a change of float format is the identity on the extended reals and a matrix product accumulated
      into the zero matrix is the plain sum of products;
    * the last step adds the bias row and cuts at zero:  max (acc (p, q) + b (0, q)) 0.
  The head kernel's block is  sum_k h (p, k) * w (k, q) + b (0, q).
-/
import proofs.«105428_j37495064494476_1_alg».proof.Proof.Gen.KernelIdeal.Skeleton
import proofs.«105428_j37495064494476_1_alg».proof.Proof.LibMatmulPlain
import Idealize.ShloMosaic.Lib.ValueIdx
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-- A row [1, n] spread over the rows of [m, n] reads the row's entry q. -/
theorem row_spread_apply {m n : Nat} (x : (⟨2, ![1, n]⟩ : Shape).Idx → EReal)
    (h : (⟨2, ![1, n]⟩ : Shape).Broadcasts ⟨2, ![m, n]⟩) (p : Fin m) (q : Fin n) :
    broadcastTo ⟨2, ![m, n]⟩ x h (ix2 p q) = x (ix2 0 q) := by
  refine broadcastTo_apply x h (ix2 p q) (ix2 0 q) fun a => ?_
  match a with
  | ⟨0, _⟩ => rfl
  | ⟨1, _⟩ =>
    show q.val = if n = 1 then 0 else q.val
    split
    · rename_i hn
      subst hn
      exact Nat.lt_one_iff.mp q.isLt
    · rfl

/-- The reset value of the running block. -/
theorem reset0_apply (p : Fin 1024) (q : Fin 128) : k0_pay1 (F := Ideal) (ix2 p q) = 0 := by
  unfold k0_pay1
  simp only [shapeCast_self, broadcast_apply]
  exact Ideal.ofBits_zero_f32

/-- One accumulation step of the first layer's kernel. -/
theorem step0_apply (h : Vec Ideal S4096x16 .f32) (w : Vec Ideal S16x128 .f32) (acc : Vec Ideal S1024x128 .f32)
    (a : Vec Ideal S1024x4096 .bf16) (p : Fin 1024) (q : Fin 128) :
    k0_pay2 (F := Ideal) h w acc a (ix2 p q)
      = acc (ix2 p q) + ∑ s : Fin 4096, a (ix2 p s) * ∑ l : Fin 16, h (ix2 s l) * w (ix2 l q) := by
  unfold k0_pay2
  simp only [shapeCast_self, addf_apply]
  refine congrArg (acc (ix2 p q) + ·) ?_
  refine (Cert.LibMatmulPlain.matmul_plain_zero_apply (M := 1024) (K := 4096) (N := 128)
    dot_S1024x4096_S4096x128_S1024x128_1_0_0_1_n_n rfl none _ _ p q).trans ?_
  refine Finset.sum_congr rfl fun s _ => ?_
  refine congrArg (a (ix2 p s) * ·) ?_
  rw [truncf_apply]
  exact Cert.LibMatmulPlain.matmul_plain_zero_apply (M := 4096) (K := 16) (N := 128)
    dot_S4096x16_S16x128_S4096x128_1_0_0_1_n_n rfl none _ _ s q

/-- The last step of a layer's kernel: bias row, then the cut at zero. -/
theorem close0_apply (acc : Vec Ideal S1024x128 .f32) (b : Vec Ideal S1x128 .f32) (p : Fin 1024) (q : Fin 128) :
    k0_pay3 (F := Ideal) acc b (ix2 p q) = max (acc (ix2 p q) + b (ix2 0 q)) 0 := by
  unfold k0_pay3
  simp only [shapeCast_self, maximumf_apply, addf_apply, broadcast_apply, row_spread_apply]
  exact congrArg _ Ideal.ofBits_zero_f32

/-- The reset value of the running block (layer 2). -/
theorem reset1_apply (p : Fin 1024) (q : Fin 128) : k1_pay1 (F := Ideal) (ix2 p q) = 0 := by
  unfold k1_pay1
  simp only [shapeCast_self, broadcast_apply]
  exact Ideal.ofBits_zero_f32

/-- One accumulation step of layer 2's kernel. -/
theorem step1_apply (h : Vec Ideal S4096x128 .f32) (w : Vec Ideal S128x128 .f32) (acc : Vec Ideal S1024x128 .f32)
    (a : Vec Ideal S1024x4096 .bf16) (p : Fin 1024) (q : Fin 128) :
    k1_pay2 (F := Ideal) h w acc a (ix2 p q)
      = acc (ix2 p q) + ∑ s : Fin 4096, a (ix2 p s) * ∑ l : Fin 128, h (ix2 s l) * w (ix2 l q) := by
  unfold k1_pay2
  simp only [shapeCast_self, addf_apply]
  refine congrArg (acc (ix2 p q) + ·) ?_
  refine (Cert.LibMatmulPlain.matmul_plain_zero_apply (M := 1024) (K := 4096) (N := 128)
    dot_S1024x4096_S4096x128_S1024x128_1_0_0_1_n_n rfl none _ _ p q).trans ?_
  refine Finset.sum_congr rfl fun s _ => ?_
  refine congrArg (a (ix2 p s) * ·) ?_
  rw [truncf_apply]
  exact Cert.LibMatmulPlain.matmul_plain_zero_apply (M := 4096) (K := 128) (N := 128)
    dot_S4096x128_S128x128_S4096x128_1_0_0_1_n_n rfl none _ _ s q

/-- The last step of layer 2's kernel. -/
theorem close1_apply (acc : Vec Ideal S1024x128 .f32) (b : Vec Ideal S1x128 .f32) (p : Fin 1024) (q : Fin 128) :
    k1_pay3 (F := Ideal) acc b (ix2 p q) = max (acc (ix2 p q) + b (ix2 0 q)) 0 := by
  unfold k1_pay3
  simp only [shapeCast_self, maximumf_apply, addf_apply, broadcast_apply, row_spread_apply]
  exact congrArg _ Ideal.ofBits_zero_f32

/-- The reset value of the running block (layer 3). -/
theorem reset2_apply (p : Fin 1024) (q : Fin 128) : k2_pay1 (F := Ideal) (ix2 p q) = 0 := by
  unfold k2_pay1
  simp only [shapeCast_self, broadcast_apply]
  exact Ideal.ofBits_zero_f32

/-- One accumulation step of layer 3's kernel. -/
theorem step2_apply (h : Vec Ideal S4096x128 .f32) (w : Vec Ideal S128x128 .f32) (acc : Vec Ideal S1024x128 .f32)
    (a : Vec Ideal S1024x4096 .bf16) (p : Fin 1024) (q : Fin 128) :
    k2_pay2 (F := Ideal) h w acc a (ix2 p q)
      = acc (ix2 p q) + ∑ s : Fin 4096, a (ix2 p s) * ∑ l : Fin 128, h (ix2 s l) * w (ix2 l q) := by
  unfold k2_pay2
  simp only [shapeCast_self, addf_apply]
  refine congrArg (acc (ix2 p q) + ·) ?_
  refine (Cert.LibMatmulPlain.matmul_plain_zero_apply (M := 1024) (K := 4096) (N := 128)
    dot_S1024x4096_S4096x128_S1024x128_1_0_0_1_n_n rfl none _ _ p q).trans ?_
  refine Finset.sum_congr rfl fun s _ => ?_
  refine congrArg (a (ix2 p s) * ·) ?_
  rw [truncf_apply]
  exact Cert.LibMatmulPlain.matmul_plain_zero_apply (M := 4096) (K := 128) (N := 128)
    dot_S4096x128_S128x128_S4096x128_1_0_0_1_n_n rfl none _ _ s q

/-- The last step of layer 3's kernel. -/
theorem close2_apply (acc : Vec Ideal S1024x128 .f32) (b : Vec Ideal S1x128 .f32) (p : Fin 1024) (q : Fin 128) :
    k2_pay3 (F := Ideal) acc b (ix2 p q) = max (acc (ix2 p q) + b (ix2 0 q)) 0 := by
  unfold k2_pay3
  simp only [shapeCast_self, maximumf_apply, addf_apply, broadcast_apply, row_spread_apply]
  exact congrArg _ Ideal.ofBits_zero_f32

/-- The head kernel's block: the product with the weights plus the bias row. -/
theorem head_apply (h : Vec Ideal S1024x128 .f32) (w : Vec Ideal S128x1024 .f32) (b : Vec Ideal S1x1024 .f32)
    (p : Fin 1024) (q : Fin 1024) :
    k3_pay1 (F := Ideal) h w b (ix2 p q) = (∑ k : Fin 128, h (ix2 p k) * w (ix2 k q)) + b (ix2 0 q) := by
  unfold k3_pay1
  simp only [shapeCast_self, addf_apply, row_spread_apply]
  refine congrArg (· + b (ix2 0 q)) ?_
  exact Cert.LibMatmulPlain.matmul_plain_zero_apply (M := 1024) (K := 128) (N := 1024)
    dot_S1024x128_S128x1024_S1024x1024_1_0_0_1_n_n rfl none _ _ p q

end Cert.KernelIdeal.Payload

end
-- ==== Proof.KernelClosedLayers.lean ====
/-
  A layer region's result, entry by entry.

  At row i = 1024 p + r and column j the result is the closing step of row block p at place (r, j): the running
  value after four accumulation steps from 0, plus the bias, cut at zero. Step k adds the sum, over the 4096 columns
  s of column block k, of adj (i, 4096 k + s) * (h W) (4096 k + s, j); the four block sums added one after the other
  from 0 are the sum over all 16384 columns. So the entry is  max ((sum_s adj (i, s) * (h W) (s, j)) + b j) 0,
  the dense layer through the adjacency array.
-/
import proofs.«105428_j37495064494476_1_alg».proof.Proof.LayerTiles
import proofs.«105428_j37495064494476_1_alg».proof.Proof.KernelPayloads
import proofs.«105428_j37495064494476_1_alg».proof.Proof.GcnBridge

noncomputable section

open scoped BigOperators

namespace Cert.KernelIdeal.Closed

open Idealize.ShloMosaic Idealize.ShloMosaic.ValueIdx Cert.KernelIdeal Cert.KernelIdeal.Gen

/-- LAYER 1'S RESULT AT AN ENTRY: the dense layer through the adjacency array. -/
theorem layerOut0_apply (A : S16384x16384.Idx → EReal) (H : S16384x16.Idx → EReal) (W : S16x128.Idx → EReal)
    (B : S1x128.Idx → EReal) (i : Fin 16384) (j : Fin 128) :
    Cert.KernelIdeal.Tiles.layerOut0 (F := Ideal) A H W B (ix2 i j)
      = Cert.GcnBridge.denseLayer (Cert.GcnSpec.mat A) (Cert.GcnSpec.mat H) (Cert.GcnSpec.mat W) (fun q => B (ix2 0 q)) i j := by
  unfold Cert.KernelIdeal.Tiles.layerOut0 Cert.GcnBridge.denseLayer
  rw [Cert.KernelIdeal.Payload.close0_apply]
  refine congrArg (fun v => max (v + B (ix2 0 j)) 0) ?_
  unfold Cert.KernelIdeal.Tiles.accTile0
  rw [Cert.KernelIdeal.Payload.step0_apply, Cert.KernelIdeal.Payload.step0_apply,
    Cert.KernelIdeal.Payload.step0_apply, Cert.KernelIdeal.Payload.step0_apply,
    Cert.KernelIdeal.Payload.reset0_apply]
  have hf : ∀ k : Fin 4,
      (∑ s : Fin 4096, Cert.KernelIdeal.Tiles.adjBlk (F := Ideal) A (Cert.KernelIdeal.Tiles.tile i.val i.isLt) k
            (ix2 (Cert.KernelIdeal.Tiles.place i.val) s)
          * ∑ l : Fin 16, Cert.KernelIdeal.Tiles.featBlk0 (F := Ideal) H k (ix2 s l) * W (ix2 l j))
        = Cert.GcnBridge.blockSum
            (fun s' => Cert.GcnSpec.mat A i s' * Cert.GcnSpec.xw (Cert.GcnSpec.mat H) (Cert.GcnSpec.mat W) s' j) k :=
    fun k => Finset.sum_congr rfl fun s _ => congrArg₂ (· * ·)
      (congrArg A (funext fun d => Fin.ext (by
        match d with
        | ⟨0, _⟩ => show i.val / 1024 * 1024 + i.val % 1024 = i.val; omega
        | ⟨1, _⟩ => rfl))) rfl
  refine Eq.trans ?_ (Cert.GcnBridge.four_steps _)
  exact congrArg₂ (· + ·) (congrArg₂ (· + ·) (congrArg₂ (· + ·) (congrArg ((0 : EReal) + ·) (hf 0)) (hf 1)) (hf 2)) (hf 3)

/-- LAYER 2'S RESULT AT AN ENTRY: the dense layer through the adjacency array. -/
theorem layerOut1_apply (A : S16384x16384.Idx → EReal) (H : S16384x128.Idx → EReal) (W : S128x128.Idx → EReal)
    (B : S1x128.Idx → EReal) (i : Fin 16384) (j : Fin 128) :
    Cert.KernelIdeal.Tiles.layerOut1 (F := Ideal) A H W B (ix2 i j)
      = Cert.GcnBridge.denseLayer (Cert.GcnSpec.mat A) (Cert.GcnSpec.mat H) (Cert.GcnSpec.mat W) (fun q => B (ix2 0 q)) i j := by
  unfold Cert.KernelIdeal.Tiles.layerOut1 Cert.GcnBridge.denseLayer
  rw [Cert.KernelIdeal.Payload.close1_apply]
  refine congrArg (fun v => max (v + B (ix2 0 j)) 0) ?_
  unfold Cert.KernelIdeal.Tiles.accTile1
  rw [Cert.KernelIdeal.Payload.step1_apply, Cert.KernelIdeal.Payload.step1_apply,
    Cert.KernelIdeal.Payload.step1_apply, Cert.KernelIdeal.Payload.step1_apply,
    Cert.KernelIdeal.Payload.reset1_apply]
  have hf : ∀ k : Fin 4,
      (∑ s : Fin 4096, Cert.KernelIdeal.Tiles.adjBlk (F := Ideal) A (Cert.KernelIdeal.Tiles.tile i.val i.isLt) k
            (ix2 (Cert.KernelIdeal.Tiles.place i.val) s)
          * ∑ l : Fin 128, Cert.KernelIdeal.Tiles.featBlk1 (F := Ideal) H k (ix2 s l) * W (ix2 l j))
        = Cert.GcnBridge.blockSum
            (fun s' => Cert.GcnSpec.mat A i s' * Cert.GcnSpec.xw (Cert.GcnSpec.mat H) (Cert.GcnSpec.mat W) s' j) k :=
    fun k => Finset.sum_congr rfl fun s _ => congrArg₂ (· * ·)
      (congrArg A (funext fun d => Fin.ext (by
        match d with
        | ⟨0, _⟩ => show i.val / 1024 * 1024 + i.val % 1024 = i.val; omega
        | ⟨1, _⟩ => rfl))) rfl
  refine Eq.trans ?_ (Cert.GcnBridge.four_steps _)
  exact congrArg₂ (· + ·) (congrArg₂ (· + ·) (congrArg₂ (· + ·) (congrArg ((0 : EReal) + ·) (hf 0)) (hf 1)) (hf 2)) (hf 3)

/-- LAYER 3'S RESULT AT AN ENTRY: the dense layer through the adjacency array. -/
theorem layerOut2_apply (A : S16384x16384.Idx → EReal) (H : S16384x128.Idx → EReal) (W : S128x128.Idx → EReal)
    (B : S1x128.Idx → EReal) (i : Fin 16384) (j : Fin 128) :
    Cert.KernelIdeal.Tiles.layerOut2 (F := Ideal) A H W B (ix2 i j)
      = Cert.GcnBridge.denseLayer (Cert.GcnSpec.mat A) (Cert.GcnSpec.mat H) (Cert.GcnSpec.mat W) (fun q => B (ix2 0 q)) i j := by
  unfold Cert.KernelIdeal.Tiles.layerOut2 Cert.GcnBridge.denseLayer
  rw [Cert.KernelIdeal.Payload.close2_apply]
  refine congrArg (fun v => max (v + B (ix2 0 j)) 0) ?_
  unfold Cert.KernelIdeal.Tiles.accTile2
  rw [Cert.KernelIdeal.Payload.step2_apply, Cert.KernelIdeal.Payload.step2_apply,
    Cert.KernelIdeal.Payload.step2_apply, Cert.KernelIdeal.Payload.step2_apply,
    Cert.KernelIdeal.Payload.reset2_apply]
  have hf : ∀ k : Fin 4,
      (∑ s : Fin 4096, Cert.KernelIdeal.Tiles.adjBlk (F := Ideal) A (Cert.KernelIdeal.Tiles.tile i.val i.isLt) k
            (ix2 (Cert.KernelIdeal.Tiles.place i.val) s)
          * ∑ l : Fin 128, Cert.KernelIdeal.Tiles.featBlk2 (F := Ideal) H k (ix2 s l) * W (ix2 l j))
        = Cert.GcnBridge.blockSum
            (fun s' => Cert.GcnSpec.mat A i s' * Cert.GcnSpec.xw (Cert.GcnSpec.mat H) (Cert.GcnSpec.mat W) s' j) k :=
    fun k => Finset.sum_congr rfl fun s _ => congrArg₂ (· * ·)
      (congrArg A (funext fun d => Fin.ext (by
        match d with
        | ⟨0, _⟩ => show i.val / 1024 * 1024 + i.val % 1024 = i.val; omega
        | ⟨1, _⟩ => rfl))) rfl
  refine Eq.trans ?_ (Cert.GcnBridge.four_steps _)
  exact congrArg₂ (· + ·) (congrArg₂ (· + ·) (congrArg₂ (· + ·) (congrArg ((0 : EReal) + ·) (hf 0)) (hf 1)) (hf 2)) (hf 3)

end Cert.KernelIdeal.Closed

end
-- ==== Proof.KernelClosedHead.lean ====
/-
  The head region's result, entry by entry.

  The head kernel writes the 16384 x 16384 result tile by tile: tile (p, q) is the product of row block p of the
  hidden features with column block q of the weights, plus column block q of the bias row. An entry (i, j) lies in
  tile (i / 1024, j / 1024) at place (i % 1024, j % 1024), and 1024 * (i / 1024) + i % 1024 = i, so the entry is
      sum_k h (i, k) * w (k, j) + b (0, j).
-/
import proofs.«105428_j37495064494476_1_alg».proof.Proof.FcBody
import proofs.«105428_j37495064494476_1_alg».proof.Proof.KernelPayloads

noncomputable section

open scoped BigOperators

namespace Cert.KernelIdeal.Closed

open Idealize.ShloMosaic Idealize.ShloMosaic.ValueIdx Cert.KernelIdeal Cert.KernelIdeal.Gen

/-- THE HEAD AT AN ENTRY. -/
theorem fcOut_apply (a0 : S16384x128.Idx → EReal) (a1 : S128x16384.Idx → EReal) (a2 : S1x16384.Idx → EReal)
    (i j : Fin 16384) :
    Cert.KernelIdeal.Fc.fcOut (F := Ideal) a0 a1 a2 (ix2 i j)
      = (∑ k : Fin 128, a0 (ix2 i k) * a1 (ix2 k j)) + a2 (ix2 0 j) := by
  unfold Cert.KernelIdeal.Fc.fcOut
  rw [Cert.KernelIdeal.Payload.head_apply]
  refine congrArg₂ (· + ·) (Finset.sum_congr rfl fun k _ => congrArg₂ (· * ·) (congrArg a0 ?_) (congrArg a1 ?_))
    (congrArg a2 ?_)
  · funext d
    refine Fin.ext ?_
    match d with
    | ⟨0, _⟩ => show i.val / 1024 * 1024 + i.val % 1024 = i.val; omega
    | ⟨1, _⟩ => rfl
  · funext d
    refine Fin.ext ?_
    match d with
    | ⟨0, _⟩ => rfl
    | ⟨1, _⟩ => show j.val / 1024 * 1024 + j.val % 1024 = j.val; omega
  · funext d
    refine Fin.ext ?_
    match d with
    | ⟨0, _⟩ => rfl
    | ⟨1, _⟩ => show j.val / 1024 * 1024 + j.val % 1024 = j.val; omega

end Cert.KernelIdeal.Closed

end
-- ==== Proof.GcnChain.lean ====
/-
  The network computed through the dense adjacency is the network of the specification.

  With `A` the dense normalised adjacency of the decoded graph, the dense form of the network is three layers
      `k (r, j) = max ((Σ_s A (r, s) * (h W) (s, j)) + b j) 0`
  (each bias given as a one-row matrix) followed by the dense head `(Σ_k k3 (i, k) * Wfc (k, j)) + bfc j`.
  On real features, weights and biases each dense layer is the edge-form layer of `GcnSpec` (the bridge
  `GcnBridge.denseLayer_adj`), and a layer of real data is real (`GcnBridge.layer_up`), which hands the hypothesis to the
  next layer. The head is the same expression on both sides, so the last weights and bias need not be real, nor does the
  third bias.
-/
import proofs.«105428_j37495064494476_1_alg».proof.Proof.RefSpec
import proofs.«105428_j37495064494476_1_alg».proof.Proof.RefPrefix
import proofs.«105428_j37495064494476_1_alg».proof.Proof.GcnBridge
import proofs.«105428_j37495064494476_1_alg».proof.Proof.GcnAdj

noncomputable section

open scoped BigOperators

namespace Cert.GcnChain

open Idealize.ShloMosaic Idealize.ShloMosaic.ValueIdx Cert.GcnSpec Cert.GcnPrefix Cert.GcnBridge Cert.GcnAdj

/-! ## The dense form of the network -/

def kernelHidden1 (ei : IVec SEI 32) (x : (⟨2, ![16384, 16]⟩ : Shape).Idx → EReal)
    (W1 : (⟨2, ![16, 128]⟩ : Shape).Idx → EReal) (B1 : (⟨2, ![1, 128]⟩ : Shape).Idx → EReal) :
    Fin 16384 → Fin 128 → EReal :=
  denseLayer (mat (adjArr ei)) (mat x) (mat W1) (fun q => B1 (ix2 0 q))

def kernelHidden2 (ei : IVec SEI 32) (x : (⟨2, ![16384, 16]⟩ : Shape).Idx → EReal)
    (W1 : (⟨2, ![16, 128]⟩ : Shape).Idx → EReal) (B1 : (⟨2, ![1, 128]⟩ : Shape).Idx → EReal)
    (W2 : (⟨2, ![128, 128]⟩ : Shape).Idx → EReal) (B2 : (⟨2, ![1, 128]⟩ : Shape).Idx → EReal) :
    Fin 16384 → Fin 128 → EReal :=
  denseLayer (mat (adjArr ei)) (kernelHidden1 ei x W1 B1) (mat W2) (fun q => B2 (ix2 0 q))

def kernelHidden3 (ei : IVec SEI 32) (x : (⟨2, ![16384, 16]⟩ : Shape).Idx → EReal)
    (W1 : (⟨2, ![16, 128]⟩ : Shape).Idx → EReal) (B1 : (⟨2, ![1, 128]⟩ : Shape).Idx → EReal)
    (W2 : (⟨2, ![128, 128]⟩ : Shape).Idx → EReal) (B2 : (⟨2, ![1, 128]⟩ : Shape).Idx → EReal)
    (W3 : (⟨2, ![128, 128]⟩ : Shape).Idx → EReal) (B3 : (⟨2, ![1, 128]⟩ : Shape).Idx → EReal) :
    Fin 16384 → Fin 128 → EReal :=
  denseLayer (mat (adjArr ei)) (kernelHidden2 ei x W1 B1 W2 B2) (mat W3) (fun q => B3 (ix2 0 q))

/-- The dense form of the network at `(i, j)`. -/
def kernelNet (ei : IVec SEI 32) (x : (⟨2, ![16384, 16]⟩ : Shape).Idx → EReal)
    (W1 : (⟨2, ![16, 128]⟩ : Shape).Idx → EReal) (B1 : (⟨2, ![1, 128]⟩ : Shape).Idx → EReal)
    (W2 : (⟨2, ![128, 128]⟩ : Shape).Idx → EReal) (B2 : (⟨2, ![1, 128]⟩ : Shape).Idx → EReal)
    (W3 : (⟨2, ![128, 128]⟩ : Shape).Idx → EReal) (B3 : (⟨2, ![1, 128]⟩ : Shape).Idx → EReal)
    (Wfc : (⟨2, ![128, 16384]⟩ : Shape).Idx → EReal) (Bfc : (⟨2, ![1, 16384]⟩ : Shape).Idx → EReal)
    (i j : Fin 16384) : EReal :=
  (∑ k : Fin 128, kernelHidden3 ei x W1 B1 W2 B2 W3 B3 i k * Wfc (ix2 k j)) + Bfc (ix2 0 j)

/-! ## One layer -/

/-- The dense adjacency array, read by coordinates, is the adjacency of the decoded graph. -/
theorem mat_adjArr (ei : IVec SEI 32) (hidx : InRange ei) : mat (adjArr ei) = adj (srcOf ei) (dstOf ei) :=
  funext fun r => funext fun s => adjArr_apply ei hidx r s

/-- A real array read by coordinates is real data. -/
theorem mat_real {a b : Nat} (W : (⟨2, ![a, b]⟩ : Shape).Idx → EReal) (hW : ∀ i, ∃ r : ℝ, W i = r) :
    ∃ Wr : Fin a → Fin b → ℝ, mat W = up Wr := by
  choose w hw using hW
  exact ⟨fun i j => w (ix2 i j), funext fun i => funext fun j => hw (ix2 i j)⟩

theorem vec_real {a : Nat} (b : (⟨1, ![a]⟩ : Shape).Idx → EReal) (hb : ∀ i, ∃ r : ℝ, b i = r) :
    ∃ br : Fin a → ℝ, vec b = up1 br := by
  choose w hw using hb
  exact ⟨fun i => w (ix1 i), funext fun i => hw (ix1 i)⟩

/-- A dense layer on real features and weights is the edge-form layer; the bias row is the bias. -/
theorem dense_step {K : Nat} (ei : IVec SEI 32) (hidx : InRange ei) (h : Fin 16384 → Fin K → EReal)
    (hh : ∃ hr : Fin 16384 → Fin K → ℝ, h = up hr) (W : (⟨2, ![K, 128]⟩ : Shape).Idx → EReal)
    (hW : ∀ i, ∃ r : ℝ, W i = r) (B : (⟨2, ![1, 128]⟩ : Shape).Idx → EReal) (b : (⟨1, ![128]⟩ : Shape).Idx → EReal)
    (hB : ∀ q, B (ix2 0 q) = b (ix1 q)) :
    denseLayer (mat (adjArr ei)) h (mat W) (fun q => B (ix2 0 q)) = layer (srcOf ei) (dstOf ei) h (mat W) (vec b) := by
  obtain ⟨hr, rfl⟩ := hh
  obtain ⟨Wr, eW⟩ := mat_real W hW
  have eB : (fun q => B (ix2 0 q)) = vec b := funext fun q => hB q
  rw [mat_adjArr ei hidx, eB, eW]
  exact funext fun i => funext fun j => denseLayer_adj (srcOf ei) (dstOf ei) hr Wr (vec b) i j

/-- An edge-form layer of real features, weights and bias is real. -/
theorem layer_real {K : Nat} (ei : IVec SEI 32) (h : Fin 16384 → Fin K → EReal)
    (hh : ∃ hr : Fin 16384 → Fin K → ℝ, h = up hr) (W : (⟨2, ![K, 128]⟩ : Shape).Idx → EReal)
    (hW : ∀ i, ∃ r : ℝ, W i = r) (b : (⟨1, ![128]⟩ : Shape).Idx → EReal) (hb : ∀ i, ∃ r : ℝ, b i = r) :
    ∃ o : Fin 16384 → Fin 128 → ℝ, layer (srcOf ei) (dstOf ei) h (mat W) (vec b) = up o := by
  obtain ⟨hr, rfl⟩ := hh
  obtain ⟨Wr, eW⟩ := mat_real W hW
  obtain ⟨br, eb⟩ := vec_real b hb
  rw [eW, eb]
  exact layer_up (srcOf ei) (dstOf ei) hr Wr br

/-! ## The three layers and the head -/

section
variable (ei : IVec SEI 32) (hidx : InRange ei)
  (x : (⟨2, ![16384, 16]⟩ : Shape).Idx → EReal) (W1 : (⟨2, ![16, 128]⟩ : Shape).Idx → EReal)
  (b1 : (⟨1, ![128]⟩ : Shape).Idx → EReal) (W2 : (⟨2, ![128, 128]⟩ : Shape).Idx → EReal)
  (b2 : (⟨1, ![128]⟩ : Shape).Idx → EReal) (W3 : (⟨2, ![128, 128]⟩ : Shape).Idx → EReal)
  (b3 : (⟨1, ![128]⟩ : Shape).Idx → EReal) (Wfc : (⟨2, ![128, 16384]⟩ : Shape).Idx → EReal)
  (bfc : (⟨1, ![16384]⟩ : Shape).Idx → EReal)
  (B1 B2 B3 : (⟨2, ![1, 128]⟩ : Shape).Idx → EReal) (Bfc : (⟨2, ![1, 16384]⟩ : Shape).Idx → EReal)

include hidx in
theorem kernelHidden1_eq (hx : ∀ i, ∃ r : ℝ, x i = r) (hW1 : ∀ i, ∃ r : ℝ, W1 i = r)
    (hB1 : ∀ q, B1 (ix2 0 q) = b1 (ix1 q)) :
    kernelHidden1 ei x W1 B1 = hidden1 (srcOf ei) (dstOf ei) (mat x) (mat W1) (vec b1) := by
  unfold kernelHidden1 hidden1
  exact dense_step ei hidx (mat x) (mat_real x hx) W1 hW1 B1 b1 hB1

include hidx in
theorem kernelHidden2_eq (hx : ∀ i, ∃ r : ℝ, x i = r) (hW1 : ∀ i, ∃ r : ℝ, W1 i = r) (hb1 : ∀ i, ∃ r : ℝ, b1 i = r)
    (hW2 : ∀ i, ∃ r : ℝ, W2 i = r) (hB1 : ∀ q, B1 (ix2 0 q) = b1 (ix1 q)) (hB2 : ∀ q, B2 (ix2 0 q) = b2 (ix1 q)) :
    kernelHidden2 ei x W1 B1 W2 B2
      = hidden2 (srcOf ei) (dstOf ei) (mat x) (mat W1) (vec b1) (mat W2) (vec b2) := by
  unfold kernelHidden2 hidden2
  rw [kernelHidden1_eq ei hidx x W1 b1 B1 hx hW1 hB1]
  unfold hidden1
  exact dense_step ei hidx _ (layer_real ei (mat x) (mat_real x hx) W1 hW1 b1 hb1) W2 hW2 B2 b2 hB2

include hidx in
theorem kernelHidden3_eq (hx : ∀ i, ∃ r : ℝ, x i = r) (hW1 : ∀ i, ∃ r : ℝ, W1 i = r) (hb1 : ∀ i, ∃ r : ℝ, b1 i = r)
    (hW2 : ∀ i, ∃ r : ℝ, W2 i = r) (hb2 : ∀ i, ∃ r : ℝ, b2 i = r) (hW3 : ∀ i, ∃ r : ℝ, W3 i = r)
    (hB1 : ∀ q, B1 (ix2 0 q) = b1 (ix1 q)) (hB2 : ∀ q, B2 (ix2 0 q) = b2 (ix1 q))
    (hB3 : ∀ q, B3 (ix2 0 q) = b3 (ix1 q)) :
    kernelHidden3 ei x W1 B1 W2 B2 W3 B3
      = hidden3 (srcOf ei) (dstOf ei) (mat x) (mat W1) (vec b1) (mat W2) (vec b2) (mat W3) (vec b3) := by
  unfold kernelHidden3 hidden3
  rw [kernelHidden2_eq ei hidx x W1 b1 W2 b2 B1 B2 hx hW1 hb1 hW2 hB1 hB2]
  unfold hidden2 hidden1
  exact dense_step ei hidx _
    (layer_real ei _ (layer_real ei (mat x) (mat_real x hx) W1 hW1 b1 hb1) W2 hW2 b2 hb2) W3 hW3 B3 b3 hB3

include hidx in
/-- THE DENSE NETWORK IS THE SPECIFICATION, on an edge array whose words are node numbers and real features, first three
    weight matrices and first two biases. -/
theorem kernelNet_eq (hx : ∀ i, ∃ r : ℝ, x i = r) (hW1 : ∀ i, ∃ r : ℝ, W1 i = r) (hb1 : ∀ i, ∃ r : ℝ, b1 i = r)
    (hW2 : ∀ i, ∃ r : ℝ, W2 i = r) (hb2 : ∀ i, ∃ r : ℝ, b2 i = r) (hW3 : ∀ i, ∃ r : ℝ, W3 i = r)
    (hB1 : ∀ q, B1 (ix2 0 q) = b1 (ix1 q)) (hB2 : ∀ q, B2 (ix2 0 q) = b2 (ix1 q))
    (hB3 : ∀ q, B3 (ix2 0 q) = b3 (ix1 q)) (hBfc : ∀ j, Bfc (ix2 0 j) = bfc (ix1 j)) (i j : Fin 16384) :
    kernelNet ei x W1 B1 W2 B2 W3 B3 Wfc Bfc i j = logitsArr ei x W1 b1 W2 b2 W3 b3 Wfc bfc i j := by
  unfold kernelNet logitsArr logits xw
  rw [kernelHidden3_eq ei hidx x W1 b1 W2 b2 W3 b3 B1 B2 B3 hx hW1 hb1 hW2 hb2 hW3 hB1 hB2 hB3, hBfc j]

end

end Cert.GcnChain

end
-- ==== Proof.KernelValue.lean ====
/-
  What the kernel program returns.

  Region by region: the first layer region leaves, in its output array, the layer computed from the dense adjacency
  array of the edge list, the node features, the first weights and the first bias row; the second and third
  regions the same from the previous region's output; the head region the product of the third layer's output
  with the head weights plus the head bias row. Read entry by entry, each layer region's output is the dense layer
  through the adjacency array, and the head's is a plain matrix product plus bias, so the returned array is the
  network kernelNet of the arguments. When the float arguments hold real numbers and the edge list node numbers,
  that is the specification's logits.
-/
import proofs.«105428_j37495064494476_1_alg».proof.Proof.RegionsRun
import proofs.«105428_j37495064494476_1_alg».proof.Proof.RegionsEntry
import proofs.«105428_j37495064494476_1_alg».proof.Proof.LayerFinal0
import proofs.«105428_j37495064494476_1_alg».proof.Proof.LayerFinal1
import proofs.«105428_j37495064494476_1_alg».proof.Proof.LayerFinal2
import proofs.«105428_j37495064494476_1_alg».proof.Proof.FcBody
import proofs.«105428_j37495064494476_1_alg».proof.Proof.KernelHost
import proofs.«105428_j37495064494476_1_alg».proof.Proof.KernelClosedLayers
import proofs.«105428_j37495064494476_1_alg».proof.Proof.KernelClosedHead
import proofs.«105428_j37495064494476_1_alg».proof.Proof.GcnChain

noncomputable section

open scoped BigOperators

namespace Cert.KernelIdeal.Result

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ) (c : Dev nD)

/-- The argument arrays as launched. -/
abbrev argX : S16384x16.Idx → EReal := m ((c.tc : Thread nD τ).loc main_arg0)
abbrev argE : IVec S2x524288 32 := m ((c.tc : Thread nD τ).loc main_arg1)
abbrev argW1 : S16x128.Idx → EReal := m ((c.tc : Thread nD τ).loc main_arg2)
abbrev argB1 : S128.Idx → EReal := m ((c.tc : Thread nD τ).loc main_arg3)
abbrev argW2 : S128x128.Idx → EReal := m ((c.tc : Thread nD τ).loc main_arg4)
abbrev argB2 : S128.Idx → EReal := m ((c.tc : Thread nD τ).loc main_arg5)
abbrev argW3 : S128x128.Idx → EReal := m ((c.tc : Thread nD τ).loc main_arg6)
abbrev argB3 : S128.Idx → EReal := m ((c.tc : Thread nD τ).loc main_arg7)
abbrev argWfc : S128x16384.Idx → EReal := m ((c.tc : Thread nD τ).loc main_arg8)
abbrev argBfc : S16384.Idx → EReal := m ((c.tc : Thread nD τ).loc main_arg9)

/-- A bias vector as the row a region is handed. -/
abbrev row1 (b : S128.Idx → EReal) : S1x128.Idx → EReal := shapeCast S1x128 b shapeCasts_S128_S1x128
abbrev rowFc (b : S16384.Idx → EReal) : S1x16384.Idx → EReal := shapeCast S1x16384 b shapeCasts_S16384_S1x16384

theorem row1_apply (b : S128.Idx → EReal) (q : Fin 128) : row1 b (ix2 0 q) = b (ix1 q) :=
  shapeCast_apply b shapeCasts_S128_S1x128 (ix2 0 q) (ix1 q)
    (by rw [Shape.rowMajor_val_two, Shape.rowMajor_val_one]; show q.val = 0 * 128 + q.val; omega)

theorem rowFc_apply (b : S16384.Idx → EReal) (q : Fin 16384) : rowFc b (ix2 0 q) = b (ix1 q) :=
  shapeCast_apply b shapeCasts_S16384_S1x16384 (ix2 0 q) (ix1 q)
    (by rw [Shape.rowMajor_val_two, Shape.rowMajor_val_one]; show q.val = 0 * 16384 + q.val; omega)

/-- The first layer region's output array. -/
theorem out0 : (Cert.KernelIdeal.Run.outs (F := Ideal) m 4 main_v47 c : S16384x128.Idx → EReal)
    = Cert.KernelIdeal.Tiles.layerOut0 (F := Ideal) (Cert.GcnAdj.adjArr (argE m c)) (argX m c) (argW1 m c) (row1 (argB1 m c)) := by
  rw [Cert.KernelIdeal.Run.outs_4, Cert.KernelIdeal.Layer0.final0, Cert.KernelIdeal.Entry.entry0_0,
    Cert.KernelIdeal.Entry.entry0_1, Cert.KernelIdeal.Entry.entry0_2, Cert.KernelIdeal.Entry.entry0_3,
    Cert.KernelIdeal.Host.V3_adjArr, Cert.KernelIdeal.Host.V3_bias]

/-- The second layer region's output array. -/
theorem out1 : (Cert.KernelIdeal.Run.outs (F := Ideal) m 6 main_v49 c : S16384x128.Idx → EReal)
    = Cert.KernelIdeal.Tiles.layerOut1 (F := Ideal) (Cert.GcnAdj.adjArr (argE m c))
        (Cert.KernelIdeal.Run.outs (F := Ideal) m 4 main_v47 c) (argW2 m c) (row1 (argB2 m c)) := by
  rw [Cert.KernelIdeal.Run.outs_6, Cert.KernelIdeal.Layer1.final1, Cert.KernelIdeal.Entry.entry1_0,
    Cert.KernelIdeal.Entry.entry1_1, Cert.KernelIdeal.Entry.entry1_2, Cert.KernelIdeal.Entry.entry1_3,
    Cert.KernelIdeal.Host.V3_adjArr]

/-- The third layer region's output array. -/
theorem out2 : (Cert.KernelIdeal.Run.outs (F := Ideal) m 8 main_v51 c : S16384x128.Idx → EReal)
    = Cert.KernelIdeal.Tiles.layerOut2 (F := Ideal) (Cert.GcnAdj.adjArr (argE m c))
        (Cert.KernelIdeal.Run.outs (F := Ideal) m 6 main_v49 c) (argW3 m c) (row1 (argB3 m c)) := by
  rw [Cert.KernelIdeal.Run.outs_8, Cert.KernelIdeal.Layer2.final2, Cert.KernelIdeal.Entry.entry2_0,
    Cert.KernelIdeal.Entry.entry2_1, Cert.KernelIdeal.Entry.entry2_2, Cert.KernelIdeal.Entry.entry2_3,
    Cert.KernelIdeal.Host.V3_adjArr]

/-- The head region's output array: what the program returns. -/
theorem out3 : (Cert.KernelIdeal.Run.outs (F := Ideal) m 10 main_v53 c : S16384x16384.Idx → EReal)
    = Cert.KernelIdeal.Fc.fcOut (F := Ideal) (Cert.KernelIdeal.Run.outs (F := Ideal) m 8 main_v51 c) (argWfc m c)
        (rowFc (argBfc m c)) := by
  rw [Cert.KernelIdeal.Run.outs_10, Cert.KernelIdeal.Fc.final3, Cert.KernelIdeal.Entry.entry3_0,
    Cert.KernelIdeal.Entry.entry3_1, Cert.KernelIdeal.Entry.entry3_2]

/-- The three layer outputs, entry by entry, are the network's hidden features. -/
theorem hidden1_apply (i : Fin 16384) (k : Fin 128) :
    (Cert.KernelIdeal.Run.outs (F := Ideal) m 4 main_v47 c : S16384x128.Idx → EReal) (ix2 i k)
      = Cert.GcnChain.kernelHidden1 (argE m c) (argX m c) (argW1 m c) (row1 (argB1 m c)) i k := by
  rw [out0, Cert.KernelIdeal.Closed.layerOut0_apply]
  rfl

theorem hidden2_apply (i : Fin 16384) (k : Fin 128) :
    (Cert.KernelIdeal.Run.outs (F := Ideal) m 6 main_v49 c : S16384x128.Idx → EReal) (ix2 i k)
      = Cert.GcnChain.kernelHidden2 (argE m c) (argX m c) (argW1 m c) (row1 (argB1 m c)) (argW2 m c) (row1 (argB2 m c)) i k := by
  rw [out1, Cert.KernelIdeal.Closed.layerOut1_apply]
  unfold Cert.GcnChain.kernelHidden2
  refine congrArg (fun h => Cert.GcnBridge.denseLayer _ h _ _ i k) ?_
  funext a b
  exact hidden1_apply m c a b

theorem hidden3_apply (i : Fin 16384) (k : Fin 128) :
    (Cert.KernelIdeal.Run.outs (F := Ideal) m 8 main_v51 c : S16384x128.Idx → EReal) (ix2 i k)
      = Cert.GcnChain.kernelHidden3 (argE m c) (argX m c) (argW1 m c) (row1 (argB1 m c)) (argW2 m c) (row1 (argB2 m c))
          (argW3 m c) (row1 (argB3 m c)) i k := by
  rw [out2, Cert.KernelIdeal.Closed.layerOut2_apply]
  unfold Cert.GcnChain.kernelHidden3
  refine congrArg (fun h => Cert.GcnBridge.denseLayer _ h _ _ i k) ?_
  funext a b
  exact hidden2_apply m c a b

/-- THE RETURNED ARRAY AT AN ENTRY is the network of the arguments. -/
theorem result_net (i j : Fin 16384) :
    (Cert.KernelIdeal.Run.outs (F := Ideal) m 10 main_v53 c : S16384x16384.Idx → EReal) (ix2 i j)
      = Cert.GcnChain.kernelNet (argE m c) (argX m c) (argW1 m c) (row1 (argB1 m c)) (argW2 m c) (row1 (argB2 m c))
          (argW3 m c) (row1 (argB3 m c)) (argWfc m c) (rowFc (argBfc m c)) i j := by
  rw [out3, Cert.KernelIdeal.Closed.fcOut_apply]
  unfold Cert.GcnChain.kernelNet
  refine congrArg (· + rowFc (argBfc m c) (ix2 0 j)) (Finset.sum_congr rfl fun k _ => ?_)
  rw [hidden3_apply]

/-- THE RETURNED ARRAY under the precondition's content: the specification's logits. -/
theorem result_spec (hidx : Cert.GcnPrefix.InRange (argE m c))
    (hx : ∀ i, ∃ r : ℝ, argX m c i = r) (hW1 : ∀ i, ∃ r : ℝ, argW1 m c i = r) (hb1 : ∀ i, ∃ r : ℝ, argB1 m c i = r)
    (hW2 : ∀ i, ∃ r : ℝ, argW2 m c i = r) (hb2 : ∀ i, ∃ r : ℝ, argB2 m c i = r) (hW3 : ∀ i, ∃ r : ℝ, argW3 m c i = r)
    (i j : Fin 16384) :
    (Cert.KernelIdeal.Run.outs (F := Ideal) m 10 main_v53 c : S16384x16384.Idx → EReal) (ix2 i j)
      = Cert.GcnSpec.logitsArr (argE m c) (argX m c) (argW1 m c) (argB1 m c) (argW2 m c) (argB2 m c) (argW3 m c)
          (argB3 m c) (argWfc m c) (argBfc m c) i j := by
  rw [result_net]
  exact Cert.GcnChain.kernelNet_eq (argE m c) hidx (argX m c) (argW1 m c) (argB1 m c) (argW2 m c) (argB2 m c) (argW3 m c)
    (argB3 m c) (argWfc m c) (argBfc m c) (row1 (argB1 m c)) (row1 (argB2 m c)) (row1 (argB3 m c)) (rowFc (argBfc m c))
    hx hW1 hb1 hW2 hb2 hW3 (row1_apply _) (row1_apply _) (row1_apply _) (rowFc_apply _) i j

end Cert.KernelIdeal.Result

end
-- ==== Proof.LibFiniteEntry.lean ====
/-
  An extended real whose absolute value is below the float +infinity is a real number.

  A "every input is finite" precondition compares |v| = max(v, -v) with the f32 word 0x7F800000, which denotes
  +infinity. On the extended reals |v| < +inf fails exactly at v = +inf and at v = -inf (whose absolute value is
  +inf), so it holds exactly of the real numbers.
-/
import Idealize.ShloMosaic.PureOps.Ideal

noncomputable section

namespace Cert.FiniteEntry

open Idealize.ShloMosaic

/-- The f32 word 0x7F800000 is +infinity. -/
theorem ofBits_pos_inf : Ideal.ofBits .f32 0x7F800000#32 = ⊤ := by simp [Ideal.ofBits, Ideal.ieee]

/-- An extended real whose absolute value max(v, -v) is below the float +infinity is a real number. -/
theorem real_of_abs_lt {v : EReal}
    (h : Ideal.cmp .olt (max v (-v)) (Ideal.ofBits .f32 0x7F800000#32) = 1#1) : ∃ r : ℝ, v = r := by
  rw [ofBits_pos_inf] at h
  induction v using EReal.rec with
  | bot => simp [Ideal.cmp] at h
  | coe r => exact ⟨r, rfl⟩
  | top => simp [Ideal.cmp] at h

end Cert.FiniteEntry

end
-- ==== Proof.PreDecode.lean ====
/-
  What the precondition says, read back.

  The precondition is one bit: the conjunction, over the nine float arguments, of "every entry's absolute value is
  below +infinity", and of "every word w of the edge list has 0 <= w and w < 16384". Each conjunct is an and-reduction
  of a one-bit array from 1, which is 1 only if every entry is. An extended real whose absolute value is below
  +infinity is a real number; the two signed comparisons of a word are inequalities between integers.
-/
import proofs.«105428_j37495064494476_1_alg».proof.Pre_finite_inputs
import proofs.«105428_j37495064494476_1_alg».proof.Proof.LibFiniteEntry
import Idealize.ShloMosaic.Lib.ReduceAll
import Idealize.ShloMosaic.Lib.ValueIdx
import Idealize.ShloMosaic.PureOps.Ideal

noncomputable section

namespace Cert.PreDecode

open Idealize.ShloMosaic Cert.Pre_finite_inputs

instance : Subsingleton (⟨0, ![]⟩ : Shape).Idx := ⟨fun a b => funext fun d => d.elim0⟩

/-- An array all of whose entries pass the finiteness test holds real numbers. -/
theorem finite_of_all {S : Shape} {axes : List (Fin S.rank)} (x : FVec Ideal S .f32)
    (bc : (⟨0, ![]⟩ : Shape).BroadcastsInDim S (![] : Fin 0 → Fin S.rank)) (h : S.ReducesTo axes ⟨0, ![]⟩)
    (hu : 0 < (⟨0, ![]⟩ : Shape).numel) (j : (⟨0, ![]⟩ : Shape).Idx)
    (e : Host.reduce IntOp.andi (cmpf (F := Ideal) .olt (Host.absf x)
        (broadcastInDim S ![] bc (constant (F := Ideal) ⟨0, ![]⟩ .f32 0x7F800000#32)))
      (constantI ⟨0, ![]⟩ 1 1#1) h hu j = 1#1) (i : S.Idx) : ∃ r : ℝ, x i = r := by
  have h1 := Host.reduce_andi_all _ _ h hu j e i
  simp only [cmpf, Host.absf, broadcastInDim, constant] at h1
  exact Cert.FiniteEntry.real_of_abs_lt h1

/-- An array of words all of which pass the two range tests holds node numbers. -/
theorem range_of_all {S : Shape} {axes : List (Fin S.rank)} (x : IVec S 32)
    (bc : (⟨0, ![]⟩ : Shape).BroadcastsInDim S (![] : Fin 0 → Fin S.rank)) (h : S.ReducesTo axes ⟨0, ![]⟩)
    (hu : 0 < (⟨0, ![]⟩ : Shape).numel) (j : (⟨0, ![]⟩ : Shape).Idx)
    (e : Host.reduce IntOp.andi (andi (cmpi .sge x (broadcastInDim S ![] bc (constantI ⟨0, ![]⟩ 32 0#32)))
        (cmpi .slt x (broadcastInDim S ![] bc (constantI ⟨0, ![]⟩ 32 16384#32))))
      (constantI ⟨0, ![]⟩ 1 1#1) h hu j = 1#1) (i : S.Idx) : 0 ≤ (x i).toInt ∧ (x i).toInt < 16384 := by
  have h1 := Host.reduce_andi_all _ _ h hu j e i
  simp only [andi, cmpi, broadcastInDim, constantI] at h1
  obtain ⟨ha, hb⟩ := IntOp.andi_eq_one.1 h1
  have h0 := IntOp.cmpi_sge.1 ha
  have h2 := IntOp.cmpi_slt.1 hb
  have e0 : (0#32 : BitVec 32).toInt = 0 := by decide
  have e1 : (16384#32 : BitVec 32).toInt = 16384 := by decide
  rw [e0] at h0
  rw [e1] at h2
  exact ⟨h0, h2⟩

variable [Cert.Pre_finite_inputs.Facts]

/-- The precondition's content: the float arguments hold real numbers, the edge list node numbers. -/
structure Content (a0 : FVec Ideal S16384x16 .f32) (a1 : IVec S2x524288 32) (a2 : FVec Ideal S16x128 .f32)
    (a3 : FVec Ideal S128 .f32) (a4 : FVec Ideal S128x128 .f32) (a5 : FVec Ideal S128 .f32)
    (a6 : FVec Ideal S128x128 .f32) (a7 : FVec Ideal S128 .f32) (a8 : FVec Ideal S128x16384 .f32)
    (a9 : FVec Ideal S16384 .f32) : Prop where
  r0 : ∀ i, ∃ r : ℝ, a0 i = r
  r2 : ∀ i, ∃ r : ℝ, a2 i = r
  r3 : ∀ i, ∃ r : ℝ, a3 i = r
  r4 : ∀ i, ∃ r : ℝ, a4 i = r
  r5 : ∀ i, ∃ r : ℝ, a5 i = r
  r6 : ∀ i, ∃ r : ℝ, a6 i = r
  r7 : ∀ i, ∃ r : ℝ, a7 i = r
  r8 : ∀ i, ∃ r : ℝ, a8 i = r
  r9 : ∀ i, ∃ r : ℝ, a9 i = r
  idx : ∀ i, 0 ≤ (a1 i).toInt ∧ (a1 i).toInt < 16384

/-- THE PRECONDITION READ BACK. -/
theorem content (a0 : FVec Ideal S16384x16 .f32) (a1 : IVec S2x524288 32) (a2 : FVec Ideal S16x128 .f32)
    (a3 : FVec Ideal S128 .f32) (a4 : FVec Ideal S128x128 .f32) (a5 : FVec Ideal S128 .f32)
    (a6 : FVec Ideal S128x128 .f32) (a7 : FVec Ideal S128 .f32) (a8 : FVec Ideal S128x16384 .f32)
    (a9 : FVec Ideal S16384 .f32)
    (h : Cert.Pre_finite_inputs.fn (F := Ideal) a0 a1 a2 a3 a4 a5 a6 a7 a8 a9 = fun _ => 1#1) :
    Content a0 a1 a2 a3 a4 a5 a6 a7 a8 a9 := by
  have h50 := congrFun h ValueIdx.ix0
  dsimp only [fn, fn_part1, fn_part2] at h50
  simp only [andi] at h50
  obtain ⟨h43, h49⟩ := IntOp.andi_eq_one.1 h50
  obtain ⟨h38, h42⟩ := IntOp.andi_eq_one.1 h43
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact
    { r0 := finite_of_all a0 _ _ _ _ h3
      r2 := finite_of_all a2 _ _ _ _ h7
      r3 := finite_of_all a3 _ _ _ _ h12
      r4 := finite_of_all a4 _ _ _ _ h17
      r5 := finite_of_all a5 _ _ _ _ h22
      r6 := finite_of_all a6 _ _ _ _ h27
      r7 := finite_of_all a7 _ _ _ _ h32
      r8 := finite_of_all a8 _ _ _ _ h37
      r9 := finite_of_all a9 _ _ _ _ h42
      idx := range_of_all a1 _ _ _ _ h49 }

end Cert.PreDecode

end
-- ==== Proof.lean ====
/-
  The certificate of a three-layer graph-convolution network with a dense head, computed two ways.

  The kernel program builds, on the host, the dense symmetric-normalised adjacency A of the graph (edge list plus
  one self loop per node): A (r, s) is the sum of  dinv (src e) * dinv (dst e)  over the edges e from s to r, dinv
  the inverse square root of the in-degree. Each of three kernel regions computes a layer
  max (A (h W) + b, 0), tile by tile, accumulating the product over four column blocks of A in a running block;
  a fourth region computes the head  h Wfc + bfc.  The reference computes each layer edge by edge: for every edge
  it takes row src e of h W, scales it by the edge's weight and adds it into row dst e.

  On the extended reals the two agree when the float arguments hold real numbers and the words of the edge list
  are node numbers (both are in the precondition): the product of A with a real matrix distributes over the sum
  that defines A, the sums exchange and the selection of the source column collapses, so the dense product is the
  sum over the edges; the four column blocks added one after the other are the whole sum; a change of float
  format is the identity; and a layer of real data is real, which carries the argument through the three layers.
  Outside the node range the two programs treat an index differently (one drops the edge, the other clamps the
  source), which is why the node range is part of the precondition.

  Frames: every region of the kernel program is run from its own proof data (what each staging buffer and the
  running block hold after every grid point), at the word-level and at the idealized reading alike, and the
  regions are chained through the host lines between them; the reference's frame is its run with the result
  dropped. The idealization rewrote nothing, so its statement is True.
-/
import proofs.«105428_j37495064494476_1_alg».proof.Defs
import proofs.«105428_j37495064494476_1_alg».proof.Proof.Gen.Kernel
import proofs.«105428_j37495064494476_1_alg».proof.Proof.Gen.KernelIdeal
import proofs.«105428_j37495064494476_1_alg».proof.Proof.Gen.ReferenceIdeal
import proofs.«105428_j37495064494476_1_alg».proof.Proof.Gen.Pre_finite_inputs
import proofs.«105428_j37495064494476_1_alg».proof.Proof.RefRunP
import proofs.«105428_j37495064494476_1_alg».proof.Proof.RefReadP
import proofs.«105428_j37495064494476_1_alg».proof.Proof.RefIsSpec
import proofs.«105428_j37495064494476_1_alg».proof.Proof.RegionsRun
import proofs.«105428_j37495064494476_1_alg».proof.Proof.BitsRegionsRun
import proofs.«105428_j37495064494476_1_alg».proof.Proof.KernelValue
import proofs.«105428_j37495064494476_1_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs and leaves its arguments as launched. -/
theorem frame_kernel : Cert.frame_Kernel := fun m ρ _ => Cert.Kernel.Run.frame_run m ρ

/-- So does its idealized reading. -/
theorem frame_kernelIdeal : Cert.frame_KernelIdeal := fun m ρ _ => Cert.KernelIdeal.Run.frame_run m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end at the specification's logits of the (shared) arguments. -/
theorem algebraic : Cert.algebraic_KernelIdeal_ReferenceIdeal := by
  intro m ρ m' ρ' hpre hagree
  refine ⟨fun c => Cert.KernelIdeal.Run.outs (F := Ideal) m 10 Cert.KernelIdeal.main_v53 c,
    Cert.KernelIdeal.Run.value_run m ρ, ?_⟩
  refine (θ_run Cert.ReferenceIdeal.defs _ _).mono (fun _ h c => ⟨(h c).1.trans ?_, (h c).2⟩)
    (Cert.ReferenceIdeal.ValueP.run (F := Ideal) m' ρ')
  -- what the precondition says of core c's arguments
  have hc := Cert.PreDecode.content _ _ _ _ _ _ _ _ _ _ (hpre c)
  have hidx : Cert.GcnPrefix.InRange (Cert.KernelIdeal.Result.argE m c) := fun r e => hc.idx (ix2 r e)
  obtain ⟨a0, a1, a2, a3, a4, a5, a6, a7, a8, a9⟩ := hagree c
  rw [Cert.ReferenceIdeal.ReadP.val_main_v87_eq, a0, a1, a2, a3, a4, a5, a6, a7, a8, a9]
  funext idx
  obtain ⟨i, j, rfl⟩ : ∃ (i j : Fin 16384), idx = ix2 i j := ⟨idx 0, idx 1, eq_ix2 idx⟩
  refine (Cert.ReferenceIdeal.RefValue.ref_is_spec _ _ _ _ _ _ _ _ _ _ hidx i j).trans ?_
  exact (Cert.KernelIdeal.Result.result_spec m c hidx hc.r0 hc.r2 hc.r3 hc.r4 hc.r5 hc.r6 i j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
